-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024 .f32) (main_arg8 : FVec F S1024 .f32) (main_arg9 : FVec F S1024 .f32) (main_arg10 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024x1024 .f32) (main_arg5 : FVec F S1024x1024 .f32) (main_arg6 : FVec F S1024x1024 .f32) (main_arg7 : FVec F S1024 .f32) (main_arg8 : FVec F S1024 .f32) (main_arg9 : FVec F S1024 .f32) (main_arg10 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S4096x1024 .f32) (main_arg1 : FVec F S4096x1024 .f32) (main_arg2 : FVec F S4096x1024 .f32) (main_arg3 : FVec F S1024x1024 .f32) (main_arg4 : FVec F S1024x1024 .f32) (main_arg5 : FVec F S1024x1024 .f32) (main_arg6 : FVec F S1024x1024 .f32) (main_arg7 : FVec F S1024 .f32) (main_arg8 : FVec F S1024 .f32) (main_arg9 : FVec F S1024 .f32) (main_arg10 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_v13 main_v16
-- ==== Kernel.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S16x4096x64 : Shape := ⟨3, ![16, 4096, 64]⟩
abbrev S512x1024 : Shape := ⟨2, ![512, 1024]⟩
abbrev S16x512x64 : Shape := ⟨3, ![16, 512, 64]⟩
abbrev S512x16x64 : Shape := ⟨3, ![512, 16, 64]⟩
abbrev S16x256x64 : Shape := ⟨3, ![16, 256, 64]⟩
abbrev S16x512x1 : Shape := ⟨3, ![16, 512, 1]⟩
abbrev S16x512x256 : Shape := ⟨3, ![16, 512, 256]⟩
abbrev S16x512 : Shape := ⟨2, ![16, 512]⟩

abbrev nBuf : Space → Nat
  | .hbm => 23
  | .vmem => 31
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024x1024, .bf16⟩
  | .hbm, ⟨12, _⟩ => ⟨S1024x1024, .bf16⟩
  | .hbm, ⟨13, _⟩ => ⟨S1024x1024, .bf16⟩
  | .hbm, ⟨14, _⟩ => ⟨S1024x1024, .bf16⟩
  | .hbm, ⟨15, _⟩ => ⟨S1x1024, .f32⟩
  | .hbm, ⟨16, _⟩ => ⟨S16x4096x64, .bf16⟩
  | .hbm, ⟨17, _⟩ => ⟨S1x1024, .f32⟩
  | .hbm, ⟨18, _⟩ => ⟨S16x4096x64, .bf16⟩
  | .hbm, ⟨19, _⟩ => ⟨S1x1024, .f32⟩
  | .hbm, ⟨20, _⟩ => ⟨S16x4096x64, .bf16⟩
  | .hbm, ⟨21, _⟩ => ⟨S1x1024, .f32⟩
  | .hbm, ⟨22, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1x1024, .f32⟩
  | .local _ .vmem, ⟨4, _⟩ => ⟨S16x512x64, .bf16⟩
  | .local _ .vmem, ⟨5, _⟩ => ⟨S16x512x64, .bf16⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S1x1024, .f32⟩
  | .local _ .vmem, ⟨10, _⟩ => ⟨S16x512x64, .bf16⟩
  | .local _ .vmem, ⟨11, _⟩ => ⟨S16x512x64, .bf16⟩
  | .local _ .vmem, ⟨12, _⟩ => ⟨S512x1024, .f32⟩
  | .local _ .vmem, ⟨13, _⟩ => ⟨S512x1024, .f32⟩
  | .local _ .vmem, ⟨14, _⟩ => ⟨S1024x1024, .bf16⟩
  | .local _ .vmem, ⟨15, _⟩ => ⟨S1x1024, .f32⟩
  | .local _ .vmem, ⟨16, _⟩ => ⟨S16x512x64, .bf16⟩
  | .local _ .vmem, ⟨17, _⟩ => ⟨S16x512x64, .bf16⟩
  | .local _ .vmem, ⟨18, _⟩ => ⟨S16x512x64, .bf16⟩
  | .local _ .vmem, ⟨19, _⟩ => ⟨S16x512x64, .bf16⟩
  | .local _ .vmem, ⟨20, _⟩ => ⟨S16x256x64, .bf16⟩
  | .local _ .vmem, ⟨21, _⟩ => ⟨S16x256x64, .bf16⟩
  | .local _ .vmem, ⟨22, _⟩ => ⟨S16x256x64, .bf16⟩
  | .local _ .vmem, ⟨23, _⟩ => ⟨S16x256x64, .bf16⟩
  | .local _ .vmem, ⟨24, _⟩ => ⟨S1024x1024, .bf16⟩
  | .local _ .vmem, ⟨25, _⟩ => ⟨S1x1024, .f32⟩
  | .local _ .vmem, ⟨26, _⟩ => ⟨S512x1024, .f32⟩
  | .local _ .vmem, ⟨27, _⟩ => ⟨S512x1024, .f32⟩
  | .local _ .vmem, ⟨28, _⟩ => ⟨S16x512x1, .f32⟩
  | .local _ .vmem, ⟨29, _⟩ => ⟨S16x512x1, .f32⟩
  | .local _ .vmem, ⟨30, _⟩ => ⟨S16x512x64, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg5_1 : Ref sig .tc := ⟨.vmem, 27, rfl⟩
abbrev cc3_scratch0 : Ref sig .tc := ⟨.vmem, 28, rfl⟩
abbrev cc3_scratch1 : Ref sig .tc := ⟨.vmem, 29, rfl⟩
abbrev cc3_scratch2 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem4_0 : DmaSem sig := 25
abbrev cc3_sem5_0 : DmaSem sig := 26
abbrev cc3_sem5_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x512x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S16x512x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S16x512x64 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![8, 16], ![false, false]⟩

def k3_cond2 (i : grid3.Coords) : BitVec 1 :=
  let arg1 : BitVec 32 := BitVec.ofNat 32 (i 1).val
  let c15_i32 : BitVec 32 := 15#32
  let v42 : BitVec 1 := Scalar.cmpi .eq arg1 c15_i32
  let v43 : BitVec 32 := Scalar.extui v42
  let c0_i32_34 : BitVec 32 := 0#32
  let v44 : BitVec 1 := Scalar.cmpi .ne v43 c0_i32_34
  v44

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S16x512x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S16x256x64 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S16x256x64 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 1 → Memref sig .tc .vmem S1024x1024 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S1x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 2 → Memref sig .tc .vmem S512x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false]

class Facts₀ : Prop where
  bitsLt_bf16_f32 : FTy.bits .bf16 < FTy.bits .f32
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S512x1024_S512x16x64 : S512x1024.ShapeCasts S512x16x64
  transposes_S512x16x64_p1_0_2_S16x512x64 : S512x16x64.Transposes [1, 0, 2] S16x512x64
  inb_S16x512x64_S16x512x64_0_0_0 : ∀ a, (![0, 0, 0] : Fin 3 → Nat) a + S16x512x64.size a ≤ S16x512x64.size a
  h_S16x512x64 : 0 < S16x512x64.numel
  packedbf16_S16x512x64_S16x512x64_0_0_0 : (Rect.unit (s := S16x512x64) ![0, 0, 0] S16x512x64.size inb_S16x512x64_S16x512x64_0_0_0).PackedRows (EltTy.packing .bf16)
  inb_S16x512x1_S16x512x1_0_0_0 : ∀ a, (![0, 0, 0] : Fin 3 → Nat) a + S16x512x1.size a ≤ S16x512x1.size a
  h_S16x512x1 : 0 < S16x512x1.numel
  shapeCasts_S16x512x1_S16x512x1 : S16x512x1.ShapeCasts S16x512x1
  shapeCasts_S16x512x64_S16x512x64 : S16x512x64.ShapeCasts S16x512x64
  inb_S16x256x64_S16x256x64_0_0_0 : ∀ a, (![0, 0, 0] : Fin 3 → Nat) a + S16x256x64.size a ≤ S16x256x64.size a
  h_S16x256x64 : 0 < S16x256x64.numel
  shapeCasts_S16x256x64_S16x256x64 : S16x256x64.ShapeCasts S16x256x64
  reduces_S16x512x256_S16x512 : S16x512x256.Reduces [2] S16x512
  shapeCasts_S16x512_S16x512x1 : S16x512.ShapeCasts S16x512x1
  broadcasts_S16x512x1_S16x512x256 : S16x512x1.Broadcasts S16x512x256
  broadcasts_S16x512x1_S16x512x64 : S16x512x1.Broadcasts S16x512x64
  transposes_S16x512x64_p1_0_2_S512x16x64 : S16x512x64.Transposes [1, 0, 2] S512x16x64
  shapeCasts_S512x16x64_S512x1024 : S512x16x64.ShapeCasts S512x1024
  dot_S512x1024_S1024x1024_S512x1024_1_1_0_0_n_n_wf : DotDims.WF S512x1024 S1024x1024 S512x1024 [1] [1] [0] [0] [] []
  dot_S16x512x64_S16x256x64_S16x512x256_2_2_1_1_0_0_wf : DotDims.WF S16x512x64 S16x256x64 S16x512x256 [2] [2] [1] [1] [0] [0]
  dot_S16x512x256_S16x256x64_S16x512x64_2_1_1_2_0_0_wf : DotDims.WF S16x512x256 S16x256x64 S16x512x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x512x64.size a ≤ S16x4096x64.size a
  hwx0_3 : ∀ i : grid0.Coords, EltTy.bits .bf16 = 32 ∨ (Rect.block (s := S16x4096x64) S16x512x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x1024.size a
  hwx1_0 : ∀ i : grid1.Coords, EltTy.bits .f32 = 32 ∨ (Rect.block (s := S4096x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S16x512x64.size a ≤ S16x4096x64.size a
  hwx1_3 : ∀ i : grid1.Coords, EltTy.bits .bf16 = 32 ∨ (Rect.block (s := S16x4096x64) S16x512x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .f32 = 32 ∨ (Rect.block (s := S4096x1024) S512x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S16x512x64.size a ≤ S16x4096x64.size a
  hwx2_3 : ∀ i : grid2.Coords, EltTy.bits .bf16 = 32 ∨ (Rect.block (s := S16x4096x64) S16x512x64.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S16x512x64.size a ≤ S16x4096x64.size a
  hwx3_0 : ∀ i : grid3.Coords, EltTy.bits .bf16 = 32 ∨ (Rect.block (s := S16x4096x64) S16x512x64.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S16x256x64.size a ≤ S16x4096x64.size a
  hwx3_1 : ∀ i : grid3.Coords, EltTy.bits .bf16 = 32 ∨ (Rect.block (s := S16x4096x64) S16x256x64.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S16x256x64.size a ≤ S16x4096x64.size a
  hwx3_2 : ∀ i : grid3.Coords, EltTy.bits .bf16 = 32 ∨ (Rect.block (s := S16x4096x64) S16x256x64.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1024x1024.size a ≤ S1024x1024.size a
  hwx3_3 : ∀ i : grid3.Coords, EltTy.bits .bf16 = 32 ∨ (Rect.block (s := S1024x1024) S1024x1024.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1024.size a ≤ S1x1024.size a
  hwx3_4 : ∀ i : grid3.Coords, EltTy.bits .f32 = 32 ∨ (Rect.block (s := S1x1024) S1x1024.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S512x1024.size a ≤ S4096x1024.size a
  hwx3_5 : ∀ i : grid3.Coords, EltTy.bits .f32 = 32 ∨ (Rect.block (s := S4096x1024) S512x1024.size (cc3_transform_5 i) (hinb3_5 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S16x512x64_S16x256x64_S16x512x256_2_2_1_1_0_0 : DotDims S16x512x64 S16x256x64 S16x512x256 where
  lhsContracting := [2]
  rhsContracting := [2]
  lhsNonContracting := [1]
  rhsNonContracting := [1]
  lhsBatch := [0]
  rhsBatch := [0]
  wf := dot_S16x512x64_S16x256x64_S16x512x256_2_2_1_1_0_0_wf
def dot_S16x512x256_S16x256x64_S16x512x64_2_1_1_2_0_0 : DotDims S16x512x256 S16x256x64 S16x512x64 where
  lhsContracting := [2]
  rhsContracting := [1]
  lhsNonContracting := [1]
  rhsNonContracting := [2]
  lhsBatch := [0]
  rhsBatch := [0]
  wf := dot_S16x512x256_S16x256x64_S16x512x64_2_1_1_2_0_0_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S16x512x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S16x512x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg2) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v8) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v9) S16x512x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v5) S16x512x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v7) S16x256x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v9) S16x256x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v3) S1024x1024.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v10) S1x1024.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v11) S512x1024.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev idle3 : Fin 6 → grid3.Coords → Bool := fun | 0 => fun _ => false | 1 => fun _ => false | 2 => fun _ => false | 3 => fun _ => false | 4 => fun _ => false | 5 => fun i => !(k3_cond2 i == 1#1) | ⟨_ + 6, h⟩ => absurd h (Nat.not_lt.2 (Nat.le_add_left _ _))

class Facts : Prop extends Facts₀ where

variable [Facts]
-- ==== ReferenceIdeal.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S4096x16x64 : Shape := ⟨3, ![4096, 16, 64]⟩
abbrev S16x4096x64 : Shape := ⟨3, ![16, 4096, 64]⟩
abbrev S16x4096x4096 : Shape := ⟨3, ![16, 4096, 4096]⟩
abbrev S_ : Shape := ⟨0, ![]⟩
abbrev S16x4096 : Shape := ⟨2, ![16, 4096]⟩
abbrev S16x4096x1 : Shape := ⟨3, ![16, 4096, 1]⟩

abbrev nBuf : Space → Nat
  | .hbm => 59
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024x1024, .f32⟩
  | .hbm, ⟨12, _⟩ => ⟨S4096x1024, .f32⟩
  | .hbm, ⟨13, _⟩ => ⟨S1x1024, .f32⟩
  | .hbm, ⟨14, _⟩ => ⟨S4096x1024, .f32⟩
  | .hbm, ⟨15, _⟩ => ⟨S4096x1024, .f32⟩
  | .hbm, ⟨16, _⟩ => ⟨S4096x16x64, .f32⟩
  | .hbm, ⟨17, _⟩ => ⟨S16x4096x64, .f32⟩
  | .hbm, ⟨18, _⟩ => ⟨S1024x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x16x64, .f32⟩
  | .hbm, ⟨24, _⟩ => ⟨S16x4096x64, .f32⟩
  | .hbm, ⟨25, _⟩ => ⟨S1024x1024, .f32⟩
  | .hbm, ⟨26, _⟩ => ⟨S4096x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x16x64, .f32⟩
  | .hbm, ⟨31, _⟩ => ⟨S16x4096x64, .f32⟩
  | .hbm, ⟨32, _⟩ => ⟨S16x4096x4096, .f32⟩
  | .hbm, ⟨33, _⟩ => ⟨S_, .f32⟩
  | .hbm, ⟨34, _⟩ => ⟨S_, .f32⟩
  | .hbm, ⟨35, _⟩ => ⟨S16x4096x4096, .f32⟩
  | .hbm, ⟨36, _⟩ => ⟨S16x4096x4096, .f32⟩
  | .hbm, ⟨37, _⟩ => ⟨S_, .f32⟩
  | .hbm, ⟨38, _⟩ => ⟨S16x4096, .f32⟩
  | .hbm, ⟨39, _⟩ => ⟨S_, .f32⟩
  | .hbm, ⟨40, _⟩ => ⟨S16x4096, .f32⟩
  | .hbm, ⟨41, _⟩ => ⟨S16x4096, .f32⟩
  | .hbm, ⟨42, _⟩ => ⟨S16x4096x1, .f32⟩
  | .hbm, ⟨43, _⟩ => ⟨S16x4096x4096, .f32⟩
  | .hbm, ⟨44, _⟩ => ⟨S16x4096x4096, .f32⟩
  | .hbm, ⟨45, _⟩ => ⟨S16x4096x4096, .f32⟩
  | .hbm, ⟨46, _⟩ => ⟨S_, .f32⟩
  | .hbm, ⟨47, _⟩ => ⟨S16x4096, .f32⟩
  | .hbm, ⟨48, _⟩ => ⟨S16x4096x1, .f32⟩
  | .hbm, ⟨49, _⟩ => ⟨S16x4096x4096, .f32⟩
  | .hbm, ⟨50, _⟩ => ⟨S16x4096x4096, .f32⟩
  | .hbm, ⟨51, _⟩ => ⟨S16x4096x64, .f32⟩
  | .hbm, ⟨52, _⟩ => ⟨S4096x16x64, .f32⟩
  | .hbm, ⟨53, _⟩ => ⟨S4096x1024, .f32⟩
  | .hbm, ⟨54, _⟩ => ⟨S1024x1024, .f32⟩
  | .hbm, ⟨55, _⟩ => ⟨S4096x1024, .f32⟩
  | .hbm, ⟨56, _⟩ => ⟨S1x1024, .f32⟩
  | .hbm, ⟨57, _⟩ => ⟨S4096x1024, .f32⟩
  | .hbm, ⟨58, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_0 : Ref sig .tc := ⟨.hbm, 37, rfl⟩
abbrev main_v25 : Ref sig .tc := ⟨.hbm, 38, rfl⟩
abbrev main_cst_1 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_2 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  shapeCasts_S4096x1024_S4096x16x64 : S4096x1024.ShapeCasts S4096x16x64
  transposes_S4096x16x64_S16x4096x64_1_0_2 : S4096x16x64.Transposes [1, 0, 2] S16x4096x64
  bcast_S_S16x4096x4096 : S_.BroadcastsInDim S16x4096x4096 (![] : Fin 0 → Fin S16x4096x4096.rank)
  reducesTo_S16x4096x4096_S16x4096_d2 : S16x4096x4096.ReducesTo [2] S16x4096
  h_S_ : 0 < S_.numel
  bcast_S_S16x4096 : S_.BroadcastsInDim S16x4096 (![] : Fin 0 → Fin S16x4096.rank)
  bcast_S16x4096_S16x4096x1_0_1 : S16x4096.BroadcastsInDim S16x4096x1 (![0, 1] : Fin 2 → Fin S16x4096x1.rank)
  bcast_S16x4096x1_S16x4096x4096_0_1_2 : S16x4096x1.BroadcastsInDim S16x4096x4096 (![0, 1, 2] : Fin 3 → Fin S16x4096x4096.rank)
  transposes_S16x4096x64_S4096x16x64_1_0_2 : S16x4096x64.Transposes [1, 0, 2] S4096x16x64
  shapeCasts_S4096x16x64_S4096x1024 : S4096x16x64.ShapeCasts S4096x1024
  dot_S4096x1024_S1024x1024_S4096x1024_1_0_0_1_n_n_wf : DotDims.WF S4096x1024 S1024x1024 S4096x1024 [1] [0] [0] [1] [] []
  dot_S16x4096x64_S16x4096x64_S16x4096x4096_2_2_1_1_0_0_wf : DotDims.WF S16x4096x64 S16x4096x64 S16x4096x4096 [2] [2] [1] [1] [0] [0]
  dot_S16x4096x4096_S16x4096x64_S16x4096x64_2_1_1_2_0_0_wf : DotDims.WF S16x4096x4096 S16x4096x64 S16x4096x64 [2] [1] [1] [2] [0] [0]

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S16x4096x64_S16x4096x64_S16x4096x4096_2_2_1_1_0_0 : DotDims S16x4096x64 S16x4096x64 S16x4096x4096 where
  lhsContracting := [2]
  rhsContracting := [2]
  lhsNonContracting := [1]
  rhsNonContracting := [1]
  lhsBatch := [0]
  rhsBatch := [0]
  wf := dot_S16x4096x64_S16x4096x64_S16x4096x4096_2_2_1_1_0_0_wf
def dot_S16x4096x4096_S16x4096x64_S16x4096x64_2_1_1_2_0_0 : DotDims S16x4096x4096 S16x4096x64 S16x4096x64 where
  lhsContracting := [2]
  rhsContracting := [1]
  lhsNonContracting := [1]
  rhsNonContracting := [2]
  lhsBatch := [0]
  rhsBatch := [0]
  wf := dot_S16x4096x4096_S16x4096x64_S16x4096x64_2_1_1_2_0_0_wf

class Facts : Prop extends Facts₀ where

variable [Facts]
-- ==== Proof.Spec.lean ====
/-
  The mathematical statement of multi-head attention over real arrays, and what it means for an array of
  extended reals to be (the coercion of) a real array.  Sixteen heads of width 64 over 4096 rows of 1024 features:
  three linear maps x·Wᵀ + b give queries, keys and values; in head h the score of query row i against key row j is
  the inner product of their 64 features of that head divided by 8 = √64; row i of the head's output is the
  softmax-weighted average of the value rows (softmax is invariant under a common shift of the scores, so it is
  stated with no shift); the heads are laid side by side again and passed through a last linear map.
-/
import Idealize.ShloMosaic.PureOps.Ideal
import Idealize.ShloMosaic.Lib.ValueIdx

noncomputable section

open scoped BigOperators

namespace Cert.Attn

open Idealize.ShloMosaic Idealize.ShloMosaic.ValueIdx

/-- Feature `h·64 + d`: coordinate `d` of head `h` among the 1024 features. -/
def feat (h : Fin 16) (d : Fin 64) : Fin 1024 := ⟨h.val * 64 + d.val, by omega⟩
/-- The head a feature belongs to, and its coordinate inside the head. -/
def headOf (c : Fin 1024) : Fin 16 := ⟨c.val / 64, by omega⟩
def coordOf (c : Fin 1024) : Fin 64 := ⟨c.val % 64, Nat.mod_lt _ (by norm_num)⟩

theorem feat_headOf_coordOf (c : Fin 1024) : feat (headOf c) (coordOf c) = c := by
  apply Fin.ext; simp only [feat, headOf, coordOf]; omega
theorem headOf_feat (h : Fin 16) (d : Fin 64) : headOf (feat h d) = h := by
  apply Fin.ext; simp only [feat, headOf]; omega
theorem coordOf_feat (h : Fin 16) (d : Fin 64) : coordOf (feat h d) = d := by
  apply Fin.ext; simp only [feat, coordOf]; omega

/-- A linear layer `x·Wᵀ + b` at row `l`, output feature `n`. -/
def lin (x : Fin 4096 → Fin 1024 → ℝ) (W : Fin 1024 → Fin 1024 → ℝ) (b : Fin 1024 → ℝ) (l : Fin 4096) (n : Fin 1024) : ℝ :=
  (∑ k : Fin 1024, x l k * W n k) + b n

/-- The scaled score of query row `i` against key row `j` in head `h`. -/
def score (q k : Fin 4096 → Fin 1024 → ℝ) (h : Fin 16) (i j : Fin 4096) : ℝ :=
  (∑ d : Fin 64, q i (feat h d) * k j (feat h d)) / 8

/-- Head `h`'s output at row `i`, coordinate `d`: the softmax-weighted average of the value rows. -/
def attend (q k v : Fin 4096 → Fin 1024 → ℝ) (h : Fin 16) (i : Fin 4096) (d : Fin 64) : ℝ :=
  (∑ j : Fin 4096, Real.exp (score q k h i j) * v j (feat h d)) / (∑ j : Fin 4096, Real.exp (score q k h i j))

/-- The attention layer's result at row `l`, feature `n`, from projected queries, keys and values. -/
def outOf (q k v : Fin 4096 → Fin 1024 → ℝ) (Wo : Fin 1024 → Fin 1024 → ℝ) (bo : Fin 1024 → ℝ) (l : Fin 4096) (n : Fin 1024) : ℝ :=
  (∑ c : Fin 1024, attend q k v (headOf c) l (coordOf c) * Wo n c) + bo n

/-- The whole layer as one function of the eleven argument arrays. -/
def G (xq xk xv : Fin 4096 → Fin 1024 → ℝ) (Wq Wk Wv Wo : Fin 1024 → Fin 1024 → ℝ) (bq bk bv bo : Fin 1024 → ℝ) :
    Fin 4096 → Fin 1024 → ℝ :=
  outOf (lin xq Wq bq) (lin xk Wk bk) (lin xv Wv bv) Wo bo

/-- An array of extended reals of rank 1, 2, 3 that is the coercion of a real array. -/
def IsR1 {a : Nat} (x : (⟨1, ![a]⟩ : Shape).Idx → EReal) (r : Fin a → ℝ) : Prop := ∀ i, x (ix1 i) = ((r i : ℝ) : EReal)
def IsR2 {a b : Nat} (x : (⟨2, ![a, b]⟩ : Shape).Idx → EReal) (r : Fin a → Fin b → ℝ) : Prop :=
  ∀ i j, x (ix2 i j) = ((r i j : ℝ) : EReal)
def IsR3 {a b c : Nat} (x : (⟨3, ![a, b, c]⟩ : Shape).Idx → EReal) (r : Fin a → Fin b → Fin c → ℝ) : Prop :=
  ∀ i j k, x (ix3 i j k) = ((r i j k : ℝ) : EReal)

end Cert.Attn

end
-- ==== Proof.PreReal.lean ====
/-
  Finite inputs are real arrays.  The precondition evaluates, for each of the eleven input arrays, whether the absolute
  value of every entry lies strictly below +∞, and takes the conjunction of the eleven answers.  On the extended reals
  |x| = max x (−x), and max x (−x) < ⊤ says that x is neither ⊤ nor ⊥, so x is the coercion of a real number; an array
  all of whose entries are such is the coercion of the real array of its entries' real parts.
-/
import proofs.«101851_j15083925144173_2_alg».proof.Pre_finite_inputs
import proofs.«101851_j15083925144173_2_alg».proof.Proof.Spec
import Idealize.ShloMosaic.Lib.ReduceAll
import Idealize.ShloMosaic.Lib.ValueIdx

noncomputable section

namespace Cert.Attn.Pre

open Idealize.ShloMosaic Idealize.ShloMosaic.ValueIdx Cert.Pre_finite_inputs

/-- The scalar shape has one index. -/
instance : Subsingleton S_.Idx := ⟨fun _ _ => funext fun d => d.elim0⟩

/-- The pattern `0x7F800000` (exponent all ones, significand zero, sign clear) denotes `+∞`. -/
theorem ofBits_inf : Ideal.ofBits .f32 0x7F800000#32 = (⊤ : EReal) := by
  simp [Ideal.ofBits, Ideal.ieee]

/-- `|x| < +∞` on the extended reals: `x` is neither infinity. -/
theorem ne_of_abs_lt (x : EReal)
    (h : Ideal.cmp .olt (max x (-x)) (Ideal.ofBits .f32 0x7F800000#32) = 1#1) : x ≠ ⊤ ∧ x ≠ ⊥ := by
  rw [ofBits_inf] at h
  induction x using EReal.rec with
  | bot => simp [Ideal.cmp] at h
  | coe r => exact ⟨EReal.coe_ne_top r, EReal.coe_ne_bot r⟩
  | top => simp [Ideal.cmp] at h

/-- One array's test: if "every `|x i| < +∞`" came out true, no entry of `x` is an infinity. -/
theorem finite_of_all {s : Shape} {axes : List (Fin s.rank)} (hr : s.ReducesTo axes S_)
    (hb : S_.BroadcastsInDim s (![] : Fin 0 → Fin s.rank)) (hu : 0 < S_.numel) (x : FVec Ideal s .f32) (j : S_.Idx)
    (e : Host.reduce IntOp.andi
          (cmpf .olt (Host.absf x) (broadcastInDim s ![] hb (constant S_ .f32 0x7F800000#32)))
          (constantI S_ 1 1#1) hr hu j = 1#1)
    (i : s.Idx) : x i ≠ ⊤ ∧ x i ≠ ⊥ :=
  ne_of_abs_lt (x i) (Host.reduce_andi_all _ _ hr hu j e i)

/-- A rank-2 array with no infinite entry is the coercion of the real array of its entries' real parts. -/
theorem isR2_of_finite {a b : ℕ} (x : (⟨2, ![a, b]⟩ : Shape).Idx → EReal) (h : ∀ i, x i ≠ ⊤ ∧ x i ≠ ⊥) :
    ∃ r, IsR2 x r :=
  ⟨fun i j => (x (ix2 i j)).toReal, fun i j => (EReal.coe_toReal (h _).1 (h _).2).symm⟩

/-- The same at rank 1. -/
theorem isR1_of_finite {a : ℕ} (x : (⟨1, ![a]⟩ : Shape).Idx → EReal) (h : ∀ i, x i ≠ ⊤ ∧ x i ≠ ⊥) :
    ∃ r, IsR1 x r :=
  ⟨fun i => (x (ix1 i)).toReal, fun i => (EReal.coe_toReal (h _).1 (h _).2).symm⟩

/-- From the precondition: each of the eleven inputs is the coercion of a real array. -/
theorem isR_of_pre [Cert.Pre_finite_inputs.Facts]
    (x0 x1 x2 : FVec Ideal S4096x1024 .f32) (x3 x4 x5 x6 : FVec Ideal S1024x1024 .f32)
    (x7 x8 x9 x10 : FVec Ideal S1024 .f32)
    (h : Cert.Pre_finite_inputs.fn (F := Ideal) x0 x1 x2 x3 x4 x5 x6 x7 x8 x9 x10 = fun _ => 1#1) :
    (∃ r, IsR2 x0 r) ∧ (∃ r, IsR2 x1 r) ∧ (∃ r, IsR2 x2 r) ∧ (∃ r, IsR2 x3 r) ∧ (∃ r, IsR2 x4 r) ∧
      (∃ r, IsR2 x5 r) ∧ (∃ r, IsR2 x6 r) ∧ (∃ r, IsR1 x7 r) ∧ (∃ r, IsR1 x8 r) ∧ (∃ r, IsR1 x9 r) ∧
      (∃ r, IsR1 x10 r) := by
  have h0 := congrFun h ix0
  dsimp only [fn, fn_part1, fn_part2, fn_part3, andi] at h0
  simp only [IntOp.andi_eq_one] at h0
  obtain ⟨⟨⟨⟨⟨⟨⟨⟨⟨⟨e0, e1⟩, e2⟩, e3⟩, e4⟩, e5⟩, e6⟩, e7⟩, e8⟩, e9⟩, e10⟩ := h0
  exact ⟨isR2_of_finite x0 (finite_of_all _ _ _ x0 _ e0), isR2_of_finite x1 (finite_of_all _ _ _ x1 _ e1),
    isR2_of_finite x2 (finite_of_all _ _ _ x2 _ e2), isR2_of_finite x3 (finite_of_all _ _ _ x3 _ e3),
    isR2_of_finite x4 (finite_of_all _ _ _ x4 _ e4), isR2_of_finite x5 (finite_of_all _ _ _ x5 _ e5),
    isR2_of_finite x6 (finite_of_all _ _ _ x6 _ e6), isR1_of_finite x7 (finite_of_all _ _ _ x7 _ e7),
    isR1_of_finite x8 (finite_of_all _ _ _ x8 _ e8), isR1_of_finite x9 (finite_of_all _ _ _ x9 _ e9),
    isR1_of_finite x10 (finite_of_all _ _ _ x10 _ e10)⟩

end Cert.Attn.Pre

end
-- ==== Proof.RefProj.lean ====
/-
  The reference's three input projections, read one operation at a time. A linear layer x·Wᵀ + b of coerced real
  arrays is the coercion of the real linear layer; splitting its 1024 features into 16 heads of 64 and moving the head
  axis to the front only renames the entries: entry (h, l, d) is entry (l, h·64 + d). The key, value and output
  projections are the same operations on other arguments, so the statements transfer to them.
-/
import proofs.«101851_j15083925144173_2_alg».proof.Proof.Gen.ReferenceIdeal.Read
import proofs.«101851_j15083925144173_2_alg».proof.Proof.Spec

noncomputable section

open scoped BigOperators

namespace Cert.Attn.Ref

open Cert.ReferenceIdeal Cert.ReferenceIdeal.Read Idealize.ShloMosaic Idealize.ShloMosaic.ValueIdx

/-- The coercion of reals into extended reals commutes with finite sums. -/
theorem coe_sum {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A linear layer: the transposed weight contracted against the rows, plus the bias broadcast along the rows, maps
    coerced real arrays to the coercion of `lin`. -/
theorem lin_isR (x : FVec Ideal S4096x1024 .f32) (w : FVec Ideal S1024x1024 .f32) (b : FVec Ideal S1024 .f32)
    (rx : Fin 4096 → Fin 1024 → ℝ) (rW : Fin 1024 → Fin 1024 → ℝ) (rb : Fin 1024 → ℝ)
    (hx : IsR2 x rx) (hw : IsR2 w rW) (hb : IsR1 b rb) :
    IsR2 (val_main_v4 (F := Ideal) x w b) (lin rx rW rb) := by
  intro l n
  rw [val_main_v4_apply, val_main_v1_apply, val_main_v3_apply, val_main_v2_apply]
  have e1 : ∀ k : Fin 1024, lidx_main_v1 (ix2 l n) k = ix2 l k := fun k => by
    funext a; match a with | ⟨0, _⟩ => rfl | ⟨1, _⟩ => rfl
  have e2 : ∀ k : Fin 1024, idx_main_v0 (ridx_main_v1 (ix2 l n) k) = ix2 n k := fun k => by
    funext a; match a with | ⟨0, _⟩ => rfl | ⟨1, _⟩ => rfl
  have e3 : idx_main_v2 (idx_main_v3 (ix2 l n)) = ix1 n := by
    funext a; match a with | ⟨0, _⟩ => rfl
  simp only [val_main_v0_apply, e1, e2, e3, hx l, hw n, hb n]
  show (∑ k : Fin 1024, ((rx l k : ℝ) : EReal) * ((rW n k : ℝ) : EReal)) + ((rb n : ℝ) : EReal) = _
  unfold lin
  rw [EReal.coe_add, coe_sum]
  simp only [EReal.coe_mul]

/-- Splitting the 1024 features into 16 heads of 64 and moving the head axis to the front: entry `(h, l, d)` of the
    result is entry `(l, h·64 + d)` of the operand. -/
theorem heads_apply {F : FTy → Type} [FloatOps F] (x : FVec F S4096x1024 .f32) (w : FVec F S1024x1024 .f32)
    (b : FVec F S1024 .f32) (h : Fin 16) (l : Fin 4096) (d : Fin 64) :
    val_main_v6 (F := F) x w b (ix3 h l d) = val_main_v4 (F := F) x w b (ix2 l (feat h d)) := by
  rw [val_main_v6_apply, val_main_v5_apply]
  have e : idx_main_v5 (idx_main_v6 (ix3 h l d)) = ix2 l (feat h d) := by
    funext a; refine Fin.ext ?_
    have hh := h.isLt; have hl := l.isLt; have hd := d.isLt
    match a with
    | ⟨0, _⟩ => show ((l.val * 16 + h.val) * 64 + d.val) / 1024 = l.val; omega
    | ⟨1, _⟩ => show ((l.val * 16 + h.val) * 64 + d.val) % 1024 = h.val * 64 + d.val; omega
  rw [e]

/-- In head form a coerced real array stays one. -/
theorem heads_isR (x : FVec Ideal S4096x1024 .f32) (w : FVec Ideal S1024x1024 .f32) (b : FVec Ideal S1024 .f32)
    (y : Fin 4096 → Fin 1024 → ℝ) (hy : IsR2 (val_main_v4 (F := Ideal) x w b) y) :
    IsR3 (val_main_v6 (F := Ideal) x w b) (fun h l d => y l (feat h d)) := by
  intro h l d
  rw [heads_apply]
  exact hy l (feat h d)

/-- The key and value projections are the same operations as the query projection, on other arguments. -/
theorem v11_eq {F : FTy → Type} [FloatOps F] (x : FVec F S4096x1024 .f32) (w : FVec F S1024x1024 .f32)
    (b : FVec F S1024 .f32) : val_main_v11 (F := F) x w b = val_main_v4 (F := F) x w b := rfl
theorem v13_eq {F : FTy → Type} [FloatOps F] (x : FVec F S4096x1024 .f32) (w : FVec F S1024x1024 .f32)
    (b : FVec F S1024 .f32) : val_main_v13 (F := F) x w b = val_main_v6 (F := F) x w b := rfl
theorem v18_eq {F : FTy → Type} [FloatOps F] (x : FVec F S4096x1024 .f32) (w : FVec F S1024x1024 .f32)
    (b : FVec F S1024 .f32) : val_main_v18 (F := F) x w b = val_main_v4 (F := F) x w b := rfl
theorem v20_eq {F : FTy → Type} [FloatOps F] (x : FVec F S4096x1024 .f32) (w : FVec F S1024x1024 .f32)
    (b : FVec F S1024 .f32) : val_main_v20 (F := F) x w b = val_main_v6 (F := F) x w b := rfl

/-- The last projection is again the same linear layer, applied to the attention output laid out as rows. -/
theorem v43_eq {F : FTy → Type} [FloatOps F] (x0 x1 x2 : FVec F S4096x1024 .f32) (x3 x4 x5 x6 : FVec F S1024x1024 .f32)
    (x7 x8 x9 x10 : FVec F S1024 .f32) :
    val_main_v43 (F := F) x0 x1 x2 x3 x4 x5 x6 x7 x8 x9 x10
      = val_main_v4 (F := F) (val_main_v38 (F := F) x0 x1 x2 x3 x4 x5 x7 x8 x9) x6 x10 := rfl

/-- Queries in head form. -/
theorem q_isR (x : FVec Ideal S4096x1024 .f32) (w : FVec Ideal S1024x1024 .f32) (b : FVec Ideal S1024 .f32)
    (rx : Fin 4096 → Fin 1024 → ℝ) (rW : Fin 1024 → Fin 1024 → ℝ) (rb : Fin 1024 → ℝ)
    (hx : IsR2 x rx) (hw : IsR2 w rW) (hb : IsR1 b rb) :
    IsR3 (val_main_v6 (F := Ideal) x w b) (fun h l d => lin rx rW rb l (feat h d)) :=
  heads_isR x w b _ (lin_isR x w b rx rW rb hx hw hb)

/-- Keys in head form. -/
theorem k_isR (x : FVec Ideal S4096x1024 .f32) (w : FVec Ideal S1024x1024 .f32) (b : FVec Ideal S1024 .f32)
    (rx : Fin 4096 → Fin 1024 → ℝ) (rW : Fin 1024 → Fin 1024 → ℝ) (rb : Fin 1024 → ℝ)
    (hx : IsR2 x rx) (hw : IsR2 w rW) (hb : IsR1 b rb) :
    IsR3 (val_main_v13 (F := Ideal) x w b) (fun h l d => lin rx rW rb l (feat h d)) := by
  rw [v13_eq]; exact q_isR x w b rx rW rb hx hw hb

/-- Values in head form. -/
theorem v_isR (x : FVec Ideal S4096x1024 .f32) (w : FVec Ideal S1024x1024 .f32) (b : FVec Ideal S1024 .f32)
    (rx : Fin 4096 → Fin 1024 → ℝ) (rW : Fin 1024 → Fin 1024 → ℝ) (rb : Fin 1024 → ℝ)
    (hx : IsR2 x rx) (hw : IsR2 w rW) (hb : IsR1 b rb) :
    IsR3 (val_main_v20 (F := Ideal) x w b) (fun h l d => lin rx rW rb l (feat h d)) := by
  rw [v20_eq]; exact q_isR x w b rx rW rb hx hw hb

end Cert.Attn.Ref

end
-- ==== Proof.RefScore.lean ====
/-
  The reference's scores and their row maximum. In head h the score of query row i against key row j is the inner
  product of the two rows' 64 features of that head divided by the square root of the literal 64, which is 8: for
  coerced real queries and keys it is the coercion of the real score. The row maximum is a fold of `max` from minus
  infinity over the 4096 scores of the row, so it is a real number (which one does not matter afterwards).
-/
import proofs.«101851_j15083925144173_2_alg».proof.Proof.Gen.ReferenceIdeal.Read
import proofs.«101851_j15083925144173_2_alg».proof.Proof.Spec

noncomputable section

open scoped BigOperators

namespace Cert.Attn.Ref

open Cert.ReferenceIdeal Cert.ReferenceIdeal.Read Idealize.ShloMosaic Idealize.ShloMosaic.ValueIdx

/-- The coercion of reals into extended reals commutes with finite sums. -/
private theorem coe_sum_aux {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The pattern `0x42800000` is the real 64. -/
theorem ofBits_sixtyfour : Ideal.ofBits .f32 0x42800000#32 = ((64 : ℝ) : EReal) := by
  simp [Ideal.ofBits, Ideal.ieee, -EReal.coe_mul]; norm_num

/-- The pattern `0xFF800000` is minus infinity. -/
theorem ofBits_neg_inf : Ideal.ofBits .f32 0xFF800000#32 = (⊥ : EReal) := by
  simp [Ideal.ofBits, Ideal.ieee]

/-- The square root of 64 is 8. -/
theorem sqrt_sixtyfour : Ideal.sqrt ((64 : ℝ) : EReal) = ((8 : ℝ) : EReal) := by
  rw [Ideal.sqrt_coe, if_neg (by norm_num)]
  congr 1
  rw [show (64 : ℝ) = 8 ^ 2 by norm_num]
  exact Real.sqrt_sq (by norm_num)

/-- The scores: the inner product of a query row and a key row of one head, divided by the square root of 64, is the
    coercion of the real score. -/
theorem score_isR (x0 x1 : FVec Ideal S4096x1024 .f32) (x3 x4 : FVec Ideal S1024x1024 .f32) (x7 x8 : FVec Ideal S1024 .f32)
    (q k : Fin 4096 → Fin 1024 → ℝ)
    (hq : IsR3 (val_main_v6 (F := Ideal) x0 x3 x7) (fun h l d => q l (feat h d)))
    (hk : IsR3 (val_main_v13 (F := Ideal) x1 x4 x8) (fun h l d => k l (feat h d))) :
    IsR3 (val_main_v24 (F := Ideal) x0 x1 x3 x4 x7 x8) (fun h i j => score q k h i j) := by
  intro h i j
  rw [val_main_v24_apply, val_main_v21_apply, val_main_v23_apply, val_main_v22_apply, val_main_cst_apply]
  have e1 : ∀ d : Fin 64, lidx_main_v21 (ix3 h i j) d = ix3 h i d := fun d => by
    funext a; match a with | ⟨0, _⟩ => rfl | ⟨1, _⟩ => rfl | ⟨2, _⟩ => rfl
  have e2 : ∀ d : Fin 64, ridx_main_v21 (ix3 h i j) d = ix3 h j d := fun d => by
    funext a; match a with | ⟨0, _⟩ => rfl | ⟨1, _⟩ => rfl | ⟨2, _⟩ => rfl
  simp only [e1, e2, hq h i, hk h j]
  show Ideal.div (∑ d : Fin 64, ((q i (feat h d) : ℝ) : EReal) * ((k j (feat h d) : ℝ) : EReal))
      (Ideal.sqrt (Ideal.ofBits .f32 0x42800000#32)) = _
  rw [ofBits_sixtyfour, sqrt_sixtyfour, Ideal.div_coe (by norm_num : (8 : ℝ) ≠ 0)]
  simp only [← EReal.coe_mul]
  rw [← coe_sum_aux, ← EReal.coe_mul]
  unfold score
  congr 1
  ring

/-- A fold of `max` from minus infinity over a nonempty family of coerced reals is a coerced real. -/
theorem fold_max_real {ι : Type*} [DecidableEq ι] (op : EReal → EReal → EReal) [Std.Commutative op] [Std.Associative op]
    (hop : ∀ a b, op a b = max a b) (s : Finset ι) (f : ι → EReal) (r : ι → ℝ) (hf : ∀ k, f k = ((r k : ℝ) : EReal))
    (hs : s.Nonempty) : ∃ M : ℝ, s.fold op ⊥ f = ((M : ℝ) : EReal) := by
  have dich : ∀ t : Finset ι, t.fold op ⊥ f = ⊥ ∨ ∃ M : ℝ, t.fold op ⊥ f = ((M : ℝ) : EReal) := by
    intro t
    induction t using Finset.induction_on with
    | empty => left; rfl
    | insert a t ha ih =>
      right
      rw [Finset.fold_insert ha, hop, hf a]
      rcases ih with h0 | ⟨M, hM⟩
      · exact ⟨r a, by rw [h0]; exact max_eq_left bot_le⟩
      · exact ⟨max (r a) M, by rw [hM]; exact (EReal.coe_strictMono.monotone.map_max).symm⟩
  obtain ⟨a, ha⟩ := hs
  rw [← Finset.insert_erase ha, Finset.fold_insert (Finset.notMem_erase a s), hop, hf a]
  rcases dich (s.erase a) with h0 | ⟨M, hM⟩
  · exact ⟨r a, by rw [h0]; exact max_eq_left bot_le⟩
  · exact ⟨max (r a) M, by rw [hM]; exact (EReal.coe_strictMono.monotone.map_max).symm⟩

/-- The reduction over the key axis of the score array, as a `Reduces` fact at the literal shapes. -/
theorem reduces_keys : S16x4096x4096.Reduces [2] S16x4096 := by decide

/-- The row maximum of the scores is a real number. -/
theorem rowmax_real (x0 x1 : FVec Ideal S4096x1024 .f32) (x3 x4 : FVec Ideal S1024x1024 .f32) (x7 x8 : FVec Ideal S1024 .f32)
    (s : Fin 16 → Fin 4096 → Fin 4096 → ℝ)
    (hs : IsR3 (val_main_v24 (F := Ideal) x0 x1 x3 x4 x7 x8) s) (h : Fin 16) (i : Fin 4096) :
    ∃ M : ℝ, val_main_v27 (F := Ideal) x0 x1 x3 x4 x7 x8 (ix2 h i) = ((M : ℝ) : EReal) := by
  rw [val_main_v27_apply, val_main_v26_apply, val_main_cst_1_apply]
  unfold val_main_v25
  generalize val_main_v24 (F := Ideal) x0 x1 x3 x4 x7 x8 = y at hs ⊢
  have key := Host.reduce_eq_fold_single (FloatOps.maximumf (F := Ideal) (φ := .f32)) y (val_main_cst_0 (F := Ideal))
    Gen.reducesTo_S16x4096x4096_S16x4096_d2 reduces_keys Gen.h_S_ (ix2 h i)
  have e : ∀ k : Fin 4096, (y ∘ reduces_keys.lift (ix2 h i)) k = ((s h i k : ℝ) : EReal) := fun k => by
    show y (reduces_keys.lift (ix2 h i) k) = _
    have e' : reduces_keys.lift (ix2 h i) k = ix3 h i k := by
      funext a; refine Fin.ext ?_
      match a with | ⟨0, _⟩ => rfl | ⟨1, _⟩ => rfl | ⟨2, _⟩ => rfl
    rw [e']; exact hs h i k
  obtain ⟨M, hM⟩ := fold_max_real (FloatOps.maximumf (F := Ideal) (φ := .f32)) (fun _ _ => rfl)
    (Finset.univ : Finset (Fin 4096)) (y ∘ reduces_keys.lift (ix2 h i)) (fun k => s h i k) e
    ⟨(⟨0, by decide⟩ : Fin 4096), Finset.mem_univ _⟩
  refine ⟨M, ?_⟩
  have hb : val_main_cst_0 (F := Ideal) (Shape.Idx.first Gen.h_S_) = (⊥ : EReal) := ofBits_neg_inf
  rw [key, hb]
  refine (congrArg (FloatOps.maximumf (F := Ideal) (φ := .f32) _) hM).trans ?_
  show max (Ideal.ofBits .f32 0xFF800000#32) ((M : ℝ) : EReal) = _
  rw [ofBits_neg_inf]; exact max_eq_right bot_le

end Cert.Attn.Ref

end
-- ==== Proof.LibOnlineSoftmax.lean ====
/-
  Online softmax.  A softmax-weighted average  (∑ⱼ exp(sⱼ)·vⱼ) / (∑ⱼ exp(sⱼ))  over a finite index set can be
  computed in one streaming pass over blocks ("tiles") of the index set, keeping three running quantities: a
  reference level m, the sum l of exp(sⱼ − m) over the indices seen so far, and the sums acc of exp(sⱼ − m)·vⱼ.
  When the level moves from m to m', the two sums are rescaled by exp(m − m'), because
  exp(m − m')·exp(s − m) = exp(s − m').  At the end acc / l is the softmax-weighted average, since a common shift of
  all scores cancels between numerator and denominator.

  This file states that on the extended reals, with the streaming pass written in exactly the operations a program
  performs (the level starts at −∞, where exp(−∞) = 0 makes the first rescaling factor vanish), and proves that for
  real scores and values the result is the coercion of the real softmax-weighted average.  Nothing requires the level
  to be the maximum of the scores: any real level per tile gives the same result.
-/
import Idealize.ShloMosaic.PureOps.Ideal

noncomputable section

open scoped BigOperators

namespace OnlineSoftmax

open Idealize.ShloMosaic

/-! ### Over the reals: shift invariance of the softmax-weighted average -/

section Real
variable {ι : Type} [Fintype ι]

/-- A nonempty finite sum of exponentials is positive. -/
theorem sum_exp_pos [Nonempty ι] (s : ι → ℝ) : 0 < ∑ j, Real.exp (s j) :=
  Finset.sum_pos (fun j _ => Real.exp_pos (s j)) Finset.univ_nonempty

/-- Shifting every score by the same `M` multiplies numerator and denominator by `exp (-M)`. -/
theorem softmax_shift [Nonempty ι] (s v : ι → ℝ) (M : ℝ) :
    (∑ j, Real.exp (s j - M) * v j) / (∑ j, Real.exp (s j - M))
      = (∑ j, Real.exp (s j) * v j) / (∑ j, Real.exp (s j)) := by
  have hM : Real.exp (-M) ≠ 0 := (Real.exp_pos _).ne'
  have h1 : ∑ j, Real.exp (s j - M) * v j = Real.exp (-M) * ∑ j, Real.exp (s j) * v j := by
    rw [Finset.mul_sum]
    refine Finset.sum_congr rfl fun j _ => ?_
    rw [sub_eq_add_neg, Real.exp_add]; ring
  have h2 : ∑ j, Real.exp (s j - M) = Real.exp (-M) * ∑ j, Real.exp (s j) := by
    rw [Finset.mul_sum]
    refine Finset.sum_congr rfl fun j _ => ?_
    rw [sub_eq_add_neg, Real.exp_add]; ring
  rw [h1, h2, mul_div_mul_left _ _ hM]

/-- The same with the normalisation done weight by weight. -/
theorem softmax_weights [Nonempty ι] (s v : ι → ℝ) (M : ℝ) :
    ∑ j, (Real.exp (s j - M) / ∑ j', Real.exp (s j' - M)) * v j
      = (∑ j, Real.exp (s j) * v j) / (∑ j, Real.exp (s j)) := by
  rw [← softmax_shift s v M, Finset.sum_div]
  refine Finset.sum_congr rfl fun j _ => ?_
  ring

/-- The coercion of reals into the extended reals commutes with finite sums. -/
theorem coe_sum {κ : Type} (S : Finset κ) (f : κ → ℝ) :
    ((∑ j ∈ S, f j : ℝ) : EReal) = ∑ j ∈ S, (f j : EReal) := by
  classical
  induction S using Finset.induction_on with
  | empty => simp
  | insert a S ha ih => rw [Finset.sum_insert ha, Finset.sum_insert ha, EReal.coe_add, ih]

end Real

/-! ### The streaming pass on the extended reals -/

/-- The coercion of reals into the extended reals commutes with `max`. -/
theorem coe_max (a b : ℝ) : ((max a b : ℝ) : EReal) = max (a : EReal) (b : EReal) := by
  rcases le_total a b with h | h
  · rw [max_eq_right h, max_eq_right (EReal.coe_le_coe_iff.mpr h)]
  · rw [max_eq_left h, max_eq_left (EReal.coe_le_coe_iff.mpr h)]

/-- The running state for one row: the level `m`, the sum `l` of `exp (s - m)` over the indices seen so
    far, and for each output coordinate `d` the sum `acc d` of `exp (s - m) * v`. -/
structure St (D : Type) where
  m : EReal
  l : EReal
  acc : D → EReal

/-- Before any tile: level `-∞`, empty sums. -/
def init {D : Type} : St D := ⟨⊥, 0, fun _ => 0⟩

/-- One tile of `n` scores `st` and value rows `vt`, with `tm` the level the tile proposes: the new level
    is the larger of the old one and `tm`; both sums are rescaled by `exp (m - m')` and the tile's terms, taken
    at the new level, are added. -/
def step {n : ℕ} {D : Type} (tm : EReal) (st : Fin n → ℝ) (vt : Fin n → D → ℝ) (S : St D) : St D :=
  let m' := max S.m tm
  let α := Ideal.exp (S.m - m')
  ⟨m', α * S.l + ∑ j, Ideal.exp ((st j : EReal) - m'),
    fun d => α * S.acc d + ∑ j, Ideal.exp ((st j : EReal) - m') * ((vt j d : ℝ) : EReal)⟩

/-- The state after the first `t` of `T` tiles. -/
def run {T n : ℕ} {D : Type} (tm : Fin T → ℝ) (s : Fin T → Fin n → ℝ) (v : Fin T → Fin n → D → ℝ) :
    (t : ℕ) → t ≤ T → St D
  | 0, _ => init
  | t + 1, h =>
    step ((tm ⟨t, Nat.lt_of_succ_le h⟩ : ℝ) : EReal) (s ⟨t, Nat.lt_of_succ_le h⟩) (v ⟨t, Nat.lt_of_succ_le h⟩)
      (run tm s v t (Nat.le_of_succ_le h))

section Run
variable {T n : ℕ} {D : Type}

theorem run_zero (tm : Fin T → ℝ) (s : Fin T → Fin n → ℝ) (v : Fin T → Fin n → D → ℝ) (h : 0 ≤ T) :
    run tm s v 0 h = init := rfl

theorem run_succ (tm : Fin T → ℝ) (s : Fin T → Fin n → ℝ) (v : Fin T → Fin n → D → ℝ) (t : ℕ) (h : t + 1 ≤ T) :
    run tm s v (t + 1) h
      = step ((tm ⟨t, Nat.lt_of_succ_le h⟩ : ℝ) : EReal) (s ⟨t, Nat.lt_of_succ_le h⟩) (v ⟨t, Nat.lt_of_succ_le h⟩)
          (run tm s v t (Nat.le_of_succ_le h)) := rfl

/-- The first tile: the old level is `-∞`, the rescaling factor is `exp (-∞) = 0`, and the state becomes the
    tile's own sums at the tile's level. -/
theorem step_init (τ : ℝ) (st : Fin n → ℝ) (vt : Fin n → D → ℝ) :
    (step (τ : EReal) st vt (init : St D)).m = (τ : EReal) ∧
    (step (τ : EReal) st vt (init : St D)).l = ((∑ j, Real.exp (st j - τ) : ℝ) : EReal) ∧
    ∀ d, (step (τ : EReal) st vt (init : St D)).acc d = ((∑ j, Real.exp (st j - τ) * vt j d : ℝ) : EReal) := by
  have hmax : max (⊥ : EReal) (τ : EReal) = (τ : EReal) := max_eq_right bot_le
  refine ⟨hmax, ?_, fun d => ?_⟩
  · show Ideal.exp (⊥ - max (⊥ : EReal) τ) * 0 + ∑ j, Ideal.exp ((st j : EReal) - max (⊥ : EReal) τ) = _
    rw [hmax, mul_zero, zero_add, coe_sum]
    refine Finset.sum_congr rfl fun j _ => ?_
    rw [← EReal.coe_sub, Ideal.exp_coe]
  · show Ideal.exp (⊥ - max (⊥ : EReal) τ) * 0
        + ∑ j, Ideal.exp ((st j : EReal) - max (⊥ : EReal) τ) * ((vt j d : ℝ) : EReal) = _
    rw [hmax, mul_zero, zero_add, coe_sum]
    refine Finset.sum_congr rfl fun j _ => ?_
    rw [← EReal.coe_sub, Ideal.exp_coe, EReal.coe_mul]

/-- A later tile: from a real state `(μ, L, A)` the new level is `max μ τ`, a real, and every operation stays
    inside the reals. -/
theorem step_coe (τ μ L : ℝ) (A : D → ℝ) (st : Fin n → ℝ) (vt : Fin n → D → ℝ) (S : St D)
    (hm : S.m = (μ : EReal)) (hl : S.l = (L : EReal)) (ha : ∀ d, S.acc d = (A d : EReal)) :
    (step (τ : EReal) st vt S).m = ((max μ τ : ℝ) : EReal) ∧
    (step (τ : EReal) st vt S).l
      = ((Real.exp (μ - max μ τ) * L + ∑ j, Real.exp (st j - max μ τ) : ℝ) : EReal) ∧
    ∀ d, (step (τ : EReal) st vt S).acc d
      = ((Real.exp (μ - max μ τ) * A d + ∑ j, Real.exp (st j - max μ τ) * vt j d : ℝ) : EReal) := by
  have hmax : max S.m (τ : EReal) = ((max μ τ : ℝ) : EReal) := by rw [hm, coe_max]
  refine ⟨hmax, ?_, fun d => ?_⟩
  · show Ideal.exp (S.m - max S.m τ) * S.l + ∑ j, Ideal.exp ((st j : EReal) - max S.m τ) = _
    rw [hmax, hm, hl, ← EReal.coe_sub, Ideal.exp_coe, ← EReal.coe_mul, EReal.coe_add, coe_sum]
    congr 1
  · show Ideal.exp (S.m - max S.m τ) * S.acc d
        + ∑ j, Ideal.exp ((st j : EReal) - max S.m τ) * ((vt j d : ℝ) : EReal) = _
    rw [hmax, hm, ha d, ← EReal.coe_sub, Ideal.exp_coe, ← EReal.coe_mul, EReal.coe_add, coe_sum]
    congr 1

/-- The tiles seen after `t + 1` steps are tile `t` and the tiles seen after `t` steps. -/
theorem sum_seen_succ (t : ℕ) (h : t < T) (f : Fin T → ℝ) :
    ∑ t' ∈ Finset.univ.filter (fun t' : Fin T => t'.val < t + 1), f t'
      = f ⟨t, h⟩ + ∑ t' ∈ Finset.univ.filter (fun t' : Fin T => t'.val < t), f t' := by
  have hins : Finset.univ.filter (fun t' : Fin T => t'.val < t + 1)
      = insert (⟨t, h⟩ : Fin T) (Finset.univ.filter (fun t' : Fin T => t'.val < t)) := by
    ext x
    simp only [Finset.mem_filter, Finset.mem_univ, true_and, Finset.mem_insert, Fin.ext_iff]
    omega
  have hnot : (⟨t, h⟩ : Fin T) ∉ Finset.univ.filter (fun t' : Fin T => t'.val < t) := by
    simp only [Finset.mem_filter, Finset.mem_univ, true_and, lt_irrefl, not_false_eq_true]
  rw [hins, Finset.sum_insert hnot]

/-- Moving the level from `μ` to `μ'` rescales a sum of `exp (s - μ) * w` by `exp (μ - μ')`. -/
theorem rescale {κ : Type} (S : Finset κ) (μ μ' : ℝ) (s : κ → Fin n → ℝ) (w : κ → Fin n → ℝ) :
    Real.exp (μ - μ') * ∑ t' ∈ S, ∑ j, Real.exp (s t' j - μ) * w t' j
      = ∑ t' ∈ S, ∑ j, Real.exp (s t' j - μ') * w t' j := by
  rw [Finset.mul_sum]
  refine Finset.sum_congr rfl fun t' _ => ?_
  rw [Finset.mul_sum]
  refine Finset.sum_congr rfl fun j _ => ?_
  rw [← mul_assoc, ← Real.exp_add]
  congr 2; ring

theorem rescale_one {κ : Type} (S : Finset κ) (μ μ' : ℝ) (s : κ → Fin n → ℝ) :
    Real.exp (μ - μ') * ∑ t' ∈ S, ∑ j, Real.exp (s t' j - μ)
      = ∑ t' ∈ S, ∑ j, Real.exp (s t' j - μ') := by
  have := rescale S μ μ' s (fun _ _ => 1)
  simpa only [mul_one] using this

theorem sum_seen_zero (f : Fin T → ℝ) :
    ∑ t' ∈ Finset.univ.filter (fun t' : Fin T => t'.val < 0), f t' = 0 :=
  Finset.sum_eq_zero fun _ hx => absurd (Finset.mem_filter.mp hx).2 (Nat.not_lt_zero _)

/-- After `t ≥ 1` tiles the state is real: the level is a real `μ`, and the two running quantities are the sums
    of `exp (s - μ)` and of `exp (s - μ) * v` over all indices of the tiles seen so far. -/
theorem run_inv (tm : Fin T → ℝ) (s : Fin T → Fin n → ℝ) (v : Fin T → Fin n → D → ℝ)
    (t : ℕ) (h1 : 1 ≤ t) (hT : t ≤ T) :
    ∃ μ : ℝ, (run tm s v t hT).m = (μ : EReal) ∧
      (run tm s v t hT).l
        = ((∑ t' ∈ Finset.univ.filter (fun t' : Fin T => t'.val < t), ∑ j, Real.exp (s t' j - μ) : ℝ) : EReal) ∧
      ∀ d, (run tm s v t hT).acc d
        = ((∑ t' ∈ Finset.univ.filter (fun t' : Fin T => t'.val < t),
              ∑ j, Real.exp (s t' j - μ) * v t' j d : ℝ) : EReal) := by
  induction t with
  | zero => omega
  | succ t ih =>
    have ht : t < T := Nat.lt_of_succ_le hT
    rcases Nat.eq_zero_or_pos t with h0 | hpos
    · subst h0
      obtain ⟨hm, hl, ha⟩ := step_init (D := D) (tm ⟨0, ht⟩) (s ⟨0, ht⟩) (v ⟨0, ht⟩)
      refine ⟨tm ⟨0, ht⟩, ?_, ?_, fun d => ?_⟩
      · rw [run_succ, run_zero]; exact hm
      · rw [run_succ, run_zero, sum_seen_succ 0 ht, sum_seen_zero, add_zero]; exact hl
      · rw [run_succ, run_zero, sum_seen_succ 0 ht, sum_seen_zero, add_zero]; exact ha d
    · obtain ⟨μ, hm, hl, ha⟩ := ih hpos (Nat.le_of_succ_le hT)
      obtain ⟨hm', hl', ha'⟩ := step_coe (tm ⟨t, ht⟩) μ _ _ (s ⟨t, ht⟩) (v ⟨t, ht⟩) _ hm hl ha
      refine ⟨max μ (tm ⟨t, ht⟩), ?_, ?_, fun d => ?_⟩
      · rw [run_succ]; exact hm'
      · rw [run_succ, sum_seen_succ t ht, ← rescale_one _ μ, add_comm]; exact hl'
      · rw [run_succ, sum_seen_succ t ht, ← rescale _ μ, add_comm]; exact ha' d

/-- After all the tiles, `acc / l` is the softmax-weighted average of the value rows over every index of every
    tile: the common level cancels between numerator and denominator. -/
theorem run_final (tm : Fin T → ℝ) (s : Fin T → Fin n → ℝ) (v : Fin T → Fin n → D → ℝ)
    (hT : 0 < T) (hn : 0 < n) (d : D) :
    Ideal.div ((run tm s v T le_rfl).acc d) (run tm s v T le_rfl).l
      = (((∑ t, ∑ j, Real.exp (s t j) * v t j d) / (∑ t, ∑ j, Real.exp (s t j)) : ℝ) : EReal) := by
  obtain ⟨μ, -, hl, ha⟩ := run_inv tm s v T hT le_rfl
  have hall : Finset.univ.filter (fun t' : Fin T => t'.val < T) = Finset.univ :=
    Finset.filter_true_of_mem fun x _ => x.isLt
  rw [hall] at hl ha
  haveI : Nonempty (Fin T × Fin n) := ⟨(⟨0, hT⟩, ⟨0, hn⟩)⟩
  have hpos : 0 < ∑ t, ∑ j, Real.exp (s t j - μ) := by
    have := sum_exp_pos (fun p : Fin T × Fin n => s p.1 p.2 - μ)
    rwa [Fintype.sum_prod_type] at this
  have hshift := softmax_shift (fun p : Fin T × Fin n => s p.1 p.2) (fun p => v p.1 p.2 d) μ
  simp only [Fintype.sum_prod_type] at hshift
  rw [hl, ha d, Ideal.div_coe hpos.ne', ← EReal.coe_mul, ← hshift, mul_one_div]

end Run

/-! ### The two-pass form: normalise each weight, then sum -/

/-- Every weight `exp (s j - M)` is divided by the sum of all of them on the extended reals and the weighted sum
    of the values is taken: for real scores, values and level this is the softmax-weighted average. -/
theorem softmax_row {ι : Type} [Fintype ι] [Nonempty ι] (s v : ι → ℝ) (M : ℝ) :
    ∑ j, Ideal.div (Ideal.exp ((s j : EReal) - (M : EReal))) (∑ j', Ideal.exp ((s j' : EReal) - (M : EReal)))
        * ((v j : ℝ) : EReal)
      = (((∑ j, Real.exp (s j) * v j) / (∑ j, Real.exp (s j)) : ℝ) : EReal) := by
  have hden : ∑ j', Ideal.exp ((s j' : EReal) - (M : EReal)) = ((∑ j', Real.exp (s j' - M) : ℝ) : EReal) := by
    rw [coe_sum]
    refine Finset.sum_congr rfl fun j _ => ?_
    rw [← EReal.coe_sub, Ideal.exp_coe]
  have hpos := sum_exp_pos (fun j => s j - M)
  rw [← softmax_weights s v M, coe_sum, hden]
  refine Finset.sum_congr rfl fun j _ => ?_
  rw [Ideal.div_coe hpos.ne', ← EReal.coe_sub, Ideal.exp_coe, ← EReal.coe_mul, ← EReal.coe_mul, mul_one_div]

/-! ### Tiling a sum: `T * n` indices as `T` tiles of `n` -/

/-- Index `j` of tile `t` is index `t * n + j` of the whole. -/
theorem tile_lt {T n : ℕ} (t : Fin T) (j : Fin n) : t.val * n + j.val < T * n :=
  calc t.val * n + j.val < t.val * n + n := Nat.add_lt_add_left j.isLt _
    _ = (t.val + 1) * n := (Nat.succ_mul _ _).symm
    _ ≤ T * n := Nat.mul_le_mul_right n t.isLt

/-- The tile an index of the whole lies in. -/
theorem tile_div_lt {T n : ℕ} (k : Fin (T * n)) : k.val / n < T :=
  Nat.div_lt_of_lt_mul (Nat.mul_comm T n ▸ k.isLt)

/-- A double sum over tiles and positions is a single sum over the whole, index `k` being position `k % n` of
    tile `k / n`. -/
theorem sum_tiles {T n : ℕ} (hn : 0 < n) {M : Type*} [AddCommMonoid M] (f : Fin T → Fin n → M) :
    ∑ t : Fin T, ∑ j : Fin n, f t j
      = ∑ k : Fin (T * n), f ⟨k.val / n, tile_div_lt k⟩ ⟨k.val % n, Nat.mod_lt _ hn⟩ := by
  refine (Fintype.sum_prod_type' f).symm.trans ?_
  refine (Equiv.sum_comp finProdFinEquiv.symm (fun p : Fin T × Fin n => f p.1 p.2)).symm.trans ?_
  exact Finset.sum_congr rfl fun k _ => rfl

/-- A single sum over the whole is the double sum over tiles and positions. -/
theorem sum_untile {T n : ℕ} {M : Type*} [AddCommMonoid M] (g : Fin (T * n) → M) :
    ∑ k, g k = ∑ t : Fin T, ∑ j : Fin n, g ⟨t.val * n + j.val, tile_lt t j⟩ := by
  refine (Equiv.sum_comp finProdFinEquiv g).symm.trans ?_
  refine (Fintype.sum_prod_type _).trans ?_
  refine Finset.sum_congr rfl fun t _ => Finset.sum_congr rfl fun j _ => ?_
  congr 1
  apply Fin.ext
  rw [finProdFinEquiv_apply_val, Nat.mul_comm, Nat.add_comm]

end OnlineSoftmax

end
-- ==== Proof.RefSoftmax.lean ====
/-
  The reference's softmax and each head's output. Every score of a row has the row maximum subtracted (a real number
  M) and is exponentiated; the exponentials are divided by their row sum and the weights are summed against the
  value rows. For real scores and values this is the softmax-weighted average of the specification, whatever the
  real M is, because a common shift of the scores cancels between numerator and denominator. The heads are then laid
  side by side again: entry (l, c) of the [4096,1024] array is coordinate c % 64 of head c / 64 at row l.
-/
import proofs.«101851_j15083925144173_2_alg».proof.Proof.Gen.ReferenceIdeal.Read
import proofs.«101851_j15083925144173_2_alg».proof.Proof.Spec
import proofs.«101851_j15083925144173_2_alg».proof.Proof.LibOnlineSoftmax

noncomputable section

open scoped BigOperators

namespace Cert.Attn.Ref

open Cert.ReferenceIdeal Cert.ReferenceIdeal.Read Idealize.ShloMosaic Idealize.ShloMosaic.ValueIdx

/-- The shifted exponential of a score: the row maximum is broadcast back along the key axis and subtracted first. -/
theorem exp_apply (x0 x1 : FVec Ideal S4096x1024 .f32) (x3 x4 : FVec Ideal S1024x1024 .f32) (x7 x8 : FVec Ideal S1024 .f32)
    (s : Fin 16 → Fin 4096 → Fin 4096 → ℝ) (hs : IsR3 (val_main_v24 (F := Ideal) x0 x1 x3 x4 x7 x8) s)
    (h : Fin 16) (i : Fin 4096) (M : ℝ) (hM : val_main_v27 (F := Ideal) x0 x1 x3 x4 x7 x8 (ix2 h i) = ((M : ℝ) : EReal))
    (j : Fin 4096) :
    val_main_v31 (F := Ideal) x0 x1 x3 x4 x7 x8 (ix3 h i j) = Ideal.exp (((s h i j : ℝ) : EReal) - ((M : ℝ) : EReal)) := by
  rw [val_main_v31_apply, val_main_v30_apply, val_main_v29_apply, val_main_v28_apply]
  have e : idx_main_v28 (idx_main_v29 (ix3 h i j)) = ix2 h i := by
    funext a; match a with | ⟨0, _⟩ => rfl | ⟨1, _⟩ => rfl
  rw [e, hM, hs h i j]
  rfl

/-- The row sum of the shifted exponentials. -/
theorem rowsum_apply (x0 x1 : FVec Ideal S4096x1024 .f32) (x3 x4 : FVec Ideal S1024x1024 .f32) (x7 x8 : FVec Ideal S1024 .f32)
    (s : Fin 16 → Fin 4096 → Fin 4096 → ℝ) (hs : IsR3 (val_main_v24 (F := Ideal) x0 x1 x3 x4 x7 x8) s)
    (h : Fin 16) (i : Fin 4096) (M : ℝ) (hM : val_main_v27 (F := Ideal) x0 x1 x3 x4 x7 x8 (ix2 h i) = ((M : ℝ) : EReal)) :
    val_main_v32 (F := Ideal) x0 x1 x3 x4 x7 x8 (ix2 h i)
      = ∑ j : Fin 4096, Ideal.exp (((s h i j : ℝ) : EReal) - ((M : ℝ) : EReal)) := by
  rw [val_main_v32_apply, val_main_cst_2_apply]
  have e : ∀ j : Fin 4096, idx_main_v32 (ix2 h i) j = ix3 h i j := fun j => by
    funext a; match a with | ⟨0, _⟩ => rfl | ⟨1, _⟩ => rfl | ⟨2, _⟩ => rfl
  simp only [e, exp_apply x0 x1 x3 x4 x7 x8 s hs h i M hM]
  show Ideal.ofBits .f32 0x00000000#32 + _ = _
  rw [Ideal.ofBits_zero_f32, zero_add]

/-- The normalised weight of key row j in query row i of head h. -/
theorem weight_apply (x0 x1 : FVec Ideal S4096x1024 .f32) (x3 x4 : FVec Ideal S1024x1024 .f32) (x7 x8 : FVec Ideal S1024 .f32)
    (s : Fin 16 → Fin 4096 → Fin 4096 → ℝ) (hs : IsR3 (val_main_v24 (F := Ideal) x0 x1 x3 x4 x7 x8) s)
    (h : Fin 16) (i : Fin 4096) (M : ℝ) (hM : val_main_v27 (F := Ideal) x0 x1 x3 x4 x7 x8 (ix2 h i) = ((M : ℝ) : EReal))
    (j : Fin 4096) :
    val_main_v35 (F := Ideal) x0 x1 x3 x4 x7 x8 (ix3 h i j)
      = Ideal.div (Ideal.exp (((s h i j : ℝ) : EReal) - ((M : ℝ) : EReal)))
          (∑ j' : Fin 4096, Ideal.exp (((s h i j' : ℝ) : EReal) - ((M : ℝ) : EReal))) := by
  rw [val_main_v35_apply, val_main_v34_apply, val_main_v33_apply]
  have e : idx_main_v33 (idx_main_v34 (ix3 h i j)) = ix2 h i := by
    funext a; match a with | ⟨0, _⟩ => rfl | ⟨1, _⟩ => rfl
  rw [e, rowsum_apply x0 x1 x3 x4 x7 x8 s hs h i M hM, exp_apply x0 x1 x3 x4 x7 x8 s hs h i M hM j]
  rfl

/-- Each head's output: the weights against the value rows give the softmax-weighted average of the specification. -/
theorem attend_isR (x0 x1 x2 : FVec Ideal S4096x1024 .f32) (x3 x4 x5 : FVec Ideal S1024x1024 .f32)
    (x7 x8 x9 : FVec Ideal S1024 .f32) (q k v : Fin 4096 → Fin 1024 → ℝ)
    (hs : IsR3 (val_main_v24 (F := Ideal) x0 x1 x3 x4 x7 x8) (fun h i j => score q k h i j))
    (hmax : ∀ h i, ∃ M : ℝ, val_main_v27 (F := Ideal) x0 x1 x3 x4 x7 x8 (ix2 h i) = ((M : ℝ) : EReal))
    (hv : IsR3 (val_main_v20 (F := Ideal) x2 x5 x9) (fun h l d => v l (feat h d))) :
    IsR3 (val_main_v36 (F := Ideal) x0 x1 x2 x3 x4 x5 x7 x8 x9) (fun h i d => attend q k v h i d) := by
  intro h i d
  obtain ⟨M, hM⟩ := hmax h i
  rw [val_main_v36_apply]
  have e1 : ∀ j : Fin 4096, lidx_main_v36 (ix3 h i d) j = ix3 h i j := fun j => by
    funext a; match a with | ⟨0, _⟩ => rfl | ⟨1, _⟩ => rfl | ⟨2, _⟩ => rfl
  have e2 : ∀ j : Fin 4096, ridx_main_v36 (ix3 h i d) j = ix3 h j d := fun j => by
    funext a; match a with | ⟨0, _⟩ => rfl | ⟨1, _⟩ => rfl | ⟨2, _⟩ => rfl
  simp only [e1, e2, weight_apply x0 x1 x3 x4 x7 x8 _ hs h i M hM, hv h]
  haveI : Nonempty (Fin 4096) := ⟨⟨0, by decide⟩⟩
  exact OnlineSoftmax.softmax_row (fun j => score q k h i j) (fun j => v j (feat h d)) M

/-- Moving the head axis back behind the rows and merging it with the coordinates: entry `(l, c)` of the result is
    entry `(c / 64, l, c % 64)` of the operand. -/
theorem rows_isR (x0 x1 x2 : FVec Ideal S4096x1024 .f32) (x3 x4 x5 : FVec Ideal S1024x1024 .f32)
    (x7 x8 x9 : FVec Ideal S1024 .f32) (A : Fin 16 → Fin 4096 → Fin 64 → ℝ)
    (hA : IsR3 (val_main_v36 (F := Ideal) x0 x1 x2 x3 x4 x5 x7 x8 x9) A) :
    IsR2 (val_main_v38 (F := Ideal) x0 x1 x2 x3 x4 x5 x7 x8 x9) (fun l c => A (headOf c) l (coordOf c)) := by
  intro l c
  rw [val_main_v38_apply, val_main_v37_apply]
  have e : idx_main_v37 (idx_main_v38 (ix2 l c)) = ix3 (headOf c) l (coordOf c) := by
    funext a; refine Fin.ext ?_
    have hl := l.isLt; have hc := c.isLt
    match a with
    | ⟨0, _⟩ => show (l.val * 1024 + c.val) / 64 % 16 = c.val / 64; omega
    | ⟨1, _⟩ => show (l.val * 1024 + c.val) / 1024 = l.val; omega
    | ⟨2, _⟩ => show (l.val * 1024 + c.val) % 64 = c.val % 64; omega
  rw [e]; exact hA (headOf c) l (coordOf c)

end Cert.Attn.Ref

end
-- ==== Proof.RefValue.lean ====
/-
  The reference's result, read one operation at a time, is the attention layer of the specification at real inputs:
  the three projections are real linear layers, the scores and their row maxima are real, each head's output is the
  softmax-weighted average of the value rows, and the last projection is a real linear layer again.
-/
import proofs.«101851_j15083925144173_2_alg».proof.Proof.Gen.ReferenceIdeal.Read
import proofs.«101851_j15083925144173_2_alg».proof.Proof.Spec
import proofs.«101851_j15083925144173_2_alg».proof.Proof.RefProj
import proofs.«101851_j15083925144173_2_alg».proof.Proof.RefScore
import proofs.«101851_j15083925144173_2_alg».proof.Proof.RefSoftmax

noncomputable section

namespace Cert.Attn.Ref

open Cert.ReferenceIdeal Cert.ReferenceIdeal.Read Idealize.ShloMosaic Idealize.ShloMosaic.ValueIdx

/-- For arguments that are coercions of real arrays, the reference's result is the coercion of the specification. -/
theorem ref_isR (xq xk xv : FVec Ideal S4096x1024 .f32) (wq wk wv wo : FVec Ideal S1024x1024 .f32)
    (bq bk bv bo : FVec Ideal S1024 .f32) (rq rk rv : Fin 4096 → Fin 1024 → ℝ)
    (rwq rwk rwv rwo : Fin 1024 → Fin 1024 → ℝ) (rbq rbk rbv rbo : Fin 1024 → ℝ)
    (hq : IsR2 xq rq) (hk : IsR2 xk rk) (hv : IsR2 xv rv)
    (hwq : IsR2 wq rwq) (hwk : IsR2 wk rwk) (hwv : IsR2 wv rwv) (hwo : IsR2 wo rwo)
    (hbq : IsR1 bq rbq) (hbk : IsR1 bk rbk) (hbv : IsR1 bv rbv) (hbo : IsR1 bo rbo) :
    IsR2 (val_main_v43 (F := Ideal) xq xk xv wq wk wv wo bq bk bv bo)
      (G rq rk rv rwq rwk rwv rwo rbq rbk rbv rbo) := by
  have hQ := q_isR xq wq bq rq rwq rbq hq hwq hbq
  have hK := k_isR xk wk bk rk rwk rbk hk hwk hbk
  have hV := v_isR xv wv bv rv rwv rbv hv hwv hbv
  have hS := score_isR xq xk wq wk bq bk (lin rq rwq rbq) (lin rk rwk rbk) hQ hK
  have hM := fun h i => rowmax_real xq xk wq wk bq bk _ hS h i
  have hA := attend_isR xq xk xv wq wk wv bq bk bv (lin rq rwq rbq) (lin rk rwk rbk) (lin rv rwv rbv) hS hM hV
  have hR := rows_isR xq xk xv wq wk wv bq bk bv _ hA
  rw [v43_eq]
  exact lin_isR _ wo bo _ rwo rbo hR hwo hbo

end Cert.Attn.Ref

end
-- ==== Proof.BitsHead0.lean ====
/-
  Projection region 0 (a linear map into the sixteen-head layout), as one pipelined region entered at buffer
  contents `V`: what the body leaves in the output window's buffer as a function of the three input blocks, the
  body's triple, the pipeline's proof data and its obligation at every grid point.
-/
import proofs.«101851_j15083925144173_2_alg».proof.Proof.Gen.Kernel.Launch
import proofs.«101851_j15083925144173_2_alg».proof.Proof.Gen.Kernel.Skeleton
import proofs.«101851_j15083925144173_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The body's whole-buffer rectangles. -/
abbrev rx0 : Rect S512x1024 := Rect.unit (s := S512x1024) ![0, 0] S512x1024.size inb_S512x1024_S512x1024_0_0
abbrev rw0 : Rect S1024x1024 := Rect.unit (s := S1024x1024) ![0, 0] S1024x1024.size inb_S1024x1024_S1024x1024_0_0
abbrev rb0 : Rect S1x1024 := Rect.unit (s := S1x1024) ![0, 0] S1x1024.size inb_S1x1024_S1x1024_0_0
abbrev ro0 : Rect S16x512x64 := Rect.unit (s := S16x512x64) ![0, 0, 0] S16x512x64.size inb_S16x512x64_S16x512x64_0_0_0

/-- The output window's buffer after the body: its one whole-buffer store of the projection of the three loads. -/
def out0_3 (x0 : Vec F S512x1024 .f32) (x1 : Vec F S1024x1024 .bf16) (x2 : Vec F S1x1024 .f32) : Vec F S16x512x64 .bf16 :=
  View.canon [⟨ro0, k0_pay1 (View.ld x0 rx0) (View.ld x1 rw0) (View.ld x2 rb0)⟩]

/-- The store covers the buffer. -/
theorem cover0_3 (p0 : Vec F S16x512x64 .bf16) (y : S16x512x64.Idx) :
    ∃ pc ∈ ([⟨ro0, p0⟩] : List (View.Piece (Elt F) S16x512x64 .bf16)), y ∈ pc.1.set :=
  View.cover_of_tiled [⟨ro0, p0⟩] S16x512x64.size (by rfl) y

set_option maxHeartbeats 1000000 in
/-- The body on whole staging memrefs, the inputs' at contents `x0 x1 x2` and the output's at anything, runs to the
    continuation holding the inputs' as they were and the output's at `out0_3`. -/
theorem sound_kernel0 (c : Dev nD) (E : Set ℕ) (i : grid0.Coords)
    (arg1 : Memref sig .tc .vmem S512x1024 .f32) (harg1 : arg1.IsWhole) (arg2 : Memref sig .tc .vmem S1024x1024 .bf16) (harg2 : arg2.IsWhole)
    (arg3 : Memref sig .tc .vmem S1x1024 .f32) (harg3 : arg3.IsWhole) (arg4 : Memref sig .tc .vmem S16x512x64 .bf16) (harg4 : arg4.IsWhole)
    (x0 : Vec F S512x1024 .f32) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_head_kernel i arg1 harg1 arg2 harg2 arg3 harg3 arg4 harg4) K := by
  simp only [cc0__linear_head_kernel_eq_skeleton]; unfold cc0__linear_head_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of pipeline 0 on core `c`: the arrays as the region finds them; after the body at point `t` each
    input's buffer at its block and the output's at `out0_3` of the input blocks; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BitsHead1.lean ====
/-
  Projection region 1 (a linear map into the sixteen-head layout), as one pipelined region entered at buffer
  contents `V`: what the body leaves in the output window's buffer as a function of the three input blocks, the
  body's triple, the pipeline's proof data and its obligation at every grid point.
-/
import proofs.«101851_j15083925144173_2_alg».proof.Proof.Gen.Kernel.Launch
import proofs.«101851_j15083925144173_2_alg».proof.Proof.Gen.Kernel.Skeleton
import proofs.«101851_j15083925144173_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The body's whole-buffer rectangles. -/
abbrev rx1 : Rect S512x1024 := Rect.unit (s := S512x1024) ![0, 0] S512x1024.size inb_S512x1024_S512x1024_0_0
abbrev rw1 : Rect S1024x1024 := Rect.unit (s := S1024x1024) ![0, 0] S1024x1024.size inb_S1024x1024_S1024x1024_0_0
abbrev rb1 : Rect S1x1024 := Rect.unit (s := S1x1024) ![0, 0] S1x1024.size inb_S1x1024_S1x1024_0_0
abbrev ro1 : Rect S16x512x64 := Rect.unit (s := S16x512x64) ![0, 0, 0] S16x512x64.size inb_S16x512x64_S16x512x64_0_0_0

/-- The output window's buffer after the body: its one whole-buffer store of the projection of the three loads. -/
def out1_3 (x0 : Vec F S512x1024 .f32) (x1 : Vec F S1024x1024 .bf16) (x2 : Vec F S1x1024 .f32) : Vec F S16x512x64 .bf16 :=
  View.canon [⟨ro1, k1_pay1 (View.ld x0 rx1) (View.ld x1 rw1) (View.ld x2 rb1)⟩]

/-- The store covers the buffer. -/
theorem cover1_3 (p0 : Vec F S16x512x64 .bf16) (y : S16x512x64.Idx) :
    ∃ pc ∈ ([⟨ro1, p0⟩] : List (View.Piece (Elt F) S16x512x64 .bf16)), y ∈ pc.1.set :=
  View.cover_of_tiled [⟨ro1, p0⟩] S16x512x64.size (by rfl) y

set_option maxHeartbeats 1000000 in
/-- The body on whole staging memrefs, the inputs' at contents `x0 x1 x2` and the output's at anything, runs to the
    continuation holding the inputs' as they were and the output's at `out1_3`. -/
theorem sound_kernel1 (c : Dev nD) (E : Set ℕ) (i : grid1.Coords)
    (arg1 : Memref sig .tc .vmem S512x1024 .f32) (harg1 : arg1.IsWhole) (arg2 : Memref sig .tc .vmem S1024x1024 .bf16) (harg2 : arg2.IsWhole)
    (arg3 : Memref sig .tc .vmem S1x1024 .f32) (harg3 : arg3.IsWhole) (arg4 : Memref sig .tc .vmem S16x512x64 .bf16) (harg4 : arg4.IsWhole)
    (x0 : Vec F S512x1024 .f32) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__linear_head_kernel i arg1 harg1 arg2 harg2 arg3 harg3 arg4 harg4) K := by
  simp only [cc1__linear_head_kernel_eq_skeleton]; unfold cc1__linear_head_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of pipeline 1 on core `c`: the arrays as the region finds them; after the body at point `t` each
    input's buffer at its block and the output's at `out1_3` of the input blocks; the invariant the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BitsHead2.lean ====
/-
  Projection region 2 (a linear map into the sixteen-head layout), as one pipelined region entered at buffer
  contents `V`: what the body leaves in the output window's buffer as a function of the three input blocks, the
  body's triple, the pipeline's proof data and its obligation at every grid point.
-/
import proofs.«101851_j15083925144173_2_alg».proof.Proof.Gen.Kernel.Launch
import proofs.«101851_j15083925144173_2_alg».proof.Proof.Gen.Kernel.Skeleton
import proofs.«101851_j15083925144173_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The body's whole-buffer rectangles. -/
abbrev rx2 : Rect S512x1024 := Rect.unit (s := S512x1024) ![0, 0] S512x1024.size inb_S512x1024_S512x1024_0_0
abbrev rw2 : Rect S1024x1024 := Rect.unit (s := S1024x1024) ![0, 0] S1024x1024.size inb_S1024x1024_S1024x1024_0_0
abbrev rb2 : Rect S1x1024 := Rect.unit (s := S1x1024) ![0, 0] S1x1024.size inb_S1x1024_S1x1024_0_0
abbrev ro2 : Rect S16x512x64 := Rect.unit (s := S16x512x64) ![0, 0, 0] S16x512x64.size inb_S16x512x64_S16x512x64_0_0_0

/-- The output window's buffer after the body: its one whole-buffer store of the projection of the three loads. -/
def out2_3 (x0 : Vec F S512x1024 .f32) (x1 : Vec F S1024x1024 .bf16) (x2 : Vec F S1x1024 .f32) : Vec F S16x512x64 .bf16 :=
  View.canon [⟨ro2, k2_pay1 (View.ld x0 rx2) (View.ld x1 rw2) (View.ld x2 rb2)⟩]

/-- The store covers the buffer. -/
theorem cover2_3 (p0 : Vec F S16x512x64 .bf16) (y : S16x512x64.Idx) :
    ∃ pc ∈ ([⟨ro2, p0⟩] : List (View.Piece (Elt F) S16x512x64 .bf16)), y ∈ pc.1.set :=
  View.cover_of_tiled [⟨ro2, p0⟩] S16x512x64.size (by rfl) y

set_option maxHeartbeats 1000000 in
/-- The body on whole staging memrefs, the inputs' at contents `x0 x1 x2` and the output's at anything, runs to the
    continuation holding the inputs' as they were and the output's at `out2_3`. -/
theorem sound_kernel2 (c : Dev nD) (E : Set ℕ) (i : grid2.Coords)
    (arg1 : Memref sig .tc .vmem S512x1024 .f32) (harg1 : arg1.IsWhole) (arg2 : Memref sig .tc .vmem S1024x1024 .bf16) (harg2 : arg2.IsWhole)
    (arg3 : Memref sig .tc .vmem S1x1024 .f32) (harg3 : arg3.IsWhole) (arg4 : Memref sig .tc .vmem S16x512x64 .bf16) (harg4 : arg4.IsWhole)
    (x0 : Vec F S512x1024 .f32) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__linear_head_kernel i arg1 harg1 arg2 harg2 arg3 harg3 arg4 harg4) K := by
  simp only [cc2__linear_head_kernel_eq_skeleton]; unfold cc2__linear_head_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of pipeline 2 on core `c`: the arrays as the region finds them; after the body at point `t` each
    input's buffer at its block and the output's at `out2_3` of the input blocks; the invariant the scoped rest and
    the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.BitsFlashRuns.lean ====
/-
  The attention region (pipeline 3) entered at buffer contents `V`: its windows' blocks, the two branch conditions of
  its body decided over the grid (the accumulators are reset at key tile 0; the result is written at key tile 15),
  where the result window is idle, and the staging and scratch buffers the body is called with.
-/
import proofs.«101851_j15083925144173_2_alg».proof.Proof.Gen.Kernel.Launch
import proofs.«101851_j15083925144173_2_alg».proof.Proof.Gen.Kernel.Skeleton
import proofs.«101851_j15083925144173_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, fetched there or not. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- The body's first branch: the key-tile coordinate is 0. -/
abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 16 = 0 :=
  (by decide +kernel : ∀ t : Fin grid3.N, cond3_0 (grid3.coords t) ↔ t.val % 16 = 0)
/-- The body's last branch: the key-tile coordinate is 15. -/
abbrev cond3_1 (i : grid3.Coords) : Prop := k3_cond2 i = 1#1
theorem hcond3_1 : ∀ t : Fin cfg3.N, cond3_1 (grid3.coords t) ↔ t.val % 16 = 15 :=
  (by decide +kernel : ∀ t : Fin grid3.N, cond3_1 (grid3.coords t) ↔ t.val % 16 = 15)

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cfg3.idle 4 (grid3.coords t) = false := by decide +kernel
theorem idleAt3_5_A : ∀ t : Fin cfg3.N, cond3_0 (grid3.coords t) → ¬cond3_1 (grid3.coords t) → cfg3.idle 5 (grid3.coords t) = true := by decide +kernel
theorem noFlush3_5_A : ∀ t : Fin cfg3.N, cond3_0 (grid3.coords t) → ¬cond3_1 (grid3.coords t) → (cfg3.win 5).flush t = false := by decide +kernel
theorem idleAt3_5_B : ∀ t : Fin cfg3.N, ¬cond3_0 (grid3.coords t) → ¬cond3_1 (grid3.coords t) → cfg3.idle 5 (grid3.coords t) = true := by decide +kernel
theorem noFlush3_5_B : ∀ t : Fin cfg3.N, ¬cond3_0 (grid3.coords t) → ¬cond3_1 (grid3.coords t) → (cfg3.win 5).flush t = false := by decide +kernel
theorem liveAt3_5_C : ∀ t : Fin cfg3.N, ¬cond3_0 (grid3.coords t) → cond3_1 (grid3.coords t) → cfg3.idle 5 (grid3.coords t) = false := by decide +kernel

/-- One staging buffer of the result window, through which its contents are stated. -/
abbrev VO3_5 : View sig .tc .vmem S512x1024 .f32 := (Memref.whole cc3_stg5_0 : Memref sig .tc .vmem S512x1024 .f32).view
abbrev ms3_0 (t : Fin cfg3.N) : Memref sig .tc .vmem S16x512x64 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S16x256x64 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S16x256x64 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x1024 .bf16 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x1024 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S512x1024 .f32 := win3_5.stage (cfg3.slots t 5)
abbrev hs3_5 (t : Fin cfg3.N) : (ms3_5 t).IsWhole := hstage3_5 ((cfg3.slots t 5).cast nbuf3_5)
/-- The scratch operands: the running maximum, the running sum and the accumulator. -/
abbrev scM3_0 : Memref sig .tc .vmem S16x512x1 .f32 := Memref.whole cc3_scratch0
abbrev VS3_0 : View sig .tc .vmem S16x512x1 .f32 := scM3_0.view
abbrev scM3_1 : Memref sig .tc .vmem S16x512x1 .f32 := Memref.whole cc3_scratch1
abbrev VS3_1 : View sig .tc .vmem S16x512x1 .f32 := scM3_1.view
abbrev scM3_2 : Memref sig .tc .vmem S16x512x64 .f32 := Memref.whole cc3_scratch2
abbrev VS3_2 : View sig .tc .vmem S16x512x64 .f32 := scM3_2.view

/-- The class invariant with the three scratch operands as memrefs owned at some contents. -/
theorem PhiA3_eq (c : Dev nD) :
    (Pipeline.ΦA spec3 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ d, owns (c : Thread nD τ) scM3_0 fullShare d) ∗ (∃ d, owns (c : Thread nD τ) scM3_1 fullShare d) ∗ (∃ d, owns (c : Thread nD τ) scM3_2 fullShare d)) ∗ (∃ r, prngReg c r)) := by
  unfold Pipeline.ΦA; rw [scopedRest3_eq]; simp only [scM3_0, scM3_1, scM3_2, owns_whole]; try rfl

end Cert.Kernel.Hand

end
-- ==== Proof.BitsFlashRunA.lean ====
/-
  The attention body run whole in case A of its two branches (key tile 0: the accumulators are reset first):
  the pieces each buffer ends with are found by running the body.
-/
import proofs.«101851_j15083925144173_2_alg».proof.Proof.BitsFlashRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the result window's buffer and in the three scratch buffers, as pieces (last first), in
    case A, with the proof that the body runs from the inputs at their contents, the scratch at anything, the result buffer handed back untouched. -/
noncomputable def kernelRun3_A (c : Dev nD) (i : grid3.Coords) (arg2 : Memref sig .tc .vmem S16x512x64 .bf16) (harg2 : arg2.IsWhole) (arg3 : Memref sig .tc .vmem S16x256x64 .bf16) (harg3 : arg3.IsWhole) (arg4 : Memref sig .tc .vmem S16x256x64 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S16x512x1 .f32) (harg8 : arg8.IsWhole) (arg9 : Memref sig .tc .vmem S16x512x1 .f32) (harg9 : arg9.IsWhole) (arg10 : Memref sig .tc .vmem S16x512x64 .f32) (harg10 : arg10.IsWhole) (hc0 : cond3_0 i) (hc1 : ¬cond3_1 i)
    (x0 : Vec F S16x512x64 .bf16) (x1 : Vec F S16x256x64 .bf16) (x2 : Vec F S16x256x64 .bf16) (x3 : Vec F S1024x1024 .bf16) (x4 : Vec F S1x1024 .f32) :
    Σ' (L5 : List (View.Piece (Elt F) S512x1024 .f32)) (LS0 : List (View.Piece (Elt F) S16x512x1 .f32)) (LS1 : List (View.Piece (Elt F) S16x512x1 .f32)), { LS2 : List (View.Piece (Elt F) S16x512x64 .f32) //
      ∀ (xi5 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc3__flash_out_kernel i arg2 harg2 arg3 harg3 arg4 harg4 arg5 harg5 arg6 harg6 arg7 harg7 arg8 harg8 arg9 harg9 arg10 harg10) K } := by
  refine ⟨[], ?_, ?_, ?_, fun xi5 E K => ?run⟩
  case run =>
    simp only [cc3__flash_out_kernel_eq_skeleton]; unfold cc3__flash_out_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.Kernel.Hand

end
-- ==== Proof.BitsFlashRunB.lean ====
/-
  The attention body run whole in case B of its two branches (a middle key tile: the accumulators are carried):
  the pieces each buffer ends with are found by running the body.
-/
import proofs.«101851_j15083925144173_2_alg».proof.Proof.BitsFlashRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the result window's buffer and in the three scratch buffers, as pieces (last first), in
    case B, with the proof that the body runs from the inputs at their contents, the scratch at what the point before left, the result buffer handed back untouched. -/
noncomputable def kernelRun3_B (c : Dev nD) (i : grid3.Coords) (arg2 : Memref sig .tc .vmem S16x512x64 .bf16) (harg2 : arg2.IsWhole) (arg3 : Memref sig .tc .vmem S16x256x64 .bf16) (harg3 : arg3.IsWhole) (arg4 : Memref sig .tc .vmem S16x256x64 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S16x512x1 .f32) (harg8 : arg8.IsWhole) (arg9 : Memref sig .tc .vmem S16x512x1 .f32) (harg9 : arg9.IsWhole) (arg10 : Memref sig .tc .vmem S16x512x64 .f32) (harg10 : arg10.IsWhole) (hc0 : ¬cond3_0 i) (hc1 : ¬cond3_1 i)
    (x0 : Vec F S16x512x64 .bf16) (x1 : Vec F S16x256x64 .bf16) (x2 : Vec F S16x256x64 .bf16) (x3 : Vec F S1024x1024 .bf16) (x4 : Vec F S1x1024 .f32) (xs0 : Vec F S16x512x1 .f32) (xs1 : Vec F S16x512x1 .f32) (xs2 : Vec F S16x512x64 .f32) :
    Σ' (L5 : List (View.Piece (Elt F) S512x1024 .f32)) (LS0 : List (View.Piece (Elt F) S16x512x1 .f32)) (LS1 : List (View.Piece (Elt F) S16x512x1 .f32)), { LS2 : List (View.Piece (Elt F) S16x512x64 .f32) //
      ∀ (xi5 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc3__flash_out_kernel i arg2 harg2 arg3 harg3 arg4 harg4 arg5 harg5 arg6 harg6 arg7 harg7 arg8 harg8 arg9 harg9 arg10 harg10) K } := by
  refine ⟨[], ?_, ?_, ?_, fun xi5 E K => ?run⟩
  case run =>
    simp only [cc3__flash_out_kernel_eq_skeleton]; unfold cc3__flash_out_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.Kernel.Hand

end
-- ==== Proof.BitsFlashRunC.lean ====
/-
  The attention body run whole in case C of its two branches (key tile 15: the accumulators are carried and the result is written):
  the pieces each buffer ends with are found by running the body.
-/
import proofs.«101851_j15083925144173_2_alg».proof.Proof.BitsFlashRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the result window's buffer and in the three scratch buffers, as pieces (last first), in
    case C, with the proof that the body runs from the inputs at their contents, the scratch at what the point before left, the result buffer at anything. -/
noncomputable def kernelRun3_C (c : Dev nD) (i : grid3.Coords) (arg2 : Memref sig .tc .vmem S16x512x64 .bf16) (harg2 : arg2.IsWhole) (arg3 : Memref sig .tc .vmem S16x256x64 .bf16) (harg3 : arg3.IsWhole) (arg4 : Memref sig .tc .vmem S16x256x64 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S16x512x1 .f32) (harg8 : arg8.IsWhole) (arg9 : Memref sig .tc .vmem S16x512x1 .f32) (harg9 : arg9.IsWhole) (arg10 : Memref sig .tc .vmem S16x512x64 .f32) (harg10 : arg10.IsWhole) (hc0 : ¬cond3_0 i) (hc1 : cond3_1 i)
    (x0 : Vec F S16x512x64 .bf16) (x1 : Vec F S16x256x64 .bf16) (x2 : Vec F S16x256x64 .bf16) (x3 : Vec F S1024x1024 .bf16) (x4 : Vec F S1x1024 .f32) (xs0 : Vec F S16x512x1 .f32) (xs1 : Vec F S16x512x1 .f32) (xs2 : Vec F S16x512x64 .f32) :
    Σ' (L5 : List (View.Piece (Elt F) S512x1024 .f32)) (LS0 : List (View.Piece (Elt F) S16x512x1 .f32)) (LS1 : List (View.Piece (Elt F) S16x512x1 .f32)), { LS2 : List (View.Piece (Elt F) S16x512x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc3__flash_out_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc3__flash_out_kernel_eq_skeleton]; unfold cc3__flash_out_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    isplitl [HS1]; · iexists _; iexact HS1
    iexists _; iexact HS2

end Cert.Kernel.Hand

end
-- ==== Proof.BitsFlash.lean ====
/-
  The attention region's proof data: what the result window's buffer and the three scratch buffers hold after each
  grid point (by recursion on the point: the scratch buffers are carried from one key tile to the next and reset at
  key tile 0), the region's invariant (the scratch buffers at those contents), the body obligation at every point, and
  the invariant's two ends.
-/
import proofs.«101851_j15083925144173_2_alg».proof.Proof.BitsFlashRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A's pieces for scratch buffer 0 cover it. -/
theorem scover3_A_0 (c : Dev nD) (i : grid3.Coords) (arg2 : Memref sig .tc .vmem S16x512x64 .bf16) (harg2 : arg2.IsWhole) (arg3 : Memref sig .tc .vmem S16x256x64 .bf16) (harg3 : arg3.IsWhole) (arg4 : Memref sig .tc .vmem S16x256x64 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S16x512x1 .f32) (harg8 : arg8.IsWhole) (arg9 : Memref sig .tc .vmem S16x512x1 .f32) (harg9 : arg9.IsWhole) (arg10 : Memref sig .tc .vmem S16x512x64 .f32) (harg10 : arg10.IsWhole) (hc0 : cond3_0 i) (hc1 : ¬cond3_1 i)
    (x0 : Vec F S16x512x64 .bf16) (x1 : Vec F S16x256x64 .bf16) (x2 : Vec F S16x256x64 .bf16) (x3 : Vec F S1024x1024 .bf16) (x4 : Vec F S1x1024 .f32) (y : S16x512x1.Idx) :
    ∃ pc ∈ (kernelRun3_A c i arg2 harg2 arg3 harg3 arg4 harg4 arg5 harg5 arg6 harg6 arg7 harg7 arg8 harg8 arg9 harg9 arg10 harg10 hc0 hc1 x0 x1 x2 x3 x4).2.1, y ∈ pc.1.set :=
  View.cover_of_tiledL (kernelRun3_A c i arg2 harg2 arg3 harg3 arg4 harg4 arg5 harg5 arg6 harg6 arg7 harg7 arg8 harg8 arg9 harg9 arg10 harg10 hc0 hc1 x0 x1 x2 x3 x4).2.1 S16x512x1.size (by sl_kernel_rfl) y
/-- What case A leaves in scratch buffer 0: its pieces read back. -/
def sout3_A_0 (c : Dev nD) (i : grid3.Coords) (arg2 : Memref sig .tc .vmem S16x512x64 .bf16) (harg2 : arg2.IsWhole) (arg3 : Memref sig .tc .vmem S16x256x64 .bf16) (harg3 : arg3.IsWhole) (arg4 : Memref sig .tc .vmem S16x256x64 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S16x512x1 .f32) (harg8 : arg8.IsWhole) (arg9 : Memref sig .tc .vmem S16x512x1 .f32) (harg9 : arg9.IsWhole) (arg10 : Memref sig .tc .vmem S16x512x64 .f32) (harg10 : arg10.IsWhole) (hc0 : cond3_0 i) (hc1 : ¬cond3_1 i)
    (x0 : Vec F S16x512x64 .bf16) (x1 : Vec F S16x256x64 .bf16) (x2 : Vec F S16x256x64 .bf16) (x3 : Vec F S1024x1024 .bf16) (x4 : Vec F S1x1024 .f32) : Vec F S16x512x1 .f32 :=
  VS3_0.read (Elt F) (VS3_0.writes (Elt F) VS3_0.junk (kernelRun3_A c i arg2 harg2 arg3 harg3 arg4 harg4 arg5 harg5 arg6 harg6 arg7 harg7 arg8 harg8 arg9 harg9 arg10 harg10 hc0 hc1 x0 x1 x2 x3 x4).2.1)

/-- Case A's pieces for scratch buffer 1 cover it. -/
theorem scover3_A_1 (c : Dev nD) (i : grid3.Coords) (arg2 : Memref sig .tc .vmem S16x512x64 .bf16) (harg2 : arg2.IsWhole) (arg3 : Memref sig .tc .vmem S16x256x64 .bf16) (harg3 : arg3.IsWhole) (arg4 : Memref sig .tc .vmem S16x256x64 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S16x512x1 .f32) (harg8 : arg8.IsWhole) (arg9 : Memref sig .tc .vmem S16x512x1 .f32) (harg9 : arg9.IsWhole) (arg10 : Memref sig .tc .vmem S16x512x64 .f32) (harg10 : arg10.IsWhole) (hc0 : cond3_0 i) (hc1 : ¬cond3_1 i)
    (x0 : Vec F S16x512x64 .bf16) (x1 : Vec F S16x256x64 .bf16) (x2 : Vec F S16x256x64 .bf16) (x3 : Vec F S1024x1024 .bf16) (x4 : Vec F S1x1024 .f32) (y : S16x512x1.Idx) :
    ∃ pc ∈ (kernelRun3_A c i arg2 harg2 arg3 harg3 arg4 harg4 arg5 harg5 arg6 harg6 arg7 harg7 arg8 harg8 arg9 harg9 arg10 harg10 hc0 hc1 x0 x1 x2 x3 x4).2.2.1, y ∈ pc.1.set :=
  View.cover_of_tiledL (kernelRun3_A c i arg2 harg2 arg3 harg3 arg4 harg4 arg5 harg5 arg6 harg6 arg7 harg7 arg8 harg8 arg9 harg9 arg10 harg10 hc0 hc1 x0 x1 x2 x3 x4).2.2.1 S16x512x1.size (by sl_kernel_rfl) y
/-- What case A leaves in scratch buffer 1: its pieces read back. -/
def sout3_A_1 (c : Dev nD) (i : grid3.Coords) (arg2 : Memref sig .tc .vmem S16x512x64 .bf16) (harg2 : arg2.IsWhole) (arg3 : Memref sig .tc .vmem S16x256x64 .bf16) (harg3 : arg3.IsWhole) (arg4 : Memref sig .tc .vmem S16x256x64 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S16x512x1 .f32) (harg8 : arg8.IsWhole) (arg9 : Memref sig .tc .vmem S16x512x1 .f32) (harg9 : arg9.IsWhole) (arg10 : Memref sig .tc .vmem S16x512x64 .f32) (harg10 : arg10.IsWhole) (hc0 : cond3_0 i) (hc1 : ¬cond3_1 i)
    (x0 : Vec F S16x512x64 .bf16) (x1 : Vec F S16x256x64 .bf16) (x2 : Vec F S16x256x64 .bf16) (x3 : Vec F S1024x1024 .bf16) (x4 : Vec F S1x1024 .f32) : Vec F S16x512x1 .f32 :=
  VS3_1.read (Elt F) (VS3_1.writes (Elt F) VS3_1.junk (kernelRun3_A c i arg2 harg2 arg3 harg3 arg4 harg4 arg5 harg5 arg6 harg6 arg7 harg7 arg8 harg8 arg9 harg9 arg10 harg10 hc0 hc1 x0 x1 x2 x3 x4).2.2.1)

/-- Case A's pieces for scratch buffer 2 cover it. -/
theorem scover3_A_2 (c : Dev nD) (i : grid3.Coords) (arg2 : Memref sig .tc .vmem S16x512x64 .bf16) (harg2 : arg2.IsWhole) (arg3 : Memref sig .tc .vmem S16x256x64 .bf16) (harg3 : arg3.IsWhole) (arg4 : Memref sig .tc .vmem S16x256x64 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S16x512x1 .f32) (harg8 : arg8.IsWhole) (arg9 : Memref sig .tc .vmem S16x512x1 .f32) (harg9 : arg9.IsWhole) (arg10 : Memref sig .tc .vmem S16x512x64 .f32) (harg10 : arg10.IsWhole) (hc0 : cond3_0 i) (hc1 : ¬cond3_1 i)
    (x0 : Vec F S16x512x64 .bf16) (x1 : Vec F S16x256x64 .bf16) (x2 : Vec F S16x256x64 .bf16) (x3 : Vec F S1024x1024 .bf16) (x4 : Vec F S1x1024 .f32) (y : S16x512x64.Idx) :
    ∃ pc ∈ (kernelRun3_A c i arg2 harg2 arg3 harg3 arg4 harg4 arg5 harg5 arg6 harg6 arg7 harg7 arg8 harg8 arg9 harg9 arg10 harg10 hc0 hc1 x0 x1 x2 x3 x4).2.2.2.1, y ∈ pc.1.set :=
  View.cover_of_tiledL (kernelRun3_A c i arg2 harg2 arg3 harg3 arg4 harg4 arg5 harg5 arg6 harg6 arg7 harg7 arg8 harg8 arg9 harg9 arg10 harg10 hc0 hc1 x0 x1 x2 x3 x4).2.2.2.1 S16x512x64.size (by sl_kernel_rfl) y
/-- What case A leaves in scratch buffer 2: its pieces read back. -/
def sout3_A_2 (c : Dev nD) (i : grid3.Coords) (arg2 : Memref sig .tc .vmem S16x512x64 .bf16) (harg2 : arg2.IsWhole) (arg3 : Memref sig .tc .vmem S16x256x64 .bf16) (harg3 : arg3.IsWhole) (arg4 : Memref sig .tc .vmem S16x256x64 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S16x512x1 .f32) (harg8 : arg8.IsWhole) (arg9 : Memref sig .tc .vmem S16x512x1 .f32) (harg9 : arg9.IsWhole) (arg10 : Memref sig .tc .vmem S16x512x64 .f32) (harg10 : arg10.IsWhole) (hc0 : cond3_0 i) (hc1 : ¬cond3_1 i)
    (x0 : Vec F S16x512x64 .bf16) (x1 : Vec F S16x256x64 .bf16) (x2 : Vec F S16x256x64 .bf16) (x3 : Vec F S1024x1024 .bf16) (x4 : Vec F S1x1024 .f32) : Vec F S16x512x64 .f32 :=
  VS3_2.read (Elt F) (VS3_2.writes (Elt F) VS3_2.junk (kernelRun3_A c i arg2 harg2 arg3 harg3 arg4 harg4 arg5 harg5 arg6 harg6 arg7 harg7 arg8 harg8 arg9 harg9 arg10 harg10 hc0 hc1 x0 x1 x2 x3 x4).2.2.2.1)

/-- What case A leaves in the result window's buffer (nothing is stored there: a placeholder nothing consults). -/
def out3_A_5 (c : Dev nD) (i : grid3.Coords) (arg2 : Memref sig .tc .vmem S16x512x64 .bf16) (harg2 : arg2.IsWhole) (arg3 : Memref sig .tc .vmem S16x256x64 .bf16) (harg3 : arg3.IsWhole) (arg4 : Memref sig .tc .vmem S16x256x64 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S16x512x1 .f32) (harg8 : arg8.IsWhole) (arg9 : Memref sig .tc .vmem S16x512x1 .f32) (harg9 : arg9.IsWhole) (arg10 : Memref sig .tc .vmem S16x512x64 .f32) (harg10 : arg10.IsWhole) (hc0 : cond3_0 i) (hc1 : ¬cond3_1 i)
    (x0 : Vec F S16x512x64 .bf16) (x1 : Vec F S16x256x64 .bf16) (x2 : Vec F S16x256x64 .bf16) (x3 : Vec F S1024x1024 .bf16) (x4 : Vec F S1x1024 .f32) : Vec F S512x1024 .f32 :=
  VO3_5.read (Elt F) (VO3_5.writes (Elt F) VO3_5.junk (kernelRun3_A c i arg2 harg2 arg3 harg3 arg4 harg4 arg5 harg5 arg6 harg6 arg7 harg7 arg8 harg8 arg9 harg9 arg10 harg10 hc0 hc1 x0 x1 x2 x3 x4).1)

/-- Case B's pieces for scratch buffer 0 cover it. -/
theorem scover3_B_0 (c : Dev nD) (i : grid3.Coords) (arg2 : Memref sig .tc .vmem S16x512x64 .bf16) (harg2 : arg2.IsWhole) (arg3 : Memref sig .tc .vmem S16x256x64 .bf16) (harg3 : arg3.IsWhole) (arg4 : Memref sig .tc .vmem S16x256x64 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S16x512x1 .f32) (harg8 : arg8.IsWhole) (arg9 : Memref sig .tc .vmem S16x512x1 .f32) (harg9 : arg9.IsWhole) (arg10 : Memref sig .tc .vmem S16x512x64 .f32) (harg10 : arg10.IsWhole) (hc0 : ¬cond3_0 i) (hc1 : ¬cond3_1 i)
    (x0 : Vec F S16x512x64 .bf16) (x1 : Vec F S16x256x64 .bf16) (x2 : Vec F S16x256x64 .bf16) (x3 : Vec F S1024x1024 .bf16) (x4 : Vec F S1x1024 .f32) (xs0 : Vec F S16x512x1 .f32) (xs1 : Vec F S16x512x1 .f32) (xs2 : Vec F S16x512x64 .f32) (y : S16x512x1.Idx) :
    ∃ pc ∈ (kernelRun3_B c i arg2 harg2 arg3 harg3 arg4 harg4 arg5 harg5 arg6 harg6 arg7 harg7 arg8 harg8 arg9 harg9 arg10 harg10 hc0 hc1 x0 x1 x2 x3 x4 xs0 xs1 xs2).2.1, y ∈ pc.1.set :=
  View.cover_of_tiledL (kernelRun3_B c i arg2 harg2 arg3 harg3 arg4 harg4 arg5 harg5 arg6 harg6 arg7 harg7 arg8 harg8 arg9 harg9 arg10 harg10 hc0 hc1 x0 x1 x2 x3 x4 xs0 xs1 xs2).2.1 S16x512x1.size (by sl_kernel_rfl) y
/-- What case B leaves in scratch buffer 0: its pieces read back. -/
def sout3_B_0 (c : Dev nD) (i : grid3.Coords) (arg2 : Memref sig .tc .vmem S16x512x64 .bf16) (harg2 : arg2.IsWhole) (arg3 : Memref sig .tc .vmem S16x256x64 .bf16) (harg3 : arg3.IsWhole) (arg4 : Memref sig .tc .vmem S16x256x64 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S16x512x1 .f32) (harg8 : arg8.IsWhole) (arg9 : Memref sig .tc .vmem S16x512x1 .f32) (harg9 : arg9.IsWhole) (arg10 : Memref sig .tc .vmem S16x512x64 .f32) (harg10 : arg10.IsWhole) (hc0 : ¬cond3_0 i) (hc1 : ¬cond3_1 i)
    (x0 : Vec F S16x512x64 .bf16) (x1 : Vec F S16x256x64 .bf16) (x2 : Vec F S16x256x64 .bf16) (x3 : Vec F S1024x1024 .bf16) (x4 : Vec F S1x1024 .f32) (xs0 : Vec F S16x512x1 .f32) (xs1 : Vec F S16x512x1 .f32) (xs2 : Vec F S16x512x64 .f32) : Vec F S16x512x1 .f32 :=
  VS3_0.read (Elt F) (VS3_0.writes (Elt F) VS3_0.junk (kernelRun3_B c i arg2 harg2 arg3 harg3 arg4 harg4 arg5 harg5 arg6 harg6 arg7 harg7 arg8 harg8 arg9 harg9 arg10 harg10 hc0 hc1 x0 x1 x2 x3 x4 xs0 xs1 xs2).2.1)

/-- Case B's pieces for scratch buffer 1 cover it. -/
theorem scover3_B_1 (c : Dev nD) (i : grid3.Coords) (arg2 : Memref sig .tc .vmem S16x512x64 .bf16) (harg2 : arg2.IsWhole) (arg3 : Memref sig .tc .vmem S16x256x64 .bf16) (harg3 : arg3.IsWhole) (arg4 : Memref sig .tc .vmem S16x256x64 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S16x512x1 .f32) (harg8 : arg8.IsWhole) (arg9 : Memref sig .tc .vmem S16x512x1 .f32) (harg9 : arg9.IsWhole) (arg10 : Memref sig .tc .vmem S16x512x64 .f32) (harg10 : arg10.IsWhole) (hc0 : ¬cond3_0 i) (hc1 : ¬cond3_1 i)
    (x0 : Vec F S16x512x64 .bf16) (x1 : Vec F S16x256x64 .bf16) (x2 : Vec F S16x256x64 .bf16) (x3 : Vec F S1024x1024 .bf16) (x4 : Vec F S1x1024 .f32) (xs0 : Vec F S16x512x1 .f32) (xs1 : Vec F S16x512x1 .f32) (xs2 : Vec F S16x512x64 .f32) (y : S16x512x1.Idx) :
    ∃ pc ∈ (kernelRun3_B c i arg2 harg2 arg3 harg3 arg4 harg4 arg5 harg5 arg6 harg6 arg7 harg7 arg8 harg8 arg9 harg9 arg10 harg10 hc0 hc1 x0 x1 x2 x3 x4 xs0 xs1 xs2).2.2.1, y ∈ pc.1.set :=
  View.cover_of_tiledL (kernelRun3_B c i arg2 harg2 arg3 harg3 arg4 harg4 arg5 harg5 arg6 harg6 arg7 harg7 arg8 harg8 arg9 harg9 arg10 harg10 hc0 hc1 x0 x1 x2 x3 x4 xs0 xs1 xs2).2.2.1 S16x512x1.size (by sl_kernel_rfl) y
/-- What case B leaves in scratch buffer 1: its pieces read back. -/
def sout3_B_1 (c : Dev nD) (i : grid3.Coords) (arg2 : Memref sig .tc .vmem S16x512x64 .bf16) (harg2 : arg2.IsWhole) (arg3 : Memref sig .tc .vmem S16x256x64 .bf16) (harg3 : arg3.IsWhole) (arg4 : Memref sig .tc .vmem S16x256x64 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S16x512x1 .f32) (harg8 : arg8.IsWhole) (arg9 : Memref sig .tc .vmem S16x512x1 .f32) (harg9 : arg9.IsWhole) (arg10 : Memref sig .tc .vmem S16x512x64 .f32) (harg10 : arg10.IsWhole) (hc0 : ¬cond3_0 i) (hc1 : ¬cond3_1 i)
    (x0 : Vec F S16x512x64 .bf16) (x1 : Vec F S16x256x64 .bf16) (x2 : Vec F S16x256x64 .bf16) (x3 : Vec F S1024x1024 .bf16) (x4 : Vec F S1x1024 .f32) (xs0 : Vec F S16x512x1 .f32) (xs1 : Vec F S16x512x1 .f32) (xs2 : Vec F S16x512x64 .f32) : Vec F S16x512x1 .f32 :=
  VS3_1.read (Elt F) (VS3_1.writes (Elt F) VS3_1.junk (kernelRun3_B c i arg2 harg2 arg3 harg3 arg4 harg4 arg5 harg5 arg6 harg6 arg7 harg7 arg8 harg8 arg9 harg9 arg10 harg10 hc0 hc1 x0 x1 x2 x3 x4 xs0 xs1 xs2).2.2.1)

/-- Case B's pieces for scratch buffer 2 cover it. -/
theorem scover3_B_2 (c : Dev nD) (i : grid3.Coords) (arg2 : Memref sig .tc .vmem S16x512x64 .bf16) (harg2 : arg2.IsWhole) (arg3 : Memref sig .tc .vmem S16x256x64 .bf16) (harg3 : arg3.IsWhole) (arg4 : Memref sig .tc .vmem S16x256x64 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S16x512x1 .f32) (harg8 : arg8.IsWhole) (arg9 : Memref sig .tc .vmem S16x512x1 .f32) (harg9 : arg9.IsWhole) (arg10 : Memref sig .tc .vmem S16x512x64 .f32) (harg10 : arg10.IsWhole) (hc0 : ¬cond3_0 i) (hc1 : ¬cond3_1 i)
    (x0 : Vec F S16x512x64 .bf16) (x1 : Vec F S16x256x64 .bf16) (x2 : Vec F S16x256x64 .bf16) (x3 : Vec F S1024x1024 .bf16) (x4 : Vec F S1x1024 .f32) (xs0 : Vec F S16x512x1 .f32) (xs1 : Vec F S16x512x1 .f32) (xs2 : Vec F S16x512x64 .f32) (y : S16x512x64.Idx) :
    ∃ pc ∈ (kernelRun3_B c i arg2 harg2 arg3 harg3 arg4 harg4 arg5 harg5 arg6 harg6 arg7 harg7 arg8 harg8 arg9 harg9 arg10 harg10 hc0 hc1 x0 x1 x2 x3 x4 xs0 xs1 xs2).2.2.2.1, y ∈ pc.1.set :=
  View.cover_of_tiledL (kernelRun3_B c i arg2 harg2 arg3 harg3 arg4 harg4 arg5 harg5 arg6 harg6 arg7 harg7 arg8 harg8 arg9 harg9 arg10 harg10 hc0 hc1 x0 x1 x2 x3 x4 xs0 xs1 xs2).2.2.2.1 S16x512x64.size (by sl_kernel_rfl) y
/-- What case B leaves in scratch buffer 2: its pieces read back. -/
def sout3_B_2 (c : Dev nD) (i : grid3.Coords) (arg2 : Memref sig .tc .vmem S16x512x64 .bf16) (harg2 : arg2.IsWhole) (arg3 : Memref sig .tc .vmem S16x256x64 .bf16) (harg3 : arg3.IsWhole) (arg4 : Memref sig .tc .vmem S16x256x64 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S16x512x1 .f32) (harg8 : arg8.IsWhole) (arg9 : Memref sig .tc .vmem S16x512x1 .f32) (harg9 : arg9.IsWhole) (arg10 : Memref sig .tc .vmem S16x512x64 .f32) (harg10 : arg10.IsWhole) (hc0 : ¬cond3_0 i) (hc1 : ¬cond3_1 i)
    (x0 : Vec F S16x512x64 .bf16) (x1 : Vec F S16x256x64 .bf16) (x2 : Vec F S16x256x64 .bf16) (x3 : Vec F S1024x1024 .bf16) (x4 : Vec F S1x1024 .f32) (xs0 : Vec F S16x512x1 .f32) (xs1 : Vec F S16x512x1 .f32) (xs2 : Vec F S16x512x64 .f32) : Vec F S16x512x64 .f32 :=
  VS3_2.read (Elt F) (VS3_2.writes (Elt F) VS3_2.junk (kernelRun3_B c i arg2 harg2 arg3 harg3 arg4 harg4 arg5 harg5 arg6 harg6 arg7 harg7 arg8 harg8 arg9 harg9 arg10 harg10 hc0 hc1 x0 x1 x2 x3 x4 xs0 xs1 xs2).2.2.2.1)

/-- What case B leaves in the result window's buffer (nothing is stored there: a placeholder nothing consults). -/
def out3_B_5 (c : Dev nD) (i : grid3.Coords) (arg2 : Memref sig .tc .vmem S16x512x64 .bf16) (harg2 : arg2.IsWhole) (arg3 : Memref sig .tc .vmem S16x256x64 .bf16) (harg3 : arg3.IsWhole) (arg4 : Memref sig .tc .vmem S16x256x64 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S16x512x1 .f32) (harg8 : arg8.IsWhole) (arg9 : Memref sig .tc .vmem S16x512x1 .f32) (harg9 : arg9.IsWhole) (arg10 : Memref sig .tc .vmem S16x512x64 .f32) (harg10 : arg10.IsWhole) (hc0 : ¬cond3_0 i) (hc1 : ¬cond3_1 i)
    (x0 : Vec F S16x512x64 .bf16) (x1 : Vec F S16x256x64 .bf16) (x2 : Vec F S16x256x64 .bf16) (x3 : Vec F S1024x1024 .bf16) (x4 : Vec F S1x1024 .f32) (xs0 : Vec F S16x512x1 .f32) (xs1 : Vec F S16x512x1 .f32) (xs2 : Vec F S16x512x64 .f32) : Vec F S512x1024 .f32 :=
  VO3_5.read (Elt F) (VO3_5.writes (Elt F) VO3_5.junk (kernelRun3_B c i arg2 harg2 arg3 harg3 arg4 harg4 arg5 harg5 arg6 harg6 arg7 harg7 arg8 harg8 arg9 harg9 arg10 harg10 hc0 hc1 x0 x1 x2 x3 x4 xs0 xs1 xs2).1)

/-- Case C's pieces for scratch buffer 0 cover it. -/
theorem scover3_C_0 (c : Dev nD) (i : grid3.Coords) (arg2 : Memref sig .tc .vmem S16x512x64 .bf16) (harg2 : arg2.IsWhole) (arg3 : Memref sig .tc .vmem S16x256x64 .bf16) (harg3 : arg3.IsWhole) (arg4 : Memref sig .tc .vmem S16x256x64 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S16x512x1 .f32) (harg8 : arg8.IsWhole) (arg9 : Memref sig .tc .vmem S16x512x1 .f32) (harg9 : arg9.IsWhole) (arg10 : Memref sig .tc .vmem S16x512x64 .f32) (harg10 : arg10.IsWhole) (hc0 : ¬cond3_0 i) (hc1 : cond3_1 i)
    (x0 : Vec F S16x512x64 .bf16) (x1 : Vec F S16x256x64 .bf16) (x2 : Vec F S16x256x64 .bf16) (x3 : Vec F S1024x1024 .bf16) (x4 : Vec F S1x1024 .f32) (xs0 : Vec F S16x512x1 .f32) (xs1 : Vec F S16x512x1 .f32) (xs2 : Vec F S16x512x64 .f32) (y : S16x512x1.Idx) :
    ∃ pc ∈ (kernelRun3_C c i arg2 harg2 arg3 harg3 arg4 harg4 arg5 harg5 arg6 harg6 arg7 harg7 arg8 harg8 arg9 harg9 arg10 harg10 hc0 hc1 x0 x1 x2 x3 x4 xs0 xs1 xs2).2.1, y ∈ pc.1.set :=
  View.cover_of_tiledL (kernelRun3_C c i arg2 harg2 arg3 harg3 arg4 harg4 arg5 harg5 arg6 harg6 arg7 harg7 arg8 harg8 arg9 harg9 arg10 harg10 hc0 hc1 x0 x1 x2 x3 x4 xs0 xs1 xs2).2.1 S16x512x1.size (by sl_kernel_rfl) y
/-- What case C leaves in scratch buffer 0: its pieces read back. -/
def sout3_C_0 (c : Dev nD) (i : grid3.Coords) (arg2 : Memref sig .tc .vmem S16x512x64 .bf16) (harg2 : arg2.IsWhole) (arg3 : Memref sig .tc .vmem S16x256x64 .bf16) (harg3 : arg3.IsWhole) (arg4 : Memref sig .tc .vmem S16x256x64 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S16x512x1 .f32) (harg8 : arg8.IsWhole) (arg9 : Memref sig .tc .vmem S16x512x1 .f32) (harg9 : arg9.IsWhole) (arg10 : Memref sig .tc .vmem S16x512x64 .f32) (harg10 : arg10.IsWhole) (hc0 : ¬cond3_0 i) (hc1 : cond3_1 i)
    (x0 : Vec F S16x512x64 .bf16) (x1 : Vec F S16x256x64 .bf16) (x2 : Vec F S16x256x64 .bf16) (x3 : Vec F S1024x1024 .bf16) (x4 : Vec F S1x1024 .f32) (xs0 : Vec F S16x512x1 .f32) (xs1 : Vec F S16x512x1 .f32) (xs2 : Vec F S16x512x64 .f32) : Vec F S16x512x1 .f32 :=
  VS3_0.read (Elt F) (VS3_0.writes (Elt F) VS3_0.junk (kernelRun3_C c i arg2 harg2 arg3 harg3 arg4 harg4 arg5 harg5 arg6 harg6 arg7 harg7 arg8 harg8 arg9 harg9 arg10 harg10 hc0 hc1 x0 x1 x2 x3 x4 xs0 xs1 xs2).2.1)

/-- Case C's pieces for scratch buffer 1 cover it. -/
theorem scover3_C_1 (c : Dev nD) (i : grid3.Coords) (arg2 : Memref sig .tc .vmem S16x512x64 .bf16) (harg2 : arg2.IsWhole) (arg3 : Memref sig .tc .vmem S16x256x64 .bf16) (harg3 : arg3.IsWhole) (arg4 : Memref sig .tc .vmem S16x256x64 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S16x512x1 .f32) (harg8 : arg8.IsWhole) (arg9 : Memref sig .tc .vmem S16x512x1 .f32) (harg9 : arg9.IsWhole) (arg10 : Memref sig .tc .vmem S16x512x64 .f32) (harg10 : arg10.IsWhole) (hc0 : ¬cond3_0 i) (hc1 : cond3_1 i)
    (x0 : Vec F S16x512x64 .bf16) (x1 : Vec F S16x256x64 .bf16) (x2 : Vec F S16x256x64 .bf16) (x3 : Vec F S1024x1024 .bf16) (x4 : Vec F S1x1024 .f32) (xs0 : Vec F S16x512x1 .f32) (xs1 : Vec F S16x512x1 .f32) (xs2 : Vec F S16x512x64 .f32) (y : S16x512x1.Idx) :
    ∃ pc ∈ (kernelRun3_C c i arg2 harg2 arg3 harg3 arg4 harg4 arg5 harg5 arg6 harg6 arg7 harg7 arg8 harg8 arg9 harg9 arg10 harg10 hc0 hc1 x0 x1 x2 x3 x4 xs0 xs1 xs2).2.2.1, y ∈ pc.1.set :=
  View.cover_of_tiledL (kernelRun3_C c i arg2 harg2 arg3 harg3 arg4 harg4 arg5 harg5 arg6 harg6 arg7 harg7 arg8 harg8 arg9 harg9 arg10 harg10 hc0 hc1 x0 x1 x2 x3 x4 xs0 xs1 xs2).2.2.1 S16x512x1.size (by sl_kernel_rfl) y
/-- What case C leaves in scratch buffer 1: its pieces read back. -/
def sout3_C_1 (c : Dev nD) (i : grid3.Coords) (arg2 : Memref sig .tc .vmem S16x512x64 .bf16) (harg2 : arg2.IsWhole) (arg3 : Memref sig .tc .vmem S16x256x64 .bf16) (harg3 : arg3.IsWhole) (arg4 : Memref sig .tc .vmem S16x256x64 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S16x512x1 .f32) (harg8 : arg8.IsWhole) (arg9 : Memref sig .tc .vmem S16x512x1 .f32) (harg9 : arg9.IsWhole) (arg10 : Memref sig .tc .vmem S16x512x64 .f32) (harg10 : arg10.IsWhole) (hc0 : ¬cond3_0 i) (hc1 : cond3_1 i)
    (x0 : Vec F S16x512x64 .bf16) (x1 : Vec F S16x256x64 .bf16) (x2 : Vec F S16x256x64 .bf16) (x3 : Vec F S1024x1024 .bf16) (x4 : Vec F S1x1024 .f32) (xs0 : Vec F S16x512x1 .f32) (xs1 : Vec F S16x512x1 .f32) (xs2 : Vec F S16x512x64 .f32) : Vec F S16x512x1 .f32 :=
  VS3_1.read (Elt F) (VS3_1.writes (Elt F) VS3_1.junk (kernelRun3_C c i arg2 harg2 arg3 harg3 arg4 harg4 arg5 harg5 arg6 harg6 arg7 harg7 arg8 harg8 arg9 harg9 arg10 harg10 hc0 hc1 x0 x1 x2 x3 x4 xs0 xs1 xs2).2.2.1)

/-- Case C's pieces for scratch buffer 2 cover it. -/
theorem scover3_C_2 (c : Dev nD) (i : grid3.Coords) (arg2 : Memref sig .tc .vmem S16x512x64 .bf16) (harg2 : arg2.IsWhole) (arg3 : Memref sig .tc .vmem S16x256x64 .bf16) (harg3 : arg3.IsWhole) (arg4 : Memref sig .tc .vmem S16x256x64 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S16x512x1 .f32) (harg8 : arg8.IsWhole) (arg9 : Memref sig .tc .vmem S16x512x1 .f32) (harg9 : arg9.IsWhole) (arg10 : Memref sig .tc .vmem S16x512x64 .f32) (harg10 : arg10.IsWhole) (hc0 : ¬cond3_0 i) (hc1 : cond3_1 i)
    (x0 : Vec F S16x512x64 .bf16) (x1 : Vec F S16x256x64 .bf16) (x2 : Vec F S16x256x64 .bf16) (x3 : Vec F S1024x1024 .bf16) (x4 : Vec F S1x1024 .f32) (xs0 : Vec F S16x512x1 .f32) (xs1 : Vec F S16x512x1 .f32) (xs2 : Vec F S16x512x64 .f32) (y : S16x512x64.Idx) :
    ∃ pc ∈ (kernelRun3_C c i arg2 harg2 arg3 harg3 arg4 harg4 arg5 harg5 arg6 harg6 arg7 harg7 arg8 harg8 arg9 harg9 arg10 harg10 hc0 hc1 x0 x1 x2 x3 x4 xs0 xs1 xs2).2.2.2.1, y ∈ pc.1.set :=
  View.cover_of_tiledL (kernelRun3_C c i arg2 harg2 arg3 harg3 arg4 harg4 arg5 harg5 arg6 harg6 arg7 harg7 arg8 harg8 arg9 harg9 arg10 harg10 hc0 hc1 x0 x1 x2 x3 x4 xs0 xs1 xs2).2.2.2.1 S16x512x64.size (by sl_kernel_rfl) y
/-- What case C leaves in scratch buffer 2: its pieces read back. -/
def sout3_C_2 (c : Dev nD) (i : grid3.Coords) (arg2 : Memref sig .tc .vmem S16x512x64 .bf16) (harg2 : arg2.IsWhole) (arg3 : Memref sig .tc .vmem S16x256x64 .bf16) (harg3 : arg3.IsWhole) (arg4 : Memref sig .tc .vmem S16x256x64 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S16x512x1 .f32) (harg8 : arg8.IsWhole) (arg9 : Memref sig .tc .vmem S16x512x1 .f32) (harg9 : arg9.IsWhole) (arg10 : Memref sig .tc .vmem S16x512x64 .f32) (harg10 : arg10.IsWhole) (hc0 : ¬cond3_0 i) (hc1 : cond3_1 i)
    (x0 : Vec F S16x512x64 .bf16) (x1 : Vec F S16x256x64 .bf16) (x2 : Vec F S16x256x64 .bf16) (x3 : Vec F S1024x1024 .bf16) (x4 : Vec F S1x1024 .f32) (xs0 : Vec F S16x512x1 .f32) (xs1 : Vec F S16x512x1 .f32) (xs2 : Vec F S16x512x64 .f32) : Vec F S16x512x64 .f32 :=
  VS3_2.read (Elt F) (VS3_2.writes (Elt F) VS3_2.junk (kernelRun3_C c i arg2 harg2 arg3 harg3 arg4 harg4 arg5 harg5 arg6 harg6 arg7 harg7 arg8 harg8 arg9 harg9 arg10 harg10 hc0 hc1 x0 x1 x2 x3 x4 xs0 xs1 xs2).2.2.2.1)

/-- Case C's pieces for the result window tile its block. -/
theorem cover3_C_5 (c : Dev nD) (i : grid3.Coords) (arg2 : Memref sig .tc .vmem S16x512x64 .bf16) (harg2 : arg2.IsWhole) (arg3 : Memref sig .tc .vmem S16x256x64 .bf16) (harg3 : arg3.IsWhole) (arg4 : Memref sig .tc .vmem S16x256x64 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S16x512x1 .f32) (harg8 : arg8.IsWhole) (arg9 : Memref sig .tc .vmem S16x512x1 .f32) (harg9 : arg9.IsWhole) (arg10 : Memref sig .tc .vmem S16x512x64 .f32) (harg10 : arg10.IsWhole) (hc0 : ¬cond3_0 i) (hc1 : cond3_1 i)
    (x0 : Vec F S16x512x64 .bf16) (x1 : Vec F S16x256x64 .bf16) (x2 : Vec F S16x256x64 .bf16) (x3 : Vec F S1024x1024 .bf16) (x4 : Vec F S1x1024 .f32) (xs0 : Vec F S16x512x1 .f32) (xs1 : Vec F S16x512x1 .f32) (xs2 : Vec F S16x512x64 .f32) (y : S512x1024.Idx) :
    ∃ pc ∈ (kernelRun3_C c i arg2 harg2 arg3 harg3 arg4 harg4 arg5 harg5 arg6 harg6 arg7 harg7 arg8 harg8 arg9 harg9 arg10 harg10 hc0 hc1 x0 x1 x2 x3 x4 xs0 xs1 xs2).1, y ∈ pc.1.set :=
  View.cover_of_tiledL (kernelRun3_C c i arg2 harg2 arg3 harg3 arg4 harg4 arg5 harg5 arg6 harg6 arg7 harg7 arg8 harg8 arg9 harg9 arg10 harg10 hc0 hc1 x0 x1 x2 x3 x4 xs0 xs1 xs2).1 S512x1024.size (by sl_kernel_rfl) y

/-- What case C leaves in the result window's buffer. -/
def out3_C_5 (c : Dev nD) (i : grid3.Coords) (arg2 : Memref sig .tc .vmem S16x512x64 .bf16) (harg2 : arg2.IsWhole) (arg3 : Memref sig .tc .vmem S16x256x64 .bf16) (harg3 : arg3.IsWhole) (arg4 : Memref sig .tc .vmem S16x256x64 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S16x512x1 .f32) (harg8 : arg8.IsWhole) (arg9 : Memref sig .tc .vmem S16x512x1 .f32) (harg9 : arg9.IsWhole) (arg10 : Memref sig .tc .vmem S16x512x64 .f32) (harg10 : arg10.IsWhole) (hc0 : ¬cond3_0 i) (hc1 : cond3_1 i)
    (x0 : Vec F S16x512x64 .bf16) (x1 : Vec F S16x256x64 .bf16) (x2 : Vec F S16x256x64 .bf16) (x3 : Vec F S1024x1024 .bf16) (x4 : Vec F S1x1024 .f32) (xs0 : Vec F S16x512x1 .f32) (xs1 : Vec F S16x512x1 .f32) (xs2 : Vec F S16x512x64 .f32) : Vec F S512x1024 .f32 :=
  VO3_5.read (Elt F) (VO3_5.writes (Elt F) VO3_5.junk (kernelRun3_C c i arg2 harg2 arg3 harg3 arg4 harg4 arg5 harg5 arg6 harg6 arg7 harg7 arg8 harg8 arg9 harg9 arg10 harg10 hc0 hc1 x0 x1 x2 x3 x4 xs0 xs1 xs2).1)

/-- The four buffers after a point of case A (key tile 0). -/
def tupA (c : Dev nD) (t : Fin cfg3.N) (h0 : t.val % 16 = 0) (h1 : ¬t.val % 16 = 15) : Vec F S512x1024 .f32 × Vec F S16x512x1 .f32 × Vec F S16x512x1 .f32 × Vec F S16x512x64 .f32 :=
  (out3_A_5 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t) (iblk3 V c 3 t) (iblk3 V c 4 t), sout3_A_0 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t) (iblk3 V c 3 t) (iblk3 V c 4 t), sout3_A_1 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t) (iblk3 V c 3 t) (iblk3 V c 4 t), sout3_A_2 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t) (iblk3 V c 3 t) (iblk3 V c 4 t))
/-- The four buffers after a point of case B (a middle key tile), over what the point before left in the scratch. -/
def tupB (c : Dev nD) (t : Fin cfg3.N) (h0 : ¬t.val % 16 = 0) (h1 : ¬t.val % 16 = 15) (xs0 : Vec F S16x512x1 .f32) (xs1 : Vec F S16x512x1 .f32) (xs2 : Vec F S16x512x64 .f32) : Vec F S512x1024 .f32 × Vec F S16x512x1 .f32 × Vec F S16x512x1 .f32 × Vec F S16x512x64 .f32 :=
  (out3_B_5 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) xs0 xs1 xs2, sout3_B_0 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) xs0 xs1 xs2, sout3_B_1 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) xs0 xs1 xs2, sout3_B_2 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) xs0 xs1 xs2)
/-- The four buffers after a point of case C (key tile 15), over what the point before left in the scratch. -/
def tupC (c : Dev nD) (t : Fin cfg3.N) (h0 : ¬t.val % 16 = 0) (h1 : t.val % 16 = 15) (xs0 : Vec F S16x512x1 .f32) (xs1 : Vec F S16x512x1 .f32) (xs2 : Vec F S16x512x64 .f32) : Vec F S512x1024 .f32 × Vec F S16x512x1 .f32 × Vec F S16x512x1 .f32 × Vec F S16x512x64 .f32 :=
  (out3_C_5 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) (iblk3 V c 3 t) (iblk3 V c 4 t) xs0 xs1 xs2, sout3_C_0 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) (iblk3 V c 3 t) (iblk3 V c 4 t) xs0 xs1 xs2, sout3_C_1 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) (iblk3 V c 3 t) (iblk3 V c 4 t) xs0 xs1 xs2, sout3_C_2 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) (iblk3 V c 3 t) (iblk3 V c 4 t) xs0 xs1 xs2)

/-- What the result window's buffer and the three scratch buffers hold after the body at position `n`. -/
def outsAt3 (c : Dev nD) : (n : ℕ) → n < cfg3.N → Vec F S512x1024 .f32 × Vec F S16x512x1 .f32 × Vec F S16x512x1 .f32 × Vec F S16x512x64 .f32
  | 0, hn => tupA V c ⟨0, hn⟩ (Nat.zero_mod _) (by show ¬ (0 % 16 = 15); decide)
  | n + 1, hn =>
    if h0 : (n + 1) % 16 = 0 then
      if h1 : (n + 1) % 16 = 15 then False.elim (by omega)
      else tupA V c ⟨n + 1, hn⟩ h0 h1
    else
      if h1 : (n + 1) % 16 = 15 then
        tupC V c ⟨n + 1, hn⟩ h0 h1 (outsAt3 c n (Nat.lt_of_succ_lt hn)).2.1 (outsAt3 c n (Nat.lt_of_succ_lt hn)).2.2.1 (outsAt3 c n (Nat.lt_of_succ_lt hn)).2.2.2
      else
        tupB V c ⟨n + 1, hn⟩ h0 h1 (outsAt3 c n (Nat.lt_of_succ_lt hn)).2.1 (outsAt3 c n (Nat.lt_of_succ_lt hn)).2.2.1 (outsAt3 c n (Nat.lt_of_succ_lt hn)).2.2.2

theorem outsAt3_A (c : Dev nD) (t : Fin cfg3.N) (h0 : t.val % 16 = 0) (h1 : ¬t.val % 16 = 15) :
    outsAt3 V c t.val t.isLt = tupA V c t h0 h1 := by
  obtain ⟨n, hn⟩ := t
  cases n with
  | zero => exact rfl
  | succ n => exact (dif_pos h0).trans ((dif_neg h1).trans rfl)

theorem outsAt3_B (c : Dev nD) (t : Fin cfg3.N) (h0 : ¬t.val % 16 = 0) (h1 : ¬t.val % 16 = 15) :
    outsAt3 V c t.val t.isLt = tupB V c t h0 h1 (outsAt3 V c (t.val - 1) (Nat.lt_of_le_of_lt (Nat.sub_le _ _) t.isLt)).2.1
      (outsAt3 V c (t.val - 1) (Nat.lt_of_le_of_lt (Nat.sub_le _ _) t.isLt)).2.2.1 (outsAt3 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_neg h1).trans rfl)

theorem outsAt3_C (c : Dev nD) (t : Fin cfg3.N) (h0 : ¬t.val % 16 = 0) (h1 : t.val % 16 = 15) :
    outsAt3 V c t.val t.isLt = tupC V c t h0 h1 (outsAt3 V c (t.val - 1) (Nat.lt_of_le_of_lt (Nat.sub_le _ _) t.isLt)).2.1
      (outsAt3 V c (t.val - 1) (Nat.lt_of_le_of_lt (Nat.sub_le _ _) t.isLt)).2.2.1 (outsAt3 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scratch at anything);
    afterwards the other scoped buffers at anything, each scratch at what the point before left in it, and the generator
    register at some state. -/
def PhiS3 (c : Dev nD) : (n : ℕ) → n ≤ cfg3.N → sProp 𝕄
  | 0, _ => Pipeline.ΦA spec3 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ owns (c : Thread nD τ) scM3_0 fullShare ((outsAt3 V c n hn).2.1) ∗ owns (c : Thread nD τ) scM3_1 fullShare ((outsAt3 V c n hn).2.2.1) ∗ owns (c : Thread nD τ) scM3_2 fullShare ((outsAt3 V c n hn).2.2.2)) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ owns (c : Thread nD τ) scM3_0 fullShare ((outsAt3 V c n hn).2.1) ∗ owns (c : Thread nD τ) scM3_1 fullShare ((outsAt3 V c n hn).2.2.1) ∗ owns (c : Thread nD τ) scM3_2 fullShare ((outsAt3 V c n hn).2.2.2)) ∗ (∃ r, prngReg c r)) := rfl

theorem PhiS3_pos (c : Dev nD) (n : ℕ) (h : n ≤ cfg3.N) (hz : n ≠ 0) :
    PhiS3 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ owns (c : Thread nD τ) scM3_0 fullShare ((outsAt3 V c (n - 1) (by omega)).2.1) ∗ owns (c : Thread nD τ) scM3_1 fullShare ((outsAt3 V c (n - 1) (by omega)).2.2.1) ∗ owns (c : Thread nD τ) scM3_2 fullShare ((outsAt3 V c (n - 1) (by omega)).2.2.2)) ∗ (∃ r, prngReg c r)) := by
  cases n with
  | zero => exact absurd rfl hz
  | succ n => rfl

/-- The proof data of pipeline 3 on core `c`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t)

set_option maxHeartbeats 8000000 in
/-- The body at any point: the inputs' memrefs hold their blocks; the closed forms say which case the point is in; the
    invariant hands the body the scratch buffers at what the point before left (at anything at the first point) and takes
    them back at this point's contents; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).owesAt () t.succ = (dat3 V c).owesAt () t.castSucc from rfl]
  rw [show (dat3 V c).Φ t.succ = PhiS3 V c (t.val + 1) t.isLt from rfl, PhiS3_succ]
  have hN : t.val < 128 := lt_of_lt_of_eq t.isLt (show cfg3.N = 128 from N_3)
  by_cases h0 : t.val % 16 = 0
  · by_cases h1 : t.val % 16 = 15
    · exfalso; omega
    ·
        rw [show (dat3 V c).leavesExact 0 t = owns (c : Thread nD τ) (ms3_0 t) fullShare ((dat3 V c).after 0 t) from by
          unfold Dat.leavesExact; rw [liveAt3_0 t], after3_0]
        rw [show (dat3 V c).leavesExact 1 t = owns (c : Thread nD τ) (ms3_1 t) fullShare ((dat3 V c).after 1 t) from by
          unfold Dat.leavesExact; rw [liveAt3_1 t], after3_1]
        rw [show (dat3 V c).leavesExact 2 t = owns (c : Thread nD τ) (ms3_2 t) fullShare ((dat3 V c).after 2 t) from by
          unfold Dat.leavesExact; rw [liveAt3_2 t], after3_2]
        rw [show (dat3 V c).leavesExact 3 t = owns (c : Thread nD τ) (ms3_3 t) fullShare ((dat3 V c).after 3 t) from by
          unfold Dat.leavesExact; rw [liveAt3_3 t], after3_3]
        rw [show (dat3 V c).leavesExact 4 t = owns (c : Thread nD τ) (ms3_4 t) fullShare ((dat3 V c).after 4 t) from by
          unfold Dat.leavesExact; rw [liveAt3_4 t], after3_4]
        rw [Dat.leavesExact_idle (dat3 V c) 5 t (idleAt3_5_A t ((hcond3_0 t).mpr h0) (fun h => h1 ((hcond3_1 t).mp h))) (noFlush3_5_A t ((hcond3_0 t).mpr h0) (fun h => h1 ((hcond3_1 t).mp h)))]
        rw [outsAt3_A V c t h0 h1]
        unfold tupA sout3_A_0 sout3_A_1 sout3_A_2; (try dsimp only)
        by_cases hz : t.val = 0
        ·
          rw [PhiS3_castSucc V c t, PhiS3_zero V c _ _ hz, PhiA3_eq]
          iintro ⟨⟨⟨O1, O2, O3, O4, O5, O6, O7, O8, O9, O10, O11, O12, O13, O14, O15, O16, O17, O18, HS0, HS1, HS2⟩, Hg⟩, Ho, ⟨%d0, H0⟩, ⟨%d1, H1⟩, ⟨%d2, H2⟩, ⟨%d3, H3⟩, ⟨%d4, H4⟩, ⟨%d5, H5⟩⟩
          iapply ((kernelRun3_A c (grid3.coords t) _ _ _ _ _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t)).2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [HS0]; · iexact HS0
          isplitl [HS1]; · iexact HS1
          isplitl [HS2]; · iexact HS2
          iintro ⟨H0, H1, H2, H3, H4, H5, ⟨%es0, HS0⟩, ⟨%es1, HS1⟩, ⟨%es2, HS2⟩⟩
          isplitl [O1 O2 O3 O4 O5 O6 O7 O8 O9 O10 O11 O12 O13 O14 O15 O16 O17 O18 HS0 HS1 HS2 Hg]
          · isplitr [Hg]
            swap; · iexact Hg
            isplitl [O1]; · iexact O1
            isplitl [O2]; · iexact O2
            isplitl [O3]; · iexact O3
            isplitl [O4]; · iexact O4
            isplitl [O5]; · iexact O5
            isplitl [O6]; · iexact O6
            isplitl [O7]; · iexact O7
            isplitl [O8]; · iexact O8
            isplitl [O9]; · iexact O9
            isplitl [O10]; · iexact O10
            isplitl [O11]; · iexact O11
            isplitl [O12]; · iexact O12
            isplitl [O13]; · iexact O13
            isplitl [O14]; · iexact O14
            isplitl [O15]; · iexact O15
            isplitl [O16]; · iexact O16
            isplitl [O17]; · iexact O17
            isplitl [O18]; · iexact O18
            isplitl [HS0]
            · unfold owns; iexists _; isplitr
              swap; · iexact HS0
              ipureintro; exact View.read_writes_of_cover _ _ _ _ _ (scover3_A_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover3_A_1 c _ _ _ _ _ _ _ _ _ _ _ _ _ _ _ _ _ _ _ _ _ _ _ _ _ _)
            · unfold owns; iexists _; isplitr
              swap; · iexact HS2
              ipureintro; exact View.read_writes_of_cover _ _ _ _ _ (scover3_A_2 c _ _ _ _ _ _ _ _ _ _ _ _ _ _ _ _ _ _ _ _ _ _ _ _ _ _)
          isplitl [Ho]; · iexact Ho
          isplitl [H0]; · iexact H0
          isplitl [H1]; · iexact H1
          isplitl [H2]; · iexact H2
          isplitl [H3]; · iexact H3
          isplitl [H4]; · iexact H4
          iexists _; iexact H5
        ·
          rw [PhiS3_castSucc V c t, PhiS3_pos V c _ _ hz]
          iintro ⟨⟨⟨O1, O2, O3, O4, O5, O6, O7, O8, O9, O10, O11, O12, O13, O14, O15, O16, O17, O18, HS0, HS1, HS2⟩, Hg⟩, Ho, ⟨%d0, H0⟩, ⟨%d1, H1⟩, ⟨%d2, H2⟩, ⟨%d3, H3⟩, ⟨%d4, H4⟩, ⟨%d5, H5⟩⟩
          iapply ((kernelRun3_A c (grid3.coords t) _ _ _ _ _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t)).2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [HS0]; · iexists _; iexact HS0
          isplitl [HS1]; · iexists _; iexact HS1
          isplitl [HS2]; · iexists _; iexact HS2
          iintro ⟨H0, H1, H2, H3, H4, H5, ⟨%es0, HS0⟩, ⟨%es1, HS1⟩, ⟨%es2, HS2⟩⟩
          isplitl [O1 O2 O3 O4 O5 O6 O7 O8 O9 O10 O11 O12 O13 O14 O15 O16 O17 O18 HS0 HS1 HS2 Hg]
          · isplitr [Hg]
            swap; · iexact Hg
            isplitl [O1]; · iexact O1
            isplitl [O2]; · iexact O2
            isplitl [O3]; · iexact O3
            isplitl [O4]; · iexact O4
            isplitl [O5]; · iexact O5
            isplitl [O6]; · iexact O6
            isplitl [O7]; · iexact O7
            isplitl [O8]; · iexact O8
            isplitl [O9]; · iexact O9
            isplitl [O10]; · iexact O10
            isplitl [O11]; · iexact O11
            isplitl [O12]; · iexact O12
            isplitl [O13]; · iexact O13
            isplitl [O14]; · iexact O14
            isplitl [O15]; · iexact O15
            isplitl [O16]; · iexact O16
            isplitl [O17]; · iexact O17
            isplitl [O18]; · iexact O18
            isplitl [HS0]
            · unfold owns; iexists _; isplitr
              swap; · iexact HS0
              ipureintro; exact View.read_writes_of_cover _ _ _ _ _ (scover3_A_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover3_A_1 c _ _ _ _ _ _ _ _ _ _ _ _ _ _ _ _ _ _ _ _ _ _ _ _ _ _)
            · unfold owns; iexists _; isplitr
              swap; · iexact HS2
              ipureintro; exact View.read_writes_of_cover _ _ _ _ _ (scover3_A_2 c _ _ _ _ _ _ _ _ _ _ _ _ _ _ _ _ _ _ _ _ _ _ _ _ _ _)
          isplitl [Ho]; · iexact Ho
          isplitl [H0]; · iexact H0
          isplitl [H1]; · iexact H1
          isplitl [H2]; · iexact H2
          isplitl [H3]; · iexact H3
          isplitl [H4]; · iexact H4
          iexists _; iexact H5
  · have hz : t.val ≠ 0 := fun h => h0 (by rw [h])
    by_cases h1 : t.val % 16 = 15
    ·
        rw [show (dat3 V c).leavesExact 0 t = owns (c : Thread nD τ) (ms3_0 t) fullShare ((dat3 V c).after 0 t) from by
          unfold Dat.leavesExact; rw [liveAt3_0 t], after3_0]
        rw [show (dat3 V c).leavesExact 1 t = owns (c : Thread nD τ) (ms3_1 t) fullShare ((dat3 V c).after 1 t) from by
          unfold Dat.leavesExact; rw [liveAt3_1 t], after3_1]
        rw [show (dat3 V c).leavesExact 2 t = owns (c : Thread nD τ) (ms3_2 t) fullShare ((dat3 V c).after 2 t) from by
          unfold Dat.leavesExact; rw [liveAt3_2 t], after3_2]
        rw [show (dat3 V c).leavesExact 3 t = owns (c : Thread nD τ) (ms3_3 t) fullShare ((dat3 V c).after 3 t) from by
          unfold Dat.leavesExact; rw [liveAt3_3 t], after3_3]
        rw [show (dat3 V c).leavesExact 4 t = owns (c : Thread nD τ) (ms3_4 t) fullShare ((dat3 V c).after 4 t) from by
          unfold Dat.leavesExact; rw [liveAt3_4 t], after3_4]
        rw [show (dat3 V c).leavesExact 5 t = owns (c : Thread nD τ) (ms3_5 t) fullShare ((dat3 V c).after 5 t) from by
          unfold Dat.leavesExact; rw [liveAt3_5_C t (fun h => h0 ((hcond3_0 t).mp h)) ((hcond3_1 t).mpr h1)], after3_5]
        rw [outsAt3_C V c t h0 h1]
        unfold tupC out3_C_5 sout3_C_0 sout3_C_1 sout3_C_2; (try dsimp only)
        ·
          rw [PhiS3_castSucc V c t, PhiS3_pos V c _ _ hz]
          iintro ⟨⟨⟨O1, O2, O3, O4, O5, O6, O7, O8, O9, O10, O11, O12, O13, O14, O15, O16, O17, O18, HS0, HS1, HS2⟩, Hg⟩, Ho, ⟨%d0, H0⟩, ⟨%d1, H1⟩, ⟨%d2, H2⟩, ⟨%d3, H3⟩, ⟨%d4, H4⟩, ⟨%d5, H5⟩⟩
          iapply ((kernelRun3_C c (grid3.coords t) _ _ _ _ _ _ _ _ _ _ _ _ _ _ _ _ _ _ (fun h => h0 ((hcond3_0 t).mp h)) ((hcond3_1 t).mpr h1) (iblk3 V c 0 t) (iblk3 V c 1 t) (iblk3 V c 2 t) (iblk3 V c 3 t) (iblk3 V c 4 t) _ _ _).2.2.2.2 Set.univ _)
          isplitl [H0]; · iexact H0
          isplitl [H1]; · iexact H1
          isplitl [H2]; · iexact H2
          isplitl [H3]; · iexact H3
          isplitl [H4]; · iexact H4
          isplitl [H5]; · iexists _; iexact H5
          isplitl [HS0]; · iexact HS0
          isplitl [HS1]; · iexact HS1
          isplitl [HS2]; · iexact HS2
          iintro ⟨H0, H1, H2, H3, H4, ⟨%e5, H5⟩, ⟨%es0, HS0⟩, ⟨%es1, HS1⟩, ⟨%es2, HS2⟩⟩
          isplitl [O1 O2 O3 O4 O5 O6 O7 O8 O9 O10 O11 O12 O13 O14 O15 O16 O17 O18 HS0 HS1 HS2 Hg]
          · isplitr [Hg]
            swap; · iexact Hg
            isplitl [O1]; · iexact O1
            isplitl [O2]; · iexact O2
            isplitl [O3]; · iexact O3
            isplitl [O4]; · iexact O4
            isplitl [O5]; · iexact O5
            isplitl [O6]; · iexact O6
            isplitl [O7]; · iexact O7
            isplitl [O8]; · iexact O8
            isplitl [O9]; · iexact O9
            isplitl [O10]; · iexact O10
            isplitl [O11]; · iexact O11
            isplitl [O12]; · iexact O12
            isplitl [O13]; · iexact O13
            isplitl [O14]; · iexact O14
            isplitl [O15]; · iexact O15
            isplitl [O16]; · iexact O16
            isplitl [O17]; · iexact O17
            isplitl [O18]; · iexact O18
            isplitl [HS0]
            · unfold owns; iexists _; isplitr
              swap; · iexact HS0
              ipureintro; exact View.read_writes_of_cover _ _ _ _ _ (scover3_C_0 c _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover3_C_1 c _ _ _ _ _ _ _ _ _ _ _ _ _ _ _ _ _ _ _ _ _ _ _ _ _ _ _ _ _)
            · unfold owns; iexists _; isplitr
              swap; · iexact HS2
              ipureintro; exact View.read_writes_of_cover _ _ _ _ _ (scover3_C_2 c _ _ _ _ _ _ _ _ _ _ _ _ _ _ _ _ _ _ _ _ _ _ _ _ _ _ _ _ _)
          isplitl [Ho]; · iexact Ho
          isplitl [H0]; · iexact H0
          isplitl [H1]; · iexact H1
          isplitl [H2]; · iexact H2
          isplitl [H3]; · iexact H3
          isplitl [H4]; · iexact H4
          unfold owns; iexists _; isplitr
          swap; · iexact H5
          ipureintro; exact View.read_writes_of_cover _ _ _ _ _ (cover3_C_5 c _ _ _ _ _ _ _ _ _ _ _ _ _ _ _ _ _ _ _ _ _ _ _ _ _ _ _ _ _)
    ·
        rw [show (dat3 V c).leavesExact 0 t = owns (c : Thread nD τ) (ms3_0 t) fullShare ((dat3 V c).after 0 t) from by
          unfold Dat.leavesExact; rw [liveAt3_0 t], after3_0]
        rw [show (dat3 V c).leavesExact 1 t = owns (c : Thread nD τ) (ms3_1 t) fullShare ((dat3 V c).after 1 t) from by
          unfold Dat.leavesExact; rw [liveAt3_1 t], after3_1]
        rw [show (dat3 V c).leavesExact 2 t = owns (c : Thread nD τ) (ms3_2 t) fullShare ((dat3 V c).after 2 t) from by
          unfold Dat.leavesExact; rw [liveAt3_2 t], after3_2]
        rw [show (dat3 V c).leavesExact 3 t = owns (c : Thread nD τ) (ms3_3 t) fullShare ((dat3 V c).after 3 t) from by
          unfold Dat.leavesExact; rw [liveAt3_3 t], after3_3]
        rw [show (dat3 V c).leavesExact 4 t = owns (c : Thread nD τ) (ms3_4 t) fullShare ((dat3 V c).after 4 t) from by
          unfold Dat.leavesExact; rw [liveAt3_4 t], after3_4]
        rw [Dat.leavesExact_idle (dat3 V c) 5 t (idleAt3_5_B t (fun h => h0 ((hcond3_0 t).mp h)) (fun h => h1 ((hcond3_1 t).mp h))) (noFlush3_5_B t (fun h => h0 ((hcond3_0 t).mp h)) (fun h => h1 ((hcond3_1 t).mp h)))]
        rw [outsAt3_B V c t h0 h1]
        unfold tupB sout3_B_0 sout3_B_1 sout3_B_2; (try dsimp only)
        ·
          rw [PhiS3_castSucc V c t, PhiS3_pos V c _ _ hz]
          iintro ⟨⟨⟨O1, O2, O3, O4, O5, O6, O7, O8, O9, O10, O11, O12, O13, O14, O15, O16, O17, O18, HS0, HS1, HS2⟩, Hg⟩, Ho, ⟨%d0, H0⟩, ⟨%d1, H1⟩, ⟨%d2, H2⟩, ⟨%d3, H3⟩, ⟨%d4, H4⟩, ⟨%d5, H5⟩⟩
          iapply ((kernelRun3_B c (grid3.coords t) _ _ _ _ _ _ _ _ _ _ _ _ _ _ _ _ _ _ (fun h => h0 ((hcond3_0 t).mp h)) (fun h => h1 ((hcond3_1 t).mp h)) (iblk3 V c 0 t) (iblk3 V c 1 t) (iblk3 V c 2 t) (iblk3 V c 3 t) (iblk3 V c 4 t) _ _ _).2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [HS0]; · iexact HS0
          isplitl [HS1]; · iexact HS1
          isplitl [HS2]; · iexact HS2
          iintro ⟨H0, H1, H2, H3, H4, H5, ⟨%es0, HS0⟩, ⟨%es1, HS1⟩, ⟨%es2, HS2⟩⟩
          isplitl [O1 O2 O3 O4 O5 O6 O7 O8 O9 O10 O11 O12 O13 O14 O15 O16 O17 O18 HS0 HS1 HS2 Hg]
          · isplitr [Hg]
            swap; · iexact Hg
            isplitl [O1]; · iexact O1
            isplitl [O2]; · iexact O2
            isplitl [O3]; · iexact O3
            isplitl [O4]; · iexact O4
            isplitl [O5]; · iexact O5
            isplitl [O6]; · iexact O6
            isplitl [O7]; · iexact O7
            isplitl [O8]; · iexact O8
            isplitl [O9]; · iexact O9
            isplitl [O10]; · iexact O10
            isplitl [O11]; · iexact O11
            isplitl [O12]; · iexact O12
            isplitl [O13]; · iexact O13
            isplitl [O14]; · iexact O14
            isplitl [O15]; · iexact O15
            isplitl [O16]; · iexact O16
            isplitl [O17]; · iexact O17
            isplitl [O18]; · iexact O18
            isplitl [HS0]
            · unfold owns; iexists _; isplitr
              swap; · iexact HS0
              ipureintro; exact View.read_writes_of_cover _ _ _ _ _ (scover3_B_0 c _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover3_B_1 c _ _ _ _ _ _ _ _ _ _ _ _ _ _ _ _ _ _ _ _ _ _ _ _ _ _ _ _ _)
            · unfold owns; iexists _; isplitr
              swap; · iexact HS2
              ipureintro; exact View.read_writes_of_cover _ _ _ _ _ (scover3_B_2 c _ _ _ _ _ _ _ _ _ _ _ _ _ _ _ _ _ _ _ _ _ _ _ _ _ _ _ _ _)
          isplitl [Ho]; · iexact Ho
          isplitl [H0]; · iexact H0
          isplitl [H1]; · iexact H1
          isplitl [H2]; · iexact H2
          isplitl [H3]; · iexact H3
          isplitl [H4]; · iexact H4
          iexists _; iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the region is entered with is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives the class's back: the scratch buffers' named contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨O1, O2, O3, O4, O5, O6, O7, O8, O9, O10, O11, O12, O13, O14, O15, O16, O17, O18, HS0, HS1, HS2⟩, Hg⟩
  isplitr [Hg]
  swap; · iexact Hg
  isplitl [O1]; · iexact O1
  isplitl [O2]; · iexact O2
  isplitl [O3]; · iexact O3
  isplitl [O4]; · iexact O4
  isplitl [O5]; · iexact O5
  isplitl [O6]; · iexact O6
  isplitl [O7]; · iexact O7
  isplitl [O8]; · iexact O8
  isplitl [O9]; · iexact O9
  isplitl [O10]; · iexact O10
  isplitl [O11]; · iexact O11
  isplitl [O12]; · iexact O12
  isplitl [O13]; · iexact O13
  isplitl [O14]; · iexact O14
  isplitl [O15]; · iexact O15
  isplitl [O16]; · iexact O16
  isplitl [O17]; · iexact O17
  isplitl [O18]; · iexact O18
  isplitl [HS0]; · iexists _; iexact HS0
  isplitl [HS1]; · iexists _; iexact HS1
  iexists _; iexact HS2

/-- The same after the last point. -/
theorem hout3 (c : Dev nD) : (dat3 V c).Φ (Fin.last cfg3.N) ⊢ Pipeline.ΦA spec3 c :=
  Phi_out3 V c _ (by rw [Fin.val_last]; have : cfg3.N = 128 := N_3; omega)

end Cert.Kernel.Hand

end
-- ==== Proof.BitsRun.lean ====
/-
  The whole program run: the four regions and the host operations between them as one list of segments, the contents of
  every unscoped buffer at each boundary as a fold from the launch memory (a host stretch applies its operations; a
  region leaves its windows' arrays at what its write-backs leave and every other buffer as it found it), and the launch:
  every execution terminates with every unscoped buffer at the last boundary's contents.
-/
import proofs.«101851_j15083925144173_2_alg».proof.Proof.BitsHead0
import proofs.«101851_j15083925144173_2_alg».proof.Proof.BitsHead1
import proofs.«101851_j15083925144173_2_alg».proof.Proof.BitsHead2
import proofs.«101851_j15083925144173_2_alg».proof.Proof.BitsFlash

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev B0 : Dev nD → Valuation τ sig (Elt F) := fun c b => (s₀ m ρ).mem ((c : Dev nD), b)
/-- After host stretch 0 (region 0's entry). -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b
/-- At region 0's exit: its arrays at what the pipeline leaves, every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)
/-- After host stretch 1 (region 1's entry). -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
/-- At region 1's exit: its arrays at what the pipeline leaves, every other buffer as entered. -/
def B4 (c : Dev nD) : Valuation τ sig (Elt F) :=
  Pipeline.withArrays spec1 c (B3 m ρ c) fun w => (dat1 (E3 m ρ) c).arrAt w cfg1.N
theorem B4_arr (c : Dev nD) (w : Fin cfg1.W) :
    B4 m ρ c (Proc.devRef .tc (Pipeline.arrRef spec1 w)) = (dat1 (E3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev E4 : (c : Dev nD) → (b : Ref sig .tc) → Buf (Elt F) ((c : Thread nD τ).loc b) := fun c b => B4 m ρ c b
theorem hF1 (c : Dev nD) (w : Fin cfg1.W) : (dat1 (E3 m ρ) c).arrAt w cfg1.N = E4 m ρ c (Pipeline.arrRef spec1 w) :=
  (B4_arr m ρ c w).symm
theorem hrest1 (c : Dev nD) : ∀ b, b ∉ Finset.univ.image (Pipeline.arrRef spec1) → E4 m ρ c b = E3 m ρ c b :=
  fun b hb => B4_of_ne m ρ c b fun w e => hb (Finset.mem_image.mpr ⟨w, Finset.mem_univ _, e⟩)
/-- After host stretch 2 (region 2's entry). -/
abbrev B5 : Dev nD → Valuation τ sig (Elt F) := fun c => StableHlo.after hostOps2 (B4 m ρ c)
abbrev E5 : (c : Dev nD) → (b : Ref sig .tc) → Buf (Elt F) ((c : Thread nD τ).loc b) := fun c b => B5 m ρ c b
/-- At region 2's exit: its arrays at what the pipeline leaves, every other buffer as entered. -/
def B6 (c : Dev nD) : Valuation τ sig (Elt F) :=
  Pipeline.withArrays spec2 c (B5 m ρ c) fun w => (dat2 (E5 m ρ) c).arrAt w cfg2.N
theorem B6_arr (c : Dev nD) (w : Fin cfg2.W) :
    B6 m ρ c (Proc.devRef .tc (Pipeline.arrRef spec2 w)) = (dat2 (E5 m ρ) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m ρ c (Proc.devRef .tc b) = B5 m ρ c (Proc.devRef .tc b) := by
  unfold B6; exact Pipeline.withArrays_of_ne spec2 c _ _ b hb
abbrev E6 : (c : Dev nD) → (b : Ref sig .tc) → Buf (Elt F) ((c : Thread nD τ).loc b) := fun c b => B6 m ρ c b
theorem hF2 (c : Dev nD) (w : Fin cfg2.W) : (dat2 (E5 m ρ) c).arrAt w cfg2.N = E6 m ρ c (Pipeline.arrRef spec2 w) :=
  (B6_arr m ρ c w).symm
theorem hrest2 (c : Dev nD) : ∀ b, b ∉ Finset.univ.image (Pipeline.arrRef spec2) → E6 m ρ c b = E5 m ρ c b :=
  fun b hb => B6_of_ne m ρ c b fun w e => hb (Finset.mem_image.mpr ⟨w, Finset.mem_univ _, e⟩)
/-- After host stretch 3 (region 3's entry). -/
abbrev B7 : Dev nD → Valuation τ sig (Elt F) := fun c => StableHlo.after hostOps3 (B6 m ρ c)
abbrev E7 : (c : Dev nD) → (b : Ref sig .tc) → Buf (Elt F) ((c : Thread nD τ).loc b) := fun c b => B7 m ρ c b
/-- At region 3's exit: its arrays at what the pipeline leaves, every other buffer as entered. -/
def B8 (c : Dev nD) : Valuation τ sig (Elt F) :=
  Pipeline.withArrays spec3 c (B7 m ρ c) fun w => (dat3 (E7 m ρ) c).arrAt w cfg3.N
theorem B8_arr (c : Dev nD) (w : Fin cfg3.W) :
    B8 m ρ c (Proc.devRef .tc (Pipeline.arrRef spec3 w)) = (dat3 (E7 m ρ) c).arrAt w cfg3.N := by
  unfold B8; exact Pipeline.withArrays_arr spec3 launch3.win.arr_inj c _ _ w
theorem B8_of_ne (c : Dev nD) (b : Ref sig .tc) (hb : ∀ w, Pipeline.arrRef spec3 w ≠ b) :
    B8 m ρ c (Proc.devRef .tc b) = B7 m ρ c (Proc.devRef .tc b) := by
  unfold B8; exact Pipeline.withArrays_of_ne spec3 c _ _ b hb
abbrev E8 : (c : Dev nD) → (b : Ref sig .tc) → Buf (Elt F) ((c : Thread nD τ).loc b) := fun c b => B8 m ρ c b
theorem hF3 (c : Dev nD) (w : Fin cfg3.W) : (dat3 (E7 m ρ) c).arrAt w cfg3.N = E8 m ρ c (Pipeline.arrRef spec3 w) :=
  (B8_arr m ρ c w).symm
theorem hrest3 (c : Dev nD) : ∀ b, b ∉ Finset.univ.image (Pipeline.arrRef spec3) → E8 m ρ c b = E7 m ρ c b :=
  fun b hb => B8_of_ne m ρ c b fun w e => hb (Finset.mem_image.mpr ⟨w, Finset.mem_univ _, e⟩)

theorem B8_main_arg0 (c : Dev nD) : B8 m ρ c (Proc.devRef .tc main_arg0) = m ((c : Thread nD τ).loc main_arg0) :=
  calc B8 m ρ c (Proc.devRef .tc main_arg0)
    _ = B7 m ρ c (Proc.devRef .tc main_arg0) := B8_of_ne m ρ c main_arg0 (by decide)
    _ = B6 m ρ c (Proc.devRef .tc main_arg0) := StableHlo.after_of_forall_not_mem (b := Proc.devRef .tc main_arg0) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B5 m ρ c (Proc.devRef .tc main_arg0) := B6_of_ne m ρ c main_arg0 (by decide)
    _ = B4 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B3 m ρ c (Proc.devRef .tc main_arg0) := B4_of_ne m ρ c main_arg0 (by decide)
    _ = B2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B1 m ρ c (Proc.devRef .tc main_arg0) := (B2_arr m ρ c 0).trans (((dat0 (E1 m ρ) c).arrAt_in 0 rfl _).trans (A_eq0 (E1 m ρ) c 0))
    _ = B0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem B8_main_arg1 (c : Dev nD) : B8 m ρ c (Proc.devRef .tc main_arg1) = m ((c : Thread nD τ).loc main_arg1) :=
  calc B8 m ρ c (Proc.devRef .tc main_arg1)
    _ = B7 m ρ c (Proc.devRef .tc main_arg1) := B8_of_ne m ρ c main_arg1 (by decide)
    _ = B6 m ρ c (Proc.devRef .tc main_arg1) := StableHlo.after_of_forall_not_mem (b := Proc.devRef .tc main_arg1) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B5 m ρ c (Proc.devRef .tc main_arg1) := B6_of_ne m ρ c main_arg1 (by decide)
    _ = B4 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B3 m ρ c (Proc.devRef .tc main_arg1) := (B4_arr m ρ c 0).trans (((dat1 (E3 m ρ) c).arrAt_in 0 rfl _).trans (A_eq1 (E3 m ρ) c 0))
    _ = B2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B1 m ρ c (Proc.devRef .tc main_arg1) := B2_of_ne m ρ c main_arg1 (by decide)
    _ = B0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem B8_main_arg2 (c : Dev nD) : B8 m ρ c (Proc.devRef .tc main_arg2) = m ((c : Thread nD τ).loc main_arg2) :=
  calc B8 m ρ c (Proc.devRef .tc main_arg2)
    _ = B7 m ρ c (Proc.devRef .tc main_arg2) := B8_of_ne m ρ c main_arg2 (by decide)
    _ = B6 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B5 m ρ c (Proc.devRef .tc main_arg2) := (B6_arr m ρ c 0).trans (((dat2 (E5 m ρ) c).arrAt_in 0 rfl _).trans (A_eq2 (E5 m ρ) c 0))
    _ = B4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B3 m ρ c (Proc.devRef .tc main_arg2) := B4_of_ne m ρ c main_arg2 (by decide)
    _ = B2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B1 m ρ c (Proc.devRef .tc main_arg2) := B2_of_ne m ρ c main_arg2 (by decide)
    _ = B0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem B8_main_arg3 (c : Dev nD) : B8 m ρ c (Proc.devRef .tc main_arg3) = m ((c : Thread nD τ).loc main_arg3) :=
  calc B8 m ρ c (Proc.devRef .tc main_arg3)
    _ = B7 m ρ c (Proc.devRef .tc main_arg3) := B8_of_ne m ρ c main_arg3 (by decide)
    _ = B6 m ρ c (Proc.devRef .tc main_arg3) := StableHlo.after_of_forall_not_mem (b := Proc.devRef .tc main_arg3) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B5 m ρ c (Proc.devRef .tc main_arg3) := B6_of_ne m ρ c main_arg3 (by decide)
    _ = B4 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B3 m ρ c (Proc.devRef .tc main_arg3) := B4_of_ne m ρ c main_arg3 (by decide)
    _ = B2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B1 m ρ c (Proc.devRef .tc main_arg3) := B2_of_ne m ρ c main_arg3 (by decide)
    _ = B0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem B8_main_arg4 (c : Dev nD) : B8 m ρ c (Proc.devRef .tc main_arg4) = m ((c : Thread nD τ).loc main_arg4) :=
  calc B8 m ρ c (Proc.devRef .tc main_arg4)
    _ = B7 m ρ c (Proc.devRef .tc main_arg4) := B8_of_ne m ρ c main_arg4 (by decide)
    _ = B6 m ρ c (Proc.devRef .tc main_arg4) := StableHlo.after_of_forall_not_mem (b := Proc.devRef .tc main_arg4) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B5 m ρ c (Proc.devRef .tc main_arg4) := B6_of_ne m ρ c main_arg4 (by decide)
    _ = B4 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B3 m ρ c (Proc.devRef .tc main_arg4) := B4_of_ne m ρ c main_arg4 (by decide)
    _ = B2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B1 m ρ c (Proc.devRef .tc main_arg4) := B2_of_ne m ρ c main_arg4 (by decide)
    _ = B0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem B8_main_arg5 (c : Dev nD) : B8 m ρ c (Proc.devRef .tc main_arg5) = m ((c : Thread nD τ).loc main_arg5) :=
  calc B8 m ρ c (Proc.devRef .tc main_arg5)
    _ = B7 m ρ c (Proc.devRef .tc main_arg5) := B8_of_ne m ρ c main_arg5 (by decide)
    _ = B6 m ρ c (Proc.devRef .tc main_arg5) := StableHlo.after_of_forall_not_mem (b := Proc.devRef .tc main_arg5) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B5 m ρ c (Proc.devRef .tc main_arg5) := B6_of_ne m ρ c main_arg5 (by decide)
    _ = B4 m ρ c (Proc.devRef .tc main_arg5) := StableHlo.after_of_forall_not_mem (b := Proc.devRef .tc main_arg5) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B3 m ρ c (Proc.devRef .tc main_arg5) := B4_of_ne m ρ c main_arg5 (by decide)
    _ = B2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B1 m ρ c (Proc.devRef .tc main_arg5) := B2_of_ne m ρ c main_arg5 (by decide)
    _ = B0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem B8_main_arg6 (c : Dev nD) : B8 m ρ c (Proc.devRef .tc main_arg6) = m ((c : Thread nD τ).loc main_arg6) :=
  calc B8 m ρ c (Proc.devRef .tc main_arg6)
    _ = B7 m ρ c (Proc.devRef .tc main_arg6) := B8_of_ne m ρ c main_arg6 (by decide)
    _ = B6 m ρ c (Proc.devRef .tc main_arg6) := StableHlo.after_of_forall_not_mem (b := Proc.devRef .tc main_arg6) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B5 m ρ c (Proc.devRef .tc main_arg6) := B6_of_ne m ρ c main_arg6 (by decide)
    _ = B4 m ρ c (Proc.devRef .tc main_arg6) := StableHlo.after_of_forall_not_mem (b := Proc.devRef .tc main_arg6) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B3 m ρ c (Proc.devRef .tc main_arg6) := B4_of_ne m ρ c main_arg6 (by decide)
    _ = B2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B1 m ρ c (Proc.devRef .tc main_arg6) := B2_of_ne m ρ c main_arg6 (by decide)
    _ = B0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem B8_main_arg7 (c : Dev nD) : B8 m ρ c (Proc.devRef .tc main_arg7) = m ((c : Thread nD τ).loc main_arg7) :=
  calc B8 m ρ c (Proc.devRef .tc main_arg7)
    _ = B7 m ρ c (Proc.devRef .tc main_arg7) := B8_of_ne m ρ c main_arg7 (by decide)
    _ = B6 m ρ c (Proc.devRef .tc main_arg7) := StableHlo.after_of_forall_not_mem (b := Proc.devRef .tc main_arg7) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B5 m ρ c (Proc.devRef .tc main_arg7) := B6_of_ne m ρ c main_arg7 (by decide)
    _ = B4 m ρ c (Proc.devRef .tc main_arg7) := StableHlo.after_of_forall_not_mem (b := Proc.devRef .tc main_arg7) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B3 m ρ c (Proc.devRef .tc main_arg7) := B4_of_ne m ρ c main_arg7 (by decide)
    _ = B2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B1 m ρ c (Proc.devRef .tc main_arg7) := B2_of_ne m ρ c main_arg7 (by decide)
    _ = B0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem B8_main_arg8 (c : Dev nD) : B8 m ρ c (Proc.devRef .tc main_arg8) = m ((c : Thread nD τ).loc main_arg8) :=
  calc B8 m ρ c (Proc.devRef .tc main_arg8)
    _ = B7 m ρ c (Proc.devRef .tc main_arg8) := B8_of_ne m ρ c main_arg8 (by decide)
    _ = B6 m ρ c (Proc.devRef .tc main_arg8) := StableHlo.after_of_forall_not_mem (b := Proc.devRef .tc main_arg8) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B5 m ρ c (Proc.devRef .tc main_arg8) := B6_of_ne m ρ c main_arg8 (by decide)
    _ = B4 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B3 m ρ c (Proc.devRef .tc main_arg8) := B4_of_ne m ρ c main_arg8 (by decide)
    _ = B2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B1 m ρ c (Proc.devRef .tc main_arg8) := B2_of_ne m ρ c main_arg8 (by decide)
    _ = B0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem B8_main_arg9 (c : Dev nD) : B8 m ρ c (Proc.devRef .tc main_arg9) = m ((c : Thread nD τ).loc main_arg9) :=
  calc B8 m ρ c (Proc.devRef .tc main_arg9)
    _ = B7 m ρ c (Proc.devRef .tc main_arg9) := B8_of_ne m ρ c main_arg9 (by decide)
    _ = B6 m ρ c (Proc.devRef .tc main_arg9) := StableHlo.after_of_forall_not_mem (b := Proc.devRef .tc main_arg9) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B5 m ρ c (Proc.devRef .tc main_arg9) := B6_of_ne m ρ c main_arg9 (by decide)
    _ = B4 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B3 m ρ c (Proc.devRef .tc main_arg9) := B4_of_ne m ρ c main_arg9 (by decide)
    _ = B2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B1 m ρ c (Proc.devRef .tc main_arg9) := B2_of_ne m ρ c main_arg9 (by decide)
    _ = B0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

theorem B8_main_arg10 (c : Dev nD) : B8 m ρ c (Proc.devRef .tc main_arg10) = m ((c : Thread nD τ).loc main_arg10) :=
  calc B8 m ρ c (Proc.devRef .tc main_arg10)
    _ = B7 m ρ c (Proc.devRef .tc main_arg10) := B8_of_ne m ρ c main_arg10 (by decide)
    _ = B6 m ρ c (Proc.devRef .tc main_arg10) := StableHlo.after_of_forall_not_mem (b := Proc.devRef .tc main_arg10) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B5 m ρ c (Proc.devRef .tc main_arg10) := B6_of_ne m ρ c main_arg10 (by decide)
    _ = B4 m ρ c (Proc.devRef .tc main_arg10) := StableHlo.after_of_forall_not_mem (b := Proc.devRef .tc main_arg10) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B3 m ρ c (Proc.devRef .tc main_arg10) := B4_of_ne m ρ c main_arg10 (by decide)
    _ = B2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B1 m ρ c (Proc.devRef .tc main_arg10) := B2_of_ne m ρ c main_arg10 (by decide)
    _ = B0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

/-- The prefetched tables' admissible contents: no pipeline has a table. -/
abbrev admH : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) admH p) c
  | ⟨0, _⟩ => fun c => dat0 (E1 m ρ) c
  | ⟨1, _⟩ => fun c => dat1 (E3 m ρ) c
  | ⟨2, _⟩ => fun c => dat2 (E5 m ρ) c
  | ⟨3, _⟩ => fun c => dat3 (E7 m ρ) c
abbrev 𝒱H : Variants := Variants.none
abbrev LH : GSem nD τ sig → Finset Unit := fun _ => ∅
abbrev lvH : GSem nD τ sig → Unit → ℕ := fun _ _ => 0
/-- What rides beside the buffers through every segment: the generator register at some state and nothing owed. -/
abbrev RH (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem hostOps0_freshH : (hostOps0 : List (HloOp τ sig (Elt F))).Forall fun op => op.fresh = ∅ := by
  simp only [List.Forall]; repeat' constructor
theorem hostOps1_freshH : (hostOps1 : List (HloOp τ sig (Elt F))).Forall fun op => op.fresh = ∅ := by
  simp only [List.Forall]; repeat' constructor
theorem hostOps2_freshH : (hostOps2 : List (HloOp τ sig (Elt F))).Forall fun op => op.fresh = ∅ := by
  simp only [List.Forall]; repeat' constructor
theorem hostOps3_freshH : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents. -/
abbrev TnH (c : Dev nD) : sProp 𝕄 := iprop(StableHlo.held (c : Thread nD τ) (Pipeline.ucRefs τ sig) (B8 m ρ c) ∗ ∃ r, prngReg c r)

set_option backward.isDefEq.respectTransparency.types false in
/-- Region 0 over the thread state: entered from every unscoped buffer at `B1`, left at `B2`. -/
def reg0 : Pipeline.RegionSeg (pcfgs (F := F)) admH (pdats m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ LH lvH 0 fun _ _ => rfl
  pre c := iprop(StableHlo.held (c : Thread nD τ) (Pipeline.ucRefs τ sig) (B1 m ρ c) ∗ RH c)
  post c := iprop(StableHlo.held (c : Thread nD τ) (Pipeline.ucRefs τ sig) (B2 m ρ c) ∗ RH c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `B3`, left at `B4`. -/
def reg1 : Pipeline.RegionSeg (pcfgs (F := F)) admH (pdats m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ LH lvH 1 fun _ _ => rfl
  pre c := iprop(StableHlo.held (c : Thread nD τ) (Pipeline.ucRefs τ sig) (B3 m ρ c) ∗ RH c)
  post c := iprop(StableHlo.held (c : Thread nD τ) (Pipeline.ucRefs τ sig) (B4 m ρ c) ∗ RH c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) admH (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `B5`, left at `B6`. -/
def reg2 : Pipeline.RegionSeg (pcfgs (F := F)) admH (pdats m ρ) () defs₀ 𝒱H LH lvH 2 where
  win := launch2.win.to₀
  block_pos := launch2.block_pos
  stage_whole := launch2.stage_whole
  K := PEmpty
  osem k := k.elim
  ho := Pipeline.OwnSemFacts.none _
  hbody c := (body_obligation2 (E5 m ρ) c).loose
  hwaits := Pipeline.hwaits_of_owed_zero _ _ _ _ LH lvH 2 fun _ _ => rfl
  pre c := iprop(StableHlo.held (c : Thread nD τ) (Pipeline.ucRefs τ sig) (B5 m ρ c) ∗ RH c)
  post c := iprop(StableHlo.held (c : Thread nD τ) (Pipeline.ucRefs τ sig) (B6 m ρ c) ∗ RH c)
  X c := iprop(∃ r, prngReg c r)
  Y c := iprop(∃ r, prngReg c r)
  Z c := Pipeline.unscopedRest (Ix := Unit) (Name := ℕ) (U := UR sig nD τ) (Lvl := ℕ) spec2 c (E5 m ρ c)
  hentry c := by
    rw [Pipeline.ownSems0_none]
    have hsplit := Pipeline.arrays_of_unscopedBufs (p := 2) (pcfgs (F := F)) admH (pdats m ρ) launch2.win launch2.arr_whole c
      ((pdats m ρ 2 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdats m ρ) ((pdats m ρ 2 c).share_full fun _ => rfl)
      (E5 m ρ c) (E6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `B7`, left at `B8`. -/
def reg3 : Pipeline.RegionSeg (pcfgs (F := F)) admH (pdats m ρ) () defs₀ 𝒱H LH lvH 3 where
  win := launch3.win.to₀
  block_pos := launch3.block_pos
  stage_whole := launch3.stage_whole
  K := PEmpty
  osem k := k.elim
  ho := Pipeline.OwnSemFacts.none _
  hbody c := (body_obligation3 (E7 m ρ) c).loose
  hwaits := Pipeline.hwaits_of_owed_zero _ _ _ _ LH lvH 3 fun _ _ => rfl
  pre c := iprop(StableHlo.held (c : Thread nD τ) (Pipeline.ucRefs τ sig) (B7 m ρ c) ∗ RH c)
  post c := iprop(TnH m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (E7 m ρ c)
  hentry c := by
    rw [Pipeline.ownSems0_none]
    have hsplit := Pipeline.arrays_of_unscopedBufs (p := 3) (pcfgs (F := F)) admH (pdats m ρ) launch3.win launch3.arr_whole c
      ((pdats m ρ 3 c).share_full fun _ => rfl) (E7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (E7 m ρ) c)
    unfold Pipeline.ΦA
    iintro ⟨Hp, -, Hr⟩
    isplitl [Hr]; · iexact Hr
    iexact Hp
  hout c := by
    rw [Pipeline.ownSems0_none]
    refine BIBase.Entails.trans (hout3 (E7 m ρ) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdats m ρ) ((pdats m ρ 3 c).share_full fun _ => rfl)
      (E7 m ρ c) (E8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's eight segments in order. -/
abbrev segsH : List (Pipeline.Seg (pcfgs (F := F)) admH (pdats m ρ) () defs₀ 𝒱H LH lvH) :=
  [ .host (hseg hostOps0 hostOps0_sub hostOps0_freshH (B0 m ρ)),
    .region (reg0 m ρ),
    .host (hseg hostOps1 hostOps1_sub hostOps1_freshH (B2 m ρ)),
    .region (reg1 m ρ),
    .host (hseg hostOps2 hostOps2_sub hostOps2_freshH (B4 m ρ)),
    .region (reg2 m ρ),
    .host (hseg hostOps3 hostOps3_sub hostOps3_freshH (B6 m ρ)),
    .region (reg3 m ρ) ]
theorem main_runH (c : Dev nD) : main (F := F) c = Pipeline.Seg.run (segsH m ρ) := (main_chain c).trans (by chain_rfl)

set_option backward.isDefEq.respectTransparency.types false in
/-- At the compiled mesh, from any memory with zero counters: every weakly fair execution of @main on the TensorCores
    terminates, nothing faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B8 m ρ c b) :=
  Pipeline.θ_run_regions_kit (pcfgs (F := F)) admH (pdats m ρ) () cellOf_inj emb₁ defs₀ 𝒱H LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ RH c)) (Tₙ := TnH m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B8 m ρ c b)
    (hfin := fun c s' => by
      iintro ⟨⟨Hh, -⟩, HSI⟩
      unfold StableHlo.held
      imodintro
      iapply (pointsTo_read_all (Pipeline.ucRefs τ sig) (fun b => (((c : Thread nD τ)).1, b)) (B8 m ρ c) s')
      isplitl [Hh] <;> iassumption)
    (hQ := fun s h c => h c)

/-- The frame: every argument array ends as launched. -/
theorem frameH : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (B8_main_arg0 m ρ c),
    (h c _ (mem_uc main_arg1 (by decide))).trans (B8_main_arg1 m ρ c),
    (h c _ (mem_uc main_arg2 (by decide))).trans (B8_main_arg2 m ρ c),
    (h c _ (mem_uc main_arg3 (by decide))).trans (B8_main_arg3 m ρ c),
    (h c _ (mem_uc main_arg4 (by decide))).trans (B8_main_arg4 m ρ c),
    (h c _ (mem_uc main_arg5 (by decide))).trans (B8_main_arg5 m ρ c),
    (h c _ (mem_uc main_arg6 (by decide))).trans (B8_main_arg6 m ρ c),
    (h c _ (mem_uc main_arg7 (by decide))).trans (B8_main_arg7 m ρ c),
    (h c _ (mem_uc main_arg8 (by decide))).trans (B8_main_arg8 m ρ c),
    (h c _ (mem_uc main_arg9 (by decide))).trans (B8_main_arg9 m ρ c),
    (h c _ (mem_uc main_arg10 (by decide))).trans (B8_main_arg10 m ρ c)⟩) (run_all m ρ)

end Cert.Kernel.Hand

end
-- ==== Proof.IdealHead0.lean ====
/-
  Projection region 0 (a linear map into the sixteen-head layout), as one pipelined region entered at buffer
  contents `V`: what the body leaves in the output window's buffer as a function of the three input blocks, the
  body's triple, the pipeline's proof data and its obligation at every grid point.
-/
import proofs.«101851_j15083925144173_2_alg».proof.Proof.Gen.KernelIdeal.Launch
import proofs.«101851_j15083925144173_2_alg».proof.Proof.Gen.KernelIdeal.Skeleton
import proofs.«101851_j15083925144173_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The body's whole-buffer rectangles. -/
abbrev rx0 : Rect S512x1024 := Rect.unit (s := S512x1024) ![0, 0] S512x1024.size inb_S512x1024_S512x1024_0_0
abbrev rw0 : Rect S1024x1024 := Rect.unit (s := S1024x1024) ![0, 0] S1024x1024.size inb_S1024x1024_S1024x1024_0_0
abbrev rb0 : Rect S1x1024 := Rect.unit (s := S1x1024) ![0, 0] S1x1024.size inb_S1x1024_S1x1024_0_0
abbrev ro0 : Rect S16x512x64 := Rect.unit (s := S16x512x64) ![0, 0, 0] S16x512x64.size inb_S16x512x64_S16x512x64_0_0_0

/-- The output window's buffer after the body: its one whole-buffer store of the projection of the three loads. -/
def out0_3 (x0 : Vec F S512x1024 .f32) (x1 : Vec F S1024x1024 .bf16) (x2 : Vec F S1x1024 .f32) : Vec F S16x512x64 .bf16 :=
  View.canon [⟨ro0, k0_pay1 (View.ld x0 rx0) (View.ld x1 rw0) (View.ld x2 rb0)⟩]

/-- The store covers the buffer. -/
theorem cover0_3 (p0 : Vec F S16x512x64 .bf16) (y : S16x512x64.Idx) :
    ∃ pc ∈ ([⟨ro0, p0⟩] : List (View.Piece (Elt F) S16x512x64 .bf16)), y ∈ pc.1.set :=
  View.cover_of_tiled [⟨ro0, p0⟩] S16x512x64.size (by rfl) y

set_option maxHeartbeats 1000000 in
/-- The body on whole staging memrefs, the inputs' at contents `x0 x1 x2` and the output's at anything, runs to the
    continuation holding the inputs' as they were and the output's at `out0_3`. -/
theorem sound_kernel0 (c : Dev nD) (E : Set ℕ) (i : grid0.Coords)
    (arg1 : Memref sig .tc .vmem S512x1024 .f32) (harg1 : arg1.IsWhole) (arg2 : Memref sig .tc .vmem S1024x1024 .bf16) (harg2 : arg2.IsWhole)
    (arg3 : Memref sig .tc .vmem S1x1024 .f32) (harg3 : arg3.IsWhole) (arg4 : Memref sig .tc .vmem S16x512x64 .bf16) (harg4 : arg4.IsWhole)
    (x0 : Vec F S512x1024 .f32) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_head_kernel i arg1 harg1 arg2 harg2 arg3 harg3 arg4 harg4) K := by
  simp only [cc0__linear_head_kernel_eq_skeleton]; unfold cc0__linear_head_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of pipeline 0 on core `c`: the arrays as the region finds them; after the body at point `t` each
    input's buffer at its block and the output's at `out0_3` of the input blocks; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.IdealHead1.lean ====
/-
  Projection region 1 (a linear map into the sixteen-head layout), as one pipelined region entered at buffer
  contents `V`: what the body leaves in the output window's buffer as a function of the three input blocks, the
  body's triple, the pipeline's proof data and its obligation at every grid point.
-/
import proofs.«101851_j15083925144173_2_alg».proof.Proof.Gen.KernelIdeal.Launch
import proofs.«101851_j15083925144173_2_alg».proof.Proof.Gen.KernelIdeal.Skeleton
import proofs.«101851_j15083925144173_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The body's whole-buffer rectangles. -/
abbrev rx1 : Rect S512x1024 := Rect.unit (s := S512x1024) ![0, 0] S512x1024.size inb_S512x1024_S512x1024_0_0
abbrev rw1 : Rect S1024x1024 := Rect.unit (s := S1024x1024) ![0, 0] S1024x1024.size inb_S1024x1024_S1024x1024_0_0
abbrev rb1 : Rect S1x1024 := Rect.unit (s := S1x1024) ![0, 0] S1x1024.size inb_S1x1024_S1x1024_0_0
abbrev ro1 : Rect S16x512x64 := Rect.unit (s := S16x512x64) ![0, 0, 0] S16x512x64.size inb_S16x512x64_S16x512x64_0_0_0

/-- The output window's buffer after the body: its one whole-buffer store of the projection of the three loads. -/
def out1_3 (x0 : Vec F S512x1024 .f32) (x1 : Vec F S1024x1024 .bf16) (x2 : Vec F S1x1024 .f32) : Vec F S16x512x64 .bf16 :=
  View.canon [⟨ro1, k1_pay1 (View.ld x0 rx1) (View.ld x1 rw1) (View.ld x2 rb1)⟩]

/-- The store covers the buffer. -/
theorem cover1_3 (p0 : Vec F S16x512x64 .bf16) (y : S16x512x64.Idx) :
    ∃ pc ∈ ([⟨ro1, p0⟩] : List (View.Piece (Elt F) S16x512x64 .bf16)), y ∈ pc.1.set :=
  View.cover_of_tiled [⟨ro1, p0⟩] S16x512x64.size (by rfl) y

set_option maxHeartbeats 1000000 in
/-- The body on whole staging memrefs, the inputs' at contents `x0 x1 x2` and the output's at anything, runs to the
    continuation holding the inputs' as they were and the output's at `out1_3`. -/
theorem sound_kernel1 (c : Dev nD) (E : Set ℕ) (i : grid1.Coords)
    (arg1 : Memref sig .tc .vmem S512x1024 .f32) (harg1 : arg1.IsWhole) (arg2 : Memref sig .tc .vmem S1024x1024 .bf16) (harg2 : arg2.IsWhole)
    (arg3 : Memref sig .tc .vmem S1x1024 .f32) (harg3 : arg3.IsWhole) (arg4 : Memref sig .tc .vmem S16x512x64 .bf16) (harg4 : arg4.IsWhole)
    (x0 : Vec F S512x1024 .f32) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__linear_head_kernel i arg1 harg1 arg2 harg2 arg3 harg3 arg4 harg4) K := by
  simp only [cc1__linear_head_kernel_eq_skeleton]; unfold cc1__linear_head_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of pipeline 1 on core `c`: the arrays as the region finds them; after the body at point `t` each
    input's buffer at its block and the output's at `out1_3` of the input blocks; the invariant the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.IdealHead2.lean ====
/-
  Projection region 2 (a linear map into the sixteen-head layout), as one pipelined region entered at buffer
  contents `V`: what the body leaves in the output window's buffer as a function of the three input blocks, the
  body's triple, the pipeline's proof data and its obligation at every grid point.
-/
import proofs.«101851_j15083925144173_2_alg».proof.Proof.Gen.KernelIdeal.Launch
import proofs.«101851_j15083925144173_2_alg».proof.Proof.Gen.KernelIdeal.Skeleton
import proofs.«101851_j15083925144173_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The body's whole-buffer rectangles. -/
abbrev rx2 : Rect S512x1024 := Rect.unit (s := S512x1024) ![0, 0] S512x1024.size inb_S512x1024_S512x1024_0_0
abbrev rw2 : Rect S1024x1024 := Rect.unit (s := S1024x1024) ![0, 0] S1024x1024.size inb_S1024x1024_S1024x1024_0_0
abbrev rb2 : Rect S1x1024 := Rect.unit (s := S1x1024) ![0, 0] S1x1024.size inb_S1x1024_S1x1024_0_0
abbrev ro2 : Rect S16x512x64 := Rect.unit (s := S16x512x64) ![0, 0, 0] S16x512x64.size inb_S16x512x64_S16x512x64_0_0_0

/-- The output window's buffer after the body: its one whole-buffer store of the projection of the three loads. -/
def out2_3 (x0 : Vec F S512x1024 .f32) (x1 : Vec F S1024x1024 .bf16) (x2 : Vec F S1x1024 .f32) : Vec F S16x512x64 .bf16 :=
  View.canon [⟨ro2, k2_pay1 (View.ld x0 rx2) (View.ld x1 rw2) (View.ld x2 rb2)⟩]

/-- The store covers the buffer. -/
theorem cover2_3 (p0 : Vec F S16x512x64 .bf16) (y : S16x512x64.Idx) :
    ∃ pc ∈ ([⟨ro2, p0⟩] : List (View.Piece (Elt F) S16x512x64 .bf16)), y ∈ pc.1.set :=
  View.cover_of_tiled [⟨ro2, p0⟩] S16x512x64.size (by rfl) y

set_option maxHeartbeats 1000000 in
/-- The body on whole staging memrefs, the inputs' at contents `x0 x1 x2` and the output's at anything, runs to the
    continuation holding the inputs' as they were and the output's at `out2_3`. -/
theorem sound_kernel2 (c : Dev nD) (E : Set ℕ) (i : grid2.Coords)
    (arg1 : Memref sig .tc .vmem S512x1024 .f32) (harg1 : arg1.IsWhole) (arg2 : Memref sig .tc .vmem S1024x1024 .bf16) (harg2 : arg2.IsWhole)
    (arg3 : Memref sig .tc .vmem S1x1024 .f32) (harg3 : arg3.IsWhole) (arg4 : Memref sig .tc .vmem S16x512x64 .bf16) (harg4 : arg4.IsWhole)
    (x0 : Vec F S512x1024 .f32) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__linear_head_kernel i arg1 harg1 arg2 harg2 arg3 harg3 arg4 harg4) K := by
  simp only [cc2__linear_head_kernel_eq_skeleton]; unfold cc2__linear_head_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of pipeline 2 on core `c`: the arrays as the region finds them; after the body at point `t` each
    input's buffer at its block and the output's at `out2_3` of the input blocks; the invariant the scoped rest and
    the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.IdealFlashRuns.lean ====
/-
  The attention region (pipeline 3) entered at buffer contents `V`: its windows' blocks, the two branch conditions of
  its body decided over the grid (the accumulators are reset at key tile 0; the result is written at key tile 15),
  where the result window is idle, and the staging and scratch buffers the body is called with.
-/
import proofs.«101851_j15083925144173_2_alg».proof.Proof.Gen.KernelIdeal.Launch
import proofs.«101851_j15083925144173_2_alg».proof.Proof.Gen.KernelIdeal.Skeleton
import proofs.«101851_j15083925144173_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, fetched there or not. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- The body's first branch: the key-tile coordinate is 0. -/
abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 16 = 0 :=
  (by decide +kernel : ∀ t : Fin grid3.N, cond3_0 (grid3.coords t) ↔ t.val % 16 = 0)
/-- The body's last branch: the key-tile coordinate is 15. -/
abbrev cond3_1 (i : grid3.Coords) : Prop := k3_cond2 i = 1#1
theorem hcond3_1 : ∀ t : Fin cfg3.N, cond3_1 (grid3.coords t) ↔ t.val % 16 = 15 :=
  (by decide +kernel : ∀ t : Fin grid3.N, cond3_1 (grid3.coords t) ↔ t.val % 16 = 15)

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cfg3.idle 4 (grid3.coords t) = false := by decide +kernel
theorem idleAt3_5_A : ∀ t : Fin cfg3.N, cond3_0 (grid3.coords t) → ¬cond3_1 (grid3.coords t) → cfg3.idle 5 (grid3.coords t) = true := by decide +kernel
theorem noFlush3_5_A : ∀ t : Fin cfg3.N, cond3_0 (grid3.coords t) → ¬cond3_1 (grid3.coords t) → (cfg3.win 5).flush t = false := by decide +kernel
theorem idleAt3_5_B : ∀ t : Fin cfg3.N, ¬cond3_0 (grid3.coords t) → ¬cond3_1 (grid3.coords t) → cfg3.idle 5 (grid3.coords t) = true := by decide +kernel
theorem noFlush3_5_B : ∀ t : Fin cfg3.N, ¬cond3_0 (grid3.coords t) → ¬cond3_1 (grid3.coords t) → (cfg3.win 5).flush t = false := by decide +kernel
theorem liveAt3_5_C : ∀ t : Fin cfg3.N, ¬cond3_0 (grid3.coords t) → cond3_1 (grid3.coords t) → cfg3.idle 5 (grid3.coords t) = false := by decide +kernel

/-- One staging buffer of the result window, through which its contents are stated. -/
abbrev VO3_5 : View sig .tc .vmem S512x1024 .f32 := (Memref.whole cc3_stg5_0 : Memref sig .tc .vmem S512x1024 .f32).view
abbrev ms3_0 (t : Fin cfg3.N) : Memref sig .tc .vmem S16x512x64 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S16x256x64 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S16x256x64 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x1024 .bf16 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x1024 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S512x1024 .f32 := win3_5.stage (cfg3.slots t 5)
abbrev hs3_5 (t : Fin cfg3.N) : (ms3_5 t).IsWhole := hstage3_5 ((cfg3.slots t 5).cast nbuf3_5)
/-- The scratch operands: the running maximum, the running sum and the accumulator. -/
abbrev scM3_0 : Memref sig .tc .vmem S16x512x1 .f32 := Memref.whole cc3_scratch0
abbrev VS3_0 : View sig .tc .vmem S16x512x1 .f32 := scM3_0.view
abbrev scM3_1 : Memref sig .tc .vmem S16x512x1 .f32 := Memref.whole cc3_scratch1
abbrev VS3_1 : View sig .tc .vmem S16x512x1 .f32 := scM3_1.view
abbrev scM3_2 : Memref sig .tc .vmem S16x512x64 .f32 := Memref.whole cc3_scratch2
abbrev VS3_2 : View sig .tc .vmem S16x512x64 .f32 := scM3_2.view

/-- The class invariant with the three scratch operands as memrefs owned at some contents. -/
theorem PhiA3_eq (c : Dev nD) :
    (Pipeline.ΦA spec3 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ d, owns (c : Thread nD τ) scM3_0 fullShare d) ∗ (∃ d, owns (c : Thread nD τ) scM3_1 fullShare d) ∗ (∃ d, owns (c : Thread nD τ) scM3_2 fullShare d)) ∗ (∃ r, prngReg c r)) := by
  unfold Pipeline.ΦA; rw [scopedRest3_eq]; simp only [scM3_0, scM3_1, scM3_2, owns_whole]; try rfl

end Cert.KernelIdeal.Hand

end
-- ==== Proof.IdealFlashRunA.lean ====
/-
  The attention body run whole in case A of its two branches (key tile 0: the accumulators are reset first):
  the pieces each buffer ends with are found by running the body.
-/
import proofs.«101851_j15083925144173_2_alg».proof.Proof.IdealFlashRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the result window's buffer and in the three scratch buffers, as pieces (last first), in
    case A, with the proof that the body runs from the inputs at their contents, the scratch at anything, the result buffer handed back untouched. -/
noncomputable def kernelRun3_A (c : Dev nD) (i : grid3.Coords) (arg2 : Memref sig .tc .vmem S16x512x64 .bf16) (harg2 : arg2.IsWhole) (arg3 : Memref sig .tc .vmem S16x256x64 .bf16) (harg3 : arg3.IsWhole) (arg4 : Memref sig .tc .vmem S16x256x64 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S16x512x1 .f32) (harg8 : arg8.IsWhole) (arg9 : Memref sig .tc .vmem S16x512x1 .f32) (harg9 : arg9.IsWhole) (arg10 : Memref sig .tc .vmem S16x512x64 .f32) (harg10 : arg10.IsWhole) (hc0 : cond3_0 i) (hc1 : ¬cond3_1 i)
    (x0 : Vec F S16x512x64 .bf16) (x1 : Vec F S16x256x64 .bf16) (x2 : Vec F S16x256x64 .bf16) (x3 : Vec F S1024x1024 .bf16) (x4 : Vec F S1x1024 .f32) :
    Σ' (L5 : List (View.Piece (Elt F) S512x1024 .f32)) (LS0 : List (View.Piece (Elt F) S16x512x1 .f32)) (LS1 : List (View.Piece (Elt F) S16x512x1 .f32)), { LS2 : List (View.Piece (Elt F) S16x512x64 .f32) //
      ∀ (xi5 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc3__flash_out_kernel i arg2 harg2 arg3 harg3 arg4 harg4 arg5 harg5 arg6 harg6 arg7 harg7 arg8 harg8 arg9 harg9 arg10 harg10) K } := by
  refine ⟨[], ?_, ?_, ?_, fun xi5 E K => ?run⟩
  case run =>
    simp only [cc3__flash_out_kernel_eq_skeleton]; unfold cc3__flash_out_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.KernelIdeal.Hand

end
-- ==== Proof.IdealFlashRunB.lean ====
/-
  The attention body run whole in case B of its two branches (a middle key tile: the accumulators are carried):
  the pieces each buffer ends with are found by running the body.
-/
import proofs.«101851_j15083925144173_2_alg».proof.Proof.IdealFlashRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the result window's buffer and in the three scratch buffers, as pieces (last first), in
    case B, with the proof that the body runs from the inputs at their contents, the scratch at what the point before left, the result buffer handed back untouched. -/
noncomputable def kernelRun3_B (c : Dev nD) (i : grid3.Coords) (arg2 : Memref sig .tc .vmem S16x512x64 .bf16) (harg2 : arg2.IsWhole) (arg3 : Memref sig .tc .vmem S16x256x64 .bf16) (harg3 : arg3.IsWhole) (arg4 : Memref sig .tc .vmem S16x256x64 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S16x512x1 .f32) (harg8 : arg8.IsWhole) (arg9 : Memref sig .tc .vmem S16x512x1 .f32) (harg9 : arg9.IsWhole) (arg10 : Memref sig .tc .vmem S16x512x64 .f32) (harg10 : arg10.IsWhole) (hc0 : ¬cond3_0 i) (hc1 : ¬cond3_1 i)
    (x0 : Vec F S16x512x64 .bf16) (x1 : Vec F S16x256x64 .bf16) (x2 : Vec F S16x256x64 .bf16) (x3 : Vec F S1024x1024 .bf16) (x4 : Vec F S1x1024 .f32) (xs0 : Vec F S16x512x1 .f32) (xs1 : Vec F S16x512x1 .f32) (xs2 : Vec F S16x512x64 .f32) :
    Σ' (L5 : List (View.Piece (Elt F) S512x1024 .f32)) (LS0 : List (View.Piece (Elt F) S16x512x1 .f32)) (LS1 : List (View.Piece (Elt F) S16x512x1 .f32)), { LS2 : List (View.Piece (Elt F) S16x512x64 .f32) //
      ∀ (xi5 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc3__flash_out_kernel i arg2 harg2 arg3 harg3 arg4 harg4 arg5 harg5 arg6 harg6 arg7 harg7 arg8 harg8 arg9 harg9 arg10 harg10) K } := by
  refine ⟨[], ?_, ?_, ?_, fun xi5 E K => ?run⟩
  case run =>
    simp only [cc3__flash_out_kernel_eq_skeleton]; unfold cc3__flash_out_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.KernelIdeal.Hand

end
-- ==== Proof.IdealFlashRunC.lean ====
/-
  The attention body run whole in case C of its two branches (key tile 15: the accumulators are carried and the result is written):
  the pieces each buffer ends with are found by running the body.
-/
import proofs.«101851_j15083925144173_2_alg».proof.Proof.IdealFlashRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the result window's buffer and in the three scratch buffers, as pieces (last first), in
    case C, with the proof that the body runs from the inputs at their contents, the scratch at what the point before left, the result buffer at anything. -/
noncomputable def kernelRun3_C (c : Dev nD) (i : grid3.Coords) (arg2 : Memref sig .tc .vmem S16x512x64 .bf16) (harg2 : arg2.IsWhole) (arg3 : Memref sig .tc .vmem S16x256x64 .bf16) (harg3 : arg3.IsWhole) (arg4 : Memref sig .tc .vmem S16x256x64 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S16x512x1 .f32) (harg8 : arg8.IsWhole) (arg9 : Memref sig .tc .vmem S16x512x1 .f32) (harg9 : arg9.IsWhole) (arg10 : Memref sig .tc .vmem S16x512x64 .f32) (harg10 : arg10.IsWhole) (hc0 : ¬cond3_0 i) (hc1 : cond3_1 i)
    (x0 : Vec F S16x512x64 .bf16) (x1 : Vec F S16x256x64 .bf16) (x2 : Vec F S16x256x64 .bf16) (x3 : Vec F S1024x1024 .bf16) (x4 : Vec F S1x1024 .f32) (xs0 : Vec F S16x512x1 .f32) (xs1 : Vec F S16x512x1 .f32) (xs2 : Vec F S16x512x64 .f32) :
    Σ' (L5 : List (View.Piece (Elt F) S512x1024 .f32)) (LS0 : List (View.Piece (Elt F) S16x512x1 .f32)) (LS1 : List (View.Piece (Elt F) S16x512x1 .f32)), { LS2 : List (View.Piece (Elt F) S16x512x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc3__flash_out_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc3__flash_out_kernel_eq_skeleton]; unfold cc3__flash_out_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    isplitl [HS1]; · iexists _; iexact HS1
    iexists _; iexact HS2

end Cert.KernelIdeal.Hand

end
-- ==== Proof.IdealFlash.lean ====
/-
  The attention region's proof data: what the result window's buffer and the three scratch buffers hold after each
  grid point (by recursion on the point: the scratch buffers are carried from one key tile to the next and reset at
  key tile 0), the region's invariant (the scratch buffers at those contents), the body obligation at every point, and
  the invariant's two ends.
-/
import proofs.«101851_j15083925144173_2_alg».proof.Proof.IdealFlashRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A's pieces for scratch buffer 0 cover it. -/
theorem scover3_A_0 (c : Dev nD) (i : grid3.Coords) (arg2 : Memref sig .tc .vmem S16x512x64 .bf16) (harg2 : arg2.IsWhole) (arg3 : Memref sig .tc .vmem S16x256x64 .bf16) (harg3 : arg3.IsWhole) (arg4 : Memref sig .tc .vmem S16x256x64 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S16x512x1 .f32) (harg8 : arg8.IsWhole) (arg9 : Memref sig .tc .vmem S16x512x1 .f32) (harg9 : arg9.IsWhole) (arg10 : Memref sig .tc .vmem S16x512x64 .f32) (harg10 : arg10.IsWhole) (hc0 : cond3_0 i) (hc1 : ¬cond3_1 i)
    (x0 : Vec F S16x512x64 .bf16) (x1 : Vec F S16x256x64 .bf16) (x2 : Vec F S16x256x64 .bf16) (x3 : Vec F S1024x1024 .bf16) (x4 : Vec F S1x1024 .f32) (y : S16x512x1.Idx) :
    ∃ pc ∈ (kernelRun3_A c i arg2 harg2 arg3 harg3 arg4 harg4 arg5 harg5 arg6 harg6 arg7 harg7 arg8 harg8 arg9 harg9 arg10 harg10 hc0 hc1 x0 x1 x2 x3 x4).2.1, y ∈ pc.1.set :=
  View.cover_of_tiledL (kernelRun3_A c i arg2 harg2 arg3 harg3 arg4 harg4 arg5 harg5 arg6 harg6 arg7 harg7 arg8 harg8 arg9 harg9 arg10 harg10 hc0 hc1 x0 x1 x2 x3 x4).2.1 S16x512x1.size (by sl_kernel_rfl) y
/-- What case A leaves in scratch buffer 0: its pieces read back. -/
def sout3_A_0 (c : Dev nD) (i : grid3.Coords) (arg2 : Memref sig .tc .vmem S16x512x64 .bf16) (harg2 : arg2.IsWhole) (arg3 : Memref sig .tc .vmem S16x256x64 .bf16) (harg3 : arg3.IsWhole) (arg4 : Memref sig .tc .vmem S16x256x64 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S16x512x1 .f32) (harg8 : arg8.IsWhole) (arg9 : Memref sig .tc .vmem S16x512x1 .f32) (harg9 : arg9.IsWhole) (arg10 : Memref sig .tc .vmem S16x512x64 .f32) (harg10 : arg10.IsWhole) (hc0 : cond3_0 i) (hc1 : ¬cond3_1 i)
    (x0 : Vec F S16x512x64 .bf16) (x1 : Vec F S16x256x64 .bf16) (x2 : Vec F S16x256x64 .bf16) (x3 : Vec F S1024x1024 .bf16) (x4 : Vec F S1x1024 .f32) : Vec F S16x512x1 .f32 :=
  VS3_0.read (Elt F) (VS3_0.writes (Elt F) VS3_0.junk (kernelRun3_A c i arg2 harg2 arg3 harg3 arg4 harg4 arg5 harg5 arg6 harg6 arg7 harg7 arg8 harg8 arg9 harg9 arg10 harg10 hc0 hc1 x0 x1 x2 x3 x4).2.1)

/-- Case A's pieces for scratch buffer 1 cover it. -/
theorem scover3_A_1 (c : Dev nD) (i : grid3.Coords) (arg2 : Memref sig .tc .vmem S16x512x64 .bf16) (harg2 : arg2.IsWhole) (arg3 : Memref sig .tc .vmem S16x256x64 .bf16) (harg3 : arg3.IsWhole) (arg4 : Memref sig .tc .vmem S16x256x64 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S16x512x1 .f32) (harg8 : arg8.IsWhole) (arg9 : Memref sig .tc .vmem S16x512x1 .f32) (harg9 : arg9.IsWhole) (arg10 : Memref sig .tc .vmem S16x512x64 .f32) (harg10 : arg10.IsWhole) (hc0 : cond3_0 i) (hc1 : ¬cond3_1 i)
    (x0 : Vec F S16x512x64 .bf16) (x1 : Vec F S16x256x64 .bf16) (x2 : Vec F S16x256x64 .bf16) (x3 : Vec F S1024x1024 .bf16) (x4 : Vec F S1x1024 .f32) (y : S16x512x1.Idx) :
    ∃ pc ∈ (kernelRun3_A c i arg2 harg2 arg3 harg3 arg4 harg4 arg5 harg5 arg6 harg6 arg7 harg7 arg8 harg8 arg9 harg9 arg10 harg10 hc0 hc1 x0 x1 x2 x3 x4).2.2.1, y ∈ pc.1.set :=
  View.cover_of_tiledL (kernelRun3_A c i arg2 harg2 arg3 harg3 arg4 harg4 arg5 harg5 arg6 harg6 arg7 harg7 arg8 harg8 arg9 harg9 arg10 harg10 hc0 hc1 x0 x1 x2 x3 x4).2.2.1 S16x512x1.size (by sl_kernel_rfl) y
/-- What case A leaves in scratch buffer 1: its pieces read back. -/
def sout3_A_1 (c : Dev nD) (i : grid3.Coords) (arg2 : Memref sig .tc .vmem S16x512x64 .bf16) (harg2 : arg2.IsWhole) (arg3 : Memref sig .tc .vmem S16x256x64 .bf16) (harg3 : arg3.IsWhole) (arg4 : Memref sig .tc .vmem S16x256x64 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S16x512x1 .f32) (harg8 : arg8.IsWhole) (arg9 : Memref sig .tc .vmem S16x512x1 .f32) (harg9 : arg9.IsWhole) (arg10 : Memref sig .tc .vmem S16x512x64 .f32) (harg10 : arg10.IsWhole) (hc0 : cond3_0 i) (hc1 : ¬cond3_1 i)
    (x0 : Vec F S16x512x64 .bf16) (x1 : Vec F S16x256x64 .bf16) (x2 : Vec F S16x256x64 .bf16) (x3 : Vec F S1024x1024 .bf16) (x4 : Vec F S1x1024 .f32) : Vec F S16x512x1 .f32 :=
  VS3_1.read (Elt F) (VS3_1.writes (Elt F) VS3_1.junk (kernelRun3_A c i arg2 harg2 arg3 harg3 arg4 harg4 arg5 harg5 arg6 harg6 arg7 harg7 arg8 harg8 arg9 harg9 arg10 harg10 hc0 hc1 x0 x1 x2 x3 x4).2.2.1)

/-- Case A's pieces for scratch buffer 2 cover it. -/
theorem scover3_A_2 (c : Dev nD) (i : grid3.Coords) (arg2 : Memref sig .tc .vmem S16x512x64 .bf16) (harg2 : arg2.IsWhole) (arg3 : Memref sig .tc .vmem S16x256x64 .bf16) (harg3 : arg3.IsWhole) (arg4 : Memref sig .tc .vmem S16x256x64 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S16x512x1 .f32) (harg8 : arg8.IsWhole) (arg9 : Memref sig .tc .vmem S16x512x1 .f32) (harg9 : arg9.IsWhole) (arg10 : Memref sig .tc .vmem S16x512x64 .f32) (harg10 : arg10.IsWhole) (hc0 : cond3_0 i) (hc1 : ¬cond3_1 i)
    (x0 : Vec F S16x512x64 .bf16) (x1 : Vec F S16x256x64 .bf16) (x2 : Vec F S16x256x64 .bf16) (x3 : Vec F S1024x1024 .bf16) (x4 : Vec F S1x1024 .f32) (y : S16x512x64.Idx) :
    ∃ pc ∈ (kernelRun3_A c i arg2 harg2 arg3 harg3 arg4 harg4 arg5 harg5 arg6 harg6 arg7 harg7 arg8 harg8 arg9 harg9 arg10 harg10 hc0 hc1 x0 x1 x2 x3 x4).2.2.2.1, y ∈ pc.1.set :=
  View.cover_of_tiledL (kernelRun3_A c i arg2 harg2 arg3 harg3 arg4 harg4 arg5 harg5 arg6 harg6 arg7 harg7 arg8 harg8 arg9 harg9 arg10 harg10 hc0 hc1 x0 x1 x2 x3 x4).2.2.2.1 S16x512x64.size (by sl_kernel_rfl) y
/-- What case A leaves in scratch buffer 2: its pieces read back. -/
def sout3_A_2 (c : Dev nD) (i : grid3.Coords) (arg2 : Memref sig .tc .vmem S16x512x64 .bf16) (harg2 : arg2.IsWhole) (arg3 : Memref sig .tc .vmem S16x256x64 .bf16) (harg3 : arg3.IsWhole) (arg4 : Memref sig .tc .vmem S16x256x64 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S16x512x1 .f32) (harg8 : arg8.IsWhole) (arg9 : Memref sig .tc .vmem S16x512x1 .f32) (harg9 : arg9.IsWhole) (arg10 : Memref sig .tc .vmem S16x512x64 .f32) (harg10 : arg10.IsWhole) (hc0 : cond3_0 i) (hc1 : ¬cond3_1 i)
    (x0 : Vec F S16x512x64 .bf16) (x1 : Vec F S16x256x64 .bf16) (x2 : Vec F S16x256x64 .bf16) (x3 : Vec F S1024x1024 .bf16) (x4 : Vec F S1x1024 .f32) : Vec F S16x512x64 .f32 :=
  VS3_2.read (Elt F) (VS3_2.writes (Elt F) VS3_2.junk (kernelRun3_A c i arg2 harg2 arg3 harg3 arg4 harg4 arg5 harg5 arg6 harg6 arg7 harg7 arg8 harg8 arg9 harg9 arg10 harg10 hc0 hc1 x0 x1 x2 x3 x4).2.2.2.1)

/-- What case A leaves in the result window's buffer (nothing is stored there: a placeholder nothing consults). -/
def out3_A_5 (c : Dev nD) (i : grid3.Coords) (arg2 : Memref sig .tc .vmem S16x512x64 .bf16) (harg2 : arg2.IsWhole) (arg3 : Memref sig .tc .vmem S16x256x64 .bf16) (harg3 : arg3.IsWhole) (arg4 : Memref sig .tc .vmem S16x256x64 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S16x512x1 .f32) (harg8 : arg8.IsWhole) (arg9 : Memref sig .tc .vmem S16x512x1 .f32) (harg9 : arg9.IsWhole) (arg10 : Memref sig .tc .vmem S16x512x64 .f32) (harg10 : arg10.IsWhole) (hc0 : cond3_0 i) (hc1 : ¬cond3_1 i)
    (x0 : Vec F S16x512x64 .bf16) (x1 : Vec F S16x256x64 .bf16) (x2 : Vec F S16x256x64 .bf16) (x3 : Vec F S1024x1024 .bf16) (x4 : Vec F S1x1024 .f32) : Vec F S512x1024 .f32 :=
  VO3_5.read (Elt F) (VO3_5.writes (Elt F) VO3_5.junk (kernelRun3_A c i arg2 harg2 arg3 harg3 arg4 harg4 arg5 harg5 arg6 harg6 arg7 harg7 arg8 harg8 arg9 harg9 arg10 harg10 hc0 hc1 x0 x1 x2 x3 x4).1)

/-- Case B's pieces for scratch buffer 0 cover it. -/
theorem scover3_B_0 (c : Dev nD) (i : grid3.Coords) (arg2 : Memref sig .tc .vmem S16x512x64 .bf16) (harg2 : arg2.IsWhole) (arg3 : Memref sig .tc .vmem S16x256x64 .bf16) (harg3 : arg3.IsWhole) (arg4 : Memref sig .tc .vmem S16x256x64 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S16x512x1 .f32) (harg8 : arg8.IsWhole) (arg9 : Memref sig .tc .vmem S16x512x1 .f32) (harg9 : arg9.IsWhole) (arg10 : Memref sig .tc .vmem S16x512x64 .f32) (harg10 : arg10.IsWhole) (hc0 : ¬cond3_0 i) (hc1 : ¬cond3_1 i)
    (x0 : Vec F S16x512x64 .bf16) (x1 : Vec F S16x256x64 .bf16) (x2 : Vec F S16x256x64 .bf16) (x3 : Vec F S1024x1024 .bf16) (x4 : Vec F S1x1024 .f32) (xs0 : Vec F S16x512x1 .f32) (xs1 : Vec F S16x512x1 .f32) (xs2 : Vec F S16x512x64 .f32) (y : S16x512x1.Idx) :
    ∃ pc ∈ (kernelRun3_B c i arg2 harg2 arg3 harg3 arg4 harg4 arg5 harg5 arg6 harg6 arg7 harg7 arg8 harg8 arg9 harg9 arg10 harg10 hc0 hc1 x0 x1 x2 x3 x4 xs0 xs1 xs2).2.1, y ∈ pc.1.set :=
  View.cover_of_tiledL (kernelRun3_B c i arg2 harg2 arg3 harg3 arg4 harg4 arg5 harg5 arg6 harg6 arg7 harg7 arg8 harg8 arg9 harg9 arg10 harg10 hc0 hc1 x0 x1 x2 x3 x4 xs0 xs1 xs2).2.1 S16x512x1.size (by sl_kernel_rfl) y
/-- What case B leaves in scratch buffer 0: its pieces read back. -/
def sout3_B_0 (c : Dev nD) (i : grid3.Coords) (arg2 : Memref sig .tc .vmem S16x512x64 .bf16) (harg2 : arg2.IsWhole) (arg3 : Memref sig .tc .vmem S16x256x64 .bf16) (harg3 : arg3.IsWhole) (arg4 : Memref sig .tc .vmem S16x256x64 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S16x512x1 .f32) (harg8 : arg8.IsWhole) (arg9 : Memref sig .tc .vmem S16x512x1 .f32) (harg9 : arg9.IsWhole) (arg10 : Memref sig .tc .vmem S16x512x64 .f32) (harg10 : arg10.IsWhole) (hc0 : ¬cond3_0 i) (hc1 : ¬cond3_1 i)
    (x0 : Vec F S16x512x64 .bf16) (x1 : Vec F S16x256x64 .bf16) (x2 : Vec F S16x256x64 .bf16) (x3 : Vec F S1024x1024 .bf16) (x4 : Vec F S1x1024 .f32) (xs0 : Vec F S16x512x1 .f32) (xs1 : Vec F S16x512x1 .f32) (xs2 : Vec F S16x512x64 .f32) : Vec F S16x512x1 .f32 :=
  VS3_0.read (Elt F) (VS3_0.writes (Elt F) VS3_0.junk (kernelRun3_B c i arg2 harg2 arg3 harg3 arg4 harg4 arg5 harg5 arg6 harg6 arg7 harg7 arg8 harg8 arg9 harg9 arg10 harg10 hc0 hc1 x0 x1 x2 x3 x4 xs0 xs1 xs2).2.1)

/-- Case B's pieces for scratch buffer 1 cover it. -/
theorem scover3_B_1 (c : Dev nD) (i : grid3.Coords) (arg2 : Memref sig .tc .vmem S16x512x64 .bf16) (harg2 : arg2.IsWhole) (arg3 : Memref sig .tc .vmem S16x256x64 .bf16) (harg3 : arg3.IsWhole) (arg4 : Memref sig .tc .vmem S16x256x64 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S16x512x1 .f32) (harg8 : arg8.IsWhole) (arg9 : Memref sig .tc .vmem S16x512x1 .f32) (harg9 : arg9.IsWhole) (arg10 : Memref sig .tc .vmem S16x512x64 .f32) (harg10 : arg10.IsWhole) (hc0 : ¬cond3_0 i) (hc1 : ¬cond3_1 i)
    (x0 : Vec F S16x512x64 .bf16) (x1 : Vec F S16x256x64 .bf16) (x2 : Vec F S16x256x64 .bf16) (x3 : Vec F S1024x1024 .bf16) (x4 : Vec F S1x1024 .f32) (xs0 : Vec F S16x512x1 .f32) (xs1 : Vec F S16x512x1 .f32) (xs2 : Vec F S16x512x64 .f32) (y : S16x512x1.Idx) :
    ∃ pc ∈ (kernelRun3_B c i arg2 harg2 arg3 harg3 arg4 harg4 arg5 harg5 arg6 harg6 arg7 harg7 arg8 harg8 arg9 harg9 arg10 harg10 hc0 hc1 x0 x1 x2 x3 x4 xs0 xs1 xs2).2.2.1, y ∈ pc.1.set :=
  View.cover_of_tiledL (kernelRun3_B c i arg2 harg2 arg3 harg3 arg4 harg4 arg5 harg5 arg6 harg6 arg7 harg7 arg8 harg8 arg9 harg9 arg10 harg10 hc0 hc1 x0 x1 x2 x3 x4 xs0 xs1 xs2).2.2.1 S16x512x1.size (by sl_kernel_rfl) y
/-- What case B leaves in scratch buffer 1: its pieces read back. -/
def sout3_B_1 (c : Dev nD) (i : grid3.Coords) (arg2 : Memref sig .tc .vmem S16x512x64 .bf16) (harg2 : arg2.IsWhole) (arg3 : Memref sig .tc .vmem S16x256x64 .bf16) (harg3 : arg3.IsWhole) (arg4 : Memref sig .tc .vmem S16x256x64 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S16x512x1 .f32) (harg8 : arg8.IsWhole) (arg9 : Memref sig .tc .vmem S16x512x1 .f32) (harg9 : arg9.IsWhole) (arg10 : Memref sig .tc .vmem S16x512x64 .f32) (harg10 : arg10.IsWhole) (hc0 : ¬cond3_0 i) (hc1 : ¬cond3_1 i)
    (x0 : Vec F S16x512x64 .bf16) (x1 : Vec F S16x256x64 .bf16) (x2 : Vec F S16x256x64 .bf16) (x3 : Vec F S1024x1024 .bf16) (x4 : Vec F S1x1024 .f32) (xs0 : Vec F S16x512x1 .f32) (xs1 : Vec F S16x512x1 .f32) (xs2 : Vec F S16x512x64 .f32) : Vec F S16x512x1 .f32 :=
  VS3_1.read (Elt F) (VS3_1.writes (Elt F) VS3_1.junk (kernelRun3_B c i arg2 harg2 arg3 harg3 arg4 harg4 arg5 harg5 arg6 harg6 arg7 harg7 arg8 harg8 arg9 harg9 arg10 harg10 hc0 hc1 x0 x1 x2 x3 x4 xs0 xs1 xs2).2.2.1)

/-- Case B's pieces for scratch buffer 2 cover it. -/
theorem scover3_B_2 (c : Dev nD) (i : grid3.Coords) (arg2 : Memref sig .tc .vmem S16x512x64 .bf16) (harg2 : arg2.IsWhole) (arg3 : Memref sig .tc .vmem S16x256x64 .bf16) (harg3 : arg3.IsWhole) (arg4 : Memref sig .tc .vmem S16x256x64 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S16x512x1 .f32) (harg8 : arg8.IsWhole) (arg9 : Memref sig .tc .vmem S16x512x1 .f32) (harg9 : arg9.IsWhole) (arg10 : Memref sig .tc .vmem S16x512x64 .f32) (harg10 : arg10.IsWhole) (hc0 : ¬cond3_0 i) (hc1 : ¬cond3_1 i)
    (x0 : Vec F S16x512x64 .bf16) (x1 : Vec F S16x256x64 .bf16) (x2 : Vec F S16x256x64 .bf16) (x3 : Vec F S1024x1024 .bf16) (x4 : Vec F S1x1024 .f32) (xs0 : Vec F S16x512x1 .f32) (xs1 : Vec F S16x512x1 .f32) (xs2 : Vec F S16x512x64 .f32) (y : S16x512x64.Idx) :
    ∃ pc ∈ (kernelRun3_B c i arg2 harg2 arg3 harg3 arg4 harg4 arg5 harg5 arg6 harg6 arg7 harg7 arg8 harg8 arg9 harg9 arg10 harg10 hc0 hc1 x0 x1 x2 x3 x4 xs0 xs1 xs2).2.2.2.1, y ∈ pc.1.set :=
  View.cover_of_tiledL (kernelRun3_B c i arg2 harg2 arg3 harg3 arg4 harg4 arg5 harg5 arg6 harg6 arg7 harg7 arg8 harg8 arg9 harg9 arg10 harg10 hc0 hc1 x0 x1 x2 x3 x4 xs0 xs1 xs2).2.2.2.1 S16x512x64.size (by sl_kernel_rfl) y
/-- What case B leaves in scratch buffer 2: its pieces read back. -/
def sout3_B_2 (c : Dev nD) (i : grid3.Coords) (arg2 : Memref sig .tc .vmem S16x512x64 .bf16) (harg2 : arg2.IsWhole) (arg3 : Memref sig .tc .vmem S16x256x64 .bf16) (harg3 : arg3.IsWhole) (arg4 : Memref sig .tc .vmem S16x256x64 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S16x512x1 .f32) (harg8 : arg8.IsWhole) (arg9 : Memref sig .tc .vmem S16x512x1 .f32) (harg9 : arg9.IsWhole) (arg10 : Memref sig .tc .vmem S16x512x64 .f32) (harg10 : arg10.IsWhole) (hc0 : ¬cond3_0 i) (hc1 : ¬cond3_1 i)
    (x0 : Vec F S16x512x64 .bf16) (x1 : Vec F S16x256x64 .bf16) (x2 : Vec F S16x256x64 .bf16) (x3 : Vec F S1024x1024 .bf16) (x4 : Vec F S1x1024 .f32) (xs0 : Vec F S16x512x1 .f32) (xs1 : Vec F S16x512x1 .f32) (xs2 : Vec F S16x512x64 .f32) : Vec F S16x512x64 .f32 :=
  VS3_2.read (Elt F) (VS3_2.writes (Elt F) VS3_2.junk (kernelRun3_B c i arg2 harg2 arg3 harg3 arg4 harg4 arg5 harg5 arg6 harg6 arg7 harg7 arg8 harg8 arg9 harg9 arg10 harg10 hc0 hc1 x0 x1 x2 x3 x4 xs0 xs1 xs2).2.2.2.1)

/-- What case B leaves in the result window's buffer (nothing is stored there: a placeholder nothing consults). -/
def out3_B_5 (c : Dev nD) (i : grid3.Coords) (arg2 : Memref sig .tc .vmem S16x512x64 .bf16) (harg2 : arg2.IsWhole) (arg3 : Memref sig .tc .vmem S16x256x64 .bf16) (harg3 : arg3.IsWhole) (arg4 : Memref sig .tc .vmem S16x256x64 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S16x512x1 .f32) (harg8 : arg8.IsWhole) (arg9 : Memref sig .tc .vmem S16x512x1 .f32) (harg9 : arg9.IsWhole) (arg10 : Memref sig .tc .vmem S16x512x64 .f32) (harg10 : arg10.IsWhole) (hc0 : ¬cond3_0 i) (hc1 : ¬cond3_1 i)
    (x0 : Vec F S16x512x64 .bf16) (x1 : Vec F S16x256x64 .bf16) (x2 : Vec F S16x256x64 .bf16) (x3 : Vec F S1024x1024 .bf16) (x4 : Vec F S1x1024 .f32) (xs0 : Vec F S16x512x1 .f32) (xs1 : Vec F S16x512x1 .f32) (xs2 : Vec F S16x512x64 .f32) : Vec F S512x1024 .f32 :=
  VO3_5.read (Elt F) (VO3_5.writes (Elt F) VO3_5.junk (kernelRun3_B c i arg2 harg2 arg3 harg3 arg4 harg4 arg5 harg5 arg6 harg6 arg7 harg7 arg8 harg8 arg9 harg9 arg10 harg10 hc0 hc1 x0 x1 x2 x3 x4 xs0 xs1 xs2).1)

/-- Case C's pieces for scratch buffer 0 cover it. -/
theorem scover3_C_0 (c : Dev nD) (i : grid3.Coords) (arg2 : Memref sig .tc .vmem S16x512x64 .bf16) (harg2 : arg2.IsWhole) (arg3 : Memref sig .tc .vmem S16x256x64 .bf16) (harg3 : arg3.IsWhole) (arg4 : Memref sig .tc .vmem S16x256x64 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S16x512x1 .f32) (harg8 : arg8.IsWhole) (arg9 : Memref sig .tc .vmem S16x512x1 .f32) (harg9 : arg9.IsWhole) (arg10 : Memref sig .tc .vmem S16x512x64 .f32) (harg10 : arg10.IsWhole) (hc0 : ¬cond3_0 i) (hc1 : cond3_1 i)
    (x0 : Vec F S16x512x64 .bf16) (x1 : Vec F S16x256x64 .bf16) (x2 : Vec F S16x256x64 .bf16) (x3 : Vec F S1024x1024 .bf16) (x4 : Vec F S1x1024 .f32) (xs0 : Vec F S16x512x1 .f32) (xs1 : Vec F S16x512x1 .f32) (xs2 : Vec F S16x512x64 .f32) (y : S16x512x1.Idx) :
    ∃ pc ∈ (kernelRun3_C c i arg2 harg2 arg3 harg3 arg4 harg4 arg5 harg5 arg6 harg6 arg7 harg7 arg8 harg8 arg9 harg9 arg10 harg10 hc0 hc1 x0 x1 x2 x3 x4 xs0 xs1 xs2).2.1, y ∈ pc.1.set :=
  View.cover_of_tiledL (kernelRun3_C c i arg2 harg2 arg3 harg3 arg4 harg4 arg5 harg5 arg6 harg6 arg7 harg7 arg8 harg8 arg9 harg9 arg10 harg10 hc0 hc1 x0 x1 x2 x3 x4 xs0 xs1 xs2).2.1 S16x512x1.size (by sl_kernel_rfl) y
/-- What case C leaves in scratch buffer 0: its pieces read back. -/
def sout3_C_0 (c : Dev nD) (i : grid3.Coords) (arg2 : Memref sig .tc .vmem S16x512x64 .bf16) (harg2 : arg2.IsWhole) (arg3 : Memref sig .tc .vmem S16x256x64 .bf16) (harg3 : arg3.IsWhole) (arg4 : Memref sig .tc .vmem S16x256x64 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S16x512x1 .f32) (harg8 : arg8.IsWhole) (arg9 : Memref sig .tc .vmem S16x512x1 .f32) (harg9 : arg9.IsWhole) (arg10 : Memref sig .tc .vmem S16x512x64 .f32) (harg10 : arg10.IsWhole) (hc0 : ¬cond3_0 i) (hc1 : cond3_1 i)
    (x0 : Vec F S16x512x64 .bf16) (x1 : Vec F S16x256x64 .bf16) (x2 : Vec F S16x256x64 .bf16) (x3 : Vec F S1024x1024 .bf16) (x4 : Vec F S1x1024 .f32) (xs0 : Vec F S16x512x1 .f32) (xs1 : Vec F S16x512x1 .f32) (xs2 : Vec F S16x512x64 .f32) : Vec F S16x512x1 .f32 :=
  VS3_0.read (Elt F) (VS3_0.writes (Elt F) VS3_0.junk (kernelRun3_C c i arg2 harg2 arg3 harg3 arg4 harg4 arg5 harg5 arg6 harg6 arg7 harg7 arg8 harg8 arg9 harg9 arg10 harg10 hc0 hc1 x0 x1 x2 x3 x4 xs0 xs1 xs2).2.1)

/-- Case C's pieces for scratch buffer 1 cover it. -/
theorem scover3_C_1 (c : Dev nD) (i : grid3.Coords) (arg2 : Memref sig .tc .vmem S16x512x64 .bf16) (harg2 : arg2.IsWhole) (arg3 : Memref sig .tc .vmem S16x256x64 .bf16) (harg3 : arg3.IsWhole) (arg4 : Memref sig .tc .vmem S16x256x64 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S16x512x1 .f32) (harg8 : arg8.IsWhole) (arg9 : Memref sig .tc .vmem S16x512x1 .f32) (harg9 : arg9.IsWhole) (arg10 : Memref sig .tc .vmem S16x512x64 .f32) (harg10 : arg10.IsWhole) (hc0 : ¬cond3_0 i) (hc1 : cond3_1 i)
    (x0 : Vec F S16x512x64 .bf16) (x1 : Vec F S16x256x64 .bf16) (x2 : Vec F S16x256x64 .bf16) (x3 : Vec F S1024x1024 .bf16) (x4 : Vec F S1x1024 .f32) (xs0 : Vec F S16x512x1 .f32) (xs1 : Vec F S16x512x1 .f32) (xs2 : Vec F S16x512x64 .f32) (y : S16x512x1.Idx) :
    ∃ pc ∈ (kernelRun3_C c i arg2 harg2 arg3 harg3 arg4 harg4 arg5 harg5 arg6 harg6 arg7 harg7 arg8 harg8 arg9 harg9 arg10 harg10 hc0 hc1 x0 x1 x2 x3 x4 xs0 xs1 xs2).2.2.1, y ∈ pc.1.set :=
  View.cover_of_tiledL (kernelRun3_C c i arg2 harg2 arg3 harg3 arg4 harg4 arg5 harg5 arg6 harg6 arg7 harg7 arg8 harg8 arg9 harg9 arg10 harg10 hc0 hc1 x0 x1 x2 x3 x4 xs0 xs1 xs2).2.2.1 S16x512x1.size (by sl_kernel_rfl) y
/-- What case C leaves in scratch buffer 1: its pieces read back. -/
def sout3_C_1 (c : Dev nD) (i : grid3.Coords) (arg2 : Memref sig .tc .vmem S16x512x64 .bf16) (harg2 : arg2.IsWhole) (arg3 : Memref sig .tc .vmem S16x256x64 .bf16) (harg3 : arg3.IsWhole) (arg4 : Memref sig .tc .vmem S16x256x64 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S16x512x1 .f32) (harg8 : arg8.IsWhole) (arg9 : Memref sig .tc .vmem S16x512x1 .f32) (harg9 : arg9.IsWhole) (arg10 : Memref sig .tc .vmem S16x512x64 .f32) (harg10 : arg10.IsWhole) (hc0 : ¬cond3_0 i) (hc1 : cond3_1 i)
    (x0 : Vec F S16x512x64 .bf16) (x1 : Vec F S16x256x64 .bf16) (x2 : Vec F S16x256x64 .bf16) (x3 : Vec F S1024x1024 .bf16) (x4 : Vec F S1x1024 .f32) (xs0 : Vec F S16x512x1 .f32) (xs1 : Vec F S16x512x1 .f32) (xs2 : Vec F S16x512x64 .f32) : Vec F S16x512x1 .f32 :=
  VS3_1.read (Elt F) (VS3_1.writes (Elt F) VS3_1.junk (kernelRun3_C c i arg2 harg2 arg3 harg3 arg4 harg4 arg5 harg5 arg6 harg6 arg7 harg7 arg8 harg8 arg9 harg9 arg10 harg10 hc0 hc1 x0 x1 x2 x3 x4 xs0 xs1 xs2).2.2.1)

/-- Case C's pieces for scratch buffer 2 cover it. -/
theorem scover3_C_2 (c : Dev nD) (i : grid3.Coords) (arg2 : Memref sig .tc .vmem S16x512x64 .bf16) (harg2 : arg2.IsWhole) (arg3 : Memref sig .tc .vmem S16x256x64 .bf16) (harg3 : arg3.IsWhole) (arg4 : Memref sig .tc .vmem S16x256x64 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S16x512x1 .f32) (harg8 : arg8.IsWhole) (arg9 : Memref sig .tc .vmem S16x512x1 .f32) (harg9 : arg9.IsWhole) (arg10 : Memref sig .tc .vmem S16x512x64 .f32) (harg10 : arg10.IsWhole) (hc0 : ¬cond3_0 i) (hc1 : cond3_1 i)
    (x0 : Vec F S16x512x64 .bf16) (x1 : Vec F S16x256x64 .bf16) (x2 : Vec F S16x256x64 .bf16) (x3 : Vec F S1024x1024 .bf16) (x4 : Vec F S1x1024 .f32) (xs0 : Vec F S16x512x1 .f32) (xs1 : Vec F S16x512x1 .f32) (xs2 : Vec F S16x512x64 .f32) (y : S16x512x64.Idx) :
    ∃ pc ∈ (kernelRun3_C c i arg2 harg2 arg3 harg3 arg4 harg4 arg5 harg5 arg6 harg6 arg7 harg7 arg8 harg8 arg9 harg9 arg10 harg10 hc0 hc1 x0 x1 x2 x3 x4 xs0 xs1 xs2).2.2.2.1, y ∈ pc.1.set :=
  View.cover_of_tiledL (kernelRun3_C c i arg2 harg2 arg3 harg3 arg4 harg4 arg5 harg5 arg6 harg6 arg7 harg7 arg8 harg8 arg9 harg9 arg10 harg10 hc0 hc1 x0 x1 x2 x3 x4 xs0 xs1 xs2).2.2.2.1 S16x512x64.size (by sl_kernel_rfl) y
/-- What case C leaves in scratch buffer 2: its pieces read back. -/
def sout3_C_2 (c : Dev nD) (i : grid3.Coords) (arg2 : Memref sig .tc .vmem S16x512x64 .bf16) (harg2 : arg2.IsWhole) (arg3 : Memref sig .tc .vmem S16x256x64 .bf16) (harg3 : arg3.IsWhole) (arg4 : Memref sig .tc .vmem S16x256x64 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S16x512x1 .f32) (harg8 : arg8.IsWhole) (arg9 : Memref sig .tc .vmem S16x512x1 .f32) (harg9 : arg9.IsWhole) (arg10 : Memref sig .tc .vmem S16x512x64 .f32) (harg10 : arg10.IsWhole) (hc0 : ¬cond3_0 i) (hc1 : cond3_1 i)
    (x0 : Vec F S16x512x64 .bf16) (x1 : Vec F S16x256x64 .bf16) (x2 : Vec F S16x256x64 .bf16) (x3 : Vec F S1024x1024 .bf16) (x4 : Vec F S1x1024 .f32) (xs0 : Vec F S16x512x1 .f32) (xs1 : Vec F S16x512x1 .f32) (xs2 : Vec F S16x512x64 .f32) : Vec F S16x512x64 .f32 :=
  VS3_2.read (Elt F) (VS3_2.writes (Elt F) VS3_2.junk (kernelRun3_C c i arg2 harg2 arg3 harg3 arg4 harg4 arg5 harg5 arg6 harg6 arg7 harg7 arg8 harg8 arg9 harg9 arg10 harg10 hc0 hc1 x0 x1 x2 x3 x4 xs0 xs1 xs2).2.2.2.1)

/-- Case C's pieces for the result window tile its block. -/
theorem cover3_C_5 (c : Dev nD) (i : grid3.Coords) (arg2 : Memref sig .tc .vmem S16x512x64 .bf16) (harg2 : arg2.IsWhole) (arg3 : Memref sig .tc .vmem S16x256x64 .bf16) (harg3 : arg3.IsWhole) (arg4 : Memref sig .tc .vmem S16x256x64 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S16x512x1 .f32) (harg8 : arg8.IsWhole) (arg9 : Memref sig .tc .vmem S16x512x1 .f32) (harg9 : arg9.IsWhole) (arg10 : Memref sig .tc .vmem S16x512x64 .f32) (harg10 : arg10.IsWhole) (hc0 : ¬cond3_0 i) (hc1 : cond3_1 i)
    (x0 : Vec F S16x512x64 .bf16) (x1 : Vec F S16x256x64 .bf16) (x2 : Vec F S16x256x64 .bf16) (x3 : Vec F S1024x1024 .bf16) (x4 : Vec F S1x1024 .f32) (xs0 : Vec F S16x512x1 .f32) (xs1 : Vec F S16x512x1 .f32) (xs2 : Vec F S16x512x64 .f32) (y : S512x1024.Idx) :
    ∃ pc ∈ (kernelRun3_C c i arg2 harg2 arg3 harg3 arg4 harg4 arg5 harg5 arg6 harg6 arg7 harg7 arg8 harg8 arg9 harg9 arg10 harg10 hc0 hc1 x0 x1 x2 x3 x4 xs0 xs1 xs2).1, y ∈ pc.1.set :=
  View.cover_of_tiledL (kernelRun3_C c i arg2 harg2 arg3 harg3 arg4 harg4 arg5 harg5 arg6 harg6 arg7 harg7 arg8 harg8 arg9 harg9 arg10 harg10 hc0 hc1 x0 x1 x2 x3 x4 xs0 xs1 xs2).1 S512x1024.size (by sl_kernel_rfl) y

/-- What case C leaves in the result window's buffer. -/
def out3_C_5 (c : Dev nD) (i : grid3.Coords) (arg2 : Memref sig .tc .vmem S16x512x64 .bf16) (harg2 : arg2.IsWhole) (arg3 : Memref sig .tc .vmem S16x256x64 .bf16) (harg3 : arg3.IsWhole) (arg4 : Memref sig .tc .vmem S16x256x64 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S16x512x1 .f32) (harg8 : arg8.IsWhole) (arg9 : Memref sig .tc .vmem S16x512x1 .f32) (harg9 : arg9.IsWhole) (arg10 : Memref sig .tc .vmem S16x512x64 .f32) (harg10 : arg10.IsWhole) (hc0 : ¬cond3_0 i) (hc1 : cond3_1 i)
    (x0 : Vec F S16x512x64 .bf16) (x1 : Vec F S16x256x64 .bf16) (x2 : Vec F S16x256x64 .bf16) (x3 : Vec F S1024x1024 .bf16) (x4 : Vec F S1x1024 .f32) (xs0 : Vec F S16x512x1 .f32) (xs1 : Vec F S16x512x1 .f32) (xs2 : Vec F S16x512x64 .f32) : Vec F S512x1024 .f32 :=
  VO3_5.read (Elt F) (VO3_5.writes (Elt F) VO3_5.junk (kernelRun3_C c i arg2 harg2 arg3 harg3 arg4 harg4 arg5 harg5 arg6 harg6 arg7 harg7 arg8 harg8 arg9 harg9 arg10 harg10 hc0 hc1 x0 x1 x2 x3 x4 xs0 xs1 xs2).1)

/-- The four buffers after a point of case A (key tile 0). -/
def tupA (c : Dev nD) (t : Fin cfg3.N) (h0 : t.val % 16 = 0) (h1 : ¬t.val % 16 = 15) : Vec F S512x1024 .f32 × Vec F S16x512x1 .f32 × Vec F S16x512x1 .f32 × Vec F S16x512x64 .f32 :=
  (out3_A_5 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t) (iblk3 V c 3 t) (iblk3 V c 4 t), sout3_A_0 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t) (iblk3 V c 3 t) (iblk3 V c 4 t), sout3_A_1 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t) (iblk3 V c 3 t) (iblk3 V c 4 t), sout3_A_2 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t) (iblk3 V c 3 t) (iblk3 V c 4 t))
/-- The four buffers after a point of case B (a middle key tile), over what the point before left in the scratch. -/
def tupB (c : Dev nD) (t : Fin cfg3.N) (h0 : ¬t.val % 16 = 0) (h1 : ¬t.val % 16 = 15) (xs0 : Vec F S16x512x1 .f32) (xs1 : Vec F S16x512x1 .f32) (xs2 : Vec F S16x512x64 .f32) : Vec F S512x1024 .f32 × Vec F S16x512x1 .f32 × Vec F S16x512x1 .f32 × Vec F S16x512x64 .f32 :=
  (out3_B_5 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) xs0 xs1 xs2, sout3_B_0 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) xs0 xs1 xs2, sout3_B_1 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) xs0 xs1 xs2, sout3_B_2 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) xs0 xs1 xs2)
/-- The four buffers after a point of case C (key tile 15), over what the point before left in the scratch. -/
def tupC (c : Dev nD) (t : Fin cfg3.N) (h0 : ¬t.val % 16 = 0) (h1 : t.val % 16 = 15) (xs0 : Vec F S16x512x1 .f32) (xs1 : Vec F S16x512x1 .f32) (xs2 : Vec F S16x512x64 .f32) : Vec F S512x1024 .f32 × Vec F S16x512x1 .f32 × Vec F S16x512x1 .f32 × Vec F S16x512x64 .f32 :=
  (out3_C_5 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) (iblk3 V c 3 t) (iblk3 V c 4 t) xs0 xs1 xs2, sout3_C_0 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) (iblk3 V c 3 t) (iblk3 V c 4 t) xs0 xs1 xs2, sout3_C_1 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) (iblk3 V c 3 t) (iblk3 V c 4 t) xs0 xs1 xs2, sout3_C_2 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) (iblk3 V c 3 t) (iblk3 V c 4 t) xs0 xs1 xs2)

/-- What the result window's buffer and the three scratch buffers hold after the body at position `n`. -/
def outsAt3 (c : Dev nD) : (n : ℕ) → n < cfg3.N → Vec F S512x1024 .f32 × Vec F S16x512x1 .f32 × Vec F S16x512x1 .f32 × Vec F S16x512x64 .f32
  | 0, hn => tupA V c ⟨0, hn⟩ (Nat.zero_mod _) (by show ¬ (0 % 16 = 15); decide)
  | n + 1, hn =>
    if h0 : (n + 1) % 16 = 0 then
      if h1 : (n + 1) % 16 = 15 then False.elim (by omega)
      else tupA V c ⟨n + 1, hn⟩ h0 h1
    else
      if h1 : (n + 1) % 16 = 15 then
        tupC V c ⟨n + 1, hn⟩ h0 h1 (outsAt3 c n (Nat.lt_of_succ_lt hn)).2.1 (outsAt3 c n (Nat.lt_of_succ_lt hn)).2.2.1 (outsAt3 c n (Nat.lt_of_succ_lt hn)).2.2.2
      else
        tupB V c ⟨n + 1, hn⟩ h0 h1 (outsAt3 c n (Nat.lt_of_succ_lt hn)).2.1 (outsAt3 c n (Nat.lt_of_succ_lt hn)).2.2.1 (outsAt3 c n (Nat.lt_of_succ_lt hn)).2.2.2

theorem outsAt3_A (c : Dev nD) (t : Fin cfg3.N) (h0 : t.val % 16 = 0) (h1 : ¬t.val % 16 = 15) :
    outsAt3 V c t.val t.isLt = tupA V c t h0 h1 := by
  obtain ⟨n, hn⟩ := t
  cases n with
  | zero => exact rfl
  | succ n => exact (dif_pos h0).trans ((dif_neg h1).trans rfl)

theorem outsAt3_B (c : Dev nD) (t : Fin cfg3.N) (h0 : ¬t.val % 16 = 0) (h1 : ¬t.val % 16 = 15) :
    outsAt3 V c t.val t.isLt = tupB V c t h0 h1 (outsAt3 V c (t.val - 1) (Nat.lt_of_le_of_lt (Nat.sub_le _ _) t.isLt)).2.1
      (outsAt3 V c (t.val - 1) (Nat.lt_of_le_of_lt (Nat.sub_le _ _) t.isLt)).2.2.1 (outsAt3 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_neg h1).trans rfl)

theorem outsAt3_C (c : Dev nD) (t : Fin cfg3.N) (h0 : ¬t.val % 16 = 0) (h1 : t.val % 16 = 15) :
    outsAt3 V c t.val t.isLt = tupC V c t h0 h1 (outsAt3 V c (t.val - 1) (Nat.lt_of_le_of_lt (Nat.sub_le _ _) t.isLt)).2.1
      (outsAt3 V c (t.val - 1) (Nat.lt_of_le_of_lt (Nat.sub_le _ _) t.isLt)).2.2.1 (outsAt3 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scratch at anything);
    afterwards the other scoped buffers at anything, each scratch at what the point before left in it, and the generator
    register at some state. -/
def PhiS3 (c : Dev nD) : (n : ℕ) → n ≤ cfg3.N → sProp 𝕄
  | 0, _ => Pipeline.ΦA spec3 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ owns (c : Thread nD τ) scM3_0 fullShare ((outsAt3 V c n hn).2.1) ∗ owns (c : Thread nD τ) scM3_1 fullShare ((outsAt3 V c n hn).2.2.1) ∗ owns (c : Thread nD τ) scM3_2 fullShare ((outsAt3 V c n hn).2.2.2)) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ owns (c : Thread nD τ) scM3_0 fullShare ((outsAt3 V c n hn).2.1) ∗ owns (c : Thread nD τ) scM3_1 fullShare ((outsAt3 V c n hn).2.2.1) ∗ owns (c : Thread nD τ) scM3_2 fullShare ((outsAt3 V c n hn).2.2.2)) ∗ (∃ r, prngReg c r)) := rfl

theorem PhiS3_pos (c : Dev nD) (n : ℕ) (h : n ≤ cfg3.N) (hz : n ≠ 0) :
    PhiS3 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ owns (c : Thread nD τ) scM3_0 fullShare ((outsAt3 V c (n - 1) (by omega)).2.1) ∗ owns (c : Thread nD τ) scM3_1 fullShare ((outsAt3 V c (n - 1) (by omega)).2.2.1) ∗ owns (c : Thread nD τ) scM3_2 fullShare ((outsAt3 V c (n - 1) (by omega)).2.2.2)) ∗ (∃ r, prngReg c r)) := by
  cases n with
  | zero => exact absurd rfl hz
  | succ n => rfl

/-- The proof data of pipeline 3 on core `c`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t)

set_option maxHeartbeats 8000000 in
/-- The body at any point: the inputs' memrefs hold their blocks; the closed forms say which case the point is in; the
    invariant hands the body the scratch buffers at what the point before left (at anything at the first point) and takes
    them back at this point's contents; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).owesAt () t.succ = (dat3 V c).owesAt () t.castSucc from rfl]
  rw [show (dat3 V c).Φ t.succ = PhiS3 V c (t.val + 1) t.isLt from rfl, PhiS3_succ]
  have hN : t.val < 128 := lt_of_lt_of_eq t.isLt (show cfg3.N = 128 from N_3)
  by_cases h0 : t.val % 16 = 0
  · by_cases h1 : t.val % 16 = 15
    · exfalso; omega
    ·
        rw [show (dat3 V c).leavesExact 0 t = owns (c : Thread nD τ) (ms3_0 t) fullShare ((dat3 V c).after 0 t) from by
          unfold Dat.leavesExact; rw [liveAt3_0 t], after3_0]
        rw [show (dat3 V c).leavesExact 1 t = owns (c : Thread nD τ) (ms3_1 t) fullShare ((dat3 V c).after 1 t) from by
          unfold Dat.leavesExact; rw [liveAt3_1 t], after3_1]
        rw [show (dat3 V c).leavesExact 2 t = owns (c : Thread nD τ) (ms3_2 t) fullShare ((dat3 V c).after 2 t) from by
          unfold Dat.leavesExact; rw [liveAt3_2 t], after3_2]
        rw [show (dat3 V c).leavesExact 3 t = owns (c : Thread nD τ) (ms3_3 t) fullShare ((dat3 V c).after 3 t) from by
          unfold Dat.leavesExact; rw [liveAt3_3 t], after3_3]
        rw [show (dat3 V c).leavesExact 4 t = owns (c : Thread nD τ) (ms3_4 t) fullShare ((dat3 V c).after 4 t) from by
          unfold Dat.leavesExact; rw [liveAt3_4 t], after3_4]
        rw [Dat.leavesExact_idle (dat3 V c) 5 t (idleAt3_5_A t ((hcond3_0 t).mpr h0) (fun h => h1 ((hcond3_1 t).mp h))) (noFlush3_5_A t ((hcond3_0 t).mpr h0) (fun h => h1 ((hcond3_1 t).mp h)))]
        rw [outsAt3_A V c t h0 h1]
        unfold tupA sout3_A_0 sout3_A_1 sout3_A_2; (try dsimp only)
        by_cases hz : t.val = 0
        ·
          rw [PhiS3_castSucc V c t, PhiS3_zero V c _ _ hz, PhiA3_eq]
          iintro ⟨⟨⟨O1, O2, O3, O4, O5, O6, O7, O8, O9, O10, O11, O12, O13, O14, O15, O16, O17, O18, HS0, HS1, HS2⟩, Hg⟩, Ho, ⟨%d0, H0⟩, ⟨%d1, H1⟩, ⟨%d2, H2⟩, ⟨%d3, H3⟩, ⟨%d4, H4⟩, ⟨%d5, H5⟩⟩
          iapply ((kernelRun3_A c (grid3.coords t) _ _ _ _ _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t)).2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [HS0]; · iexact HS0
          isplitl [HS1]; · iexact HS1
          isplitl [HS2]; · iexact HS2
          iintro ⟨H0, H1, H2, H3, H4, H5, ⟨%es0, HS0⟩, ⟨%es1, HS1⟩, ⟨%es2, HS2⟩⟩
          isplitl [O1 O2 O3 O4 O5 O6 O7 O8 O9 O10 O11 O12 O13 O14 O15 O16 O17 O18 HS0 HS1 HS2 Hg]
          · isplitr [Hg]
            swap; · iexact Hg
            isplitl [O1]; · iexact O1
            isplitl [O2]; · iexact O2
            isplitl [O3]; · iexact O3
            isplitl [O4]; · iexact O4
            isplitl [O5]; · iexact O5
            isplitl [O6]; · iexact O6
            isplitl [O7]; · iexact O7
            isplitl [O8]; · iexact O8
            isplitl [O9]; · iexact O9
            isplitl [O10]; · iexact O10
            isplitl [O11]; · iexact O11
            isplitl [O12]; · iexact O12
            isplitl [O13]; · iexact O13
            isplitl [O14]; · iexact O14
            isplitl [O15]; · iexact O15
            isplitl [O16]; · iexact O16
            isplitl [O17]; · iexact O17
            isplitl [O18]; · iexact O18
            isplitl [HS0]
            · unfold owns; iexists _; isplitr
              swap; · iexact HS0
              ipureintro; exact View.read_writes_of_cover _ _ _ _ _ (scover3_A_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover3_A_1 c _ _ _ _ _ _ _ _ _ _ _ _ _ _ _ _ _ _ _ _ _ _ _ _ _ _)
            · unfold owns; iexists _; isplitr
              swap; · iexact HS2
              ipureintro; exact View.read_writes_of_cover _ _ _ _ _ (scover3_A_2 c _ _ _ _ _ _ _ _ _ _ _ _ _ _ _ _ _ _ _ _ _ _ _ _ _ _)
          isplitl [Ho]; · iexact Ho
          isplitl [H0]; · iexact H0
          isplitl [H1]; · iexact H1
          isplitl [H2]; · iexact H2
          isplitl [H3]; · iexact H3
          isplitl [H4]; · iexact H4
          iexists _; iexact H5
        ·
          rw [PhiS3_castSucc V c t, PhiS3_pos V c _ _ hz]
          iintro ⟨⟨⟨O1, O2, O3, O4, O5, O6, O7, O8, O9, O10, O11, O12, O13, O14, O15, O16, O17, O18, HS0, HS1, HS2⟩, Hg⟩, Ho, ⟨%d0, H0⟩, ⟨%d1, H1⟩, ⟨%d2, H2⟩, ⟨%d3, H3⟩, ⟨%d4, H4⟩, ⟨%d5, H5⟩⟩
          iapply ((kernelRun3_A c (grid3.coords t) _ _ _ _ _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t)).2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [HS0]; · iexists _; iexact HS0
          isplitl [HS1]; · iexists _; iexact HS1
          isplitl [HS2]; · iexists _; iexact HS2
          iintro ⟨H0, H1, H2, H3, H4, H5, ⟨%es0, HS0⟩, ⟨%es1, HS1⟩, ⟨%es2, HS2⟩⟩
          isplitl [O1 O2 O3 O4 O5 O6 O7 O8 O9 O10 O11 O12 O13 O14 O15 O16 O17 O18 HS0 HS1 HS2 Hg]
          · isplitr [Hg]
            swap; · iexact Hg
            isplitl [O1]; · iexact O1
            isplitl [O2]; · iexact O2
            isplitl [O3]; · iexact O3
            isplitl [O4]; · iexact O4
            isplitl [O5]; · iexact O5
            isplitl [O6]; · iexact O6
            isplitl [O7]; · iexact O7
            isplitl [O8]; · iexact O8
            isplitl [O9]; · iexact O9
            isplitl [O10]; · iexact O10
            isplitl [O11]; · iexact O11
            isplitl [O12]; · iexact O12
            isplitl [O13]; · iexact O13
            isplitl [O14]; · iexact O14
            isplitl [O15]; · iexact O15
            isplitl [O16]; · iexact O16
            isplitl [O17]; · iexact O17
            isplitl [O18]; · iexact O18
            isplitl [HS0]
            · unfold owns; iexists _; isplitr
              swap; · iexact HS0
              ipureintro; exact View.read_writes_of_cover _ _ _ _ _ (scover3_A_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover3_A_1 c _ _ _ _ _ _ _ _ _ _ _ _ _ _ _ _ _ _ _ _ _ _ _ _ _ _)
            · unfold owns; iexists _; isplitr
              swap; · iexact HS2
              ipureintro; exact View.read_writes_of_cover _ _ _ _ _ (scover3_A_2 c _ _ _ _ _ _ _ _ _ _ _ _ _ _ _ _ _ _ _ _ _ _ _ _ _ _)
          isplitl [Ho]; · iexact Ho
          isplitl [H0]; · iexact H0
          isplitl [H1]; · iexact H1
          isplitl [H2]; · iexact H2
          isplitl [H3]; · iexact H3
          isplitl [H4]; · iexact H4
          iexists _; iexact H5
  · have hz : t.val ≠ 0 := fun h => h0 (by rw [h])
    by_cases h1 : t.val % 16 = 15
    ·
        rw [show (dat3 V c).leavesExact 0 t = owns (c : Thread nD τ) (ms3_0 t) fullShare ((dat3 V c).after 0 t) from by
          unfold Dat.leavesExact; rw [liveAt3_0 t], after3_0]
        rw [show (dat3 V c).leavesExact 1 t = owns (c : Thread nD τ) (ms3_1 t) fullShare ((dat3 V c).after 1 t) from by
          unfold Dat.leavesExact; rw [liveAt3_1 t], after3_1]
        rw [show (dat3 V c).leavesExact 2 t = owns (c : Thread nD τ) (ms3_2 t) fullShare ((dat3 V c).after 2 t) from by
          unfold Dat.leavesExact; rw [liveAt3_2 t], after3_2]
        rw [show (dat3 V c).leavesExact 3 t = owns (c : Thread nD τ) (ms3_3 t) fullShare ((dat3 V c).after 3 t) from by
          unfold Dat.leavesExact; rw [liveAt3_3 t], after3_3]
        rw [show (dat3 V c).leavesExact 4 t = owns (c : Thread nD τ) (ms3_4 t) fullShare ((dat3 V c).after 4 t) from by
          unfold Dat.leavesExact; rw [liveAt3_4 t], after3_4]
        rw [show (dat3 V c).leavesExact 5 t = owns (c : Thread nD τ) (ms3_5 t) fullShare ((dat3 V c).after 5 t) from by
          unfold Dat.leavesExact; rw [liveAt3_5_C t (fun h => h0 ((hcond3_0 t).mp h)) ((hcond3_1 t).mpr h1)], after3_5]
        rw [outsAt3_C V c t h0 h1]
        unfold tupC out3_C_5 sout3_C_0 sout3_C_1 sout3_C_2; (try dsimp only)
        ·
          rw [PhiS3_castSucc V c t, PhiS3_pos V c _ _ hz]
          iintro ⟨⟨⟨O1, O2, O3, O4, O5, O6, O7, O8, O9, O10, O11, O12, O13, O14, O15, O16, O17, O18, HS0, HS1, HS2⟩, Hg⟩, Ho, ⟨%d0, H0⟩, ⟨%d1, H1⟩, ⟨%d2, H2⟩, ⟨%d3, H3⟩, ⟨%d4, H4⟩, ⟨%d5, H5⟩⟩
          iapply ((kernelRun3_C c (grid3.coords t) _ _ _ _ _ _ _ _ _ _ _ _ _ _ _ _ _ _ (fun h => h0 ((hcond3_0 t).mp h)) ((hcond3_1 t).mpr h1) (iblk3 V c 0 t) (iblk3 V c 1 t) (iblk3 V c 2 t) (iblk3 V c 3 t) (iblk3 V c 4 t) _ _ _).2.2.2.2 Set.univ _)
          isplitl [H0]; · iexact H0
          isplitl [H1]; · iexact H1
          isplitl [H2]; · iexact H2
          isplitl [H3]; · iexact H3
          isplitl [H4]; · iexact H4
          isplitl [H5]; · iexists _; iexact H5
          isplitl [HS0]; · iexact HS0
          isplitl [HS1]; · iexact HS1
          isplitl [HS2]; · iexact HS2
          iintro ⟨H0, H1, H2, H3, H4, ⟨%e5, H5⟩, ⟨%es0, HS0⟩, ⟨%es1, HS1⟩, ⟨%es2, HS2⟩⟩
          isplitl [O1 O2 O3 O4 O5 O6 O7 O8 O9 O10 O11 O12 O13 O14 O15 O16 O17 O18 HS0 HS1 HS2 Hg]
          · isplitr [Hg]
            swap; · iexact Hg
            isplitl [O1]; · iexact O1
            isplitl [O2]; · iexact O2
            isplitl [O3]; · iexact O3
            isplitl [O4]; · iexact O4
            isplitl [O5]; · iexact O5
            isplitl [O6]; · iexact O6
            isplitl [O7]; · iexact O7
            isplitl [O8]; · iexact O8
            isplitl [O9]; · iexact O9
            isplitl [O10]; · iexact O10
            isplitl [O11]; · iexact O11
            isplitl [O12]; · iexact O12
            isplitl [O13]; · iexact O13
            isplitl [O14]; · iexact O14
            isplitl [O15]; · iexact O15
            isplitl [O16]; · iexact O16
            isplitl [O17]; · iexact O17
            isplitl [O18]; · iexact O18
            isplitl [HS0]
            · unfold owns; iexists _; isplitr
              swap; · iexact HS0
              ipureintro; exact View.read_writes_of_cover _ _ _ _ _ (scover3_C_0 c _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover3_C_1 c _ _ _ _ _ _ _ _ _ _ _ _ _ _ _ _ _ _ _ _ _ _ _ _ _ _ _ _ _)
            · unfold owns; iexists _; isplitr
              swap; · iexact HS2
              ipureintro; exact View.read_writes_of_cover _ _ _ _ _ (scover3_C_2 c _ _ _ _ _ _ _ _ _ _ _ _ _ _ _ _ _ _ _ _ _ _ _ _ _ _ _ _ _)
          isplitl [Ho]; · iexact Ho
          isplitl [H0]; · iexact H0
          isplitl [H1]; · iexact H1
          isplitl [H2]; · iexact H2
          isplitl [H3]; · iexact H3
          isplitl [H4]; · iexact H4
          unfold owns; iexists _; isplitr
          swap; · iexact H5
          ipureintro; exact View.read_writes_of_cover _ _ _ _ _ (cover3_C_5 c _ _ _ _ _ _ _ _ _ _ _ _ _ _ _ _ _ _ _ _ _ _ _ _ _ _ _ _ _)
    ·
        rw [show (dat3 V c).leavesExact 0 t = owns (c : Thread nD τ) (ms3_0 t) fullShare ((dat3 V c).after 0 t) from by
          unfold Dat.leavesExact; rw [liveAt3_0 t], after3_0]
        rw [show (dat3 V c).leavesExact 1 t = owns (c : Thread nD τ) (ms3_1 t) fullShare ((dat3 V c).after 1 t) from by
          unfold Dat.leavesExact; rw [liveAt3_1 t], after3_1]
        rw [show (dat3 V c).leavesExact 2 t = owns (c : Thread nD τ) (ms3_2 t) fullShare ((dat3 V c).after 2 t) from by
          unfold Dat.leavesExact; rw [liveAt3_2 t], after3_2]
        rw [show (dat3 V c).leavesExact 3 t = owns (c : Thread nD τ) (ms3_3 t) fullShare ((dat3 V c).after 3 t) from by
          unfold Dat.leavesExact; rw [liveAt3_3 t], after3_3]
        rw [show (dat3 V c).leavesExact 4 t = owns (c : Thread nD τ) (ms3_4 t) fullShare ((dat3 V c).after 4 t) from by
          unfold Dat.leavesExact; rw [liveAt3_4 t], after3_4]
        rw [Dat.leavesExact_idle (dat3 V c) 5 t (idleAt3_5_B t (fun h => h0 ((hcond3_0 t).mp h)) (fun h => h1 ((hcond3_1 t).mp h))) (noFlush3_5_B t (fun h => h0 ((hcond3_0 t).mp h)) (fun h => h1 ((hcond3_1 t).mp h)))]
        rw [outsAt3_B V c t h0 h1]
        unfold tupB sout3_B_0 sout3_B_1 sout3_B_2; (try dsimp only)
        ·
          rw [PhiS3_castSucc V c t, PhiS3_pos V c _ _ hz]
          iintro ⟨⟨⟨O1, O2, O3, O4, O5, O6, O7, O8, O9, O10, O11, O12, O13, O14, O15, O16, O17, O18, HS0, HS1, HS2⟩, Hg⟩, Ho, ⟨%d0, H0⟩, ⟨%d1, H1⟩, ⟨%d2, H2⟩, ⟨%d3, H3⟩, ⟨%d4, H4⟩, ⟨%d5, H5⟩⟩
          iapply ((kernelRun3_B c (grid3.coords t) _ _ _ _ _ _ _ _ _ _ _ _ _ _ _ _ _ _ (fun h => h0 ((hcond3_0 t).mp h)) (fun h => h1 ((hcond3_1 t).mp h)) (iblk3 V c 0 t) (iblk3 V c 1 t) (iblk3 V c 2 t) (iblk3 V c 3 t) (iblk3 V c 4 t) _ _ _).2.2.2.2 _ Set.univ _)
          isplitl [H0]; · iexact H0
          isplitl [H1]; · iexact H1
          isplitl [H2]; · iexact H2
          isplitl [H3]; · iexact H3
          isplitl [H4]; · iexact H4
          isplitl [H5]; · iexact H5
          isplitl [HS0]; · iexact HS0
          isplitl [HS1]; · iexact HS1
          isplitl [HS2]; · iexact HS2
          iintro ⟨H0, H1, H2, H3, H4, H5, ⟨%es0, HS0⟩, ⟨%es1, HS1⟩, ⟨%es2, HS2⟩⟩
          isplitl [O1 O2 O3 O4 O5 O6 O7 O8 O9 O10 O11 O12 O13 O14 O15 O16 O17 O18 HS0 HS1 HS2 Hg]
          · isplitr [Hg]
            swap; · iexact Hg
            isplitl [O1]; · iexact O1
            isplitl [O2]; · iexact O2
            isplitl [O3]; · iexact O3
            isplitl [O4]; · iexact O4
            isplitl [O5]; · iexact O5
            isplitl [O6]; · iexact O6
            isplitl [O7]; · iexact O7
            isplitl [O8]; · iexact O8
            isplitl [O9]; · iexact O9
            isplitl [O10]; · iexact O10
            isplitl [O11]; · iexact O11
            isplitl [O12]; · iexact O12
            isplitl [O13]; · iexact O13
            isplitl [O14]; · iexact O14
            isplitl [O15]; · iexact O15
            isplitl [O16]; · iexact O16
            isplitl [O17]; · iexact O17
            isplitl [O18]; · iexact O18
            isplitl [HS0]
            · unfold owns; iexists _; isplitr
              swap; · iexact HS0
              ipureintro; exact View.read_writes_of_cover _ _ _ _ _ (scover3_B_0 c _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover3_B_1 c _ _ _ _ _ _ _ _ _ _ _ _ _ _ _ _ _ _ _ _ _ _ _ _ _ _ _ _ _)
            · unfold owns; iexists _; isplitr
              swap; · iexact HS2
              ipureintro; exact View.read_writes_of_cover _ _ _ _ _ (scover3_B_2 c _ _ _ _ _ _ _ _ _ _ _ _ _ _ _ _ _ _ _ _ _ _ _ _ _ _ _ _ _)
          isplitl [Ho]; · iexact Ho
          isplitl [H0]; · iexact H0
          isplitl [H1]; · iexact H1
          isplitl [H2]; · iexact H2
          isplitl [H3]; · iexact H3
          isplitl [H4]; · iexact H4
          iexists _; iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the region is entered with is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives the class's back: the scratch buffers' named contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨O1, O2, O3, O4, O5, O6, O7, O8, O9, O10, O11, O12, O13, O14, O15, O16, O17, O18, HS0, HS1, HS2⟩, Hg⟩
  isplitr [Hg]
  swap; · iexact Hg
  isplitl [O1]; · iexact O1
  isplitl [O2]; · iexact O2
  isplitl [O3]; · iexact O3
  isplitl [O4]; · iexact O4
  isplitl [O5]; · iexact O5
  isplitl [O6]; · iexact O6
  isplitl [O7]; · iexact O7
  isplitl [O8]; · iexact O8
  isplitl [O9]; · iexact O9
  isplitl [O10]; · iexact O10
  isplitl [O11]; · iexact O11
  isplitl [O12]; · iexact O12
  isplitl [O13]; · iexact O13
  isplitl [O14]; · iexact O14
  isplitl [O15]; · iexact O15
  isplitl [O16]; · iexact O16
  isplitl [O17]; · iexact O17
  isplitl [O18]; · iexact O18
  isplitl [HS0]; · iexists _; iexact HS0
  isplitl [HS1]; · iexists _; iexact HS1
  iexists _; iexact HS2

/-- The same after the last point. -/
theorem hout3 (c : Dev nD) : (dat3 V c).Φ (Fin.last cfg3.N) ⊢ Pipeline.ΦA spec3 c :=
  Phi_out3 V c _ (by rw [Fin.val_last]; have : cfg3.N = 128 := N_3; omega)

end Cert.KernelIdeal.Hand

end
-- ==== Proof.IdealRun.lean ====
/-
  The whole program run: the four regions and the host operations between them as one list of segments, the contents of
  every unscoped buffer at each boundary as a fold from the launch memory (a host stretch applies its operations; a
  region leaves its windows' arrays at what its write-backs leave and every other buffer as it found it), and the launch:
  every execution terminates with every unscoped buffer at the last boundary's contents.
-/
import proofs.«101851_j15083925144173_2_alg».proof.Proof.IdealHead0
import proofs.«101851_j15083925144173_2_alg».proof.Proof.IdealHead1
import proofs.«101851_j15083925144173_2_alg».proof.Proof.IdealHead2
import proofs.«101851_j15083925144173_2_alg».proof.Proof.IdealFlash

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev B0 : Dev nD → Valuation τ sig (Elt F) := fun c b => (s₀ m ρ).mem ((c : Dev nD), b)
/-- After host stretch 0 (region 0's entry). -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b
/-- At region 0's exit: its arrays at what the pipeline leaves, every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)
/-- After host stretch 1 (region 1's entry). -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
/-- At region 1's exit: its arrays at what the pipeline leaves, every other buffer as entered. -/
def B4 (c : Dev nD) : Valuation τ sig (Elt F) :=
  Pipeline.withArrays spec1 c (B3 m ρ c) fun w => (dat1 (E3 m ρ) c).arrAt w cfg1.N
theorem B4_arr (c : Dev nD) (w : Fin cfg1.W) :
    B4 m ρ c (Proc.devRef .tc (Pipeline.arrRef spec1 w)) = (dat1 (E3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev E4 : (c : Dev nD) → (b : Ref sig .tc) → Buf (Elt F) ((c : Thread nD τ).loc b) := fun c b => B4 m ρ c b
theorem hF1 (c : Dev nD) (w : Fin cfg1.W) : (dat1 (E3 m ρ) c).arrAt w cfg1.N = E4 m ρ c (Pipeline.arrRef spec1 w) :=
  (B4_arr m ρ c w).symm
theorem hrest1 (c : Dev nD) : ∀ b, b ∉ Finset.univ.image (Pipeline.arrRef spec1) → E4 m ρ c b = E3 m ρ c b :=
  fun b hb => B4_of_ne m ρ c b fun w e => hb (Finset.mem_image.mpr ⟨w, Finset.mem_univ _, e⟩)
/-- After host stretch 2 (region 2's entry). -/
abbrev B5 : Dev nD → Valuation τ sig (Elt F) := fun c => StableHlo.after hostOps2 (B4 m ρ c)
abbrev E5 : (c : Dev nD) → (b : Ref sig .tc) → Buf (Elt F) ((c : Thread nD τ).loc b) := fun c b => B5 m ρ c b
/-- At region 2's exit: its arrays at what the pipeline leaves, every other buffer as entered. -/
def B6 (c : Dev nD) : Valuation τ sig (Elt F) :=
  Pipeline.withArrays spec2 c (B5 m ρ c) fun w => (dat2 (E5 m ρ) c).arrAt w cfg2.N
theorem B6_arr (c : Dev nD) (w : Fin cfg2.W) :
    B6 m ρ c (Proc.devRef .tc (Pipeline.arrRef spec2 w)) = (dat2 (E5 m ρ) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m ρ c (Proc.devRef .tc b) = B5 m ρ c (Proc.devRef .tc b) := by
  unfold B6; exact Pipeline.withArrays_of_ne spec2 c _ _ b hb
abbrev E6 : (c : Dev nD) → (b : Ref sig .tc) → Buf (Elt F) ((c : Thread nD τ).loc b) := fun c b => B6 m ρ c b
theorem hF2 (c : Dev nD) (w : Fin cfg2.W) : (dat2 (E5 m ρ) c).arrAt w cfg2.N = E6 m ρ c (Pipeline.arrRef spec2 w) :=
  (B6_arr m ρ c w).symm
theorem hrest2 (c : Dev nD) : ∀ b, b ∉ Finset.univ.image (Pipeline.arrRef spec2) → E6 m ρ c b = E5 m ρ c b :=
  fun b hb => B6_of_ne m ρ c b fun w e => hb (Finset.mem_image.mpr ⟨w, Finset.mem_univ _, e⟩)
/-- After host stretch 3 (region 3's entry). -/
abbrev B7 : Dev nD → Valuation τ sig (Elt F) := fun c => StableHlo.after hostOps3 (B6 m ρ c)
abbrev E7 : (c : Dev nD) → (b : Ref sig .tc) → Buf (Elt F) ((c : Thread nD τ).loc b) := fun c b => B7 m ρ c b
/-- At region 3's exit: its arrays at what the pipeline leaves, every other buffer as entered. -/
def B8 (c : Dev nD) : Valuation τ sig (Elt F) :=
  Pipeline.withArrays spec3 c (B7 m ρ c) fun w => (dat3 (E7 m ρ) c).arrAt w cfg3.N
theorem B8_arr (c : Dev nD) (w : Fin cfg3.W) :
    B8 m ρ c (Proc.devRef .tc (Pipeline.arrRef spec3 w)) = (dat3 (E7 m ρ) c).arrAt w cfg3.N := by
  unfold B8; exact Pipeline.withArrays_arr spec3 launch3.win.arr_inj c _ _ w
theorem B8_of_ne (c : Dev nD) (b : Ref sig .tc) (hb : ∀ w, Pipeline.arrRef spec3 w ≠ b) :
    B8 m ρ c (Proc.devRef .tc b) = B7 m ρ c (Proc.devRef .tc b) := by
  unfold B8; exact Pipeline.withArrays_of_ne spec3 c _ _ b hb
abbrev E8 : (c : Dev nD) → (b : Ref sig .tc) → Buf (Elt F) ((c : Thread nD τ).loc b) := fun c b => B8 m ρ c b
theorem hF3 (c : Dev nD) (w : Fin cfg3.W) : (dat3 (E7 m ρ) c).arrAt w cfg3.N = E8 m ρ c (Pipeline.arrRef spec3 w) :=
  (B8_arr m ρ c w).symm
theorem hrest3 (c : Dev nD) : ∀ b, b ∉ Finset.univ.image (Pipeline.arrRef spec3) → E8 m ρ c b = E7 m ρ c b :=
  fun b hb => B8_of_ne m ρ c b fun w e => hb (Finset.mem_image.mpr ⟨w, Finset.mem_univ _, e⟩)

theorem B8_main_arg0 (c : Dev nD) : B8 m ρ c (Proc.devRef .tc main_arg0) = m ((c : Thread nD τ).loc main_arg0) :=
  calc B8 m ρ c (Proc.devRef .tc main_arg0)
    _ = B7 m ρ c (Proc.devRef .tc main_arg0) := B8_of_ne m ρ c main_arg0 (by decide)
    _ = B6 m ρ c (Proc.devRef .tc main_arg0) := StableHlo.after_of_forall_not_mem (b := Proc.devRef .tc main_arg0) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B5 m ρ c (Proc.devRef .tc main_arg0) := B6_of_ne m ρ c main_arg0 (by decide)
    _ = B4 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B3 m ρ c (Proc.devRef .tc main_arg0) := B4_of_ne m ρ c main_arg0 (by decide)
    _ = B2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B1 m ρ c (Proc.devRef .tc main_arg0) := (B2_arr m ρ c 0).trans (((dat0 (E1 m ρ) c).arrAt_in 0 rfl _).trans (A_eq0 (E1 m ρ) c 0))
    _ = B0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem B8_main_arg1 (c : Dev nD) : B8 m ρ c (Proc.devRef .tc main_arg1) = m ((c : Thread nD τ).loc main_arg1) :=
  calc B8 m ρ c (Proc.devRef .tc main_arg1)
    _ = B7 m ρ c (Proc.devRef .tc main_arg1) := B8_of_ne m ρ c main_arg1 (by decide)
    _ = B6 m ρ c (Proc.devRef .tc main_arg1) := StableHlo.after_of_forall_not_mem (b := Proc.devRef .tc main_arg1) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B5 m ρ c (Proc.devRef .tc main_arg1) := B6_of_ne m ρ c main_arg1 (by decide)
    _ = B4 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B3 m ρ c (Proc.devRef .tc main_arg1) := (B4_arr m ρ c 0).trans (((dat1 (E3 m ρ) c).arrAt_in 0 rfl _).trans (A_eq1 (E3 m ρ) c 0))
    _ = B2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B1 m ρ c (Proc.devRef .tc main_arg1) := B2_of_ne m ρ c main_arg1 (by decide)
    _ = B0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem B8_main_arg2 (c : Dev nD) : B8 m ρ c (Proc.devRef .tc main_arg2) = m ((c : Thread nD τ).loc main_arg2) :=
  calc B8 m ρ c (Proc.devRef .tc main_arg2)
    _ = B7 m ρ c (Proc.devRef .tc main_arg2) := B8_of_ne m ρ c main_arg2 (by decide)
    _ = B6 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B5 m ρ c (Proc.devRef .tc main_arg2) := (B6_arr m ρ c 0).trans (((dat2 (E5 m ρ) c).arrAt_in 0 rfl _).trans (A_eq2 (E5 m ρ) c 0))
    _ = B4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B3 m ρ c (Proc.devRef .tc main_arg2) := B4_of_ne m ρ c main_arg2 (by decide)
    _ = B2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B1 m ρ c (Proc.devRef .tc main_arg2) := B2_of_ne m ρ c main_arg2 (by decide)
    _ = B0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem B8_main_arg3 (c : Dev nD) : B8 m ρ c (Proc.devRef .tc main_arg3) = m ((c : Thread nD τ).loc main_arg3) :=
  calc B8 m ρ c (Proc.devRef .tc main_arg3)
    _ = B7 m ρ c (Proc.devRef .tc main_arg3) := B8_of_ne m ρ c main_arg3 (by decide)
    _ = B6 m ρ c (Proc.devRef .tc main_arg3) := StableHlo.after_of_forall_not_mem (b := Proc.devRef .tc main_arg3) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B5 m ρ c (Proc.devRef .tc main_arg3) := B6_of_ne m ρ c main_arg3 (by decide)
    _ = B4 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B3 m ρ c (Proc.devRef .tc main_arg3) := B4_of_ne m ρ c main_arg3 (by decide)
    _ = B2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B1 m ρ c (Proc.devRef .tc main_arg3) := B2_of_ne m ρ c main_arg3 (by decide)
    _ = B0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem B8_main_arg4 (c : Dev nD) : B8 m ρ c (Proc.devRef .tc main_arg4) = m ((c : Thread nD τ).loc main_arg4) :=
  calc B8 m ρ c (Proc.devRef .tc main_arg4)
    _ = B7 m ρ c (Proc.devRef .tc main_arg4) := B8_of_ne m ρ c main_arg4 (by decide)
    _ = B6 m ρ c (Proc.devRef .tc main_arg4) := StableHlo.after_of_forall_not_mem (b := Proc.devRef .tc main_arg4) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B5 m ρ c (Proc.devRef .tc main_arg4) := B6_of_ne m ρ c main_arg4 (by decide)
    _ = B4 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B3 m ρ c (Proc.devRef .tc main_arg4) := B4_of_ne m ρ c main_arg4 (by decide)
    _ = B2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B1 m ρ c (Proc.devRef .tc main_arg4) := B2_of_ne m ρ c main_arg4 (by decide)
    _ = B0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem B8_main_arg5 (c : Dev nD) : B8 m ρ c (Proc.devRef .tc main_arg5) = m ((c : Thread nD τ).loc main_arg5) :=
  calc B8 m ρ c (Proc.devRef .tc main_arg5)
    _ = B7 m ρ c (Proc.devRef .tc main_arg5) := B8_of_ne m ρ c main_arg5 (by decide)
    _ = B6 m ρ c (Proc.devRef .tc main_arg5) := StableHlo.after_of_forall_not_mem (b := Proc.devRef .tc main_arg5) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B5 m ρ c (Proc.devRef .tc main_arg5) := B6_of_ne m ρ c main_arg5 (by decide)
    _ = B4 m ρ c (Proc.devRef .tc main_arg5) := StableHlo.after_of_forall_not_mem (b := Proc.devRef .tc main_arg5) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B3 m ρ c (Proc.devRef .tc main_arg5) := B4_of_ne m ρ c main_arg5 (by decide)
    _ = B2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B1 m ρ c (Proc.devRef .tc main_arg5) := B2_of_ne m ρ c main_arg5 (by decide)
    _ = B0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem B8_main_arg6 (c : Dev nD) : B8 m ρ c (Proc.devRef .tc main_arg6) = m ((c : Thread nD τ).loc main_arg6) :=
  calc B8 m ρ c (Proc.devRef .tc main_arg6)
    _ = B7 m ρ c (Proc.devRef .tc main_arg6) := B8_of_ne m ρ c main_arg6 (by decide)
    _ = B6 m ρ c (Proc.devRef .tc main_arg6) := StableHlo.after_of_forall_not_mem (b := Proc.devRef .tc main_arg6) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B5 m ρ c (Proc.devRef .tc main_arg6) := B6_of_ne m ρ c main_arg6 (by decide)
    _ = B4 m ρ c (Proc.devRef .tc main_arg6) := StableHlo.after_of_forall_not_mem (b := Proc.devRef .tc main_arg6) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B3 m ρ c (Proc.devRef .tc main_arg6) := B4_of_ne m ρ c main_arg6 (by decide)
    _ = B2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B1 m ρ c (Proc.devRef .tc main_arg6) := B2_of_ne m ρ c main_arg6 (by decide)
    _ = B0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem B8_main_arg7 (c : Dev nD) : B8 m ρ c (Proc.devRef .tc main_arg7) = m ((c : Thread nD τ).loc main_arg7) :=
  calc B8 m ρ c (Proc.devRef .tc main_arg7)
    _ = B7 m ρ c (Proc.devRef .tc main_arg7) := B8_of_ne m ρ c main_arg7 (by decide)
    _ = B6 m ρ c (Proc.devRef .tc main_arg7) := StableHlo.after_of_forall_not_mem (b := Proc.devRef .tc main_arg7) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B5 m ρ c (Proc.devRef .tc main_arg7) := B6_of_ne m ρ c main_arg7 (by decide)
    _ = B4 m ρ c (Proc.devRef .tc main_arg7) := StableHlo.after_of_forall_not_mem (b := Proc.devRef .tc main_arg7) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B3 m ρ c (Proc.devRef .tc main_arg7) := B4_of_ne m ρ c main_arg7 (by decide)
    _ = B2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B1 m ρ c (Proc.devRef .tc main_arg7) := B2_of_ne m ρ c main_arg7 (by decide)
    _ = B0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem B8_main_arg8 (c : Dev nD) : B8 m ρ c (Proc.devRef .tc main_arg8) = m ((c : Thread nD τ).loc main_arg8) :=
  calc B8 m ρ c (Proc.devRef .tc main_arg8)
    _ = B7 m ρ c (Proc.devRef .tc main_arg8) := B8_of_ne m ρ c main_arg8 (by decide)
    _ = B6 m ρ c (Proc.devRef .tc main_arg8) := StableHlo.after_of_forall_not_mem (b := Proc.devRef .tc main_arg8) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B5 m ρ c (Proc.devRef .tc main_arg8) := B6_of_ne m ρ c main_arg8 (by decide)
    _ = B4 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B3 m ρ c (Proc.devRef .tc main_arg8) := B4_of_ne m ρ c main_arg8 (by decide)
    _ = B2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B1 m ρ c (Proc.devRef .tc main_arg8) := B2_of_ne m ρ c main_arg8 (by decide)
    _ = B0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem B8_main_arg9 (c : Dev nD) : B8 m ρ c (Proc.devRef .tc main_arg9) = m ((c : Thread nD τ).loc main_arg9) :=
  calc B8 m ρ c (Proc.devRef .tc main_arg9)
    _ = B7 m ρ c (Proc.devRef .tc main_arg9) := B8_of_ne m ρ c main_arg9 (by decide)
    _ = B6 m ρ c (Proc.devRef .tc main_arg9) := StableHlo.after_of_forall_not_mem (b := Proc.devRef .tc main_arg9) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B5 m ρ c (Proc.devRef .tc main_arg9) := B6_of_ne m ρ c main_arg9 (by decide)
    _ = B4 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B3 m ρ c (Proc.devRef .tc main_arg9) := B4_of_ne m ρ c main_arg9 (by decide)
    _ = B2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B1 m ρ c (Proc.devRef .tc main_arg9) := B2_of_ne m ρ c main_arg9 (by decide)
    _ = B0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

theorem B8_main_arg10 (c : Dev nD) : B8 m ρ c (Proc.devRef .tc main_arg10) = m ((c : Thread nD τ).loc main_arg10) :=
  calc B8 m ρ c (Proc.devRef .tc main_arg10)
    _ = B7 m ρ c (Proc.devRef .tc main_arg10) := B8_of_ne m ρ c main_arg10 (by decide)
    _ = B6 m ρ c (Proc.devRef .tc main_arg10) := StableHlo.after_of_forall_not_mem (b := Proc.devRef .tc main_arg10) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B5 m ρ c (Proc.devRef .tc main_arg10) := B6_of_ne m ρ c main_arg10 (by decide)
    _ = B4 m ρ c (Proc.devRef .tc main_arg10) := StableHlo.after_of_forall_not_mem (b := Proc.devRef .tc main_arg10) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B3 m ρ c (Proc.devRef .tc main_arg10) := B4_of_ne m ρ c main_arg10 (by decide)
    _ = B2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B1 m ρ c (Proc.devRef .tc main_arg10) := B2_of_ne m ρ c main_arg10 (by decide)
    _ = B0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

/-- The prefetched tables' admissible contents: no pipeline has a table. -/
abbrev admH : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) admH p) c
  | ⟨0, _⟩ => fun c => dat0 (E1 m ρ) c
  | ⟨1, _⟩ => fun c => dat1 (E3 m ρ) c
  | ⟨2, _⟩ => fun c => dat2 (E5 m ρ) c
  | ⟨3, _⟩ => fun c => dat3 (E7 m ρ) c
abbrev 𝒱H : Variants := Variants.none
abbrev LH : GSem nD τ sig → Finset Unit := fun _ => ∅
abbrev lvH : GSem nD τ sig → Unit → ℕ := fun _ _ => 0
/-- What rides beside the buffers through every segment: the generator register at some state and nothing owed. -/
abbrev RH (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH
theorem hostOps0_freshH : (hostOps0 : List (HloOp τ sig (Elt F))).Forall fun op => op.fresh = ∅ := by
  simp only [List.Forall]; repeat' constructor
theorem hostOps1_freshH : (hostOps1 : List (HloOp τ sig (Elt F))).Forall fun op => op.fresh = ∅ := by
  simp only [List.Forall]; repeat' constructor
theorem hostOps2_freshH : (hostOps2 : List (HloOp τ sig (Elt F))).Forall fun op => op.fresh = ∅ := by
  simp only [List.Forall]; repeat' constructor
theorem hostOps3_freshH : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents. -/
abbrev TnH (c : Dev nD) : sProp 𝕄 := iprop(StableHlo.held (c : Thread nD τ) (Pipeline.ucRefs τ sig) (B8 m ρ c) ∗ ∃ r, prngReg c r)

set_option backward.isDefEq.respectTransparency.types false in
/-- Region 0 over the thread state: entered from every unscoped buffer at `B1`, left at `B2`. -/
def reg0 : Pipeline.RegionSeg (pcfgs (F := F)) admH (pdats m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ LH lvH 0 fun _ _ => rfl
  pre c := iprop(StableHlo.held (c : Thread nD τ) (Pipeline.ucRefs τ sig) (B1 m ρ c) ∗ RH c)
  post c := iprop(StableHlo.held (c : Thread nD τ) (Pipeline.ucRefs τ sig) (B2 m ρ c) ∗ RH c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `B3`, left at `B4`. -/
def reg1 : Pipeline.RegionSeg (pcfgs (F := F)) admH (pdats m ρ) () defs₀ 𝒱H LH lvH 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ LH lvH 1 fun _ _ => rfl
  pre c := iprop(StableHlo.held (c : Thread nD τ) (Pipeline.ucRefs τ sig) (B3 m ρ c) ∗ RH c)
  post c := iprop(StableHlo.held (c : Thread nD τ) (Pipeline.ucRefs τ sig) (B4 m ρ c) ∗ RH c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) admH (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `B5`, left at `B6`. -/
def reg2 : Pipeline.RegionSeg (pcfgs (F := F)) admH (pdats m ρ) () defs₀ 𝒱H LH lvH 2 where
  win := launch2.win.to₀
  block_pos := launch2.block_pos
  stage_whole := launch2.stage_whole
  K := PEmpty
  osem k := k.elim
  ho := Pipeline.OwnSemFacts.none _
  hbody c := (body_obligation2 (E5 m ρ) c).loose
  hwaits := Pipeline.hwaits_of_owed_zero _ _ _ _ LH lvH 2 fun _ _ => rfl
  pre c := iprop(StableHlo.held (c : Thread nD τ) (Pipeline.ucRefs τ sig) (B5 m ρ c) ∗ RH c)
  post c := iprop(StableHlo.held (c : Thread nD τ) (Pipeline.ucRefs τ sig) (B6 m ρ c) ∗ RH c)
  X c := iprop(∃ r, prngReg c r)
  Y c := iprop(∃ r, prngReg c r)
  Z c := Pipeline.unscopedRest (Ix := Unit) (Name := ℕ) (U := UR sig nD τ) (Lvl := ℕ) spec2 c (E5 m ρ c)
  hentry c := by
    rw [Pipeline.ownSems0_none]
    have hsplit := Pipeline.arrays_of_unscopedBufs (p := 2) (pcfgs (F := F)) admH (pdats m ρ) launch2.win launch2.arr_whole c
      ((pdats m ρ 2 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdats m ρ) ((pdats m ρ 2 c).share_full fun _ => rfl)
      (E5 m ρ c) (E6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `B7`, left at `B8`. -/
def reg3 : Pipeline.RegionSeg (pcfgs (F := F)) admH (pdats m ρ) () defs₀ 𝒱H LH lvH 3 where
  win := launch3.win.to₀
  block_pos := launch3.block_pos
  stage_whole := launch3.stage_whole
  K := PEmpty
  osem k := k.elim
  ho := Pipeline.OwnSemFacts.none _
  hbody c := (body_obligation3 (E7 m ρ) c).loose
  hwaits := Pipeline.hwaits_of_owed_zero _ _ _ _ LH lvH 3 fun _ _ => rfl
  pre c := iprop(StableHlo.held (c : Thread nD τ) (Pipeline.ucRefs τ sig) (B7 m ρ c) ∗ RH c)
  post c := iprop(TnH m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (E7 m ρ c)
  hentry c := by
    rw [Pipeline.ownSems0_none]
    have hsplit := Pipeline.arrays_of_unscopedBufs (p := 3) (pcfgs (F := F)) admH (pdats m ρ) launch3.win launch3.arr_whole c
      ((pdats m ρ 3 c).share_full fun _ => rfl) (E7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (E7 m ρ) c)
    unfold Pipeline.ΦA
    iintro ⟨Hp, -, Hr⟩
    isplitl [Hr]; · iexact Hr
    iexact Hp
  hout c := by
    rw [Pipeline.ownSems0_none]
    refine BIBase.Entails.trans (hout3 (E7 m ρ) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdats m ρ) ((pdats m ρ 3 c).share_full fun _ => rfl)
      (E7 m ρ c) (E8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's eight segments in order. -/
abbrev segsH : List (Pipeline.Seg (pcfgs (F := F)) admH (pdats m ρ) () defs₀ 𝒱H LH lvH) :=
  [ .host (hseg hostOps0 hostOps0_sub hostOps0_freshH (B0 m ρ)),
    .region (reg0 m ρ),
    .host (hseg hostOps1 hostOps1_sub hostOps1_freshH (B2 m ρ)),
    .region (reg1 m ρ),
    .host (hseg hostOps2 hostOps2_sub hostOps2_freshH (B4 m ρ)),
    .region (reg2 m ρ),
    .host (hseg hostOps3 hostOps3_sub hostOps3_freshH (B6 m ρ)),
    .region (reg3 m ρ) ]
theorem main_runH (c : Dev nD) : main (F := F) c = Pipeline.Seg.run (segsH m ρ) := (main_chain c).trans (by chain_rfl)

set_option backward.isDefEq.respectTransparency.types false in
/-- At the compiled mesh, from any memory with zero counters: every weakly fair execution of @main on the TensorCores
    terminates, nothing faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B8 m ρ c b) :=
  Pipeline.θ_run_regions_kit (pcfgs (F := F)) admH (pdats m ρ) () cellOf_inj emb₁ defs₀ 𝒱H LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ RH c)) (Tₙ := TnH m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B8 m ρ c b)
    (hfin := fun c s' => by
      iintro ⟨⟨Hh, -⟩, HSI⟩
      unfold StableHlo.held
      imodintro
      iapply (pointsTo_read_all (Pipeline.ucRefs τ sig) (fun b => (((c : Thread nD τ)).1, b)) (B8 m ρ c) s')
      isplitl [Hh] <;> iassumption)
    (hQ := fun s h c => h c)

/-- The frame: every argument array ends as launched. -/
theorem frameH : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (B8_main_arg0 m ρ c),
    (h c _ (mem_uc main_arg1 (by decide))).trans (B8_main_arg1 m ρ c),
    (h c _ (mem_uc main_arg2 (by decide))).trans (B8_main_arg2 m ρ c),
    (h c _ (mem_uc main_arg3 (by decide))).trans (B8_main_arg3 m ρ c),
    (h c _ (mem_uc main_arg4 (by decide))).trans (B8_main_arg4 m ρ c),
    (h c _ (mem_uc main_arg5 (by decide))).trans (B8_main_arg5 m ρ c),
    (h c _ (mem_uc main_arg6 (by decide))).trans (B8_main_arg6 m ρ c),
    (h c _ (mem_uc main_arg7 (by decide))).trans (B8_main_arg7 m ρ c),
    (h c _ (mem_uc main_arg8 (by decide))).trans (B8_main_arg8 m ρ c),
    (h c _ (mem_uc main_arg9 (by decide))).trans (B8_main_arg9 m ρ c),
    (h c _ (mem_uc main_arg10 (by decide))).trans (B8_main_arg10 m ρ c)⟩) (run_all m ρ)

end Cert.KernelIdeal.Hand

end
-- ==== Proof.IdealFold.lean ====
/-
  The contents of the buffers the regions read, and of the result, traced back through the fold of the program's
  segments: an argument reaches a region as launched; a weight reaches it through its change of float format; a bias
  through its reshape to one row; each projection's output array reaches the attention region as the projection left it.
-/
import proofs.«101851_j15083925144173_2_alg».proof.Proof.IdealRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

theorem E1_arg0 : E1 m ρ c main_arg0 = m ((c : Thread nD τ).loc main_arg0) :=
  calc B1 m ρ c (Proc.devRef .tc main_arg0)
    _ = B0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem E3_arg1 : E3 m ρ c main_arg1 = m ((c : Thread nD τ).loc main_arg1) :=
  calc B3 m ρ c (Proc.devRef .tc main_arg1)
    _ = B2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B1 m ρ c (Proc.devRef .tc main_arg1) := B2_of_ne m ρ c main_arg1 (by decide)
    _ = B0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem E5_arg2 : E5 m ρ c main_arg2 = m ((c : Thread nD τ).loc main_arg2) :=
  calc B5 m ρ c (Proc.devRef .tc main_arg2)
    _ = B4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B3 m ρ c (Proc.devRef .tc main_arg2) := B4_of_ne m ρ c main_arg2 (by decide)
    _ = B2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B1 m ρ c (Proc.devRef .tc main_arg2) := B2_of_ne m ρ c main_arg2 (by decide)
    _ = B0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
theorem E1_v0 : E1 m ρ c main_v0 = truncf .bf16 (m ((c : Thread nD τ).loc main_arg3)) bitsLt_bf16_f32 :=
  calc B1 m ρ c (Proc.devRef .tc main_v0)
    _ = truncf .bf16 (m ((c : Thread nD τ).loc main_arg3)) bitsLt_bf16_f32 := by
      show StableHlo.after hostOps0 (B0 m ρ c) (Proc.devRef .tc main_v0) = _
      after_results
theorem E3_v1 : E3 m ρ c main_v1 = truncf .bf16 (m ((c : Thread nD τ).loc main_arg4)) bitsLt_bf16_f32 :=
  calc B3 m ρ c (Proc.devRef .tc main_v1)
    _ = B2 m ρ c (Proc.devRef .tc main_v1) := StableHlo.after_of_forall_not_mem (b := Proc.devRef .tc main_v1) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B1 m ρ c (Proc.devRef .tc main_v1) := B2_of_ne m ρ c main_v1 (by decide)
    _ = truncf .bf16 (m ((c : Thread nD τ).loc main_arg4)) bitsLt_bf16_f32 := by
      show StableHlo.after hostOps0 (B0 m ρ c) (Proc.devRef .tc main_v1) = _
      after_results
theorem E5_v2 : E5 m ρ c main_v2 = truncf .bf16 (m ((c : Thread nD τ).loc main_arg5)) bitsLt_bf16_f32 :=
  calc B5 m ρ c (Proc.devRef .tc main_v2)
    _ = B4 m ρ c (Proc.devRef .tc main_v2) := StableHlo.after_of_forall_not_mem (b := Proc.devRef .tc main_v2) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B3 m ρ c (Proc.devRef .tc main_v2) := B4_of_ne m ρ c main_v2 (by decide)
    _ = B2 m ρ c (Proc.devRef .tc main_v2) := StableHlo.after_of_forall_not_mem (b := Proc.devRef .tc main_v2) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B1 m ρ c (Proc.devRef .tc main_v2) := B2_of_ne m ρ c main_v2 (by decide)
    _ = truncf .bf16 (m ((c : Thread nD τ).loc main_arg5)) bitsLt_bf16_f32 := by
      show StableHlo.after hostOps0 (B0 m ρ c) (Proc.devRef .tc main_v2) = _
      after_results
theorem E7_v3 : E7 m ρ c main_v3 = truncf .bf16 (m ((c : Thread nD τ).loc main_arg6)) bitsLt_bf16_f32 :=
  calc B7 m ρ c (Proc.devRef .tc main_v3)
    _ = B6 m ρ c (Proc.devRef .tc main_v3) := StableHlo.after_of_forall_not_mem (b := Proc.devRef .tc main_v3) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B5 m ρ c (Proc.devRef .tc main_v3) := B6_of_ne m ρ c main_v3 (by decide)
    _ = B4 m ρ c (Proc.devRef .tc main_v3) := StableHlo.after_of_forall_not_mem (b := Proc.devRef .tc main_v3) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B3 m ρ c (Proc.devRef .tc main_v3) := B4_of_ne m ρ c main_v3 (by decide)
    _ = B2 m ρ c (Proc.devRef .tc main_v3) := StableHlo.after_of_forall_not_mem (b := Proc.devRef .tc main_v3) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B1 m ρ c (Proc.devRef .tc main_v3) := B2_of_ne m ρ c main_v3 (by decide)
    _ = truncf .bf16 (m ((c : Thread nD τ).loc main_arg6)) bitsLt_bf16_f32 := by
      show StableHlo.after hostOps0 (B0 m ρ c) (Proc.devRef .tc main_v3) = _
      after_results
theorem B0_arg7 : B0 m ρ c (Proc.devRef .tc main_arg7) = m ((c : Thread nD τ).loc main_arg7) :=
  calc B0 m ρ c (Proc.devRef .tc main_arg7)
    _ = m ((c : Thread nD τ).loc main_arg7) := rfl
theorem E1_v4 : E1 m ρ c main_v4 = fun i => shapeCast S1x1024 (m ((c : Thread nD τ).loc main_arg7)) shapeCasts_S1024_S1x1024 i := by
  show StableHlo.after hostOps0 (B0 m ρ c) (Proc.devRef .tc main_v4) = _
  after_results
  rw [B0_arg7 m ρ c]
  rfl
theorem B2_arg8 : B2 m ρ c (Proc.devRef .tc main_arg8) = m ((c : Thread nD τ).loc main_arg8) :=
  calc B2 m ρ c (Proc.devRef .tc main_arg8)
    _ = B1 m ρ c (Proc.devRef .tc main_arg8) := B2_of_ne m ρ c main_arg8 (by decide)
    _ = B0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl
theorem E3_v6 : E3 m ρ c main_v6 = fun i => shapeCast S1x1024 (m ((c : Thread nD τ).loc main_arg8)) shapeCasts_S1024_S1x1024 i := by
  show StableHlo.after hostOps1 (B2 m ρ c) (Proc.devRef .tc main_v6) = _
  after_results
  rw [B2_arg8 m ρ c]
  rfl
theorem B4_arg9 : B4 m ρ c (Proc.devRef .tc main_arg9) = m ((c : Thread nD τ).loc main_arg9) :=
  calc B4 m ρ c (Proc.devRef .tc main_arg9)
    _ = B3 m ρ c (Proc.devRef .tc main_arg9) := B4_of_ne m ρ c main_arg9 (by decide)
    _ = B2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B1 m ρ c (Proc.devRef .tc main_arg9) := B2_of_ne m ρ c main_arg9 (by decide)
    _ = B0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl
theorem E5_v8 : E5 m ρ c main_v8 = fun i => shapeCast S1x1024 (m ((c : Thread nD τ).loc main_arg9)) shapeCasts_S1024_S1x1024 i := by
  show StableHlo.after hostOps2 (B4 m ρ c) (Proc.devRef .tc main_v8) = _
  after_results
  rw [B4_arg9 m ρ c]
  rfl
theorem B6_arg10 : B6 m ρ c (Proc.devRef .tc main_arg10) = m ((c : Thread nD τ).loc main_arg10) :=
  calc B6 m ρ c (Proc.devRef .tc main_arg10)
    _ = B5 m ρ c (Proc.devRef .tc main_arg10) := B6_of_ne m ρ c main_arg10 (by decide)
    _ = B4 m ρ c (Proc.devRef .tc main_arg10) := StableHlo.after_of_forall_not_mem (b := Proc.devRef .tc main_arg10) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B3 m ρ c (Proc.devRef .tc main_arg10) := B4_of_ne m ρ c main_arg10 (by decide)
    _ = B2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B1 m ρ c (Proc.devRef .tc main_arg10) := B2_of_ne m ρ c main_arg10 (by decide)
    _ = B0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl
theorem E7_v10 : E7 m ρ c main_v10 = fun i => shapeCast S1x1024 (m ((c : Thread nD τ).loc main_arg10)) shapeCasts_S1024_S1x1024 i := by
  show StableHlo.after hostOps3 (B6 m ρ c) (Proc.devRef .tc main_v10) = _
  after_results
  rw [B6_arg10 m ρ c]
  rfl
theorem E7_v5 : E7 m ρ c main_v5 = (dat0 (E1 m ρ) c).arrAt 3 cfg0.N :=
  calc B7 m ρ c (Proc.devRef .tc main_v5)
    _ = B6 m ρ c (Proc.devRef .tc main_v5) := StableHlo.after_of_forall_not_mem (b := Proc.devRef .tc main_v5) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B5 m ρ c (Proc.devRef .tc main_v5) := B6_of_ne m ρ c main_v5 (by decide)
    _ = B4 m ρ c (Proc.devRef .tc main_v5) := StableHlo.after_of_forall_not_mem (b := Proc.devRef .tc main_v5) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B3 m ρ c (Proc.devRef .tc main_v5) := B4_of_ne m ρ c main_v5 (by decide)
    _ = B2 m ρ c (Proc.devRef .tc main_v5) := StableHlo.after_of_forall_not_mem (b := Proc.devRef .tc main_v5) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (E1 m ρ) c).arrAt 3 cfg0.N := B2_arr m ρ c 3
theorem E7_v7 : E7 m ρ c main_v7 = (dat1 (E3 m ρ) c).arrAt 3 cfg1.N :=
  calc B7 m ρ c (Proc.devRef .tc main_v7)
    _ = B6 m ρ c (Proc.devRef .tc main_v7) := StableHlo.after_of_forall_not_mem (b := Proc.devRef .tc main_v7) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = B5 m ρ c (Proc.devRef .tc main_v7) := B6_of_ne m ρ c main_v7 (by decide)
    _ = B4 m ρ c (Proc.devRef .tc main_v7) := StableHlo.after_of_forall_not_mem (b := Proc.devRef .tc main_v7) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat1 (E3 m ρ) c).arrAt 3 cfg1.N := B4_arr m ρ c 3
theorem E7_v9 : E7 m ρ c main_v9 = (dat2 (E5 m ρ) c).arrAt 3 cfg2.N :=
  calc B7 m ρ c (Proc.devRef .tc main_v9)
    _ = B6 m ρ c (Proc.devRef .tc main_v9) := StableHlo.after_of_forall_not_mem (b := Proc.devRef .tc main_v9) _ _ (List.forall_iff_forall_mem.mp (by
          simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat2 (E5 m ρ) c).arrAt 3 cfg2.N := B6_arr m ρ c 3
theorem B8_v11 : B8 m ρ c (Proc.devRef .tc main_v11) = (dat3 (E7 m ρ) c).arrAt 5 cfg3.N := B8_arr m ρ c 5

end Cert.KernelIdeal.Hand

end
-- ==== Proof.PayHead.lean ====
/-
  The three projection bodies read at an index.  Each computes, from a block of 512 rows x, the weight matrix w and the
  bias row b, the array  (x · wᵀ + b)  regrouped by heads: at head h, row r, coordinate d it is
  ∑ k, x r k * w (h·64+d) k  +  b (h·64+d).  The regrouping is a reshape of the 1024 features into 16 × 64 followed by
  an exchange of the row and head axes; the two format changes are the identity on extended reals.
-/
import proofs.«101851_j15083925144173_2_alg».proof.Proof.Spec
import proofs.«101851_j15083925144173_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Attn.Pay

open Idealize.ShloMosaic Idealize.ShloMosaic.ValueIdx Cert.KernelIdeal Cert.KernelIdeal.Gen Cert.Attn

/-- The dimension numbers of a product  a · wᵀ : both operands are contracted along their last axis. -/
abbrev DLin : DotDims S512x1024 S1024x1024 S512x1024 := dot_S512x1024_S1024x1024_S512x1024_1_1_0_0_n_n

theorem DLin_lhs0 (i : S512x1024.Idx) (q : DLin.contr.Idx) : (DLin.lhsIdx i q 0).val = (i 0).val := by
  unfold DotDims.lhsIdx
  rw [dif_neg (show ¬(0 : Fin S512x1024.rank) ∈ DLin.lhsBatch by decide), dif_pos (show (0 : Fin S512x1024.rank) ∈ DLin.lhsNonContracting by decide)]
  rfl
theorem DLin_lhs1 (i : S512x1024.Idx) (q : DLin.contr.Idx) : (DLin.lhsIdx i q 1).val = (q ⟨0, by decide⟩).val :=
  DLin.lhsIdx_val_of_single rfl i q
theorem DLin_rhs0 (i : S512x1024.Idx) (q : DLin.contr.Idx) : (DLin.rhsIdx i q 0).val = (i 1).val := by
  unfold DotDims.rhsIdx
  rw [dif_neg (show ¬(0 : Fin S1024x1024.rank) ∈ DLin.rhsBatch by decide), dif_pos (show (0 : Fin S1024x1024.rank) ∈ DLin.rhsNonContracting by decide)]
  rfl
theorem DLin_rhs1 (i : S512x1024.Idx) (q : DLin.contr.Idx) : (DLin.rhsIdx i q 1).val = (q ⟨0, by decide⟩).val :=
  DLin.rhsIdx_val_of_single rfl i q

/-- The product  a · wᵀ  into the zero array, at row r and column n: the sum over the 1024 contracted features. -/
theorem matmul_lin_apply (a : FVec Ideal S512x1024 .bf16) (w : FVec Ideal S1024x1024 .bf16) (r : Fin 512) (n : Fin 1024) :
    matmul DLin none a w (constant (F := Ideal) S512x1024 .f32 0x00000000#32) (ix2 r n)
      = ∑ k : Fin 1024, a (ix2 r k) * w (ix2 n k) := by
  simp only [matmul]
  rw [Ideal.matmul_constant_zero_apply, ← Equiv.sum_comp (contrEquiv1 DLin 1024 rfl rfl).symm]
  refine Finset.sum_congr rfl fun k _ => ?_
  have hk := contrEquiv1_symm_val DLin 1024 rfl rfl k
  have el : DLin.lhsIdx (ix2 r n) ((contrEquiv1 DLin 1024 rfl rfl).symm k) = ix2 r k := funext fun c => Fin.ext (by
    match c with
    | ⟨0, _⟩ => exact DLin_lhs0 _ _
    | ⟨1, _⟩ => exact (DLin_lhs1 _ _).trans hk)
  have er : DLin.rhsIdx (ix2 r n) ((contrEquiv1 DLin 1024 rfl rfl).symm k) = ix2 n k := funext fun c => Fin.ext (by
    match c with
    | ⟨0, _⟩ => exact DLin_rhs0 _ _
    | ⟨1, _⟩ => exact (DLin_rhs1 _ _).trans hk)
  rw [el, er]

/-- The 1024 features regrouped as 16 heads of 64: head h, coordinate d is feature h·64+d. -/
theorem split_heads_apply {α : Type} (y : S512x1024.Idx → α) (hc : S512x1024.ShapeCasts S512x16x64)
    (r : Fin 512) (h : Fin 16) (d : Fin 64) :
    shapeCast S512x16x64 y hc (ix3 r h d) = y (ix2 r (feat h d)) :=
  shapeCast_apply y hc _ _ (by
    rw [Shape.rowMajor_val_two, Shape.rowMajor_val_three]
    show r.val * 1024 + (h.val * 64 + d.val) = (r.val * 16 + h.val) * 64 + d.val
    omega)

/-- The row and head axes exchanged. -/
theorem swap_rows_heads_apply {α : Type} (y : S512x16x64.Idx → α) (ht : S512x16x64.Transposes [1, 0, 2] S16x512x64)
    (h : Fin 16) (r : Fin 512) (d : Fin 64) :
    transpose S16x512x64 [1, 0, 2] y ht (ix3 h r d) = y (ix3 r h d) :=
  transpose_apply _ y ht _ _ fun c => match c with | ⟨0, _⟩ => rfl | ⟨1, _⟩ => rfl | ⟨2, _⟩ => rfl

/-- A projection body at head h, row r, coordinate d. -/
theorem k0_pay1_apply (x : Vec Ideal S512x1024 .f32) (w : Vec Ideal S1024x1024 .bf16) (b : Vec Ideal S1x1024 .f32)
    (h : Fin 16) (r : Fin 512) (d : Fin 64) :
    k0_pay1 (F := Ideal) x w b (ix3 h r d)
      = (∑ k : Fin 1024, x (ix2 r k) * w (ix2 (feat h d) k)) + b (ix2 0 (feat h d)) := by
  unfold k0_pay1
  rw [truncf_apply, swap_rows_heads_apply, split_heads_apply, addf_apply, matmul_lin_apply,
    broadcastTo_1b_ab_apply, shapeCast_self, shapeCast_self]
  rfl

theorem k1_pay1_apply (x : Vec Ideal S512x1024 .f32) (w : Vec Ideal S1024x1024 .bf16) (b : Vec Ideal S1x1024 .f32)
    (h : Fin 16) (r : Fin 512) (d : Fin 64) :
    k1_pay1 (F := Ideal) x w b (ix3 h r d)
      = (∑ k : Fin 1024, x (ix2 r k) * w (ix2 (feat h d) k)) + b (ix2 0 (feat h d)) :=
  k0_pay1_apply x w b h r d

theorem k2_pay1_apply (x : Vec Ideal S512x1024 .f32) (w : Vec Ideal S1024x1024 .bf16) (b : Vec Ideal S1x1024 .f32)
    (h : Fin 16) (r : Fin 512) (d : Fin 64) :
    k2_pay1 (F := Ideal) x w b (ix3 h r d)
      = (∑ k : Fin 1024, x (ix2 r k) * w (ix2 (feat h d) k)) + b (ix2 0 (feat h d)) :=
  k0_pay1_apply x w b h r d

end Cert.Attn.Pay

end
-- ==== Proof.ProjValue.lean ====
/-
  A linear map into the sixteen-head layout, as one function of whole arrays.  From rows X, weights W and a bias row B
  the array at head h, row l, coordinate d is  ∑ k, X l k * W (h·64+d) k  +  B (h·64+d).  When X, W and B are (coercions of)
  real arrays this is the coercion of the real linear layer  x·Wᵀ + b  at row l and feature h·64+d: the coercion of the
  reals into the extended reals commutes with finite sums, products and sums of two.
-/
import proofs.«101851_j15083925144173_2_alg».proof.Proof.Spec
import proofs.«101851_j15083925144173_2_alg».proof.Proof.LibOnlineSoftmax

noncomputable section

open scoped BigOperators

namespace Cert.Attn.KV

open Idealize.ShloMosaic Idealize.ShloMosaic.ValueIdx Cert.Attn

/-- The projection of 4096 rows into the head layout, index by index. -/
def projArr (X : (⟨2, ![4096, 1024]⟩ : Shape).Idx → EReal) (W : (⟨2, ![1024, 1024]⟩ : Shape).Idx → EReal)
    (B : (⟨2, ![1, 1024]⟩ : Shape).Idx → EReal) : (⟨3, ![16, 4096, 64]⟩ : Shape).Idx → EReal :=
  fun i => (∑ k : Fin 1024, X (ix2 (i 1) k) * W (ix2 (feat (i 0) (i 2)) k)) + B (ix2 0 (feat (i 0) (i 2)))

theorem projArr_apply (X : (⟨2, ![4096, 1024]⟩ : Shape).Idx → EReal) (W : (⟨2, ![1024, 1024]⟩ : Shape).Idx → EReal)
    (B : (⟨2, ![1, 1024]⟩ : Shape).Idx → EReal) (h : Fin 16) (l : Fin 4096) (d : Fin 64) :
    projArr X W B (ix3 h l d)
      = (∑ k : Fin 1024, X (ix2 l k) * W (ix2 (feat h d) k)) + B (ix2 0 (feat h d)) := rfl

/-- On real arrays the projection is the real linear layer, regrouped by heads. -/
theorem projArr_real (X : (⟨2, ![4096, 1024]⟩ : Shape).Idx → EReal) (W : (⟨2, ![1024, 1024]⟩ : Shape).Idx → EReal)
    (B : (⟨2, ![1, 1024]⟩ : Shape).Idx → EReal) (rx : Fin 4096 → Fin 1024 → ℝ) (rw : Fin 1024 → Fin 1024 → ℝ) (rb : Fin 1024 → ℝ)
    (hx : IsR2 X rx) (hw : IsR2 W rw) (hb : ∀ n : Fin 1024, B (ix2 0 n) = ((rb n : ℝ) : EReal)) :
    IsR3 (projArr X W B) (fun h l d => lin rx rw rb l (feat h d)) := by
  intro h l d
  rw [projArr_apply, hb]
  unfold lin
  rw [EReal.coe_add, OnlineSoftmax.coe_sum]
  refine congrArg (· + ((rb (feat h d) : ℝ) : EReal)) (Finset.sum_congr rfl fun k _ => ?_)
  rw [hx, hw, EReal.coe_mul]

end Cert.Attn.KV

end
-- ==== Proof.IdealHeadValue0.lean ====
/-
  The value of projection region 0's output array.  The region walks the 4096 rows in eight blocks of 512: at point t
  the body sees rows t·512 … t·512+511 of the row array, the whole weight matrix and the whole bias row, and writes the
  block of the head-layout array that holds those rows of every head.  Each block written is the corresponding block of
  ONE function of the three arrays, and the eight blocks cover the output array, so the array ends holding that function.
-/
import proofs.«101851_j15083925144173_2_alg».proof.Proof.IdealHead0
import proofs.«101851_j15083925144173_2_alg».proof.Proof.PayHead
import proofs.«101851_j15083925144173_2_alg».proof.Proof.ProjValue
import Idealize.ShloMosaic.Lib.Pipeline.Value

noncomputable section

open scoped BigOperators

namespace Cert.Attn.KV

open Cert.KernelIdeal Cert.KernelIdeal.Gen Cert.KernelIdeal.Hand Cert.Attn Cert.Attn.Pay
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2_0 : (![0, 0] : Fin 2 → Nat) = fun _ => 0 := funext fun a => by fin_cases a <;> rfl
theorem hz3_0 : (![0, 0, 0] : Fin 3 → Nat) = fun _ => 0 := funext fun a => by fin_cases a <;> rfl

/-- The block indices at point t: the row array and the output move along their row axis with t, the weights and the
    bias row stay. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = 0 ∧ win0_3.index t (1 : Fin 3) = t.val ∧ win0_3.index t (2 : Fin 3) = 0 :=
  (by decide +kernel : ∀ t : Fin grid0.N, _)

/-- Row r of the row block at point t is row t·512 + r of the row array. -/
theorem rows_blk0 (c : Dev nD) (t : Fin cfg0.N) (r : Fin 512) (k : Fin 1024) (l : Fin 4096) (hl : l.val = t.val * 512 + r.val) :
    (iblk0 V c 0 t : S512x1024.Idx → EReal) (ix2 r k) = (V c main_arg0 : S4096x1024.Idx → EReal) (ix2 l k) := by
  obtain ⟨e0, e1, -⟩ := idx_facts0 t
  show V c main_arg0 (((cfg0.win 0).blk t).view.emb (ix2 r k)) = V c main_arg0 (ix2 l k)
  refine congrArg (V c main_arg0) (funext fun a => Fin.ext ?_)
  match a with
  | ⟨0, _⟩ => show win0_0.index t (0 : Fin 2) * 512 + 1 * r.val = l.val; omega
  | ⟨1, _⟩ => show win0_0.index t (1 : Fin 2) * 1024 + 1 * k.val = k.val; omega

/-- The weight block at every point is the weight matrix. -/
theorem weights_blk0 (c : Dev nD) (t : Fin cfg0.N) (n k : Fin 1024) :
    (iblk0 V c 1 t : S1024x1024.Idx → EReal) (ix2 n k) = (V c main_v0 : S1024x1024.Idx → EReal) (ix2 n k) := by
  obtain ⟨-, -, e0, e1, -⟩ := idx_facts0 t
  show V c main_v0 (((cfg0.win 1).blk t).view.emb (ix2 n k)) = V c main_v0 (ix2 n k)
  refine congrArg (V c main_v0) (funext fun a => Fin.ext ?_)
  match a with
  | ⟨0, _⟩ => show win0_1.index t (0 : Fin 2) * 1024 + 1 * n.val = n.val; omega
  | ⟨1, _⟩ => show win0_1.index t (1 : Fin 2) * 1024 + 1 * k.val = k.val; omega

/-- The bias block at every point is the bias row. -/
theorem bias_blk0 (c : Dev nD) (t : Fin cfg0.N) (u : Fin 1) (n : Fin 1024) :
    (iblk0 V c 2 t : S1x1024.Idx → EReal) (ix2 u n) = (V c main_v4 : S1x1024.Idx → EReal) (ix2 u n) := by
  obtain ⟨-, -, -, -, e0, e1, -⟩ := idx_facts0 t
  show V c main_v4 (((cfg0.win 2).blk t).view.emb (ix2 u n)) = V c main_v4 (ix2 u n)
  refine congrArg (V c main_v4) (funext fun a => Fin.ext ?_)
  match a with
  | ⟨0, _⟩ => show win0_2.index t (0 : Fin 2) * 1 + 1 * u.val = u.val; omega
  | ⟨1, _⟩ => show win0_2.index t (1 : Fin 2) * 1024 + 1 * n.val = n.val; omega

/-- Row r of the output block at point t sits at row t·512 + r of the output array, in every head. -/
theorem out_blk0 (t : Fin cfg0.N) (h : Fin 16) (r : Fin 512) (d : Fin 64) (l : Fin 4096) (hl : l.val = t.val * 512 + r.val) :
    (((cfg0.win 3).blk t).view.emb (ix3 h r d) : S16x4096x64.Idx) = ix3 h l d := by
  obtain ⟨-, -, -, -, -, -, e0, e1, e2⟩ := idx_facts0 t
  refine funext fun a => Fin.ext ?_
  match a with
  | ⟨0, _⟩ => show win0_3.index t (0 : Fin 3) * 16 + 1 * h.val = h.val; omega
  | ⟨1, _⟩ => show win0_3.index t (1 : Fin 3) * 512 + 1 * r.val = l.val; omega
  | ⟨2, _⟩ => show win0_3.index t (2 : Fin 3) * 64 + 1 * d.val = d.val; omega

/-- What point t writes back is block t of the projection of the three arrays as the region finds them. -/
theorem flushed0_eq (c : Dev nD) (t : Fin cfg0.N) :
    (dat0 (F := Ideal) V c).flushed 3 t
      = ((cfg0.win 3).blk t).view.read (Elt Ideal) (projArr (V c main_arg0) (V c main_v0) (V c main_v4)) := by
  show (cfg0.win 3).cut (grid0.coords t) ((dat0 V c).after 3 t) = _
  rw [after0_3]
  unfold out0_3
  rw [View.canon_unit_zero hz3_0]
  simp only [View.ld_unit_zero (S := S512x1024) hz2_0, View.ld_unit_zero (S := S1024x1024) hz2_0,
    View.ld_unit_zero (S := S1x1024) hz2_0]
  have hN : cfg0.N = 8 := N_0
  have key : ∀ j : S16x512x64.Idx,
      k0_pay1 (F := Ideal) (iblk0 V c 0 t) (iblk0 V c 1 t) (iblk0 V c 2 t) j
        = projArr (V c main_arg0) (V c main_v0) (V c main_v4) (((cfg0.win 3).blk t).view.emb j) := by
    intro j
    obtain ⟨h, r, d, rfl⟩ : ∃ (h : Fin 16) (r : Fin 512) (d : Fin 64), j = ix3 h r d := ⟨j 0, j 1, j 2, eq_ix3 j⟩
    have hl : (⟨t.val * 512 + r.val, by have := t.isLt; omega⟩ : Fin 4096).val = t.val * 512 + r.val := rfl
    rw [out_blk0 t h r d _ hl, projArr_apply]
    refine (k0_pay1_apply (iblk0 V c 0 t) (iblk0 V c 1 t) (iblk0 V c 2 t) h r d).trans ?_
    rw [bias_blk0 V c t]
    refine congrArg (· + (V c main_v4 : S1x1024.Idx → EReal) (ix2 0 (feat h d))) (Finset.sum_congr rfl fun k _ => ?_)
    rw [rows_blk0 V c t r k _ hl, weights_blk0 V c t]
  exact funext key

/-- An index of the output array is in point t's block iff each coordinate is in the block's range on its axis. -/
theorem mem_blk0 (t : Fin cfg0.N) (i : S16x4096x64.Idx) :
    i ∈ ((cfg0.win 3).blk t).view.set
      ↔ ∀ a : Fin 3, win0_3.index t a * S16x512x64.size a ≤ (i a).val
          ∧ (i a).val < win0_3.index t a * S16x512x64.size a + S16x512x64.size a := by
  show i ∈ ((View.whole main_v5).slice (win0_3.rect t)).set ↔ _
  rw [View.set_slice_whole, Rect.mem_set_unit]
  exact Iff.rfl

/-- Every index of the output array is in the block of the point that holds its row. -/
theorem cover0 (i : S16x4096x64.Idx) :
    ∃ t : Fin cfg0.N, (cfg0.win 3).flush t = true ∧ i ∈ ((cfg0.win 3).blk t).view.set := by
  have hN : cfg0.N = 8 := N_0
  have h0 : (i 0).val < 16 := (i 0).isLt
  have h1 : (i 1).val < 4096 := (i 1).isLt
  have h2 : (i 2).val < 64 := (i 2).isLt
  have ht : (i 1).val / 512 < cfg0.N := by omega
  refine ⟨⟨(i 1).val / 512, ht⟩, flush0_3 _, ?_⟩
  obtain ⟨-, -, -, -, -, -, e0, e1, e2⟩ := idx_facts0 ⟨(i 1).val / 512, ht⟩
  have e1' : win0_3.index ⟨(i 1).val / 512, ht⟩ (1 : Fin 3) = (i 1).val / 512 := e1
  rw [mem_blk0]
  intro a
  match a with
  | ⟨0, _⟩ =>
    show win0_3.index ⟨(i 1).val / 512, ht⟩ (0 : Fin 3) * 16 ≤ (i 0).val
      ∧ (i 0).val < win0_3.index ⟨(i 1).val / 512, ht⟩ (0 : Fin 3) * 16 + 16
    omega
  | ⟨1, _⟩ =>
    show win0_3.index ⟨(i 1).val / 512, ht⟩ (1 : Fin 3) * 512 ≤ (i 1).val
      ∧ (i 1).val < win0_3.index ⟨(i 1).val / 512, ht⟩ (1 : Fin 3) * 512 + 512
    omega
  | ⟨2, _⟩ =>
    show win0_3.index ⟨(i 1).val / 512, ht⟩ (2 : Fin 3) * 64 ≤ (i 2).val
      ∧ (i 2).val < win0_3.index ⟨(i 1).val / 512, ht⟩ (2 : Fin 3) * 64 + 64
    omega

/-- The output array after the region: the projection of the three arrays as the region finds them. -/
theorem head0_arr (c : Dev nD) :
    (dat0 (F := Ideal) V c).arrAt 3 cfg0.N = projArr (V c main_arg0) (V c main_v0) (V c main_v4) :=
  (dat0 (F := Ideal) V c).arrAt_eq_of_cover 3 _ (fun t _ => flushed0_eq V c t) cover0

/-- On real arrays: the real linear layer, regrouped by heads. -/
theorem head0_value (c : Dev nD) (rx : Fin 4096 → Fin 1024 → ℝ) (rw : Fin 1024 → Fin 1024 → ℝ) (rb : Fin 1024 → ℝ)
    (hx : IsR2 (V c main_arg0) rx) (hw : IsR2 (V c main_v0) rw)
    (hb : ∀ n : Fin 1024, (V c main_v4 : S1x1024.Idx → EReal) (ix2 0 n) = ((rb n : ℝ) : EReal)) :
    IsR3 ((dat0 (F := Ideal) V c).arrAt 3 cfg0.N) (fun h l d => Cert.Attn.lin rx rw rb l (feat h d)) := by
  rw [head0_arr]
  exact projArr_real _ _ _ rx rw rb hx hw hb

end Cert.Attn.KV

end
-- ==== Proof.IdealHeadValue1.lean ====
/-
  The value of projection region 1's output array.  The region walks the 4096 rows in eight blocks of 512: at point t
  the body sees rows t·512 … t·512+511 of the row array, the whole weight matrix and the whole bias row, and writes the
  block of the head-layout array that holds those rows of every head.  Each block written is the corresponding block of
  ONE function of the three arrays, and the eight blocks cover the output array, so the array ends holding that function.
-/
import proofs.«101851_j15083925144173_2_alg».proof.Proof.IdealHead1
import proofs.«101851_j15083925144173_2_alg».proof.Proof.PayHead
import proofs.«101851_j15083925144173_2_alg».proof.Proof.ProjValue
import Idealize.ShloMosaic.Lib.Pipeline.Value

noncomputable section

open scoped BigOperators

namespace Cert.Attn.KV

open Cert.KernelIdeal Cert.KernelIdeal.Gen Cert.KernelIdeal.Hand Cert.Attn Cert.Attn.Pay
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2_1 : (![0, 0] : Fin 2 → Nat) = fun _ => 0 := funext fun a => by fin_cases a <;> rfl
theorem hz3_1 : (![0, 0, 0] : Fin 3 → Nat) = fun _ => 0 := funext fun a => by fin_cases a <;> rfl

/-- The block indices at point t: the row array and the output move along their row axis with t, the weights and the
    bias row stay. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 3) = 0 ∧ win1_3.index t (1 : Fin 3) = t.val ∧ win1_3.index t (2 : Fin 3) = 0 :=
  (by decide +kernel : ∀ t : Fin grid1.N, _)

/-- Row r of the row block at point t is row t·512 + r of the row array. -/
theorem rows_blk1 (c : Dev nD) (t : Fin cfg1.N) (r : Fin 512) (k : Fin 1024) (l : Fin 4096) (hl : l.val = t.val * 512 + r.val) :
    (iblk1 V c 0 t : S512x1024.Idx → EReal) (ix2 r k) = (V c main_arg1 : S4096x1024.Idx → EReal) (ix2 l k) := by
  obtain ⟨e0, e1, -⟩ := idx_facts1 t
  show V c main_arg1 (((cfg1.win 0).blk t).view.emb (ix2 r k)) = V c main_arg1 (ix2 l k)
  refine congrArg (V c main_arg1) (funext fun a => Fin.ext ?_)
  match a with
  | ⟨0, _⟩ => show win1_0.index t (0 : Fin 2) * 512 + 1 * r.val = l.val; omega
  | ⟨1, _⟩ => show win1_0.index t (1 : Fin 2) * 1024 + 1 * k.val = k.val; omega

/-- The weight block at every point is the weight matrix. -/
theorem weights_blk1 (c : Dev nD) (t : Fin cfg1.N) (n k : Fin 1024) :
    (iblk1 V c 1 t : S1024x1024.Idx → EReal) (ix2 n k) = (V c main_v1 : S1024x1024.Idx → EReal) (ix2 n k) := by
  obtain ⟨-, -, e0, e1, -⟩ := idx_facts1 t
  show V c main_v1 (((cfg1.win 1).blk t).view.emb (ix2 n k)) = V c main_v1 (ix2 n k)
  refine congrArg (V c main_v1) (funext fun a => Fin.ext ?_)
  match a with
  | ⟨0, _⟩ => show win1_1.index t (0 : Fin 2) * 1024 + 1 * n.val = n.val; omega
  | ⟨1, _⟩ => show win1_1.index t (1 : Fin 2) * 1024 + 1 * k.val = k.val; omega

/-- The bias block at every point is the bias row. -/
theorem bias_blk1 (c : Dev nD) (t : Fin cfg1.N) (u : Fin 1) (n : Fin 1024) :
    (iblk1 V c 2 t : S1x1024.Idx → EReal) (ix2 u n) = (V c main_v6 : S1x1024.Idx → EReal) (ix2 u n) := by
  obtain ⟨-, -, -, -, e0, e1, -⟩ := idx_facts1 t
  show V c main_v6 (((cfg1.win 2).blk t).view.emb (ix2 u n)) = V c main_v6 (ix2 u n)
  refine congrArg (V c main_v6) (funext fun a => Fin.ext ?_)
  match a with
  | ⟨0, _⟩ => show win1_2.index t (0 : Fin 2) * 1 + 1 * u.val = u.val; omega
  | ⟨1, _⟩ => show win1_2.index t (1 : Fin 2) * 1024 + 1 * n.val = n.val; omega

/-- Row r of the output block at point t sits at row t·512 + r of the output array, in every head. -/
theorem out_blk1 (t : Fin cfg1.N) (h : Fin 16) (r : Fin 512) (d : Fin 64) (l : Fin 4096) (hl : l.val = t.val * 512 + r.val) :
    (((cfg1.win 3).blk t).view.emb (ix3 h r d) : S16x4096x64.Idx) = ix3 h l d := by
  obtain ⟨-, -, -, -, -, -, e0, e1, e2⟩ := idx_facts1 t
  refine funext fun a => Fin.ext ?_
  match a with
  | ⟨0, _⟩ => show win1_3.index t (0 : Fin 3) * 16 + 1 * h.val = h.val; omega
  | ⟨1, _⟩ => show win1_3.index t (1 : Fin 3) * 512 + 1 * r.val = l.val; omega
  | ⟨2, _⟩ => show win1_3.index t (2 : Fin 3) * 64 + 1 * d.val = d.val; omega

/-- What point t writes back is block t of the projection of the three arrays as the region finds them. -/
theorem flushed1_eq (c : Dev nD) (t : Fin cfg1.N) :
    (dat1 (F := Ideal) V c).flushed 3 t
      = ((cfg1.win 3).blk t).view.read (Elt Ideal) (projArr (V c main_arg1) (V c main_v1) (V c main_v6)) := by
  show (cfg1.win 3).cut (grid1.coords t) ((dat1 V c).after 3 t) = _
  rw [after1_3]
  unfold out1_3
  rw [View.canon_unit_zero hz3_1]
  simp only [View.ld_unit_zero (S := S512x1024) hz2_1, View.ld_unit_zero (S := S1024x1024) hz2_1,
    View.ld_unit_zero (S := S1x1024) hz2_1]
  have hN : cfg1.N = 8 := N_1
  have key : ∀ j : S16x512x64.Idx,
      k1_pay1 (F := Ideal) (iblk1 V c 0 t) (iblk1 V c 1 t) (iblk1 V c 2 t) j
        = projArr (V c main_arg1) (V c main_v1) (V c main_v6) (((cfg1.win 3).blk t).view.emb j) := by
    intro j
    obtain ⟨h, r, d, rfl⟩ : ∃ (h : Fin 16) (r : Fin 512) (d : Fin 64), j = ix3 h r d := ⟨j 0, j 1, j 2, eq_ix3 j⟩
    have hl : (⟨t.val * 512 + r.val, by have := t.isLt; omega⟩ : Fin 4096).val = t.val * 512 + r.val := rfl
    rw [out_blk1 t h r d _ hl, projArr_apply]
    refine (k1_pay1_apply (iblk1 V c 0 t) (iblk1 V c 1 t) (iblk1 V c 2 t) h r d).trans ?_
    rw [bias_blk1 V c t]
    refine congrArg (· + (V c main_v6 : S1x1024.Idx → EReal) (ix2 0 (feat h d))) (Finset.sum_congr rfl fun k _ => ?_)
    rw [rows_blk1 V c t r k _ hl, weights_blk1 V c t]
  exact funext key

/-- An index of the output array is in point t's block iff each coordinate is in the block's range on its axis. -/
theorem mem_blk1 (t : Fin cfg1.N) (i : S16x4096x64.Idx) :
    i ∈ ((cfg1.win 3).blk t).view.set
      ↔ ∀ a : Fin 3, win1_3.index t a * S16x512x64.size a ≤ (i a).val
          ∧ (i a).val < win1_3.index t a * S16x512x64.size a + S16x512x64.size a := by
  show i ∈ ((View.whole main_v7).slice (win1_3.rect t)).set ↔ _
  rw [View.set_slice_whole, Rect.mem_set_unit]
  exact Iff.rfl

/-- Every index of the output array is in the block of the point that holds its row. -/
theorem cover1 (i : S16x4096x64.Idx) :
    ∃ t : Fin cfg1.N, (cfg1.win 3).flush t = true ∧ i ∈ ((cfg1.win 3).blk t).view.set := by
  have hN : cfg1.N = 8 := N_1
  have h0 : (i 0).val < 16 := (i 0).isLt
  have h1 : (i 1).val < 4096 := (i 1).isLt
  have h2 : (i 2).val < 64 := (i 2).isLt
  have ht : (i 1).val / 512 < cfg1.N := by omega
  refine ⟨⟨(i 1).val / 512, ht⟩, flush1_3 _, ?_⟩
  obtain ⟨-, -, -, -, -, -, e0, e1, e2⟩ := idx_facts1 ⟨(i 1).val / 512, ht⟩
  have e1' : win1_3.index ⟨(i 1).val / 512, ht⟩ (1 : Fin 3) = (i 1).val / 512 := e1
  rw [mem_blk1]
  intro a
  match a with
  | ⟨0, _⟩ =>
    show win1_3.index ⟨(i 1).val / 512, ht⟩ (0 : Fin 3) * 16 ≤ (i 0).val
      ∧ (i 0).val < win1_3.index ⟨(i 1).val / 512, ht⟩ (0 : Fin 3) * 16 + 16
    omega
  | ⟨1, _⟩ =>
    show win1_3.index ⟨(i 1).val / 512, ht⟩ (1 : Fin 3) * 512 ≤ (i 1).val
      ∧ (i 1).val < win1_3.index ⟨(i 1).val / 512, ht⟩ (1 : Fin 3) * 512 + 512
    omega
  | ⟨2, _⟩ =>
    show win1_3.index ⟨(i 1).val / 512, ht⟩ (2 : Fin 3) * 64 ≤ (i 2).val
      ∧ (i 2).val < win1_3.index ⟨(i 1).val / 512, ht⟩ (2 : Fin 3) * 64 + 64
    omega

/-- The output array after the region: the projection of the three arrays as the region finds them. -/
theorem head1_arr (c : Dev nD) :
    (dat1 (F := Ideal) V c).arrAt 3 cfg1.N = projArr (V c main_arg1) (V c main_v1) (V c main_v6) :=
  (dat1 (F := Ideal) V c).arrAt_eq_of_cover 3 _ (fun t _ => flushed1_eq V c t) cover1

/-- On real arrays: the real linear layer, regrouped by heads. -/
theorem head1_value (c : Dev nD) (rx : Fin 4096 → Fin 1024 → ℝ) (rw : Fin 1024 → Fin 1024 → ℝ) (rb : Fin 1024 → ℝ)
    (hx : IsR2 (V c main_arg1) rx) (hw : IsR2 (V c main_v1) rw)
    (hb : ∀ n : Fin 1024, (V c main_v6 : S1x1024.Idx → EReal) (ix2 0 n) = ((rb n : ℝ) : EReal)) :
    IsR3 ((dat1 (F := Ideal) V c).arrAt 3 cfg1.N) (fun h l d => Cert.Attn.lin rx rw rb l (feat h d)) := by
  rw [head1_arr]
  exact projArr_real _ _ _ rx rw rb hx hw hb

end Cert.Attn.KV

end
-- ==== Proof.IdealHeadValue2.lean ====
/-
  The value of projection region 2's output array.  The region walks the 4096 rows in eight blocks of 512: at point t
  the body sees rows t·512 … t·512+511 of the row array, the whole weight matrix and the whole bias row, and writes the
  block of the head-layout array that holds those rows of every head.  Each block written is the corresponding block of
  ONE function of the three arrays, and the eight blocks cover the output array, so the array ends holding that function.
-/
import proofs.«101851_j15083925144173_2_alg».proof.Proof.IdealHead2
import proofs.«101851_j15083925144173_2_alg».proof.Proof.PayHead
import proofs.«101851_j15083925144173_2_alg».proof.Proof.ProjValue
import Idealize.ShloMosaic.Lib.Pipeline.Value

noncomputable section

open scoped BigOperators

namespace Cert.Attn.KV

open Cert.KernelIdeal Cert.KernelIdeal.Gen Cert.KernelIdeal.Hand Cert.Attn Cert.Attn.Pay
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2_2 : (![0, 0] : Fin 2 → Nat) = fun _ => 0 := funext fun a => by fin_cases a <;> rfl
theorem hz3_2 : (![0, 0, 0] : Fin 3 → Nat) = fun _ => 0 := funext fun a => by fin_cases a <;> rfl

/-- The block indices at point t: the row array and the output move along their row axis with t, the weights and the
    bias row stay. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 3) = 0 ∧ win2_3.index t (1 : Fin 3) = t.val ∧ win2_3.index t (2 : Fin 3) = 0 :=
  (by decide +kernel : ∀ t : Fin grid2.N, _)

/-- Row r of the row block at point t is row t·512 + r of the row array. -/
theorem rows_blk2 (c : Dev nD) (t : Fin cfg2.N) (r : Fin 512) (k : Fin 1024) (l : Fin 4096) (hl : l.val = t.val * 512 + r.val) :
    (iblk2 V c 0 t : S512x1024.Idx → EReal) (ix2 r k) = (V c main_arg2 : S4096x1024.Idx → EReal) (ix2 l k) := by
  obtain ⟨e0, e1, -⟩ := idx_facts2 t
  show V c main_arg2 (((cfg2.win 0).blk t).view.emb (ix2 r k)) = V c main_arg2 (ix2 l k)
  refine congrArg (V c main_arg2) (funext fun a => Fin.ext ?_)
  match a with
  | ⟨0, _⟩ => show win2_0.index t (0 : Fin 2) * 512 + 1 * r.val = l.val; omega
  | ⟨1, _⟩ => show win2_0.index t (1 : Fin 2) * 1024 + 1 * k.val = k.val; omega

/-- The weight block at every point is the weight matrix. -/
theorem weights_blk2 (c : Dev nD) (t : Fin cfg2.N) (n k : Fin 1024) :
    (iblk2 V c 1 t : S1024x1024.Idx → EReal) (ix2 n k) = (V c main_v2 : S1024x1024.Idx → EReal) (ix2 n k) := by
  obtain ⟨-, -, e0, e1, -⟩ := idx_facts2 t
  show V c main_v2 (((cfg2.win 1).blk t).view.emb (ix2 n k)) = V c main_v2 (ix2 n k)
  refine congrArg (V c main_v2) (funext fun a => Fin.ext ?_)
  match a with
  | ⟨0, _⟩ => show win2_1.index t (0 : Fin 2) * 1024 + 1 * n.val = n.val; omega
  | ⟨1, _⟩ => show win2_1.index t (1 : Fin 2) * 1024 + 1 * k.val = k.val; omega

/-- The bias block at every point is the bias row. -/
theorem bias_blk2 (c : Dev nD) (t : Fin cfg2.N) (u : Fin 1) (n : Fin 1024) :
    (iblk2 V c 2 t : S1x1024.Idx → EReal) (ix2 u n) = (V c main_v8 : S1x1024.Idx → EReal) (ix2 u n) := by
  obtain ⟨-, -, -, -, e0, e1, -⟩ := idx_facts2 t
  show V c main_v8 (((cfg2.win 2).blk t).view.emb (ix2 u n)) = V c main_v8 (ix2 u n)
  refine congrArg (V c main_v8) (funext fun a => Fin.ext ?_)
  match a with
  | ⟨0, _⟩ => show win2_2.index t (0 : Fin 2) * 1 + 1 * u.val = u.val; omega
  | ⟨1, _⟩ => show win2_2.index t (1 : Fin 2) * 1024 + 1 * n.val = n.val; omega

/-- Row r of the output block at point t sits at row t·512 + r of the output array, in every head. -/
theorem out_blk2 (t : Fin cfg2.N) (h : Fin 16) (r : Fin 512) (d : Fin 64) (l : Fin 4096) (hl : l.val = t.val * 512 + r.val) :
    (((cfg2.win 3).blk t).view.emb (ix3 h r d) : S16x4096x64.Idx) = ix3 h l d := by
  obtain ⟨-, -, -, -, -, -, e0, e1, e2⟩ := idx_facts2 t
  refine funext fun a => Fin.ext ?_
  match a with
  | ⟨0, _⟩ => show win2_3.index t (0 : Fin 3) * 16 + 1 * h.val = h.val; omega
  | ⟨1, _⟩ => show win2_3.index t (1 : Fin 3) * 512 + 1 * r.val = l.val; omega
  | ⟨2, _⟩ => show win2_3.index t (2 : Fin 3) * 64 + 1 * d.val = d.val; omega

/-- What point t writes back is block t of the projection of the three arrays as the region finds them. -/
theorem flushed2_eq (c : Dev nD) (t : Fin cfg2.N) :
    (dat2 (F := Ideal) V c).flushed 3 t
      = ((cfg2.win 3).blk t).view.read (Elt Ideal) (projArr (V c main_arg2) (V c main_v2) (V c main_v8)) := by
  show (cfg2.win 3).cut (grid2.coords t) ((dat2 V c).after 3 t) = _
  rw [after2_3]
  unfold out2_3
  rw [View.canon_unit_zero hz3_2]
  simp only [View.ld_unit_zero (S := S512x1024) hz2_2, View.ld_unit_zero (S := S1024x1024) hz2_2,
    View.ld_unit_zero (S := S1x1024) hz2_2]
  have hN : cfg2.N = 8 := N_2
  have key : ∀ j : S16x512x64.Idx,
      k2_pay1 (F := Ideal) (iblk2 V c 0 t) (iblk2 V c 1 t) (iblk2 V c 2 t) j
        = projArr (V c main_arg2) (V c main_v2) (V c main_v8) (((cfg2.win 3).blk t).view.emb j) := by
    intro j
    obtain ⟨h, r, d, rfl⟩ : ∃ (h : Fin 16) (r : Fin 512) (d : Fin 64), j = ix3 h r d := ⟨j 0, j 1, j 2, eq_ix3 j⟩
    have hl : (⟨t.val * 512 + r.val, by have := t.isLt; omega⟩ : Fin 4096).val = t.val * 512 + r.val := rfl
    rw [out_blk2 t h r d _ hl, projArr_apply]
    refine (k2_pay1_apply (iblk2 V c 0 t) (iblk2 V c 1 t) (iblk2 V c 2 t) h r d).trans ?_
    rw [bias_blk2 V c t]
    refine congrArg (· + (V c main_v8 : S1x1024.Idx → EReal) (ix2 0 (feat h d))) (Finset.sum_congr rfl fun k _ => ?_)
    rw [rows_blk2 V c t r k _ hl, weights_blk2 V c t]
  exact funext key

/-- An index of the output array is in point t's block iff each coordinate is in the block's range on its axis. -/
theorem mem_blk2 (t : Fin cfg2.N) (i : S16x4096x64.Idx) :
    i ∈ ((cfg2.win 3).blk t).view.set
      ↔ ∀ a : Fin 3, win2_3.index t a * S16x512x64.size a ≤ (i a).val
          ∧ (i a).val < win2_3.index t a * S16x512x64.size a + S16x512x64.size a := by
  show i ∈ ((View.whole main_v9).slice (win2_3.rect t)).set ↔ _
  rw [View.set_slice_whole, Rect.mem_set_unit]
  exact Iff.rfl

/-- Every index of the output array is in the block of the point that holds its row. -/
theorem cover2 (i : S16x4096x64.Idx) :
    ∃ t : Fin cfg2.N, (cfg2.win 3).flush t = true ∧ i ∈ ((cfg2.win 3).blk t).view.set := by
  have hN : cfg2.N = 8 := N_2
  have h0 : (i 0).val < 16 := (i 0).isLt
  have h1 : (i 1).val < 4096 := (i 1).isLt
  have h2 : (i 2).val < 64 := (i 2).isLt
  have ht : (i 1).val / 512 < cfg2.N := by omega
  refine ⟨⟨(i 1).val / 512, ht⟩, flush2_3 _, ?_⟩
  obtain ⟨-, -, -, -, -, -, e0, e1, e2⟩ := idx_facts2 ⟨(i 1).val / 512, ht⟩
  have e1' : win2_3.index ⟨(i 1).val / 512, ht⟩ (1 : Fin 3) = (i 1).val / 512 := e1
  rw [mem_blk2]
  intro a
  match a with
  | ⟨0, _⟩ =>
    show win2_3.index ⟨(i 1).val / 512, ht⟩ (0 : Fin 3) * 16 ≤ (i 0).val
      ∧ (i 0).val < win2_3.index ⟨(i 1).val / 512, ht⟩ (0 : Fin 3) * 16 + 16
    omega
  | ⟨1, _⟩ =>
    show win2_3.index ⟨(i 1).val / 512, ht⟩ (1 : Fin 3) * 512 ≤ (i 1).val
      ∧ (i 1).val < win2_3.index ⟨(i 1).val / 512, ht⟩ (1 : Fin 3) * 512 + 512
    omega
  | ⟨2, _⟩ =>
    show win2_3.index ⟨(i 1).val / 512, ht⟩ (2 : Fin 3) * 64 ≤ (i 2).val
      ∧ (i 2).val < win2_3.index ⟨(i 1).val / 512, ht⟩ (2 : Fin 3) * 64 + 64
    omega

/-- The output array after the region: the projection of the three arrays as the region finds them. -/
theorem head2_arr (c : Dev nD) :
    (dat2 (F := Ideal) V c).arrAt 3 cfg2.N = projArr (V c main_arg2) (V c main_v2) (V c main_v8) :=
  (dat2 (F := Ideal) V c).arrAt_eq_of_cover 3 _ (fun t _ => flushed2_eq V c t) cover2

/-- On real arrays: the real linear layer, regrouped by heads. -/
theorem head2_value (c : Dev nD) (rx : Fin 4096 → Fin 1024 → ℝ) (rw : Fin 1024 → Fin 1024 → ℝ) (rb : Fin 1024 → ℝ)
    (hx : IsR2 (V c main_arg2) rx) (hw : IsR2 (V c main_v2) rw)
    (hb : ∀ n : Fin 1024, (V c main_v8 : S1x1024.Idx → EReal) (ix2 0 n) = ((rb n : ℝ) : EReal)) :
    IsR3 ((dat2 (F := Ideal) V c).arrAt 3 cfg2.N) (fun h l d => Cert.Attn.lin rx rw rb l (feat h d)) := by
  rw [head2_arr]
  exact projArr_real _ _ _ rx rw rb hx hw hb

end Cert.Attn.KV

end
-- ==== Proof.KernelValue.lean ====
/-
  The kernel's value.  The program runs four pipelined regions separated by host operations.  The host operations
  only narrow the four weight matrices (the identity on extended reals) and give the four bias vectors a leading unit
  axis; the first three regions compute the projections  x·Wᵀ + b  of queries, keys and values, regrouped by heads; the
  fourth is the flash attention over those three arrays followed by the last linear map.  So when the eleven inputs are
  real arrays, the output array after the last region is the real attention layer  G  of those arrays.
-/
import proofs.«101851_j15083925144173_2_alg».proof.Proof.IdealFold
import proofs.«101851_j15083925144173_2_alg».proof.Proof.IdealHeadValue0
import proofs.«101851_j15083925144173_2_alg».proof.Proof.IdealHeadValue1
import proofs.«101851_j15083925144173_2_alg».proof.Proof.IdealHeadValue2
import Idealize.ShloMosaic.Lib.ValueLayout

noncomputable section

namespace Cert.Attn.KV

open Cert.KernelIdeal Cert.KernelIdeal.Gen Cert.KernelIdeal.Hand Cert.Attn
open Idealize.ShloMosaic Idealize.ShloMosaic.TcCoe Idealize.ShloMosaic.ValueIdx Idealize.SL.Sem

/-! ## Real arrays through the host operations -/

/-- An array equal to a real array is real. -/
theorem isR2_of_eq {a b : ℕ} (y x : (⟨2, ![a, b]⟩ : Shape).Idx → EReal) (e : y = x) (r : Fin a → Fin b → ℝ)
    (hx : IsR2 x r) : IsR2 y r := fun i j => (congrFun e (ix2 i j)).trans (hx i j)

/-- A narrowing format change of a real array is the same real array. -/
theorem isR2_truncf {a b : ℕ} {φ ψ : FTy} (x : FVec Ideal ⟨2, ![a, b]⟩ φ) (hb : ψ.bits < φ.bits)
    (y : (⟨2, ![a, b]⟩ : Shape).Idx → EReal) (e : y = truncf ψ x hb) (r : Fin a → Fin b → ℝ) (hx : IsR2 x r) :
    IsR2 y r := fun i j => (congrFun e (ix2 i j)).trans (hx i j)

/-- A real vector given a leading unit axis: its one row is the vector. -/
theorem row_of_vec {a : ℕ} (x : (⟨1, ![a]⟩ : Shape).Idx → EReal) (hc : (⟨1, ![a]⟩ : Shape).ShapeCasts ⟨2, ![1, a]⟩)
    (y : (⟨2, ![1, a]⟩ : Shape).Idx → EReal) (e : y = fun i => shapeCast ⟨2, ![1, a]⟩ x hc i) (r : Fin a → ℝ)
    (hx : IsR1 x r) (n : Fin a) : y (ix2 0 n) = ((r n : ℝ) : EReal) :=
  (congrFun e (ix2 0 n)).trans ((shapeCast_a_1a_apply x hc 0 n).trans (hx n))

/-! ## The assembly -/

/-- What the fourth region computes from real projected queries, keys and values and a real last linear map. -/
def FlashValue : Prop :=
  ∀ (V : (c : Dev nD) → (b : Ref sig .tc) → Buf (Elt Ideal) ((c : Thread nD τ).loc b)) (c : Dev nD)
    (rq rk rv : Fin 4096 → Fin 1024 → ℝ) (rwo : Fin 1024 → Fin 1024 → ℝ) (rbo : Fin 1024 → ℝ),
    IsR3 (V c main_v5) (fun h l d => rq l (feat h d)) → IsR3 (V c main_v7) (fun h l d => rk l (feat h d)) →
    IsR3 (V c main_v9) (fun h l d => rv l (feat h d)) → IsR2 (V c main_v3) rwo →
    (∀ n : Fin 1024, (V c main_v10 : S1x1024.Idx → EReal) (ix2 0 n) = ((rbo n : ℝ) : EReal)) →
    IsR2 ((dat3 (F := Ideal) V c).arrAt 5 cfg3.N) (outOf rq rk rv rwo rbo)

variable (m : (ℓ : Loc nD τ sig) → Buf (Elt Ideal) ℓ) (ρ : Dev nD → PrngReg) (c : Dev nD)

/-- The projected queries, as the fourth region finds them. -/
theorem v5_real (rq : Fin 4096 → Fin 1024 → ℝ) (rwq : Fin 1024 → Fin 1024 → ℝ) (rbq : Fin 1024 → ℝ)
    (h0 : IsR2 (m ((c : Thread nD τ).loc main_arg0)) rq) (h3 : IsR2 (m ((c : Thread nD τ).loc main_arg3)) rwq)
    (h7 : IsR1 (m ((c : Thread nD τ).loc main_arg7)) rbq) :
    IsR3 (E7 (F := Ideal) m ρ c main_v5) (fun h l d => lin rq rwq rbq l (feat h d)) := by
  rw [E7_v5]
  exact head0_value (E1 (F := Ideal) m ρ) c rq rwq rbq
    (isR2_of_eq _ _ (E1_arg0 m ρ c) rq h0)
    (isR2_truncf _ bitsLt_bf16_f32 _ (E1_v0 m ρ c) rwq h3)
    (row_of_vec _ shapeCasts_S1024_S1x1024 _ (E1_v4 m ρ c) rbq h7)

/-- The projected keys. -/
theorem v7_real (rk : Fin 4096 → Fin 1024 → ℝ) (rwk : Fin 1024 → Fin 1024 → ℝ) (rbk : Fin 1024 → ℝ)
    (h1 : IsR2 (m ((c : Thread nD τ).loc main_arg1)) rk) (h4 : IsR2 (m ((c : Thread nD τ).loc main_arg4)) rwk)
    (h8 : IsR1 (m ((c : Thread nD τ).loc main_arg8)) rbk) :
    IsR3 (E7 (F := Ideal) m ρ c main_v7) (fun h l d => lin rk rwk rbk l (feat h d)) := by
  rw [E7_v7]
  exact head1_value (E3 (F := Ideal) m ρ) c rk rwk rbk
    (isR2_of_eq _ _ (E3_arg1 m ρ c) rk h1)
    (isR2_truncf _ bitsLt_bf16_f32 _ (E3_v1 m ρ c) rwk h4)
    (row_of_vec _ shapeCasts_S1024_S1x1024 _ (E3_v6 m ρ c) rbk h8)

/-- The projected values. -/
theorem v9_real (rv : Fin 4096 → Fin 1024 → ℝ) (rwv : Fin 1024 → Fin 1024 → ℝ) (rbv : Fin 1024 → ℝ)
    (h2 : IsR2 (m ((c : Thread nD τ).loc main_arg2)) rv) (h5 : IsR2 (m ((c : Thread nD τ).loc main_arg5)) rwv)
    (h9 : IsR1 (m ((c : Thread nD τ).loc main_arg9)) rbv) :
    IsR3 (E7 (F := Ideal) m ρ c main_v9) (fun h l d => lin rv rwv rbv l (feat h d)) := by
  rw [E7_v9]
  exact head2_value (E5 (F := Ideal) m ρ) c rv rwv rbv
    (isR2_of_eq _ _ (E5_arg2 m ρ c) rv h2)
    (isR2_truncf _ bitsLt_bf16_f32 _ (E5_v2 m ρ c) rwv h5)
    (row_of_vec _ shapeCasts_S1024_S1x1024 _ (E5_v8 m ρ c) rbv h9)

/-- From real inputs the output array after the last region is the real attention layer of them. -/
theorem kernel_value_of (hF : FlashValue)
    (rq rk rv : Fin 4096 → Fin 1024 → ℝ) (rwq rwk rwv rwo : Fin 1024 → Fin 1024 → ℝ) (rbq rbk rbv rbo : Fin 1024 → ℝ)
    (h0 : IsR2 (m ((c : Thread nD τ).loc main_arg0)) rq) (h1 : IsR2 (m ((c : Thread nD τ).loc main_arg1)) rk)
    (h2 : IsR2 (m ((c : Thread nD τ).loc main_arg2)) rv) (h3 : IsR2 (m ((c : Thread nD τ).loc main_arg3)) rwq)
    (h4 : IsR2 (m ((c : Thread nD τ).loc main_arg4)) rwk) (h5 : IsR2 (m ((c : Thread nD τ).loc main_arg5)) rwv)
    (h6 : IsR2 (m ((c : Thread nD τ).loc main_arg6)) rwo) (h7 : IsR1 (m ((c : Thread nD τ).loc main_arg7)) rbq)
    (h8 : IsR1 (m ((c : Thread nD τ).loc main_arg8)) rbk) (h9 : IsR1 (m ((c : Thread nD τ).loc main_arg9)) rbv)
    (h10 : IsR1 (m ((c : Thread nD τ).loc main_arg10)) rbo) :
    IsR2 (B8 (F := Ideal) m ρ c (Proc.devRef .tc main_v11)) (G rq rk rv rwq rwk rwv rwo rbq rbk rbv rbo) := by
  rw [B8_v11]
  exact hF (E7 (F := Ideal) m ρ) c (lin rq rwq rbq) (lin rk rwk rbk) (lin rv rwv rbv) rwo rbo
    (v5_real m ρ c rq rwq rbq h0 h3 h7) (v7_real m ρ c rk rwk rbk h1 h4 h8) (v9_real m ρ c rv rwv rbv h2 h5 h9)
    (isR2_truncf _ bitsLt_bf16_f32 _ (E7_v3 m ρ c) rwo h6)
    (row_of_vec _ shapeCasts_S1024_S1x1024 _ (E7_v10 m ρ c) rbo h10)

end Cert.Attn.KV

end
-- ==== Proof.IdealFlashPieces.lean ====
/-
  What each case of the attention body leaves in the running maximum, the running sum, the accumulator and the
  result block, named by the arithmetic of the body: every buffer is loaded and stored whole, so the one covering
  store's payload is what the buffer ends with, and each load reads either the contents the body was entered with or
  what an earlier whole store of the same body left. A middle key tile updates the three running quantities from the
  ones carried in; the last key tile does the same and then forms the result block from the UPDATED accumulator and
  running sum; key tile 0 first resets them (minus infinity, zero, zero) and updates from those.
-/
import proofs.«101851_j15083925144173_2_alg».proof.Proof.IdealFlash
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offset of a rank-3 block, as the constant function. -/
theorem hz3 : (![0, 0, 0] : Fin 3 → Nat) = fun _ => 0 := funext fun a => by fin_cases a <;> rfl
/-- The zero offset of a rank-2 block, as the constant function. -/
theorem hz2 : (![0, 0] : Fin 2 → Nat) = fun _ => 0 := funext fun a => by fin_cases a <;> rfl

/-- A middle key tile leaves in the running maximum the maximum of what it held and the tile's row maxima. -/
theorem sout3_B_0_eq (c : Dev nD) (i : grid3.Coords) (arg2 : Memref sig .tc .vmem S16x512x64 .bf16) (harg2 : arg2.IsWhole) (arg3 : Memref sig .tc .vmem S16x256x64 .bf16) (harg3 : arg3.IsWhole) (arg4 : Memref sig .tc .vmem S16x256x64 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S16x512x1 .f32) (harg8 : arg8.IsWhole) (arg9 : Memref sig .tc .vmem S16x512x1 .f32) (harg9 : arg9.IsWhole) (arg10 : Memref sig .tc .vmem S16x512x64 .f32) (harg10 : arg10.IsWhole) (hc0 : ¬cond3_0 i) (hc1 : ¬cond3_1 i)
    (x0 : Vec F S16x512x64 .bf16) (x1 : Vec F S16x256x64 .bf16) (x2 : Vec F S16x256x64 .bf16) (x3 : Vec F S1024x1024 .bf16) (x4 : Vec F S1x1024 .f32) (xs0 : Vec F S16x512x1 .f32) (xs1 : Vec F S16x512x1 .f32) (xs2 : Vec F S16x512x64 .f32) :
    sout3_B_0 c i arg2 harg2 arg3 harg3 arg4 harg4 arg5 harg5 arg6 harg6 arg7 harg7 arg8 harg8 arg9 harg9 arg10 harg10 hc0 hc1 x0 x1 x2 x3 x4 xs0 xs1 xs2 = k3_pay2 (k3_pay9 x0 x1 xs0) := by
  unfold sout3_B_0
  rw [View.read_writes_eq_canon _ _ _ (scover3_B_0 c i arg2 harg2 arg3 harg3 arg4 harg4 arg5 harg5 arg6 harg6 arg7 harg7 arg8 harg8 arg9 harg9 arg10 harg10 hc0 hc1 x0 x1 x2 x3 x4 xs0 xs1 xs2)]
  unfold kernelRun3_B
  dsimp only
  sl_unfold_words
  rw [View.canon_cons_unit_zero (S := S16x512x1) hz3]
  simp only [View.readAt_eq_ld, harg2.read_unread, harg3.read_unread, harg4.read_unread, harg5.read_unread, harg6.read_unread,
    harg8.read_unread, harg9.read_unread, harg10.read_unread,
    View.ld_unit_zero (S := S16x512x64) hz3, View.ld_unit_zero (S := S16x256x64) hz3, View.ld_unit_zero (S := S16x512x1) hz3,
    View.ld_unit_zero (S := S1024x1024) hz2, View.ld_unit_zero (S := S1x1024) hz2,
    View.readCov_unit_zero (S := S16x512x1) _ hz3, View.readCov_unit_zero (S := S16x512x64) _ hz3]

/-- A middle key tile leaves in the running sum the rescaled sum it held plus the tile's row sums of exponentials. -/
theorem sout3_B_1_eq (c : Dev nD) (i : grid3.Coords) (arg2 : Memref sig .tc .vmem S16x512x64 .bf16) (harg2 : arg2.IsWhole) (arg3 : Memref sig .tc .vmem S16x256x64 .bf16) (harg3 : arg3.IsWhole) (arg4 : Memref sig .tc .vmem S16x256x64 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S16x512x1 .f32) (harg8 : arg8.IsWhole) (arg9 : Memref sig .tc .vmem S16x512x1 .f32) (harg9 : arg9.IsWhole) (arg10 : Memref sig .tc .vmem S16x512x64 .f32) (harg10 : arg10.IsWhole) (hc0 : ¬cond3_0 i) (hc1 : ¬cond3_1 i)
    (x0 : Vec F S16x512x64 .bf16) (x1 : Vec F S16x256x64 .bf16) (x2 : Vec F S16x256x64 .bf16) (x3 : Vec F S1024x1024 .bf16) (x4 : Vec F S1x1024 .f32) (xs0 : Vec F S16x512x1 .f32) (xs1 : Vec F S16x512x1 .f32) (xs2 : Vec F S16x512x64 .f32) :
    sout3_B_1 c i arg2 harg2 arg3 harg3 arg4 harg4 arg5 harg5 arg6 harg6 arg7 harg7 arg8 harg8 arg9 harg9 arg10 harg10 hc0 hc1 x0 x1 x2 x3 x4 xs0 xs1 xs2 = k3_pay12 x0 x1 xs0 xs0 xs1 := by
  unfold sout3_B_1
  rw [View.read_writes_eq_canon _ _ _ (scover3_B_1 c i arg2 harg2 arg3 harg3 arg4 harg4 arg5 harg5 arg6 harg6 arg7 harg7 arg8 harg8 arg9 harg9 arg10 harg10 hc0 hc1 x0 x1 x2 x3 x4 xs0 xs1 xs2)]
  unfold kernelRun3_B
  dsimp only
  sl_unfold_words
  rw [View.canon_cons_unit_zero (S := S16x512x1) hz3]
  simp only [View.readAt_eq_ld, harg2.read_unread, harg3.read_unread, harg4.read_unread, harg5.read_unread, harg6.read_unread,
    harg8.read_unread, harg9.read_unread, harg10.read_unread,
    View.ld_unit_zero (S := S16x512x64) hz3, View.ld_unit_zero (S := S16x256x64) hz3, View.ld_unit_zero (S := S16x512x1) hz3,
    View.ld_unit_zero (S := S1024x1024) hz2, View.ld_unit_zero (S := S1x1024) hz2,
    View.readCov_unit_zero (S := S16x512x1) _ hz3, View.readCov_unit_zero (S := S16x512x64) _ hz3]

/-- A middle key tile leaves in the accumulator the rescaled accumulator it held plus the tile's weights against its value rows. -/
theorem sout3_B_2_eq (c : Dev nD) (i : grid3.Coords) (arg2 : Memref sig .tc .vmem S16x512x64 .bf16) (harg2 : arg2.IsWhole) (arg3 : Memref sig .tc .vmem S16x256x64 .bf16) (harg3 : arg3.IsWhole) (arg4 : Memref sig .tc .vmem S16x256x64 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S16x512x1 .f32) (harg8 : arg8.IsWhole) (arg9 : Memref sig .tc .vmem S16x512x1 .f32) (harg9 : arg9.IsWhole) (arg10 : Memref sig .tc .vmem S16x512x64 .f32) (harg10 : arg10.IsWhole) (hc0 : ¬cond3_0 i) (hc1 : ¬cond3_1 i)
    (x0 : Vec F S16x512x64 .bf16) (x1 : Vec F S16x256x64 .bf16) (x2 : Vec F S16x256x64 .bf16) (x3 : Vec F S1024x1024 .bf16) (x4 : Vec F S1x1024 .f32) (xs0 : Vec F S16x512x1 .f32) (xs1 : Vec F S16x512x1 .f32) (xs2 : Vec F S16x512x64 .f32) :
    sout3_B_2 c i arg2 harg2 arg3 harg3 arg4 harg4 arg5 harg5 arg6 harg6 arg7 harg7 arg8 harg8 arg9 harg9 arg10 harg10 hc0 hc1 x0 x1 x2 x3 x4 xs0 xs1 xs2 = k3_pay1 (k3_pay7 x2) (k3_pay10 x0 x1 xs0 xs0) (k3_pay11 x0 x1 xs0) xs2 := by
  unfold sout3_B_2
  rw [View.read_writes_eq_canon _ _ _ (scover3_B_2 c i arg2 harg2 arg3 harg3 arg4 harg4 arg5 harg5 arg6 harg6 arg7 harg7 arg8 harg8 arg9 harg9 arg10 harg10 hc0 hc1 x0 x1 x2 x3 x4 xs0 xs1 xs2)]
  unfold kernelRun3_B
  dsimp only
  sl_unfold_words
  rw [View.canon_cons_unit_zero (S := S16x512x64) hz3]
  simp only [View.readAt_eq_ld, harg2.read_unread, harg3.read_unread, harg4.read_unread, harg5.read_unread, harg6.read_unread,
    harg8.read_unread, harg9.read_unread, harg10.read_unread,
    View.ld_unit_zero (S := S16x512x64) hz3, View.ld_unit_zero (S := S16x256x64) hz3, View.ld_unit_zero (S := S16x512x1) hz3,
    View.ld_unit_zero (S := S1024x1024) hz2, View.ld_unit_zero (S := S1x1024) hz2,
    View.readCov_unit_zero (S := S16x512x1) _ hz3, View.readCov_unit_zero (S := S16x512x64) _ hz3]

/-- The last key tile updates the running maximum as a middle one does. -/
theorem sout3_C_0_eq (c : Dev nD) (i : grid3.Coords) (arg2 : Memref sig .tc .vmem S16x512x64 .bf16) (harg2 : arg2.IsWhole) (arg3 : Memref sig .tc .vmem S16x256x64 .bf16) (harg3 : arg3.IsWhole) (arg4 : Memref sig .tc .vmem S16x256x64 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S16x512x1 .f32) (harg8 : arg8.IsWhole) (arg9 : Memref sig .tc .vmem S16x512x1 .f32) (harg9 : arg9.IsWhole) (arg10 : Memref sig .tc .vmem S16x512x64 .f32) (harg10 : arg10.IsWhole) (hc0 : ¬cond3_0 i) (hc1 : cond3_1 i)
    (x0 : Vec F S16x512x64 .bf16) (x1 : Vec F S16x256x64 .bf16) (x2 : Vec F S16x256x64 .bf16) (x3 : Vec F S1024x1024 .bf16) (x4 : Vec F S1x1024 .f32) (xs0 : Vec F S16x512x1 .f32) (xs1 : Vec F S16x512x1 .f32) (xs2 : Vec F S16x512x64 .f32) :
    sout3_C_0 c i arg2 harg2 arg3 harg3 arg4 harg4 arg5 harg5 arg6 harg6 arg7 harg7 arg8 harg8 arg9 harg9 arg10 harg10 hc0 hc1 x0 x1 x2 x3 x4 xs0 xs1 xs2 = k3_pay2 (k3_pay9 x0 x1 xs0) := by
  unfold sout3_C_0
  rw [View.read_writes_eq_canon _ _ _ (scover3_C_0 c i arg2 harg2 arg3 harg3 arg4 harg4 arg5 harg5 arg6 harg6 arg7 harg7 arg8 harg8 arg9 harg9 arg10 harg10 hc0 hc1 x0 x1 x2 x3 x4 xs0 xs1 xs2)]
  unfold kernelRun3_C
  dsimp only
  sl_unfold_words
  rw [View.canon_cons_unit_zero (S := S16x512x1) hz3]
  simp only [View.readAt_eq_ld, harg2.read_unread, harg3.read_unread, harg4.read_unread, harg5.read_unread, harg6.read_unread,
    harg8.read_unread, harg9.read_unread, harg10.read_unread,
    View.ld_unit_zero (S := S16x512x64) hz3, View.ld_unit_zero (S := S16x256x64) hz3, View.ld_unit_zero (S := S16x512x1) hz3,
    View.ld_unit_zero (S := S1024x1024) hz2, View.ld_unit_zero (S := S1x1024) hz2,
    View.readCov_unit_zero (S := S16x512x1) _ hz3, View.readCov_unit_zero (S := S16x512x64) _ hz3]

/-- The last key tile updates the running sum as a middle one does. -/
theorem sout3_C_1_eq (c : Dev nD) (i : grid3.Coords) (arg2 : Memref sig .tc .vmem S16x512x64 .bf16) (harg2 : arg2.IsWhole) (arg3 : Memref sig .tc .vmem S16x256x64 .bf16) (harg3 : arg3.IsWhole) (arg4 : Memref sig .tc .vmem S16x256x64 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S16x512x1 .f32) (harg8 : arg8.IsWhole) (arg9 : Memref sig .tc .vmem S16x512x1 .f32) (harg9 : arg9.IsWhole) (arg10 : Memref sig .tc .vmem S16x512x64 .f32) (harg10 : arg10.IsWhole) (hc0 : ¬cond3_0 i) (hc1 : cond3_1 i)
    (x0 : Vec F S16x512x64 .bf16) (x1 : Vec F S16x256x64 .bf16) (x2 : Vec F S16x256x64 .bf16) (x3 : Vec F S1024x1024 .bf16) (x4 : Vec F S1x1024 .f32) (xs0 : Vec F S16x512x1 .f32) (xs1 : Vec F S16x512x1 .f32) (xs2 : Vec F S16x512x64 .f32) :
    sout3_C_1 c i arg2 harg2 arg3 harg3 arg4 harg4 arg5 harg5 arg6 harg6 arg7 harg7 arg8 harg8 arg9 harg9 arg10 harg10 hc0 hc1 x0 x1 x2 x3 x4 xs0 xs1 xs2 = k3_pay12 x0 x1 xs0 xs0 xs1 := by
  unfold sout3_C_1
  rw [View.read_writes_eq_canon _ _ _ (scover3_C_1 c i arg2 harg2 arg3 harg3 arg4 harg4 arg5 harg5 arg6 harg6 arg7 harg7 arg8 harg8 arg9 harg9 arg10 harg10 hc0 hc1 x0 x1 x2 x3 x4 xs0 xs1 xs2)]
  unfold kernelRun3_C
  dsimp only
  sl_unfold_words
  rw [View.canon_cons_unit_zero (S := S16x512x1) hz3]
  simp only [View.readAt_eq_ld, harg2.read_unread, harg3.read_unread, harg4.read_unread, harg5.read_unread, harg6.read_unread,
    harg8.read_unread, harg9.read_unread, harg10.read_unread,
    View.ld_unit_zero (S := S16x512x64) hz3, View.ld_unit_zero (S := S16x256x64) hz3, View.ld_unit_zero (S := S16x512x1) hz3,
    View.ld_unit_zero (S := S1024x1024) hz2, View.ld_unit_zero (S := S1x1024) hz2,
    View.readCov_unit_zero (S := S16x512x1) _ hz3, View.readCov_unit_zero (S := S16x512x64) _ hz3]

/-- The last key tile updates the accumulator as a middle one does. -/
theorem sout3_C_2_eq (c : Dev nD) (i : grid3.Coords) (arg2 : Memref sig .tc .vmem S16x512x64 .bf16) (harg2 : arg2.IsWhole) (arg3 : Memref sig .tc .vmem S16x256x64 .bf16) (harg3 : arg3.IsWhole) (arg4 : Memref sig .tc .vmem S16x256x64 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S16x512x1 .f32) (harg8 : arg8.IsWhole) (arg9 : Memref sig .tc .vmem S16x512x1 .f32) (harg9 : arg9.IsWhole) (arg10 : Memref sig .tc .vmem S16x512x64 .f32) (harg10 : arg10.IsWhole) (hc0 : ¬cond3_0 i) (hc1 : cond3_1 i)
    (x0 : Vec F S16x512x64 .bf16) (x1 : Vec F S16x256x64 .bf16) (x2 : Vec F S16x256x64 .bf16) (x3 : Vec F S1024x1024 .bf16) (x4 : Vec F S1x1024 .f32) (xs0 : Vec F S16x512x1 .f32) (xs1 : Vec F S16x512x1 .f32) (xs2 : Vec F S16x512x64 .f32) :
    sout3_C_2 c i arg2 harg2 arg3 harg3 arg4 harg4 arg5 harg5 arg6 harg6 arg7 harg7 arg8 harg8 arg9 harg9 arg10 harg10 hc0 hc1 x0 x1 x2 x3 x4 xs0 xs1 xs2 = k3_pay1 (k3_pay7 x2) (k3_pay10 x0 x1 xs0 xs0) (k3_pay11 x0 x1 xs0) xs2 := by
  unfold sout3_C_2
  rw [View.read_writes_eq_canon _ _ _ (scover3_C_2 c i arg2 harg2 arg3 harg3 arg4 harg4 arg5 harg5 arg6 harg6 arg7 harg7 arg8 harg8 arg9 harg9 arg10 harg10 hc0 hc1 x0 x1 x2 x3 x4 xs0 xs1 xs2)]
  unfold kernelRun3_C
  dsimp only
  sl_unfold_words
  rw [View.canon_cons_unit_zero (S := S16x512x64) hz3]
  simp only [View.readAt_eq_ld, harg2.read_unread, harg3.read_unread, harg4.read_unread, harg5.read_unread, harg6.read_unread,
    harg8.read_unread, harg9.read_unread, harg10.read_unread,
    View.ld_unit_zero (S := S16x512x64) hz3, View.ld_unit_zero (S := S16x256x64) hz3, View.ld_unit_zero (S := S16x512x1) hz3,
    View.ld_unit_zero (S := S1024x1024) hz2, View.ld_unit_zero (S := S1x1024) hz2,
    View.readCov_unit_zero (S := S16x512x1) _ hz3, View.readCov_unit_zero (S := S16x512x64) _ hz3]

/-- The last key tile then writes the result block: the updated accumulator divided by the updated running sum, heads side by side, through the output projection. -/
theorem out3_C_5_eq (c : Dev nD) (i : grid3.Coords) (arg2 : Memref sig .tc .vmem S16x512x64 .bf16) (harg2 : arg2.IsWhole) (arg3 : Memref sig .tc .vmem S16x256x64 .bf16) (harg3 : arg3.IsWhole) (arg4 : Memref sig .tc .vmem S16x256x64 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S16x512x1 .f32) (harg8 : arg8.IsWhole) (arg9 : Memref sig .tc .vmem S16x512x1 .f32) (harg9 : arg9.IsWhole) (arg10 : Memref sig .tc .vmem S16x512x64 .f32) (harg10 : arg10.IsWhole) (hc0 : ¬cond3_0 i) (hc1 : cond3_1 i)
    (x0 : Vec F S16x512x64 .bf16) (x1 : Vec F S16x256x64 .bf16) (x2 : Vec F S16x256x64 .bf16) (x3 : Vec F S1024x1024 .bf16) (x4 : Vec F S1x1024 .f32) (xs0 : Vec F S16x512x1 .f32) (xs1 : Vec F S16x512x1 .f32) (xs2 : Vec F S16x512x64 .f32) :
    out3_C_5 c i arg2 harg2 arg3 harg3 arg4 harg4 arg5 harg5 arg6 harg6 arg7 harg7 arg8 harg8 arg9 harg9 arg10 harg10 hc0 hc1 x0 x1 x2 x3 x4 xs0 xs1 xs2 = k3_pay3 (k3_pay1 (k3_pay7 x2) (k3_pay10 x0 x1 xs0 xs0) (k3_pay11 x0 x1 xs0) xs2) (k3_pay12 x0 x1 xs0 xs0 xs1) x3 x4 := by
  unfold out3_C_5
  rw [View.read_writes_eq_canon _ _ _ (cover3_C_5 c i arg2 harg2 arg3 harg3 arg4 harg4 arg5 harg5 arg6 harg6 arg7 harg7 arg8 harg8 arg9 harg9 arg10 harg10 hc0 hc1 x0 x1 x2 x3 x4 xs0 xs1 xs2)]
  unfold kernelRun3_C
  dsimp only
  sl_unfold_words
  rw [View.canon_cons_unit_zero (S := S512x1024) hz2]
  simp only [View.readAt_eq_ld, harg2.read_unread, harg3.read_unread, harg4.read_unread, harg5.read_unread, harg6.read_unread,
    harg8.read_unread, harg9.read_unread, harg10.read_unread,
    View.ld_unit_zero (S := S16x512x64) hz3, View.ld_unit_zero (S := S16x256x64) hz3, View.ld_unit_zero (S := S16x512x1) hz3,
    View.ld_unit_zero (S := S1024x1024) hz2, View.ld_unit_zero (S := S1x1024) hz2,
    View.readCov_unit_zero (S := S16x512x1) _ hz3, View.readCov_unit_zero (S := S16x512x64) _ hz3]

/-- Key tile 0 resets the running maximum to minus infinity first, then updates it. -/
theorem sout3_A_0_eq (c : Dev nD) (i : grid3.Coords) (arg2 : Memref sig .tc .vmem S16x512x64 .bf16) (harg2 : arg2.IsWhole) (arg3 : Memref sig .tc .vmem S16x256x64 .bf16) (harg3 : arg3.IsWhole) (arg4 : Memref sig .tc .vmem S16x256x64 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S16x512x1 .f32) (harg8 : arg8.IsWhole) (arg9 : Memref sig .tc .vmem S16x512x1 .f32) (harg9 : arg9.IsWhole) (arg10 : Memref sig .tc .vmem S16x512x64 .f32) (harg10 : arg10.IsWhole) (hc0 : cond3_0 i) (hc1 : ¬cond3_1 i)
    (x0 : Vec F S16x512x64 .bf16) (x1 : Vec F S16x256x64 .bf16) (x2 : Vec F S16x256x64 .bf16) (x3 : Vec F S1024x1024 .bf16) (x4 : Vec F S1x1024 .f32) :
    sout3_A_0 c i arg2 harg2 arg3 harg3 arg4 harg4 arg5 harg5 arg6 harg6 arg7 harg7 arg8 harg8 arg9 harg9 arg10 harg10 hc0 hc1 x0 x1 x2 x3 x4 = k3_pay2 (k3_pay9 x0 x1 (k3_pay4 (F := F))) := by
  unfold sout3_A_0
  rw [View.read_writes_eq_canon _ _ _ (scover3_A_0 c i arg2 harg2 arg3 harg3 arg4 harg4 arg5 harg5 arg6 harg6 arg7 harg7 arg8 harg8 arg9 harg9 arg10 harg10 hc0 hc1 x0 x1 x2 x3 x4)]
  unfold kernelRun3_A
  dsimp only
  sl_unfold_words
  rw [View.canon_cons_unit_zero (S := S16x512x1) hz3]
  simp only [View.readAt_eq_ld, harg2.read_unread, harg3.read_unread, harg4.read_unread, harg5.read_unread, harg6.read_unread,
    harg8.read_unread, harg9.read_unread, harg10.read_unread,
    View.ld_unit_zero (S := S16x512x64) hz3, View.ld_unit_zero (S := S16x256x64) hz3, View.ld_unit_zero (S := S16x512x1) hz3,
    View.ld_unit_zero (S := S1024x1024) hz2, View.ld_unit_zero (S := S1x1024) hz2,
    View.readCov_unit_zero (S := S16x512x1) _ hz3, View.readCov_unit_zero (S := S16x512x64) _ hz3]

/-- Key tile 0 resets the running sum to zero first, then updates it. -/
theorem sout3_A_1_eq (c : Dev nD) (i : grid3.Coords) (arg2 : Memref sig .tc .vmem S16x512x64 .bf16) (harg2 : arg2.IsWhole) (arg3 : Memref sig .tc .vmem S16x256x64 .bf16) (harg3 : arg3.IsWhole) (arg4 : Memref sig .tc .vmem S16x256x64 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S16x512x1 .f32) (harg8 : arg8.IsWhole) (arg9 : Memref sig .tc .vmem S16x512x1 .f32) (harg9 : arg9.IsWhole) (arg10 : Memref sig .tc .vmem S16x512x64 .f32) (harg10 : arg10.IsWhole) (hc0 : cond3_0 i) (hc1 : ¬cond3_1 i)
    (x0 : Vec F S16x512x64 .bf16) (x1 : Vec F S16x256x64 .bf16) (x2 : Vec F S16x256x64 .bf16) (x3 : Vec F S1024x1024 .bf16) (x4 : Vec F S1x1024 .f32) :
    sout3_A_1 c i arg2 harg2 arg3 harg3 arg4 harg4 arg5 harg5 arg6 harg6 arg7 harg7 arg8 harg8 arg9 harg9 arg10 harg10 hc0 hc1 x0 x1 x2 x3 x4 = k3_pay12 x0 x1 (k3_pay4 (F := F)) (k3_pay4 (F := F)) (k3_pay5 (F := F)) := by
  unfold sout3_A_1
  rw [View.read_writes_eq_canon _ _ _ (scover3_A_1 c i arg2 harg2 arg3 harg3 arg4 harg4 arg5 harg5 arg6 harg6 arg7 harg7 arg8 harg8 arg9 harg9 arg10 harg10 hc0 hc1 x0 x1 x2 x3 x4)]
  unfold kernelRun3_A
  dsimp only
  sl_unfold_words
  rw [View.canon_cons_unit_zero (S := S16x512x1) hz3]
  simp only [View.readAt_eq_ld, harg2.read_unread, harg3.read_unread, harg4.read_unread, harg5.read_unread, harg6.read_unread,
    harg8.read_unread, harg9.read_unread, harg10.read_unread,
    View.ld_unit_zero (S := S16x512x64) hz3, View.ld_unit_zero (S := S16x256x64) hz3, View.ld_unit_zero (S := S16x512x1) hz3,
    View.ld_unit_zero (S := S1024x1024) hz2, View.ld_unit_zero (S := S1x1024) hz2,
    View.readCov_unit_zero (S := S16x512x1) _ hz3, View.readCov_unit_zero (S := S16x512x64) _ hz3]

/-- Key tile 0 resets the accumulator to zero first, then updates it. -/
theorem sout3_A_2_eq (c : Dev nD) (i : grid3.Coords) (arg2 : Memref sig .tc .vmem S16x512x64 .bf16) (harg2 : arg2.IsWhole) (arg3 : Memref sig .tc .vmem S16x256x64 .bf16) (harg3 : arg3.IsWhole) (arg4 : Memref sig .tc .vmem S16x256x64 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S512x1024 .f32) (harg7 : arg7.IsWhole) (arg8 : Memref sig .tc .vmem S16x512x1 .f32) (harg8 : arg8.IsWhole) (arg9 : Memref sig .tc .vmem S16x512x1 .f32) (harg9 : arg9.IsWhole) (arg10 : Memref sig .tc .vmem S16x512x64 .f32) (harg10 : arg10.IsWhole) (hc0 : cond3_0 i) (hc1 : ¬cond3_1 i)
    (x0 : Vec F S16x512x64 .bf16) (x1 : Vec F S16x256x64 .bf16) (x2 : Vec F S16x256x64 .bf16) (x3 : Vec F S1024x1024 .bf16) (x4 : Vec F S1x1024 .f32) :
    sout3_A_2 c i arg2 harg2 arg3 harg3 arg4 harg4 arg5 harg5 arg6 harg6 arg7 harg7 arg8 harg8 arg9 harg9 arg10 harg10 hc0 hc1 x0 x1 x2 x3 x4 = k3_pay1 (k3_pay7 x2) (k3_pay10 x0 x1 (k3_pay4 (F := F)) (k3_pay4 (F := F))) (k3_pay11 x0 x1 (k3_pay4 (F := F))) (k3_pay6 (F := F)) := by
  unfold sout3_A_2
  rw [View.read_writes_eq_canon _ _ _ (scover3_A_2 c i arg2 harg2 arg3 harg3 arg4 harg4 arg5 harg5 arg6 harg6 arg7 harg7 arg8 harg8 arg9 harg9 arg10 harg10 hc0 hc1 x0 x1 x2 x3 x4)]
  unfold kernelRun3_A
  dsimp only
  sl_unfold_words
  rw [View.canon_cons_unit_zero (S := S16x512x64) hz3]
  simp only [View.readAt_eq_ld, harg2.read_unread, harg3.read_unread, harg4.read_unread, harg5.read_unread, harg6.read_unread,
    harg8.read_unread, harg9.read_unread, harg10.read_unread,
    View.ld_unit_zero (S := S16x512x64) hz3, View.ld_unit_zero (S := S16x256x64) hz3, View.ld_unit_zero (S := S16x512x1) hz3,
    View.ld_unit_zero (S := S1024x1024) hz2, View.ld_unit_zero (S := S1x1024) hz2,
    View.readCov_unit_zero (S := S16x512x1) _ hz3, View.readCov_unit_zero (S := S16x512x64) _ hz3]

end Cert.KernelIdeal.Hand

end
-- ==== Proof.IdealFlashBlocks.lean ====
/-
  The attention region's block structure.  The region walks 8 query tiles of 512 rows and, inside each, 16 key tiles of
  256 rows: point t is query tile t / 16 and key tile t mod 16.  At point t the body sees query rows
  (t/16)·512 … +511 of every head, key and value rows (t mod 16)·256 … +255 of every head, the whole last weight matrix
  and the whole last bias row; the result block of query tile t / 16 is written back at the last key tile, the points
  with t mod 16 = 15.  Those eight blocks cover the result array, so the array ends holding any function whose blocks they are.
-/
import proofs.«101851_j15083925144173_2_alg».proof.Proof.IdealFlash
import proofs.«101851_j15083925144173_2_alg».proof.Proof.Spec
import Idealize.ShloMosaic.Lib.Pipeline.Value

noncomputable section

open scoped BigOperators

namespace Cert.Attn.KV

open Cert.KernelIdeal Cert.KernelIdeal.Gen Cert.KernelIdeal.Hand Cert.Attn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The block indices at point t: the queries and the result move along their row axis with the query tile t / 16, the
    keys and values with the key tile t mod 16, the last weights and bias stay. -/
theorem idx_facts3 : ∀ t : Fin cfg3.N,
    win3_0.index t (0 : Fin 3) = 0 ∧ win3_0.index t (1 : Fin 3) = t.val / 16 ∧ win3_0.index t (2 : Fin 3) = 0
    ∧ win3_1.index t (0 : Fin 3) = 0 ∧ win3_1.index t (1 : Fin 3) = t.val % 16 ∧ win3_1.index t (2 : Fin 3) = 0
    ∧ win3_2.index t (0 : Fin 3) = 0 ∧ win3_2.index t (1 : Fin 3) = t.val % 16 ∧ win3_2.index t (2 : Fin 3) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val / 16 ∧ win3_5.index t (1 : Fin 2) = 0 :=
  (by decide +kernel : ∀ t : Fin grid3.N, _)

/-- Row i of query tile t / 16, as a row of the whole array. -/
def qrow (t : Fin cfg3.N) (i : Fin 512) : Fin 4096 :=
  ⟨t.val / 16 * 512 + i.val, by have := t.isLt; have hN : cfg3.N = 128 := N_3; omega⟩
/-- Row j of key tile t mod 16, as a row of the whole array. -/
def krow (t : Fin cfg3.N) (j : Fin 256) : Fin 4096 :=
  ⟨t.val % 16 * 256 + j.val, by omega⟩

theorem qrow_val (t : Fin cfg3.N) (i : Fin 512) : (qrow t i).val = t.val / 16 * 512 + i.val := rfl
theorem krow_val (t : Fin cfg3.N) (j : Fin 256) : (krow t j).val = t.val % 16 * 256 + j.val := rfl

/-- The query block at point t: rows of query tile t / 16, every head. -/
theorem q_blk3 (c : Dev nD) (t : Fin cfg3.N) (h : Fin 16) (i : Fin 512) (d : Fin 64) :
    (iblk3 V c 0 t : S16x512x64.Idx → EReal) (ix3 h i d) = (V c main_v5 : S16x4096x64.Idx → EReal) (ix3 h (qrow t i) d) := by
  obtain ⟨e0, e1, e2, -⟩ := idx_facts3 t
  show V c main_v5 (((cfg3.win 0).blk t).view.emb (ix3 h i d)) = V c main_v5 (ix3 h (qrow t i) d)
  refine congrArg (V c main_v5) (funext fun a => Fin.ext ?_)
  match a with
  | ⟨0, _⟩ => show win3_0.index t (0 : Fin 3) * 16 + 1 * h.val = h.val; omega
  | ⟨1, _⟩ => show win3_0.index t (1 : Fin 3) * 512 + 1 * i.val = t.val / 16 * 512 + i.val; omega
  | ⟨2, _⟩ => show win3_0.index t (2 : Fin 3) * 64 + 1 * d.val = d.val; omega

/-- The key block at point t: rows of key tile t mod 16, every head. -/
theorem k_blk3 (c : Dev nD) (t : Fin cfg3.N) (h : Fin 16) (j : Fin 256) (d : Fin 64) :
    (iblk3 V c 1 t : S16x256x64.Idx → EReal) (ix3 h j d) = (V c main_v7 : S16x4096x64.Idx → EReal) (ix3 h (krow t j) d) := by
  obtain ⟨-, -, -, e0, e1, e2, -⟩ := idx_facts3 t
  show V c main_v7 (((cfg3.win 1).blk t).view.emb (ix3 h j d)) = V c main_v7 (ix3 h (krow t j) d)
  refine congrArg (V c main_v7) (funext fun a => Fin.ext ?_)
  match a with
  | ⟨0, _⟩ => show win3_1.index t (0 : Fin 3) * 16 + 1 * h.val = h.val; omega
  | ⟨1, _⟩ => show win3_1.index t (1 : Fin 3) * 256 + 1 * j.val = t.val % 16 * 256 + j.val; omega
  | ⟨2, _⟩ => show win3_1.index t (2 : Fin 3) * 64 + 1 * d.val = d.val; omega

/-- The value block at point t: rows of key tile t mod 16, every head. -/
theorem v_blk3 (c : Dev nD) (t : Fin cfg3.N) (h : Fin 16) (j : Fin 256) (d : Fin 64) :
    (iblk3 V c 2 t : S16x256x64.Idx → EReal) (ix3 h j d) = (V c main_v9 : S16x4096x64.Idx → EReal) (ix3 h (krow t j) d) := by
  obtain ⟨-, -, -, -, -, -, e0, e1, e2, -⟩ := idx_facts3 t
  show V c main_v9 (((cfg3.win 2).blk t).view.emb (ix3 h j d)) = V c main_v9 (ix3 h (krow t j) d)
  refine congrArg (V c main_v9) (funext fun a => Fin.ext ?_)
  match a with
  | ⟨0, _⟩ => show win3_2.index t (0 : Fin 3) * 16 + 1 * h.val = h.val; omega
  | ⟨1, _⟩ => show win3_2.index t (1 : Fin 3) * 256 + 1 * j.val = t.val % 16 * 256 + j.val; omega
  | ⟨2, _⟩ => show win3_2.index t (2 : Fin 3) * 64 + 1 * d.val = d.val; omega

/-- The last weight block at every point is the whole matrix. -/
theorem wo_blk3_apply (c : Dev nD) (t : Fin cfg3.N) (n k : Fin 1024) :
    (iblk3 V c 3 t : S1024x1024.Idx → EReal) (ix2 n k) = (V c main_v3 : S1024x1024.Idx → EReal) (ix2 n k) := by
  obtain ⟨-, -, -, -, -, -, -, -, -, e0, e1, -⟩ := idx_facts3 t
  show V c main_v3 (((cfg3.win 3).blk t).view.emb (ix2 n k)) = V c main_v3 (ix2 n k)
  refine congrArg (V c main_v3) (funext fun a => Fin.ext ?_)
  match a with
  | ⟨0, _⟩ => show win3_3.index t (0 : Fin 2) * 1024 + 1 * n.val = n.val; omega
  | ⟨1, _⟩ => show win3_3.index t (1 : Fin 2) * 1024 + 1 * k.val = k.val; omega

theorem wo_blk3 (c : Dev nD) (t : Fin cfg3.N) :
    (iblk3 V c 3 t : S1024x1024.Idx → EReal) = (V c main_v3 : S1024x1024.Idx → EReal) :=
  funext fun j => by rw [eq_ix2 j]; exact wo_blk3_apply V c t _ _

/-- The last bias block at every point is the whole row. -/
theorem bo_blk3_apply (c : Dev nD) (t : Fin cfg3.N) (u : Fin 1) (n : Fin 1024) :
    (iblk3 V c 4 t : S1x1024.Idx → EReal) (ix2 u n) = (V c main_v10 : S1x1024.Idx → EReal) (ix2 u n) := by
  obtain ⟨-, -, -, -, -, -, -, -, -, -, -, e0, e1, -⟩ := idx_facts3 t
  show V c main_v10 (((cfg3.win 4).blk t).view.emb (ix2 u n)) = V c main_v10 (ix2 u n)
  refine congrArg (V c main_v10) (funext fun a => Fin.ext ?_)
  match a with
  | ⟨0, _⟩ => show win3_4.index t (0 : Fin 2) * 1 + 1 * u.val = u.val; omega
  | ⟨1, _⟩ => show win3_4.index t (1 : Fin 2) * 1024 + 1 * n.val = n.val; omega

theorem bo_blk3 (c : Dev nD) (t : Fin cfg3.N) :
    (iblk3 V c 4 t : S1x1024.Idx → EReal) = (V c main_v10 : S1x1024.Idx → EReal) :=
  funext fun j => by rw [eq_ix2 j]; exact bo_blk3_apply V c t _ _

/-- Row r of the result block at point t sits at row (t/16)·512 + r of the result array. -/
theorem res_blk3 (t : Fin cfg3.N) (r : Fin 512) (n : Fin 1024) :
    (((cfg3.win 5).blk t).view.emb (ix2 r n) : S4096x1024.Idx) = ix2 (qrow t r) n := by
  obtain ⟨-, -, -, -, -, -, -, -, -, -, -, -, -, e0, e1⟩ := idx_facts3 t
  refine funext fun a => Fin.ext ?_
  match a with
  | ⟨0, _⟩ => show win3_5.index t (0 : Fin 2) * 512 + 1 * r.val = t.val / 16 * 512 + r.val; omega
  | ⟨1, _⟩ => show win3_5.index t (1 : Fin 2) * 1024 + 1 * n.val = n.val; omega

/-- An index of the result array is in point t's block iff each coordinate is in the block's range on its axis. -/
theorem mem_blk3 (t : Fin cfg3.N) (i : S4096x1024.Idx) :
    i ∈ ((cfg3.win 5).blk t).view.set
      ↔ ∀ a : Fin 2, win3_5.index t a * S512x1024.size a ≤ (i a).val
          ∧ (i a).val < win3_5.index t a * S512x1024.size a + S512x1024.size a := by
  show i ∈ ((View.whole main_v11).slice (win3_5.rect t)).set ↔ _
  rw [View.set_slice_whole, Rect.mem_set_unit]
  exact Iff.rfl

/-- Every index of the result array is in the block written back at the last key tile of its row's query tile. -/
theorem cover3 (i : S4096x1024.Idx) :
    ∃ t : Fin cfg3.N, (cfg3.win 5).flush t = true ∧ i ∈ ((cfg3.win 5).blk t).view.set := by
  have hN : cfg3.N = 128 := N_3
  have h0 : (i 0).val < 4096 := (i 0).isLt
  have h1 : (i 1).val < 1024 := (i 1).isLt
  have ht : (i 0).val / 512 * 16 + 15 < cfg3.N := by omega
  refine ⟨⟨(i 0).val / 512 * 16 + 15, ht⟩, (flush3_5 _).mpr (by show ((i 0).val / 512 * 16 + 15) % 16 = 15; omega), ?_⟩
  obtain ⟨-, -, -, -, -, -, -, -, -, -, -, -, -, e0, e1⟩ := idx_facts3 ⟨(i 0).val / 512 * 16 + 15, ht⟩
  have e0' : win3_5.index ⟨(i 0).val / 512 * 16 + 15, ht⟩ (0 : Fin 2) = ((i 0).val / 512 * 16 + 15) / 16 := e0
  rw [mem_blk3]
  intro a
  match a with
  | ⟨0, _⟩ =>
    show win3_5.index ⟨(i 0).val / 512 * 16 + 15, ht⟩ (0 : Fin 2) * 512 ≤ (i 0).val
      ∧ (i 0).val < win3_5.index ⟨(i 0).val / 512 * 16 + 15, ht⟩ (0 : Fin 2) * 512 + 512
    omega
  | ⟨1, _⟩ =>
    show win3_5.index ⟨(i 0).val / 512 * 16 + 15, ht⟩ (1 : Fin 2) * 1024 ≤ (i 1).val
      ∧ (i 1).val < win3_5.index ⟨(i 0).val / 512 * 16 + 15, ht⟩ (1 : Fin 2) * 1024 + 1024
    omega

/-- The result array after the region is any function whose blocks are what the last key tile of each query tile leaves
    in the result window's buffer. -/
theorem flash_arr (c : Dev nD) (G5 : S4096x1024.Idx → EReal)
    (hblk : ∀ (t : Fin cfg3.N), t.val % 16 = 15 → ∀ (r : Fin 512) (n : Fin 1024),
      ((outsAt3 (F := Ideal) V c t.val t.isLt).1 : S512x1024.Idx → EReal) (ix2 r n) = G5 (ix2 (qrow t r) n)) :
    (dat3 (F := Ideal) V c).arrAt 5 cfg3.N = G5 := by
  refine (dat3 (F := Ideal) V c).arrAt_eq_of_cover 5 G5 (fun t hf => ?_) cover3
  have h15 : t.val % 16 = 15 := (flush3_5 t).mp hf
  show (cfg3.win 5).cut (grid3.coords t) ((dat3 V c).after 5 t) = _
  rw [after3_5]
  have key : ∀ j : S512x1024.Idx, ((outsAt3 (F := Ideal) V c t.val t.isLt).1 : S512x1024.Idx → EReal) j
      = G5 (((cfg3.win 5).blk t).view.emb j) := by
    intro j
    obtain ⟨r, n, rfl⟩ : ∃ (r : Fin 512) (n : Fin 1024), j = ix2 r n := ⟨j 0, j 1, eq_ix2 j⟩
    rw [res_blk3 t r n]
    exact hblk t h15 r n
  exact funext key

end Cert.Attn.KV

end
-- ==== Proof.PayFlash.lean ====
/-
  The flash-attention body's arithmetic read at an index.  One step of the body sees a tile of 512 query rows q and
  a tile of 256 key rows k (and value rows) of every head, the running maximum m, the running sum l and the accumulator:
  the scaled scores are  s h i j = (∑ d, q h i d * k h j d) · c  with c the constant 1/8; the new maximum is the larger of
  the old one and the tile's maximum; the old sum and accumulator are rescaled by exp (m_old − m_new) and the tile's
  terms exp (s − m_new) are added, weighted by the value rows for the accumulator.  At the last key tile the accumulator
  is divided by the sum, the heads are laid side by side again, and the last linear map is applied.
-/
import proofs.«101851_j15083925144173_2_alg».proof.Proof.PayHead

noncomputable section

open scoped BigOperators

namespace Cert.Attn.Pay

open Idealize.ShloMosaic Idealize.ShloMosaic.ValueIdx Cert.KernelIdeal Cert.KernelIdeal.Gen Cert.Attn

/-! ## Layout: a trailing unit axis -/

/-- A column `[a, b, 1]` broadcast along a last axis of any length reads, at `(p, r, c)`, the column at `(p, r, 0)`. -/
theorem broadcastTo_ab1_abc_apply {α : Type} {a b c : ℕ} (v : (⟨3, ![a, b, 1]⟩ : Shape).Idx → α)
    (h : (⟨3, ![a, b, 1]⟩ : Shape).Broadcasts ⟨3, ![a, b, c]⟩) (p : Fin a) (r : Fin b) (e : Fin c) :
    broadcastTo ⟨3, ![a, b, c]⟩ v h (ix3 p r e) = v (ix3 p r (0 : Fin 1)) := by
  refine broadcastTo_apply v h (ix3 p r e) (ix3 p r (0 : Fin 1)) fun ax => ?_
  match ax with
  | ⟨0, _⟩ =>
    show p.val = if a = 1 then 0 else p.val
    split
    · have := p.isLt; omega
    · rfl
  | ⟨1, _⟩ =>
    show r.val = if b = 1 then 0 else r.val
    split
    · have := r.isLt; omega
    · rfl
  | ⟨2, _⟩ => rfl

/-- An `[a, b]` array given a trailing unit axis reads, at `(p, r, u)`, the operand at `(p, r)`. -/
theorem shapeCast_ab_ab1_apply {α : Type} {a b : ℕ} (x : (⟨2, ![a, b]⟩ : Shape).Idx → α)
    (h : (⟨2, ![a, b]⟩ : Shape).ShapeCasts ⟨3, ![a, b, 1]⟩) (p : Fin a) (r : Fin b) (u : Fin 1) :
    shapeCast ⟨3, ![a, b, 1]⟩ x h (ix3 p r u) = x (ix2 p r) :=
  shapeCast_apply x h _ _ (by
    have hu : u.val = 0 := by omega
    rw [Shape.rowMajor_val_three, Shape.rowMajor_val_two]
    show p.val * b + r.val = (p.val * b + r.val) * 1 + u.val
    rw [hu, Nat.mul_one, Nat.add_zero])

/-! ## The constant 1/8 -/

/-- The word `0x3E000000` is the real number 1/8. -/
theorem ofBits_eighth : Ideal.ofBits .f32 0x3E000000#32 = ((1 / 8 : ℝ) : EReal) := by
  simp [Ideal.ofBits, Ideal.ieee, -EReal.coe_mul]; norm_num

/-! ## The scores: queries against keys -/

/-- The dimension numbers of  q · kᵀ  head by head: both operands contracted along their last axis. -/
abbrev DQK : DotDims S16x512x64 S16x256x64 S16x512x256 := dot_S16x512x64_S16x256x64_S16x512x256_2_2_1_1_0_0

theorem DQK_lhs0 (i : S16x512x256.Idx) (q : DQK.contr.Idx) : (DQK.lhsIdx i q 0).val = (i 0).val := by
  unfold DotDims.lhsIdx
  rw [dif_pos (show (0 : Fin S16x512x64.rank) ∈ DQK.lhsBatch by decide)]
  rfl
theorem DQK_lhs1 (i : S16x512x256.Idx) (q : DQK.contr.Idx) : (DQK.lhsIdx i q 1).val = (i 1).val := by
  unfold DotDims.lhsIdx
  rw [dif_neg (show ¬(1 : Fin S16x512x64.rank) ∈ DQK.lhsBatch by decide), dif_pos (show (1 : Fin S16x512x64.rank) ∈ DQK.lhsNonContracting by decide)]
  rfl
theorem DQK_lhs2 (i : S16x512x256.Idx) (q : DQK.contr.Idx) : (DQK.lhsIdx i q 2).val = (q ⟨0, by decide⟩).val :=
  DQK.lhsIdx_val_of_single rfl i q
theorem DQK_rhs0 (i : S16x512x256.Idx) (q : DQK.contr.Idx) : (DQK.rhsIdx i q 0).val = (i 0).val := by
  unfold DotDims.rhsIdx
  rw [dif_pos (show (0 : Fin S16x256x64.rank) ∈ DQK.rhsBatch by decide)]
  rfl
theorem DQK_rhs1 (i : S16x512x256.Idx) (q : DQK.contr.Idx) : (DQK.rhsIdx i q 1).val = (i 2).val := by
  unfold DotDims.rhsIdx
  rw [dif_neg (show ¬(1 : Fin S16x256x64.rank) ∈ DQK.rhsBatch by decide), dif_pos (show (1 : Fin S16x256x64.rank) ∈ DQK.rhsNonContracting by decide)]
  rfl
theorem DQK_rhs2 (i : S16x512x256.Idx) (q : DQK.contr.Idx) : (DQK.rhsIdx i q 2).val = (q ⟨0, by decide⟩).val :=
  DQK.rhsIdx_val_of_single rfl i q

/-- The product  q · kᵀ  into the zero array, at head h, query row i, key row j: the sum over the 64 coordinates. -/
theorem matmul_qk_apply (q : FVec Ideal S16x512x64 .bf16) (k : FVec Ideal S16x256x64 .bf16) (h : Fin 16) (i : Fin 512) (j : Fin 256) :
    matmul DQK none q k (constant (F := Ideal) S16x512x256 .f32 0x00000000#32) (ix3 h i j)
      = ∑ d : Fin 64, q (ix3 h i d) * k (ix3 h j d) := by
  simp only [matmul]
  rw [Ideal.matmul_constant_zero_apply, ← Equiv.sum_comp (contrEquiv1 DQK 64 rfl rfl).symm]
  refine Finset.sum_congr rfl fun d _ => ?_
  have hd := contrEquiv1_symm_val DQK 64 rfl rfl d
  have el : DQK.lhsIdx (ix3 h i j) ((contrEquiv1 DQK 64 rfl rfl).symm d) = ix3 h i d := funext fun c => Fin.ext (by
    match c with
    | ⟨0, _⟩ => exact DQK_lhs0 _ _
    | ⟨1, _⟩ => exact DQK_lhs1 _ _
    | ⟨2, _⟩ => exact (DQK_lhs2 _ _).trans hd)
  have er : DQK.rhsIdx (ix3 h i j) ((contrEquiv1 DQK 64 rfl rfl).symm d) = ix3 h j d := funext fun c => Fin.ext (by
    match c with
    | ⟨0, _⟩ => exact DQK_rhs0 _ _
    | ⟨1, _⟩ => exact DQK_rhs1 _ _
    | ⟨2, _⟩ => exact (DQK_rhs2 _ _).trans hd)
  rw [el, er]

/-- The scaled score of query row i against key row j in head h. -/
theorem k3_pay8_apply (q : Vec Ideal S16x512x64 .bf16) (k : Vec Ideal S16x256x64 .bf16) (h : Fin 16) (i : Fin 512) (j : Fin 256) :
    k3_pay8 (F := Ideal) q k (ix3 h i j)
      = (∑ d : Fin 64, q (ix3 h i d) * k (ix3 h j d)) * Ideal.ofBits .f32 0x3E000000#32 := by
  unfold k3_pay8
  rw [mulf_apply, matmul_qk_apply, shapeCast_self, shapeCast_self]
  rfl

/-! ## The accumulator: rescaled, plus the tile's weights against the value rows -/

/-- The dimension numbers of  p · v  head by head: the weights' key axis against the value rows' row axis. -/
abbrev DPV : DotDims S16x512x256 S16x256x64 S16x512x64 := dot_S16x512x256_S16x256x64_S16x512x64_2_1_1_2_0_0

theorem DPV_lhs0 (i : S16x512x64.Idx) (q : DPV.contr.Idx) : (DPV.lhsIdx i q 0).val = (i 0).val := by
  unfold DotDims.lhsIdx
  rw [dif_pos (show (0 : Fin S16x512x256.rank) ∈ DPV.lhsBatch by decide)]
  rfl
theorem DPV_lhs1 (i : S16x512x64.Idx) (q : DPV.contr.Idx) : (DPV.lhsIdx i q 1).val = (i 1).val := by
  unfold DotDims.lhsIdx
  rw [dif_neg (show ¬(1 : Fin S16x512x256.rank) ∈ DPV.lhsBatch by decide), dif_pos (show (1 : Fin S16x512x256.rank) ∈ DPV.lhsNonContracting by decide)]
  rfl
theorem DPV_lhs2 (i : S16x512x64.Idx) (q : DPV.contr.Idx) : (DPV.lhsIdx i q 2).val = (q ⟨0, by decide⟩).val :=
  DPV.lhsIdx_val_of_single rfl i q
theorem DPV_rhs0 (i : S16x512x64.Idx) (q : DPV.contr.Idx) : (DPV.rhsIdx i q 0).val = (i 0).val := by
  unfold DotDims.rhsIdx
  rw [dif_pos (show (0 : Fin S16x256x64.rank) ∈ DPV.rhsBatch by decide)]
  rfl
theorem DPV_rhs1 (i : S16x512x64.Idx) (q : DPV.contr.Idx) : (DPV.rhsIdx i q 1).val = (q ⟨0, by decide⟩).val :=
  DPV.rhsIdx_val_of_single rfl i q
theorem DPV_rhs2 (i : S16x512x64.Idx) (q : DPV.contr.Idx) : (DPV.rhsIdx i q 2).val = (i 2).val := by
  unfold DotDims.rhsIdx
  rw [dif_neg (show ¬(2 : Fin S16x256x64.rank) ∈ DPV.rhsBatch by decide), dif_pos (show (2 : Fin S16x256x64.rank) ∈ DPV.rhsNonContracting by decide)]
  rfl

/-- The product  p · v  into the zero array, at head h, query row i, coordinate d: the sum over the 256 key rows. -/
theorem matmul_pv_apply (p : FVec Ideal S16x512x256 .bf16) (v : FVec Ideal S16x256x64 .bf16) (h : Fin 16) (i : Fin 512) (d : Fin 64) :
    matmul DPV none p v (constant (F := Ideal) S16x512x64 .f32 0x00000000#32) (ix3 h i d)
      = ∑ j : Fin 256, p (ix3 h i j) * v (ix3 h j d) := by
  simp only [matmul]
  rw [Ideal.matmul_constant_zero_apply, ← Equiv.sum_comp (contrEquiv1 DPV 256 rfl rfl).symm]
  refine Finset.sum_congr rfl fun j _ => ?_
  have hj := contrEquiv1_symm_val DPV 256 rfl rfl j
  have el : DPV.lhsIdx (ix3 h i d) ((contrEquiv1 DPV 256 rfl rfl).symm j) = ix3 h i j := funext fun c => Fin.ext (by
    match c with
    | ⟨0, _⟩ => exact DPV_lhs0 _ _
    | ⟨1, _⟩ => exact DPV_lhs1 _ _
    | ⟨2, _⟩ => exact (DPV_lhs2 _ _).trans hj)
  have er : DPV.rhsIdx (ix3 h i d) ((contrEquiv1 DPV 256 rfl rfl).symm j) = ix3 h j d := funext fun c => Fin.ext (by
    match c with
    | ⟨0, _⟩ => exact DPV_rhs0 _ _
    | ⟨1, _⟩ => exact (DPV_rhs1 _ _).trans hj
    | ⟨2, _⟩ => exact DPV_rhs2 _ _)
  rw [el, er]

/-- The new accumulator at head h, row i, coordinate d. -/
theorem k3_pay1_apply (v8 : FVec Ideal S16x256x64 .bf16) (v18 : FVec Ideal S16x512x1 .f32) (v21 : FVec Ideal S16x512x256 .f32)
    (v30 : Vec Ideal S16x512x64 .f32) (h : Fin 16) (i : Fin 512) (d : Fin 64) :
    k3_pay1 (F := Ideal) v8 v18 v21 v30 (ix3 h i d)
      = v18 (ix3 h i 0) * v30 (ix3 h i d) + ∑ j : Fin 256, v21 (ix3 h i j) * v8 (ix3 h j d) := by
  unfold k3_pay1
  rw [shapeCast_self, addf_apply, mulf_apply, matmul_pv_apply, broadcastTo_ab1_abc_apply]
  rfl

/-! ## The last step: divide by the sum, lay the heads side by side, apply the last linear map -/

/-- Sixteen heads of 64 laid side by side: feature c is coordinate c mod 64 of head c div 64. -/
theorem merge_heads_apply {α : Type} (y : S512x16x64.Idx → α) (hc : S512x16x64.ShapeCasts S512x1024) (r : Fin 512) (c : Fin 1024) :
    shapeCast S512x1024 y hc (ix2 r c) = y (ix3 r (headOf c) (coordOf c)) :=
  shapeCast_apply y hc _ _ (by
    rw [Shape.rowMajor_val_two, Shape.rowMajor_val_three]
    show (r.val * 16 + c.val / 64) * 64 + c.val % 64 = r.val * 1024 + c.val
    omega)

/-- The head and row axes exchanged. -/
theorem swap_heads_rows_apply {α : Type} (y : S16x512x64.Idx → α) (ht : S16x512x64.Transposes [1, 0, 2] S512x16x64)
    (r : Fin 512) (h : Fin 16) (d : Fin 64) :
    transpose S512x16x64 [1, 0, 2] y ht (ix3 r h d) = y (ix3 h r d) :=
  transpose_apply _ y ht _ _ fun c => match c with | ⟨0, _⟩ => rfl | ⟨1, _⟩ => rfl | ⟨2, _⟩ => rfl

/-- The body's result at row r, output feature n. -/
theorem k3_pay3_apply (acc : Vec Ideal S16x512x64 .f32) (l : Vec Ideal S16x512x1 .f32) (wo : Vec Ideal S1024x1024 .bf16)
    (bo : Vec Ideal S1x1024 .f32) (r : Fin 512) (n : Fin 1024) :
    k3_pay3 (F := Ideal) acc l wo bo (ix2 r n)
      = (∑ c : Fin 1024, Ideal.div (acc (ix3 (headOf c) r (coordOf c))) (l (ix3 (headOf c) r 0)) * wo (ix2 n c))
        + bo (ix2 0 n) := by
  unfold k3_pay3
  rw [addf_apply, matmul_lin_apply, broadcastTo_1b_ab_apply, shapeCast_self, shapeCast_self]
  refine congrArg (· + bo (ix2 0 n)) (Finset.sum_congr rfl fun c _ => ?_)
  rw [truncf_apply, merge_heads_apply, swap_heads_rows_apply, divf_apply, broadcastTo_ab1_abc_apply]

/-! ## The running maximum -/

/-- The tile's maximum: the largest of the 256 scaled scores of query row i in head h (the fold of `max` from `⊥`). -/
def TM (q : Vec Ideal S16x512x64 .bf16) (k : Vec Ideal S16x256x64 .bf16) (h : Fin 16) (i : Fin 512) : EReal :=
  (Finset.univ : Finset (Fin 256)).fold max ⊥ fun j => (k3_pay8 (F := Ideal) q k (ix3 h i j) : EReal)

/-- The maximum of finitely many (and at least one) real numbers is a real number. -/
theorem TM_real (q : Vec Ideal S16x512x64 .bf16) (k : Vec Ideal S16x256x64 .bf16) (h : Fin 16) (i : Fin 512)
    (hs : ∀ j : Fin 256, ∃ s : ℝ, k3_pay8 (F := Ideal) q k (ix3 h i j) = (s : EReal)) :
    ∃ τ : ℝ, TM q k h i = (τ : EReal) := by
  obtain ⟨j, -, hj⟩ := Finset.exists_mem_eq_sup (Finset.univ : Finset (Fin 256)) ⟨0, Finset.mem_univ _⟩
    (fun j => (k3_pay8 (F := Ideal) q k (ix3 h i j) : EReal))
  obtain ⟨s, hsj⟩ := hs j
  exact ⟨s, (show TM q k h i = (Finset.univ : Finset (Fin 256)).sup _ from rfl).trans (hj.trans hsj)⟩

/-- The maximum over the key axis, at head h and row i: the fold of `max` from `⊥` over the 256 keys. -/
theorem tile_max_apply (src : FVec Ideal S16x512x256 .f32) (hr : S16x512x256.Reduces [2] S16x512) (hφ : FKind.Formats .f32)
    (hacc : (0xFF800000#32 : BitVec 32) = FKind.maximumf.neutral .f32 hφ) (h : Fin 16) (i : Fin 512) :
    multiReduction .maximumf [2] S16x512 src 0xFF800000#32 hr hφ hacc (ix2 h i)
      = (Finset.univ : Finset (Fin 256)).fold max ⊥ fun j => (src (ix3 h i j) : EReal) := by
  refine (Ideal.multiReduction_maximumf_single src _ hr hφ hacc (ix2 h i)).trans ?_
  have hb : FloatOps.ofBits (F := Ideal) .f32 0xFF800000#32 = (⊥ : EReal) := by
    show Ideal.ofBits .f32 0xFF800000#32 = ⊥
    simp [Ideal.ofBits, Ideal.ieee]
  have hl : ∀ j : Fin 256, hr.lift (ix2 h i) j = ix3 h i j := fun j => funext fun c => Fin.ext (by
    match c with
    | ⟨0, _⟩ => rfl
    | ⟨1, _⟩ => rfl
    | ⟨2, _⟩ => rfl)
  show (Finset.univ : Finset (Fin 256)).fold max (FloatOps.ofBits (F := Ideal) .f32 0xFF800000#32)
      (fun j => (src (hr.lift (ix2 h i) j) : EReal)) = _
  rw [hb]
  exact congrArg (fun f : Fin 256 → EReal => (Finset.univ : Finset (Fin 256)).fold max ⊥ f) (funext fun j => congrArg src (hl j))

/-- The new running maximum at head h, row i: the larger of the old one and the tile's. -/
theorem k3_pay9_apply (q : Vec Ideal S16x512x64 .bf16) (k : Vec Ideal S16x256x64 .bf16) (mo : Vec Ideal S16x512x1 .f32)
    (h : Fin 16) (i : Fin 512) :
    k3_pay9 (F := Ideal) q k mo (ix3 h i 0) = max (mo (ix3 h i 0)) (TM q k h i) := by
  unfold k3_pay9
  rw [maximumf_apply, shapeCast_ab_ab1_apply]
  exact congrArg (max (mo (ix3 h i 0))) (tile_max_apply _ _ _ _ h i)

/-! ## The rescaling factor, the tile's weights, the running sum -/

/-- The exponential at an index is the exponential of the element. -/
theorem exp_apply {s : Shape} {φ : FTy} (a : FVec Ideal s φ) (i : s.Idx) : exp a i = Ideal.exp (a i) := rfl

/-- The factor that rescales the old sum and accumulator: exp (m_old − m_new). -/
theorem k3_pay10_apply (q : Vec Ideal S16x512x64 .bf16) (k : Vec Ideal S16x256x64 .bf16) (mo mo' : Vec Ideal S16x512x1 .f32)
    (h : Fin 16) (i : Fin 512) :
    k3_pay10 (F := Ideal) q k mo mo' (ix3 h i 0)
      = Ideal.exp (mo' (ix3 h i 0) - k3_pay9 (F := Ideal) q k mo (ix3 h i 0)) := by
  unfold k3_pay10
  rw [exp_apply, subf_apply]

/-- The tile's weights: exp (s − m_new). -/
theorem k3_pay11_apply (q : Vec Ideal S16x512x64 .bf16) (k : Vec Ideal S16x256x64 .bf16) (mo : Vec Ideal S16x512x1 .f32)
    (h : Fin 16) (i : Fin 512) (j : Fin 256) :
    k3_pay11 (F := Ideal) q k mo (ix3 h i j)
      = Ideal.exp (k3_pay8 (F := Ideal) q k (ix3 h i j) - k3_pay9 (F := Ideal) q k mo (ix3 h i 0)) := by
  unfold k3_pay11
  rw [exp_apply, subf_apply, broadcastTo_ab1_abc_apply]

/-- The sum over the key axis, at head h and row i. -/
theorem row_sum_apply (src : FVec Ideal S16x512x256 .f32) (hr : S16x512x256.Reduces [2] S16x512) (hφ : FKind.Formats .f32)
    (hacc : (0x00000000#32 : BitVec 32) = FKind.add.neutral .f32 hφ) (h : Fin 16) (i : Fin 512) :
    multiReduction .add [2] S16x512 src 0x00000000#32 hr hφ hacc (ix2 h i) = ∑ j : Fin 256, src (ix3 h i j) := by
  refine (Ideal.multiReduction_add_single src _ hr hφ hacc (ix2 h i)).trans ?_
  show ∑ j : Fin 256, src (hr.lift (ix2 h i) j) = _
  refine Finset.sum_congr rfl fun j _ => congrArg src (funext fun c => Fin.ext ?_)
  match c with
  | ⟨0, _⟩ => rfl
  | ⟨1, _⟩ => rfl
  | ⟨2, _⟩ => rfl

/-- The new running sum at head h, row i: the old one rescaled, plus the tile's weights. -/
theorem k3_pay12_apply (q : Vec Ideal S16x512x64 .bf16) (k : Vec Ideal S16x256x64 .bf16) (mo mo' lo : Vec Ideal S16x512x1 .f32)
    (h : Fin 16) (i : Fin 512) :
    k3_pay12 (F := Ideal) q k mo mo' lo (ix3 h i 0)
      = k3_pay10 (F := Ideal) q k mo mo' (ix3 h i 0) * lo (ix3 h i 0)
        + ∑ j : Fin 256, k3_pay11 (F := Ideal) q k mo (ix3 h i j) := by
  unfold k3_pay12
  rw [shapeCast_self, addf_apply, mulf_apply, shapeCast_ab_ab1_apply]
  exact congrArg (k3_pay10 (F := Ideal) q k mo mo' (ix3 h i 0) * lo (ix3 h i 0) + ·) (row_sum_apply _ _ _ _ h i)

/-! ## The values that are only carried or reset -/

theorem k3_pay2_eq (v : FVec Ideal S16x512x1 .f32) : k3_pay2 (F := Ideal) v = v := by
  unfold k3_pay2; exact shapeCast_self _ _

theorem k3_pay7_eq (v : Vec Ideal S16x256x64 .bf16) : k3_pay7 (F := Ideal) v = v := by
  unfold k3_pay7; exact shapeCast_self _ _

/-- The running maximum is reset to `⊥`. -/
theorem k3_pay4_apply (i : S16x512x1.Idx) : k3_pay4 (F := Ideal) i = (⊥ : EReal) := by
  unfold k3_pay4
  rw [shapeCast_self, broadcast_apply]
  show Ideal.ofBits .f32 0xFF800000#32 = ⊥
  simp [Ideal.ofBits, Ideal.ieee]

/-- The running sum is reset to zero. -/
theorem k3_pay5_apply (i : S16x512x1.Idx) : k3_pay5 (F := Ideal) i = (0 : EReal) := by
  unfold k3_pay5
  rw [shapeCast_self, broadcast_apply]
  exact Ideal.ofBits_zero_f32

/-- The accumulator is reset to zero. -/
theorem k3_pay6_apply (i : S16x512x64.Idx) : k3_pay6 (F := Ideal) i = (0 : EReal) := by
  unfold k3_pay6
  rw [shapeCast_self, broadcast_apply]
  exact Ideal.ofBits_zero_f32

end Cert.Attn.Pay

end
-- ==== Proof.FlashStep.lean ====
/-
  One step of the flash body is one step of the online softmax, row by row.  For a query tile q, a key tile k and a value
  tile v whose entries are real, and scratch arrays holding, for every head h and query row i, a state (m, l, acc) of the
  online softmax, the three arrays the body stores are, at (h, i), the state after one more step: the tile's scores are
  s j = (∑ d, q h i d · k h j d) · (1/8), the value rows are v h j ·, and the level the tile proposes is the largest score
  (a real number, since there are 256 of them and all are real).  Started from the reset arrays (−∞, 0, 0) and iterated
  over the sixteen key tiles this is the run of the online softmax; at the last tile the body divides the accumulator by
  the sum, lays the heads side by side and applies the last linear map, which gives the softmax-weighted average of all
  4096 value rows passed through that map.
-/
import proofs.«101851_j15083925144173_2_alg».proof.Proof.PayFlash
import proofs.«101851_j15083925144173_2_alg».proof.Proof.LibOnlineSoftmax
import proofs.«101851_j15083925144173_2_alg».proof.Proof.Spec

noncomputable section

open scoped BigOperators

namespace Cert.Attn.FS

open Idealize.ShloMosaic Idealize.ShloMosaic.ValueIdx Cert.KernelIdeal Cert.KernelIdeal.Gen Cert.Attn Cert.Attn.Pay

/-! ## One tile -/

/-- The real scaled score of query row `i` against key row `j` of the tile, in head `h`. -/
def st (rq : Fin 16 → Fin 512 → Fin 64 → ℝ) (rk : Fin 16 → Fin 256 → Fin 64 → ℝ) (h : Fin 16) (i : Fin 512)
    (j : Fin 256) : ℝ :=
  (∑ d : Fin 64, rq h i d * rk h j d) * (1 / 8)

/-- The level the tile proposes for row `i` of head `h`, as a real number. -/
def tau (q : Vec Ideal S16x512x64 .bf16) (k : Vec Ideal S16x256x64 .bf16) (h : Fin 16) (i : Fin 512) : ℝ :=
  (TM q k h i).toReal

/-- The scaled scores of real queries against real keys are real. -/
theorem pay8_real (q : Vec Ideal S16x512x64 .bf16) (k : Vec Ideal S16x256x64 .bf16)
    (rq : Fin 16 → Fin 512 → Fin 64 → ℝ) (rk : Fin 16 → Fin 256 → Fin 64 → ℝ) (hq : IsR3 q rq) (hk : IsR3 k rk)
    (h : Fin 16) (i : Fin 512) (j : Fin 256) :
    k3_pay8 (F := Ideal) q k (ix3 h i j) = ((st rq rk h i j : ℝ) : EReal) := by
  rw [k3_pay8_apply, ofBits_eighth]
  show _ = (((∑ d : Fin 64, rq h i d * rk h j d) * (1 / 8) : ℝ) : EReal)
  rw [EReal.coe_mul, OnlineSoftmax.coe_sum]
  congr 1
  refine Finset.sum_congr rfl fun d _ => ?_
  rw [hq h i d, hk h j d, EReal.coe_mul]

/-- The tile's largest score is the real number `tau`. -/
theorem TM_eq_tau (q : Vec Ideal S16x512x64 .bf16) (k : Vec Ideal S16x256x64 .bf16)
    (rq : Fin 16 → Fin 512 → Fin 64 → ℝ) (rk : Fin 16 → Fin 256 → Fin 64 → ℝ) (hq : IsR3 q rq) (hk : IsR3 k rk)
    (h : Fin 16) (i : Fin 512) : TM q k h i = ((tau q k h i : ℝ) : EReal) := by
  obtain ⟨τ, hτ⟩ := TM_real q k h i fun j => ⟨_, pay8_real q k rq rk hq hk h i j⟩
  unfold tau
  rw [hτ, EReal.toReal_coe]

/-- Scratch arrays `(mo, lo, acco)` hold the family of states `S`: at every head and query row. -/
def Holds (mo lo : Vec Ideal S16x512x1 .f32) (acco : Vec Ideal S16x512x64 .f32)
    (S : Fin 16 → Fin 512 → OnlineSoftmax.St (Fin 64)) : Prop :=
  ∀ h i, mo (ix3 h i 0) = (S h i).m ∧ lo (ix3 h i 0) = (S h i).l ∧ ∀ d, acco (ix3 h i d) = (S h i).acc d

/-- The family of states after one more tile. -/
def next (q : Vec Ideal S16x512x64 .bf16) (k : Vec Ideal S16x256x64 .bf16)
    (rq : Fin 16 → Fin 512 → Fin 64 → ℝ) (rk rv : Fin 16 → Fin 256 → Fin 64 → ℝ)
    (S : Fin 16 → Fin 512 → OnlineSoftmax.St (Fin 64)) : Fin 16 → Fin 512 → OnlineSoftmax.St (Fin 64) :=
  fun h i => OnlineSoftmax.step ((tau q k h i : ℝ) : EReal) (st rq rk h i) (fun j d => rv h j d) (S h i)

/-- One body step on the scratch arrays is one step of the online softmax at every head and query row. -/
theorem flash_step (q : Vec Ideal S16x512x64 .bf16) (k v : Vec Ideal S16x256x64 .bf16)
    (mo lo : Vec Ideal S16x512x1 .f32) (acco : Vec Ideal S16x512x64 .f32)
    (rq : Fin 16 → Fin 512 → Fin 64 → ℝ) (rk rv : Fin 16 → Fin 256 → Fin 64 → ℝ)
    (hq : IsR3 q rq) (hk : IsR3 k rk) (hv : IsR3 v rv)
    (S : Fin 16 → Fin 512 → OnlineSoftmax.St (Fin 64)) (hS : Holds mo lo acco S) :
    Holds (k3_pay2 (F := Ideal) (k3_pay9 (F := Ideal) q k mo)) (k3_pay12 (F := Ideal) q k mo mo lo)
      (k3_pay1 (F := Ideal) (k3_pay7 (F := Ideal) v) (k3_pay10 (F := Ideal) q k mo mo) (k3_pay11 (F := Ideal) q k mo) acco)
      (next q k rq rk rv S) := by
  intro h i
  obtain ⟨hm, hl, ha⟩ := hS h i
  have h9 : k3_pay9 (F := Ideal) q k mo (ix3 h i 0) = max (S h i).m ((tau q k h i : ℝ) : EReal) := by
    rw [k3_pay9_apply, hm, TM_eq_tau q k rq rk hq hk h i]
  have h10 : k3_pay10 (F := Ideal) q k mo mo (ix3 h i 0)
      = Ideal.exp ((S h i).m - max (S h i).m ((tau q k h i : ℝ) : EReal)) := by
    rw [k3_pay10_apply, h9, hm]
  have h11 : ∀ j, k3_pay11 (F := Ideal) q k mo (ix3 h i j)
      = Ideal.exp (((st rq rk h i j : ℝ) : EReal) - max (S h i).m ((tau q k h i : ℝ) : EReal)) := fun j => by
    rw [k3_pay11_apply, pay8_real q k rq rk hq hk h i j, h9]
  refine ⟨?_, ?_, fun d => ?_⟩
  · rw [k3_pay2_eq]; exact h9
  · rw [k3_pay12_apply, h10, hl]
    refine congrArg (_ + ·) (Finset.sum_congr rfl fun j _ => h11 j)
  · rw [k3_pay1_apply, h10, ha d, k3_pay7_eq]
    refine congrArg (_ + ·) (Finset.sum_congr rfl fun j _ => ?_)
    rw [h11 j, hv h j d]

/-- The reset arrays hold the initial state at every head and query row. -/
theorem flash_reset :
    Holds (k3_pay4 (F := Ideal)) (k3_pay5 (F := Ideal)) (k3_pay6 (F := Ideal)) (fun _ _ => OnlineSoftmax.init) :=
  fun _ _ => ⟨k3_pay4_apply _, k3_pay5_apply _, fun _ => k3_pay6_apply _⟩

/-! ## The sixteen tiles -/

/-- The three scratch arrays. -/
structure Scr where
  m : Vec Ideal S16x512x1 .f32
  l : Vec Ideal S16x512x1 .f32
  acc : Vec Ideal S16x512x64 .f32

/-- The scratch arrays after the first `t` key tiles: reset, then one body step per tile. -/
def scr (q : Vec Ideal S16x512x64 .bf16) (kt vt : Fin 16 → Vec Ideal S16x256x64 .bf16) : (t : ℕ) → t ≤ 16 → Scr
  | 0, _ => ⟨k3_pay4 (F := Ideal), k3_pay5 (F := Ideal), k3_pay6 (F := Ideal)⟩
  | t + 1, ht =>
    ⟨k3_pay2 (F := Ideal) (k3_pay9 (F := Ideal) q (kt ⟨t, Nat.lt_of_succ_le ht⟩) (scr q kt vt t (Nat.le_of_succ_le ht)).m),
      k3_pay12 (F := Ideal) q (kt ⟨t, Nat.lt_of_succ_le ht⟩) (scr q kt vt t (Nat.le_of_succ_le ht)).m
        (scr q kt vt t (Nat.le_of_succ_le ht)).m (scr q kt vt t (Nat.le_of_succ_le ht)).l,
      k3_pay1 (F := Ideal) (k3_pay7 (F := Ideal) (vt ⟨t, Nat.lt_of_succ_le ht⟩))
        (k3_pay10 (F := Ideal) q (kt ⟨t, Nat.lt_of_succ_le ht⟩) (scr q kt vt t (Nat.le_of_succ_le ht)).m
          (scr q kt vt t (Nat.le_of_succ_le ht)).m)
        (k3_pay11 (F := Ideal) q (kt ⟨t, Nat.lt_of_succ_le ht⟩) (scr q kt vt t (Nat.le_of_succ_le ht)).m)
        (scr q kt vt t (Nat.le_of_succ_le ht)).acc⟩

theorem scr_zero (q : Vec Ideal S16x512x64 .bf16) (kt vt : Fin 16 → Vec Ideal S16x256x64 .bf16) (h0 : 0 ≤ 16) :
    scr q kt vt 0 h0 = ⟨k3_pay4 (F := Ideal), k3_pay5 (F := Ideal), k3_pay6 (F := Ideal)⟩ := rfl

theorem scr_succ (q : Vec Ideal S16x512x64 .bf16) (kt vt : Fin 16 → Vec Ideal S16x256x64 .bf16) (t : ℕ) (ht : t + 1 ≤ 16) :
    scr q kt vt (t + 1) ht =
    ⟨k3_pay2 (F := Ideal) (k3_pay9 (F := Ideal) q (kt ⟨t, Nat.lt_of_succ_le ht⟩) (scr q kt vt t (Nat.le_of_succ_le ht)).m),
      k3_pay12 (F := Ideal) q (kt ⟨t, Nat.lt_of_succ_le ht⟩) (scr q kt vt t (Nat.le_of_succ_le ht)).m
        (scr q kt vt t (Nat.le_of_succ_le ht)).m (scr q kt vt t (Nat.le_of_succ_le ht)).l,
      k3_pay1 (F := Ideal) (k3_pay7 (F := Ideal) (vt ⟨t, Nat.lt_of_succ_le ht⟩))
        (k3_pay10 (F := Ideal) q (kt ⟨t, Nat.lt_of_succ_le ht⟩) (scr q kt vt t (Nat.le_of_succ_le ht)).m
          (scr q kt vt t (Nat.le_of_succ_le ht)).m)
        (k3_pay11 (F := Ideal) q (kt ⟨t, Nat.lt_of_succ_le ht⟩) (scr q kt vt t (Nat.le_of_succ_le ht)).m)
        (scr q kt vt t (Nat.le_of_succ_le ht)).acc⟩ := rfl

/-- Row `(h, i)`'s data over the sixteen tiles: the levels, the scores, the value rows. -/
def rowTm (q : Vec Ideal S16x512x64 .bf16) (kt : Fin 16 → Vec Ideal S16x256x64 .bf16) (h : Fin 16) (i : Fin 512) :
    Fin 16 → ℝ := fun t => tau q (kt t) h i
def rowS (rq : Fin 16 → Fin 512 → Fin 64 → ℝ) (rk : Fin 16 → Fin 16 → Fin 256 → Fin 64 → ℝ) (h : Fin 16) (i : Fin 512) :
    Fin 16 → Fin 256 → ℝ := fun t j => st rq (rk t) h i j
def rowV (rv : Fin 16 → Fin 16 → Fin 256 → Fin 64 → ℝ) (h : Fin 16) : Fin 16 → Fin 256 → Fin 64 → ℝ :=
  fun t j d => rv t h j d

/-- After `t` tiles the scratch arrays hold, at every head and query row, the online softmax's state after `t`
    tiles of that row's data. -/
theorem flash_iter (q : Vec Ideal S16x512x64 .bf16) (kt vt : Fin 16 → Vec Ideal S16x256x64 .bf16)
    (rq : Fin 16 → Fin 512 → Fin 64 → ℝ) (rk rv : Fin 16 → Fin 16 → Fin 256 → Fin 64 → ℝ)
    (hq : IsR3 q rq) (hk : ∀ t, IsR3 (kt t) (rk t)) (hv : ∀ t, IsR3 (vt t) (rv t)) (t : ℕ) (ht : t ≤ 16) :
    Holds (scr q kt vt t ht).m (scr q kt vt t ht).l (scr q kt vt t ht).acc
      (fun h i => OnlineSoftmax.run (rowTm q kt h i) (rowS rq rk h i) (rowV rv h) t ht) := by
  induction t with
  | zero => exact flash_reset
  | succ t ih =>
    exact flash_step q (kt ⟨t, Nat.lt_of_succ_le ht⟩) (vt ⟨t, Nat.lt_of_succ_le ht⟩) _ _ _ rq
      (rk ⟨t, Nat.lt_of_succ_le ht⟩) (rv ⟨t, Nat.lt_of_succ_le ht⟩) hq (hk _) (hv _) _ (ih (Nat.le_of_succ_le ht))

/-! ## The last tile: divide, lay the heads side by side, apply the last linear map -/

/-- The softmax-weighted average of the value rows over all tiles, for head `h`, query row `r`, coordinate `d`. -/
def avg (s : Fin 16 → Fin 512 → Fin 16 → Fin 256 → ℝ) (v : Fin 16 → Fin 16 → Fin 256 → Fin 64 → ℝ)
    (h : Fin 16) (r : Fin 512) (d : Fin 64) : ℝ :=
  (∑ t, ∑ j, Real.exp (s h r t j) * v h t j d) / (∑ t, ∑ j, Real.exp (s h r t j))

/-- If the scratch arrays hold the online softmax's states after all sixteen tiles and the last linear map is real,
    the body's result is the real number: the averages of all heads, side by side, through that map. -/
theorem flash_last (m l : Vec Ideal S16x512x1 .f32) (acc : Vec Ideal S16x512x64 .f32) (wo : Vec Ideal S1024x1024 .bf16)
    (bo : Vec Ideal S1x1024 .f32)
    (tm : Fin 16 → Fin 512 → Fin 16 → ℝ) (s : Fin 16 → Fin 512 → Fin 16 → Fin 256 → ℝ)
    (v : Fin 16 → Fin 16 → Fin 256 → Fin 64 → ℝ)
    (hH : Holds m l acc (fun h i => OnlineSoftmax.run (tm h i) (s h i) (v h) 16 le_rfl))
    (rwo : Fin 1024 → Fin 1024 → ℝ) (rbo : Fin 1024 → ℝ) (hwo : IsR2 wo rwo)
    (hbo : ∀ n, bo (ix2 0 n) = ((rbo n : ℝ) : EReal)) (r : Fin 512) (n : Fin 1024) :
    k3_pay3 (F := Ideal) acc l wo bo (ix2 r n)
      = (((∑ c : Fin 1024, avg s v (headOf c) r (coordOf c) * rwo n c) + rbo n : ℝ) : EReal) := by
  unfold avg
  rw [k3_pay3_apply, hbo n, EReal.coe_add, OnlineSoftmax.coe_sum]
  refine congrArg (· + ((rbo n : ℝ) : EReal)) (Finset.sum_congr rfl fun c _ => ?_)
  obtain ⟨-, hl, ha⟩ := hH (headOf c) r
  have hfin := OnlineSoftmax.run_final (tm (headOf c) r) (s (headOf c) r) (v (headOf c)) (by norm_num : 0 < 16)
    (by norm_num : 0 < 256) (coordOf c)
  rw [hl, ha (coordOf c), hwo n c, EReal.coe_mul]
  exact congrArg (· * ((rwo n c : ℝ) : EReal)) hfin

/-- Reset, sixteen body steps, the last step: the body's result from real queries, keys, values and last linear map. -/
theorem flash_out (q : Vec Ideal S16x512x64 .bf16) (kt vt : Fin 16 → Vec Ideal S16x256x64 .bf16)
    (wo : Vec Ideal S1024x1024 .bf16) (bo : Vec Ideal S1x1024 .f32)
    (rq : Fin 16 → Fin 512 → Fin 64 → ℝ) (rk rv : Fin 16 → Fin 16 → Fin 256 → Fin 64 → ℝ)
    (rwo : Fin 1024 → Fin 1024 → ℝ) (rbo : Fin 1024 → ℝ)
    (hq : IsR3 q rq) (hk : ∀ t, IsR3 (kt t) (rk t)) (hv : ∀ t, IsR3 (vt t) (rv t)) (hwo : IsR2 wo rwo)
    (hbo : ∀ n, bo (ix2 0 n) = ((rbo n : ℝ) : EReal)) (r : Fin 512) (n : Fin 1024) :
    k3_pay3 (F := Ideal) (scr q kt vt 16 le_rfl).acc (scr q kt vt 16 le_rfl).l wo bo (ix2 r n)
      = (((∑ c : Fin 1024, avg (fun h i => rowS rq rk h i) (fun h => rowV rv h) (headOf c) r (coordOf c) * rwo n c)
          + rbo n : ℝ) : EReal) :=
  flash_last (scr q kt vt 16 le_rfl).m (scr q kt vt 16 le_rfl).l (scr q kt vt 16 le_rfl).acc wo bo
    (fun h i => rowTm q kt h i) (fun h i => rowS rq rk h i) (fun h => rowV rv h)
    (flash_iter q kt vt rq rk rv hq hk hv 16 le_rfl) rwo rbo hwo hbo r n

end Cert.Attn.FS

end
-- ==== Proof.FlashAttend.lean ====
/-
  The tile-by-tile average is the average over all key rows.  The flash body sees the 4096 key and value rows as
  sixteen tiles of 256, row t·256 + j being row j of tile t; a sum over all rows is the double sum over tiles and
  positions, and the tile scores (∑ d, q·k)·(1/8) are the scores (∑ d, q·k)/8, so the average the sixteen steps
  produce is the head's softmax-weighted average of all the value rows.
-/
import proofs.«101851_j15083925144173_2_alg».proof.Proof.FlashStep

noncomputable section

open scoped BigOperators

namespace Cert.Attn.FS

open Idealize.ShloMosaic Idealize.ShloMosaic.ValueIdx Cert.KernelIdeal Cert.KernelIdeal.Gen Cert.Attn Cert.Attn.Pay

/-- A sum over the 4096 key rows, tile by tile: row `t * 256 + j` is row `j` of tile `t`. -/
theorem sum_keys {M : Type*} [AddCommMonoid M] (g : Fin 4096 → M) (kix : Fin 16 → Fin 256 → Fin 4096)
    (hkix : ∀ t j, (kix t j).val = t.val * 256 + j.val) :
    ∑ k, g k = ∑ t : Fin 16, ∑ j : Fin 256, g (kix t j) :=
  (OnlineSoftmax.sum_untile (T := 16) (n := 256) g).trans
    (Finset.sum_congr rfl fun t _ => Finset.sum_congr rfl fun j _ => congrArg g (Fin.ext (hkix t j).symm))

/-- When the tiles' real entries are those of query, key and value arrays of 4096 rows of 1024 features (head `h`,
    coordinate `d` at feature `h·64+d`; key row `t·256+j` in tile `t`), the tile-by-tile average is the head's
    softmax-weighted average of all the value rows. -/
theorem flash_attend (Q K V : Fin 4096 → Fin 1024 → ℝ) (rq : Fin 16 → Fin 512 → Fin 64 → ℝ)
    (rk rv : Fin 16 → Fin 16 → Fin 256 → Fin 64 → ℝ) (qix : Fin 512 → Fin 4096) (kix : Fin 16 → Fin 256 → Fin 4096)
    (hkix : ∀ t j, (kix t j).val = t.val * 256 + j.val)
    (hq : ∀ h i d, rq h i d = Q (qix i) (feat h d)) (hk : ∀ t h j d, rk t h j d = K (kix t j) (feat h d))
    (hv : ∀ t h j d, rv t h j d = V (kix t j) (feat h d)) (h : Fin 16) (r : Fin 512) (d : Fin 64) :
    avg (fun h i => rowS rq rk h i) (fun h => rowV rv h) h r d = attend Q K V h (qix r) d := by
  have hs : ∀ t j, rowS rq rk h r t j = score Q K h (qix r) (kix t j) := fun t j => by
    show (∑ d : Fin 64, rq h r d * rk t h j d) * (1 / 8) = (∑ d : Fin 64, Q (qix r) (feat h d) * K (kix t j) (feat h d)) / 8
    rw [mul_one_div]
    exact congrArg (· / 8) (Finset.sum_congr rfl fun d _ => by rw [hq, hk])
  show (∑ t, ∑ j, Real.exp (rowS rq rk h r t j) * rowV rv h t j d) / (∑ t, ∑ j, Real.exp (rowS rq rk h r t j))
      = (∑ k : Fin 4096, Real.exp (score Q K h (qix r) k) * V k (feat h d)) / (∑ k : Fin 4096, Real.exp (score Q K h (qix r) k))
  rw [sum_keys (fun k => Real.exp (score Q K h (qix r) k) * V k (feat h d)) kix hkix,
    sum_keys (fun k => Real.exp (score Q K h (qix r) k)) kix hkix]
  refine congrArg₂ (· / ·) (Finset.sum_congr rfl fun t _ => Finset.sum_congr rfl fun j _ => ?_)
    (Finset.sum_congr rfl fun t _ => Finset.sum_congr rfl fun j _ => ?_)
  · rw [hs t j]; exact congrArg (_ * ·) (hv t h j d)
  · rw [hs t j]

end Cert.Attn.FS

end
-- ==== Proof.FlashOut.lean ====
/-
  The flash body's result is the attention layer's result.  With the query tile's real entries those of rows qix ·
  of the projected queries, and the sixteen key and value tiles' entries those of the 4096 projected key and value
  rows, the array the body stores at the last key tile is, at row r and output feature n, the layer's result at row
  qix r: the heads' softmax-weighted averages laid side by side and passed through the last linear map.
-/
import proofs.«101851_j15083925144173_2_alg».proof.Proof.FlashAttend

noncomputable section

open scoped BigOperators

namespace Cert.Attn.FS

open Idealize.ShloMosaic Idealize.ShloMosaic.ValueIdx Cert.KernelIdeal Cert.KernelIdeal.Gen Cert.Attn Cert.Attn.Pay

/-- Reset, sixteen body steps and the last step give, at row `r` of the query tile and output feature `n`, the
    attention layer's result at row `qix r`. -/
theorem flash_out_outOf (q : Vec Ideal S16x512x64 .bf16) (kt vt : Fin 16 → Vec Ideal S16x256x64 .bf16)
    (wo : Vec Ideal S1024x1024 .bf16) (bo : Vec Ideal S1x1024 .f32)
    (Q K V : Fin 4096 → Fin 1024 → ℝ) (rq : Fin 16 → Fin 512 → Fin 64 → ℝ)
    (rk rv : Fin 16 → Fin 16 → Fin 256 → Fin 64 → ℝ) (rwo : Fin 1024 → Fin 1024 → ℝ) (rbo : Fin 1024 → ℝ)
    (qix : Fin 512 → Fin 4096) (kix : Fin 16 → Fin 256 → Fin 4096)
    (hkix : ∀ t j, (kix t j).val = t.val * 256 + j.val)
    (hqr : ∀ h i d, rq h i d = Q (qix i) (feat h d)) (hkr : ∀ t h j d, rk t h j d = K (kix t j) (feat h d))
    (hvr : ∀ t h j d, rv t h j d = V (kix t j) (feat h d))
    (hq : IsR3 q rq) (hk : ∀ t, IsR3 (kt t) (rk t)) (hv : ∀ t, IsR3 (vt t) (rv t)) (hwo : IsR2 wo rwo)
    (hbo : ∀ n, bo (ix2 0 n) = ((rbo n : ℝ) : EReal)) (r : Fin 512) (n : Fin 1024) :
    k3_pay3 (F := Ideal) (scr q kt vt 16 le_rfl).acc (scr q kt vt 16 le_rfl).l wo bo (ix2 r n)
      = ((outOf Q K V rwo rbo (qix r) n : ℝ) : EReal) := by
  rw [flash_out q kt vt wo bo rq rk rv rwo rbo hq hk hv hwo hbo r n]
  show _ = (((∑ c : Fin 1024, attend Q K V (headOf c) (qix r) (coordOf c) * rwo n c) + rbo n : ℝ) : EReal)
  refine congrArg (fun x : ℝ => ((x + rbo n : ℝ) : EReal)) (Finset.sum_congr rfl fun c _ => ?_)
  rw [flash_attend Q K V rq rk rv qix kix hkix hqr hkr hvr (headOf c) r (coordOf c)]

end Cert.Attn.FS

end
-- ==== Proof.IdealFlashValue.lean ====
/-
  The value of the attention region's result array.  Inside a query tile the three scratch arrays (running maximum,
  running sum, accumulator) after key tile kv are the reset arrays followed by kv + 1 steps of the body on the query
  tile and the key and value tiles 0 … kv: key tile 0 resets and steps, every later key tile steps from what the tile
  before left.  At key tile 15 the result block is the last step's accumulator divided by its running sum, heads side
  by side, through the last linear map; for real queries, keys, values and last map that is the attention layer of the
  specification at the query tile's rows.  The eight result blocks cover the result array.
-/
import proofs.«101851_j15083925144173_2_alg».proof.Proof.IdealFlashPieces
import proofs.«101851_j15083925144173_2_alg».proof.Proof.IdealFlashBlocks
import proofs.«101851_j15083925144173_2_alg».proof.Proof.FlashOut

noncomputable section

open scoped BigOperators

namespace Cert.Attn.KV

open Cert.KernelIdeal Cert.KernelIdeal.Gen Cert.KernelIdeal.Hand Cert.Attn Cert.Attn.FS
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The tiles -/

/-- Row i of query tile qi, as a row of the whole array. -/
def qrow8 (qi : Fin 8) (i : Fin 512) : Fin 4096 := ⟨qi.val * 512 + i.val, by omega⟩
/-- Row j of key tile kv, as a row of the whole array. -/
def krow16 (kv : Fin 16) (j : Fin 256) : Fin 4096 := ⟨kv.val * 256 + j.val, by omega⟩

theorem qrow8_val (qi : Fin 8) (i : Fin 512) : (qrow8 qi i).val = qi.val * 512 + i.val := rfl
theorem krow16_val (kv : Fin 16) (j : Fin 256) : (krow16 kv j).val = kv.val * 256 + j.val := rfl

/-- Query tile qi of the query array, every head. -/
def qT (c : Dev nD) (qi : Fin 8) : Vec Ideal S16x512x64 .bf16 :=
  fun j => (V c main_v5 : S16x4096x64.Idx → EReal) (ix3 (j 0) (qrow8 qi (j 1)) (j 2))
/-- Key tile kv of the key array, every head. -/
def kT (c : Dev nD) (kv : Fin 16) : Vec Ideal S16x256x64 .bf16 :=
  fun j => (V c main_v7 : S16x4096x64.Idx → EReal) (ix3 (j 0) (krow16 kv (j 1)) (j 2))
/-- Key tile kv of the value array, every head. -/
def vT (c : Dev nD) (kv : Fin 16) : Vec Ideal S16x256x64 .bf16 :=
  fun j => (V c main_v9 : S16x4096x64.Idx → EReal) (ix3 (j 0) (krow16 kv (j 1)) (j 2))

theorem qT_apply (c : Dev nD) (qi : Fin 8) (h : Fin 16) (i : Fin 512) (d : Fin 64) :
    qT V c qi (ix3 h i d) = (V c main_v5 : S16x4096x64.Idx → EReal) (ix3 h (qrow8 qi i) d) := rfl
theorem kT_apply (c : Dev nD) (kv : Fin 16) (h : Fin 16) (j : Fin 256) (d : Fin 64) :
    kT V c kv (ix3 h j d) = (V c main_v7 : S16x4096x64.Idx → EReal) (ix3 h (krow16 kv j) d) := rfl
theorem vT_apply (c : Dev nD) (kv : Fin 16) (h : Fin 16) (j : Fin 256) (d : Fin 64) :
    vT V c kv (ix3 h j d) = (V c main_v9 : S16x4096x64.Idx → EReal) (ix3 h (krow16 kv j) d) := rfl

/-- The query block at a point of query tile qi is that tile, whatever the key tile. -/
theorem q_tile (c : Dev nD) (t : Fin cfg3.N) (qi : Fin 8) (hq : t.val / 16 = qi.val) :
    (iblk3 V c 0 t : S16x512x64.Idx → EReal) = qT V c qi := by
  funext j
  obtain ⟨h, i, d, rfl⟩ : ∃ (h : Fin 16) (i : Fin 512) (d : Fin 64), j = ix3 h i d := ⟨j 0, j 1, j 2, eq_ix3 j⟩
  rw [q_blk3 V c t h i d, qT_apply]
  exact congrArg (fun l => (V c main_v5 : S16x4096x64.Idx → EReal) (ix3 h l d))
    (Fin.ext (by rw [qrow_val, qrow8_val, hq]))

/-- The key block at a point of key tile kv is that tile, whatever the query tile. -/
theorem k_tile (c : Dev nD) (t : Fin cfg3.N) (kv : Fin 16) (hk : t.val % 16 = kv.val) :
    (iblk3 V c 1 t : S16x256x64.Idx → EReal) = kT V c kv := by
  funext j
  obtain ⟨h, i, d, rfl⟩ : ∃ (h : Fin 16) (i : Fin 256) (d : Fin 64), j = ix3 h i d := ⟨j 0, j 1, j 2, eq_ix3 j⟩
  rw [k_blk3 V c t h i d, kT_apply]
  exact congrArg (fun l => (V c main_v7 : S16x4096x64.Idx → EReal) (ix3 h l d))
    (Fin.ext (by rw [krow_val, krow16_val, hk]))

/-- The value block at a point of key tile kv is that tile, whatever the query tile. -/
theorem v_tile (c : Dev nD) (t : Fin cfg3.N) (kv : Fin 16) (hk : t.val % 16 = kv.val) :
    (iblk3 V c 2 t : S16x256x64.Idx → EReal) = vT V c kv := by
  funext j
  obtain ⟨h, i, d, rfl⟩ : ∃ (h : Fin 16) (i : Fin 256) (d : Fin 64), j = ix3 h i d := ⟨j 0, j 1, j 2, eq_ix3 j⟩
  rw [v_blk3 V c t h i d, vT_apply]
  exact congrArg (fun l => (V c main_v9 : S16x4096x64.Idx → EReal) (ix3 h l d))
    (Fin.ext (by rw [krow_val, krow16_val, hk]))

/-! ## What a point leaves, as the body's arithmetic of the point's blocks -/

theorem tupA_m (c : Dev nD) (t : Fin cfg3.N) (h0 : t.val % 16 = 0) (h1 : ¬t.val % 16 = 15) :
    (tupA (F := Ideal) V c t h0 h1).2.1 = k3_pay2 (F := Ideal) (k3_pay9 (F := Ideal) (iblk3 V c 0 t) (iblk3 V c 1 t) (k3_pay4 (F := Ideal))) := by
  unfold tupA
  rw [sout3_A_0_eq]
theorem tupA_l (c : Dev nD) (t : Fin cfg3.N) (h0 : t.val % 16 = 0) (h1 : ¬t.val % 16 = 15) :
    (tupA (F := Ideal) V c t h0 h1).2.2.1 = k3_pay12 (F := Ideal) (iblk3 V c 0 t) (iblk3 V c 1 t) (k3_pay4 (F := Ideal)) (k3_pay4 (F := Ideal)) (k3_pay5 (F := Ideal)) := by
  unfold tupA
  rw [sout3_A_1_eq]
theorem tupA_acc (c : Dev nD) (t : Fin cfg3.N) (h0 : t.val % 16 = 0) (h1 : ¬t.val % 16 = 15) :
    (tupA (F := Ideal) V c t h0 h1).2.2.2 = k3_pay1 (F := Ideal) (k3_pay7 (F := Ideal) (iblk3 V c 2 t)) (k3_pay10 (F := Ideal) (iblk3 V c 0 t) (iblk3 V c 1 t) (k3_pay4 (F := Ideal)) (k3_pay4 (F := Ideal))) (k3_pay11 (F := Ideal) (iblk3 V c 0 t) (iblk3 V c 1 t) (k3_pay4 (F := Ideal))) (k3_pay6 (F := Ideal)) := by
  unfold tupA
  rw [sout3_A_2_eq]

theorem tupB_m (c : Dev nD) (t : Fin cfg3.N) (h0 : ¬t.val % 16 = 0) (h1 : ¬t.val % 16 = 15) (xs0 : Vec Ideal S16x512x1 .f32) (xs1 : Vec Ideal S16x512x1 .f32) (xs2 : Vec Ideal S16x512x64 .f32) :
    (tupB (F := Ideal) V c t h0 h1 xs0 xs1 xs2).2.1 = k3_pay2 (F := Ideal) (k3_pay9 (F := Ideal) (iblk3 V c 0 t) (iblk3 V c 1 t) xs0) := by
  unfold tupB
  rw [sout3_B_0_eq]
theorem tupB_l (c : Dev nD) (t : Fin cfg3.N) (h0 : ¬t.val % 16 = 0) (h1 : ¬t.val % 16 = 15) (xs0 : Vec Ideal S16x512x1 .f32) (xs1 : Vec Ideal S16x512x1 .f32) (xs2 : Vec Ideal S16x512x64 .f32) :
    (tupB (F := Ideal) V c t h0 h1 xs0 xs1 xs2).2.2.1 = k3_pay12 (F := Ideal) (iblk3 V c 0 t) (iblk3 V c 1 t) xs0 xs0 xs1 := by
  unfold tupB
  rw [sout3_B_1_eq]
theorem tupB_acc (c : Dev nD) (t : Fin cfg3.N) (h0 : ¬t.val % 16 = 0) (h1 : ¬t.val % 16 = 15) (xs0 : Vec Ideal S16x512x1 .f32) (xs1 : Vec Ideal S16x512x1 .f32) (xs2 : Vec Ideal S16x512x64 .f32) :
    (tupB (F := Ideal) V c t h0 h1 xs0 xs1 xs2).2.2.2 = k3_pay1 (F := Ideal) (k3_pay7 (F := Ideal) (iblk3 V c 2 t)) (k3_pay10 (F := Ideal) (iblk3 V c 0 t) (iblk3 V c 1 t) xs0 xs0) (k3_pay11 (F := Ideal) (iblk3 V c 0 t) (iblk3 V c 1 t) xs0) xs2 := by
  unfold tupB
  rw [sout3_B_2_eq]

theorem tupC_m (c : Dev nD) (t : Fin cfg3.N) (h0 : ¬t.val % 16 = 0) (h1 : t.val % 16 = 15) (xs0 : Vec Ideal S16x512x1 .f32) (xs1 : Vec Ideal S16x512x1 .f32) (xs2 : Vec Ideal S16x512x64 .f32) :
    (tupC (F := Ideal) V c t h0 h1 xs0 xs1 xs2).2.1 = k3_pay2 (F := Ideal) (k3_pay9 (F := Ideal) (iblk3 V c 0 t) (iblk3 V c 1 t) xs0) := by
  unfold tupC
  rw [sout3_C_0_eq]
theorem tupC_l (c : Dev nD) (t : Fin cfg3.N) (h0 : ¬t.val % 16 = 0) (h1 : t.val % 16 = 15) (xs0 : Vec Ideal S16x512x1 .f32) (xs1 : Vec Ideal S16x512x1 .f32) (xs2 : Vec Ideal S16x512x64 .f32) :
    (tupC (F := Ideal) V c t h0 h1 xs0 xs1 xs2).2.2.1 = k3_pay12 (F := Ideal) (iblk3 V c 0 t) (iblk3 V c 1 t) xs0 xs0 xs1 := by
  unfold tupC
  rw [sout3_C_1_eq]
theorem tupC_acc (c : Dev nD) (t : Fin cfg3.N) (h0 : ¬t.val % 16 = 0) (h1 : t.val % 16 = 15) (xs0 : Vec Ideal S16x512x1 .f32) (xs1 : Vec Ideal S16x512x1 .f32) (xs2 : Vec Ideal S16x512x64 .f32) :
    (tupC (F := Ideal) V c t h0 h1 xs0 xs1 xs2).2.2.2 = k3_pay1 (F := Ideal) (k3_pay7 (F := Ideal) (iblk3 V c 2 t)) (k3_pay10 (F := Ideal) (iblk3 V c 0 t) (iblk3 V c 1 t) xs0 xs0) (k3_pay11 (F := Ideal) (iblk3 V c 0 t) (iblk3 V c 1 t) xs0) xs2 := by
  unfold tupC
  rw [sout3_C_2_eq]
theorem tupC_out (c : Dev nD) (t : Fin cfg3.N) (h0 : ¬t.val % 16 = 0) (h1 : t.val % 16 = 15) (xs0 : Vec Ideal S16x512x1 .f32) (xs1 : Vec Ideal S16x512x1 .f32) (xs2 : Vec Ideal S16x512x64 .f32) :
    (tupC (F := Ideal) V c t h0 h1 xs0 xs1 xs2).1
      = k3_pay3 (F := Ideal) (k3_pay1 (F := Ideal) (k3_pay7 (F := Ideal) (iblk3 V c 2 t)) (k3_pay10 (F := Ideal) (iblk3 V c 0 t) (iblk3 V c 1 t) xs0 xs0) (k3_pay11 (F := Ideal) (iblk3 V c 0 t) (iblk3 V c 1 t) xs0) xs2) (k3_pay12 (F := Ideal) (iblk3 V c 0 t) (iblk3 V c 1 t) xs0 xs0 xs1) (iblk3 V c 3 t) (iblk3 V c 4 t) := by
  unfold tupC
  rw [out3_C_5_eq]

/-! ## The scratch arrays inside a query tile -/

/-- After key tile kv of query tile qi the three scratch arrays are the reset arrays followed by kv + 1 steps of the
    body on the tiles. -/
theorem scratch_eq (c : Dev nD) (qi : Fin 8) :
    ∀ (kv : ℕ) (hk : kv < 16) (t : Fin cfg3.N) (ht : t.val = qi.val * 16 + kv),
      (outsAt3 (F := Ideal) V c t.val t.isLt).2.1 = (scr (qT V c qi) (kT V c) (vT V c) (kv + 1) hk).m
      ∧ (outsAt3 (F := Ideal) V c t.val t.isLt).2.2.1 = (scr (qT V c qi) (kT V c) (vT V c) (kv + 1) hk).l
      ∧ (outsAt3 (F := Ideal) V c t.val t.isLt).2.2.2 = (scr (qT V c qi) (kT V c) (vT V c) (kv + 1) hk).acc := by
  intro kv
  induction kv with
  | zero =>
    intro hk t ht
    have h0 : t.val % 16 = 0 := by omega
    have h1 : ¬t.val % 16 = 15 := by omega
    have eq : (iblk3 V c 0 t : S16x512x64.Idx → EReal) = qT V c qi := q_tile V c t qi (by omega)
    have ek : (iblk3 V c 1 t : S16x256x64.Idx → EReal) = kT V c ⟨0, Nat.lt_of_succ_le hk⟩ := k_tile V c t _ (by show t.val % 16 = 0; omega)
    have ev : (iblk3 V c 2 t : S16x256x64.Idx → EReal) = vT V c ⟨0, Nat.lt_of_succ_le hk⟩ := v_tile V c t _ (by show t.val % 16 = 0; omega)
    rw [outsAt3_A V c t h0 h1, tupA_m, tupA_l, tupA_acc, eq, ek, ev, scr_succ, scr_zero]
    exact ⟨rfl, rfl, rfl⟩
  | succ kv ih =>
    intro hk t ht
    have hN : cfg3.N = 128 := N_3
    have htl := t.isLt
    have h0 : ¬t.val % 16 = 0 := by omega
    have hp : t.val - 1 < cfg3.N := Nat.lt_of_le_of_lt (Nat.sub_le _ _) t.isLt
    obtain ⟨ihm, ihl, iha⟩ := ih (Nat.lt_of_succ_lt hk) ⟨t.val - 1, hp⟩ (by show t.val - 1 = qi.val * 16 + kv; omega)
    have ihm' : (outsAt3 (F := Ideal) V c (t.val - 1) hp).2.1 = _ := ihm
    have ihl' : (outsAt3 (F := Ideal) V c (t.val - 1) hp).2.2.1 = _ := ihl
    have iha' : (outsAt3 (F := Ideal) V c (t.val - 1) hp).2.2.2 = _ := iha
    have eq : (iblk3 V c 0 t : S16x512x64.Idx → EReal) = qT V c qi := q_tile V c t qi (by omega)
    have ek : (iblk3 V c 1 t : S16x256x64.Idx → EReal) = kT V c ⟨kv + 1, Nat.lt_of_succ_le hk⟩ := k_tile V c t _ (by show t.val % 16 = kv + 1; omega)
    have ev : (iblk3 V c 2 t : S16x256x64.Idx → EReal) = vT V c ⟨kv + 1, Nat.lt_of_succ_le hk⟩ := v_tile V c t _ (by show t.val % 16 = kv + 1; omega)
    by_cases h1 : t.val % 16 = 15
    · rw [outsAt3_C V c t h0 h1, tupC_m, tupC_l, tupC_acc, ihm', ihl', iha', eq, ek, ev, scr_succ _ _ _ (kv + 1) hk]
      exact ⟨rfl, rfl, rfl⟩
    · rw [outsAt3_B V c t h0 h1, tupB_m, tupB_l, tupB_acc, ihm', ihl', iha', eq, ek, ev, scr_succ _ _ _ (kv + 1) hk]
      exact ⟨rfl, rfl, rfl⟩

/-- At the last key tile of query tile qi the result block is the last linear map of the final accumulator divided by
    the final running sum. -/
theorem result_blk (c : Dev nD) (qi : Fin 8) (t : Fin cfg3.N) (ht : t.val = qi.val * 16 + 15) :
    ((outsAt3 (F := Ideal) V c t.val t.isLt).1 : S512x1024.Idx → EReal)
      = k3_pay3 (F := Ideal) (scr (qT V c qi) (kT V c) (vT V c) 16 le_rfl).acc (scr (qT V c qi) (kT V c) (vT V c) 16 le_rfl).l
          (V c main_v3) (V c main_v10) := by
  have hN : cfg3.N = 128 := N_3
  have htl := t.isLt
  have h0 : ¬t.val % 16 = 0 := by omega
  have h1 : t.val % 16 = 15 := by omega
  have hp : t.val - 1 < cfg3.N := Nat.lt_of_le_of_lt (Nat.sub_le _ _) t.isLt
  obtain ⟨ihm, ihl, iha⟩ := scratch_eq V c qi 14 (by norm_num) ⟨t.val - 1, hp⟩ (by show t.val - 1 = qi.val * 16 + 14; omega)
  have ihm' : (outsAt3 (F := Ideal) V c (t.val - 1) hp).2.1 = _ := ihm
  have ihl' : (outsAt3 (F := Ideal) V c (t.val - 1) hp).2.2.1 = _ := ihl
  have iha' : (outsAt3 (F := Ideal) V c (t.val - 1) hp).2.2.2 = _ := iha
  have eq : (iblk3 V c 0 t : S16x512x64.Idx → EReal) = qT V c qi := q_tile V c t qi (by omega)
  have ek : (iblk3 V c 1 t : S16x256x64.Idx → EReal) = kT V c ⟨15, by norm_num⟩ := k_tile V c t _ (by show t.val % 16 = 15; omega)
  have ev : (iblk3 V c 2 t : S16x256x64.Idx → EReal) = vT V c ⟨15, by norm_num⟩ := v_tile V c t _ (by show t.val % 16 = 15; omega)
  rw [outsAt3_C V c t h0 h1, tupC_out, ihm', ihl', iha', eq, ek, ev, wo_blk3 V c t, bo_blk3 V c t,
    scr_succ (qT V c qi) (kT V c) (vT V c) 15 (le_refl 16)]

/-! ## The result array -/

/-- On real projected queries, keys and values and a real last linear map, the result array is the attention layer of
    the specification. -/
theorem flash_value (c : Dev nD) (rq rk rv : Fin 4096 → Fin 1024 → ℝ) (rwo : Fin 1024 → Fin 1024 → ℝ) (rbo : Fin 1024 → ℝ)
    (hq : IsR3 (V c main_v5) (fun h l d => rq l (feat h d))) (hk : IsR3 (V c main_v7) (fun h l d => rk l (feat h d)))
    (hv : IsR3 (V c main_v9) (fun h l d => rv l (feat h d))) (hwo : IsR2 (V c main_v3) rwo)
    (hbo : ∀ n : Fin 1024, (V c main_v10 : S1x1024.Idx → EReal) (ix2 0 n) = ((rbo n : ℝ) : EReal)) :
    IsR2 ((dat3 (F := Ideal) V c).arrAt 5 cfg3.N) (Cert.Attn.outOf rq rk rv rwo rbo) := by
  have hN : cfg3.N = 128 := N_3
  have harr := flash_arr V c (fun i => ((outOf rq rk rv rwo rbo (i 0) (i 1) : ℝ) : EReal)) (fun t h15 r n => by
    have htl := t.isLt
    have hqi : t.val / 16 < 8 := by omega
    rw [result_blk V c ⟨t.val / 16, hqi⟩ t (by show t.val = t.val / 16 * 16 + 15; omega)]
    refine (flash_out_outOf (qT V c ⟨t.val / 16, hqi⟩) (kT V c) (vT V c) (V c main_v3) (V c main_v10) rq rk rv
      (fun h i d => rq (qrow8 ⟨t.val / 16, hqi⟩ i) (feat h d)) (fun kv h j d => rk (krow16 kv j) (feat h d))
      (fun kv h j d => rv (krow16 kv j) (feat h d)) rwo rbo (qrow8 ⟨t.val / 16, hqi⟩) krow16
      (fun _ _ => rfl) (fun _ _ _ => rfl) (fun _ _ _ _ => rfl) (fun _ _ _ _ => rfl)
      (fun h i d => hq h (qrow8 ⟨t.val / 16, hqi⟩ i) d) (fun kv h j d => hk h (krow16 kv j) d)
      (fun kv h j d => hv h (krow16 kv j) d) hwo hbo r n).trans ?_
    exact congrArg (fun l => ((outOf rq rk rv rwo rbo l n : ℝ) : EReal)) (Fin.ext rfl))
  rw [harr]
  intro l n
  rfl

end Cert.Attn.KV

end
-- ==== Proof.KernelValueFinal.lean ====
/-
  The kernel's value, closed: the fourth region's value lemma discharges the hypothesis of the assembly.
-/
import proofs.«101851_j15083925144173_2_alg».proof.Proof.KernelValue
import proofs.«101851_j15083925144173_2_alg».proof.Proof.IdealFlashValue

noncomputable section

namespace Cert.Attn.KV

open Cert.KernelIdeal Cert.KernelIdeal.Gen Cert.KernelIdeal.Hand Cert.Attn
open Idealize.ShloMosaic Idealize.ShloMosaic.TcCoe Idealize.ShloMosaic.ValueIdx Idealize.SL.Sem

/-- The fourth region computes the attention layer from real projected arrays. -/
theorem flashValue_holds : FlashValue :=
  fun V c rq rk rv rwo rbo hq hk hv hwo hbo => flash_value V c rq rk rv rwo rbo hq hk hv hwo hbo

/-- From real inputs the output array after the last region is the real attention layer of them. -/
theorem kernel_value (m : (ℓ : Loc nD τ sig) → Buf (Elt Ideal) ℓ) (ρ : Dev nD → PrngReg) (c : Dev nD)
    (rq rk rv : Fin 4096 → Fin 1024 → ℝ) (rwq rwk rwv rwo : Fin 1024 → Fin 1024 → ℝ) (rbq rbk rbv rbo : Fin 1024 → ℝ)
    (h0 : IsR2 (m ((c : Thread nD τ).loc main_arg0)) rq) (h1 : IsR2 (m ((c : Thread nD τ).loc main_arg1)) rk)
    (h2 : IsR2 (m ((c : Thread nD τ).loc main_arg2)) rv) (h3 : IsR2 (m ((c : Thread nD τ).loc main_arg3)) rwq)
    (h4 : IsR2 (m ((c : Thread nD τ).loc main_arg4)) rwk) (h5 : IsR2 (m ((c : Thread nD τ).loc main_arg5)) rwv)
    (h6 : IsR2 (m ((c : Thread nD τ).loc main_arg6)) rwo) (h7 : IsR1 (m ((c : Thread nD τ).loc main_arg7)) rbq)
    (h8 : IsR1 (m ((c : Thread nD τ).loc main_arg8)) rbk) (h9 : IsR1 (m ((c : Thread nD τ).loc main_arg9)) rbv)
    (h10 : IsR1 (m ((c : Thread nD τ).loc main_arg10)) rbo) :
    IsR2 (B8 (F := Ideal) m ρ c (Proc.devRef .tc main_v11)) (G rq rk rv rwq rwk rwv rwo rbq rbk rbv rbo) :=
  kernel_value_of m ρ c flashValue_holds rq rk rv rwq rwk rwv rwo rbq rbk rbv rbo h0 h1 h2 h3 h4 h5 h6 h7 h8 h9 h10

end Cert.Attn.KV

end
-- ==== Proof.Claims.lean ====
/-
  The five claims from the finished parts. Each program runs and leaves its arguments as launched; the ideal pass
  rewrote nothing; and at the ideal instance, from finite arguments on which the two memories agree, the kernel's
  result and the reference's are both the coercion of the attention layer of the specification at the arguments'
  real parts, hence equal.
-/
import proofs.«101851_j15083925144173_2_alg».proof.Defs
import proofs.«101851_j15083925144173_2_alg».proof.Proof.Gen.Kernel
import proofs.«101851_j15083925144173_2_alg».proof.Proof.Gen.KernelIdeal
import proofs.«101851_j15083925144173_2_alg».proof.Proof.Gen.ReferenceIdeal
import proofs.«101851_j15083925144173_2_alg».proof.Proof.Gen.Pre_finite_inputs
import proofs.«101851_j15083925144173_2_alg».proof.Proof.PreReal
import proofs.«101851_j15083925144173_2_alg».proof.Proof.RefValue
import proofs.«101851_j15083925144173_2_alg».proof.Proof.BitsRun
import proofs.«101851_j15083925144173_2_alg».proof.Proof.IdealRun
import proofs.«101851_j15083925144173_2_alg».proof.Proof.KernelValueFinal

noncomputable section

namespace Cert.Proof.Claims

open Idealize.ShloMosaic Idealize.ShloMosaic.TcCoe Idealize.SL.Sem Idealize.ShloMosaic.ValueIdx Cert.Attn

/-- Two arrays that are coercions of the same real array are equal. -/
theorem isR2_ext {a b : ℕ} (x y : (⟨2, ![a, b]⟩ : Shape).Idx → EReal) (r : Fin a → Fin b → ℝ)
    (hx : IsR2 x r) (hy : IsR2 y r) : x = y :=
  funext fun j => by
    obtain ⟨i, k, rfl⟩ : ∃ (i : Fin a) (k : Fin b), j = ix2 i k := ⟨j 0, j 1, eq_ix2 j⟩
    rw [hx i k, hy i k]

/-- On one device: from finite arguments, the reference's result is any array that is the coercion of the
    specification whenever the kernel's arguments are coercions of real arrays — the reference's arguments are the
    kernel's, so they are coercions of the same real arrays, and the reference's result is the coercion of the
    specification at them. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hpc : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) = (fun _ => 1#1))
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (v : Buf (Elt Ideal) ((c.tc : Thread Cert.KernelIdeal.nD Cert.KernelIdeal.τ).loc Cert.KernelIdeal.main_v11))
    (hv : ∀ (rq rk rv : Fin 4096 → Fin 1024 → ℝ) (rwq rwk rwv rwo : Fin 1024 → Fin 1024 → ℝ) (rbq rbk rbv rbo : Fin 1024 → ℝ), IsR2 (m ((c.tc : Thread Cert.KernelIdeal.nD Cert.KernelIdeal.τ).loc Cert.KernelIdeal.main_arg0)) rq → IsR2 (m ((c.tc : Thread Cert.KernelIdeal.nD Cert.KernelIdeal.τ).loc Cert.KernelIdeal.main_arg1)) rk → IsR2 (m ((c.tc : Thread Cert.KernelIdeal.nD Cert.KernelIdeal.τ).loc Cert.KernelIdeal.main_arg2)) rv → IsR2 (m ((c.tc : Thread Cert.KernelIdeal.nD Cert.KernelIdeal.τ).loc Cert.KernelIdeal.main_arg3)) rwq → IsR2 (m ((c.tc : Thread Cert.KernelIdeal.nD Cert.KernelIdeal.τ).loc Cert.KernelIdeal.main_arg4)) rwk → IsR2 (m ((c.tc : Thread Cert.KernelIdeal.nD Cert.KernelIdeal.τ).loc Cert.KernelIdeal.main_arg5)) rwv → IsR2 (m ((c.tc : Thread Cert.KernelIdeal.nD Cert.KernelIdeal.τ).loc Cert.KernelIdeal.main_arg6)) rwo → IsR1 (m ((c.tc : Thread Cert.KernelIdeal.nD Cert.KernelIdeal.τ).loc Cert.KernelIdeal.main_arg7)) rbq → IsR1 (m ((c.tc : Thread Cert.KernelIdeal.nD Cert.KernelIdeal.τ).loc Cert.KernelIdeal.main_arg8)) rbk → IsR1 (m ((c.tc : Thread Cert.KernelIdeal.nD Cert.KernelIdeal.τ).loc Cert.KernelIdeal.main_arg9)) rbv → IsR1 (m ((c.tc : Thread Cert.KernelIdeal.nD Cert.KernelIdeal.τ).loc Cert.KernelIdeal.main_arg10)) rbo →
      IsR2 v (G rq rk rv rwq rwk rwv rwo rbq rbk rbv rbo)) :
    Cert.ReferenceIdeal.Value.res_main_v43 m' c = v := by
  obtain ⟨⟨rq, h0⟩, ⟨rk, h1⟩, ⟨rv, h2⟩, ⟨rwq, h3⟩, ⟨rwk, h4⟩, ⟨rwv, h5⟩, ⟨rwo, h6⟩, ⟨rbq, h7⟩, ⟨rbk, h8⟩, ⟨rbv, h9⟩, ⟨rbo, h10⟩⟩ :=
    Cert.Attn.Pre.isR_of_pre _ _ _ _ _ _ _ _ _ _ _ hpc
  obtain ⟨a0, a1, a2, a3, a4, a5, a6, a7, a8, a9, a10⟩ := hag
  have hK := hv rq rk rv rwq rwk rwv rwo rbq rbk rbv rbo h0 h1 h2 h3 h4 h5 h6 h7 h8 h9 h10
  rw [Cert.ReferenceIdeal.Read.val_main_v43_eq, a0, a1, a2, a3, a4, a5, a6, a7, a8, a9, a10]
  exact isR2_ext _ _ _ (Cert.Attn.Ref.ref_isR _ _ _ _ _ _ _ _ _ _ _ rq rk rv rwq rwk rwv rwo rbq rbk rbv rbo
    h0 h1 h2 h3 h4 h5 h6 h7 h8 h9 h10) hK

/-- The kernel as printed runs and leaves its arguments as launched. -/
theorem frame_K : Cert.frame_Kernel := fun m ρ _ => Cert.Kernel.Hand.frameH m ρ

/-- So does the kernel read at the ideal instance. -/
theorem frame_KI : Cert.frame_KernelIdeal := fun m ρ _ => Cert.KernelIdeal.Hand.frameH m ρ

/-- So does the reference: its run leaves every argument unchanged. -/
theorem frame_RI : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-- At the ideal instance, from finite arguments on which the two memories agree, the kernel's result array and the
    reference's are the coercion of one real array, the attention layer of the specification at the arguments' real
    parts; so they are equal, and both programs leave their arguments unchanged. -/
theorem algebraic : Cert.algebraic_KernelIdeal_ReferenceIdeal := by
  intro m ρ m' ρ' hp hagree
  refine ⟨fun c => Cert.KernelIdeal.Hand.B8 (F := Ideal) m ρ c (Proc.devRef .tc Cert.KernelIdeal.main_v11), ?_, ?_⟩
  · exact (θ_run Cert.KernelIdeal.defs _ _).mono (fun r h c =>
      ⟨h c _ (Cert.KernelIdeal.Hand.mem_uc Cert.KernelIdeal.main_v11 (by decide)),
        (h c _ (Cert.KernelIdeal.Hand.mem_uc Cert.KernelIdeal.main_arg0 (by decide))).trans (Cert.KernelIdeal.Hand.B8_main_arg0 m ρ c),
        (h c _ (Cert.KernelIdeal.Hand.mem_uc Cert.KernelIdeal.main_arg1 (by decide))).trans (Cert.KernelIdeal.Hand.B8_main_arg1 m ρ c),
        (h c _ (Cert.KernelIdeal.Hand.mem_uc Cert.KernelIdeal.main_arg2 (by decide))).trans (Cert.KernelIdeal.Hand.B8_main_arg2 m ρ c),
        (h c _ (Cert.KernelIdeal.Hand.mem_uc Cert.KernelIdeal.main_arg3 (by decide))).trans (Cert.KernelIdeal.Hand.B8_main_arg3 m ρ c),
        (h c _ (Cert.KernelIdeal.Hand.mem_uc Cert.KernelIdeal.main_arg4 (by decide))).trans (Cert.KernelIdeal.Hand.B8_main_arg4 m ρ c),
        (h c _ (Cert.KernelIdeal.Hand.mem_uc Cert.KernelIdeal.main_arg5 (by decide))).trans (Cert.KernelIdeal.Hand.B8_main_arg5 m ρ c),
        (h c _ (Cert.KernelIdeal.Hand.mem_uc Cert.KernelIdeal.main_arg6 (by decide))).trans (Cert.KernelIdeal.Hand.B8_main_arg6 m ρ c),
        (h c _ (Cert.KernelIdeal.Hand.mem_uc Cert.KernelIdeal.main_arg7 (by decide))).trans (Cert.KernelIdeal.Hand.B8_main_arg7 m ρ c),
        (h c _ (Cert.KernelIdeal.Hand.mem_uc Cert.KernelIdeal.main_arg8 (by decide))).trans (Cert.KernelIdeal.Hand.B8_main_arg8 m ρ c),
        (h c _ (Cert.KernelIdeal.Hand.mem_uc Cert.KernelIdeal.main_arg9 (by decide))).trans (Cert.KernelIdeal.Hand.B8_main_arg9 m ρ c),
        (h c _ (Cert.KernelIdeal.Hand.mem_uc Cert.KernelIdeal.main_arg10 (by decide))).trans (Cert.KernelIdeal.Hand.B8_main_arg10 m ρ c)⟩)
      (Cert.KernelIdeal.Hand.run_all m ρ)
  · exact (θ_run Cert.ReferenceIdeal.defs _ _).mono (fun r h c =>
      ⟨(h c).1.trans (result_eq m m' c (hp c) (hagree c) _
          (fun rq rk rv rwq rwk rwv rwo rbq rbk rbv rbo h0 h1 h2 h3 h4 h5 h6 h7 h8 h9 h10 =>
            Cert.Attn.KV.kernel_value m ρ c rq rk rv rwq rwk rwv rwo rbq rbk rbv rbo h0 h1 h2 h3 h4 h5 h6 h7 h8 h9 h10)),
        (h c).2⟩)
      (Cert.ReferenceIdeal.Value.run (F := Ideal) m' ρ')

end Cert.Proof.Claims

end
-- ==== Proof.lean ====
/-
  Multi-head attention over 4096 rows of 1024 features in sixteen heads of width 64: the kernel's program — three
  projection regions writing queries, keys and values in the head layout, then one streaming attention region that
  walks the key tiles keeping a running maximum, a running sum and an accumulator per query row, and at the last key
  tile divides, lays the heads side by side and applies the output projection — against the reference's plain
  softmax(q·kᵀ/√64)·v followed by the same projection.

  Frames: each program is run as its list of segments (host operations and pipelined regions); every region's body is
  run whole at a generic grid point, the attention region in its three cases with the scratch buffers' contents carried
  from point to point; every unscoped buffer ends at the fold of the segments over the launch memory, and no segment
  writes an argument.

  Values at the extended reals: finite inputs are coercions of real arrays; every stage of both programs maps coerced
  real arrays to coerced real arrays, so the comparison is made over the reals. A projection's array is x·Wᵀ + b in the
  head layout. Row by row the attention region's sixteen steps are the rescaled recurrence
  m' = max(m, tile max), l' = e^(m−m')·l + Σ e^(s−m'), acc' = e^(m−m')·acc + Σ e^(s−m')·v from (−∞, 0, 0), whose
  quotient acc/l after the last tile is the softmax-weighted average Σ e^s·v / Σ e^s (the shift cancels; the first
  step's e^(−∞) is 0); the reference's exp(s − max)/Σ exp(s − max) weights give the same average; the score's
  factor 0.125 is the reference's division by √64 = 8.
-/
import proofs.«101851_j15083925144173_2_alg».proof.Defs
import proofs.«101851_j15083925144173_2_alg».proof.Proof.Gen.Kernel
import proofs.«101851_j15083925144173_2_alg».proof.Proof.Gen.KernelIdeal
import proofs.«101851_j15083925144173_2_alg».proof.Proof.Gen.ReferenceIdeal
import proofs.«101851_j15083925144173_2_alg».proof.Proof.Gen.Pre_finite_inputs
import proofs.«101851_j15083925144173_2_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_K, Claims.frame_KI, Claims.frame_RI, Claims.preserves, Claims.algebraic⟩

end Cert.Proof

end
